-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x128 : Shape := ⟨3, ![4, 10000, 128]⟩
abbrev S2x320000 : Shape := ⟨2, ![2, 320000]⟩
abbrev S320000x1 : Shape := ⟨2, ![320000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S4x10000x128 : S_.BroadcastsInDim S4x10000x128 (![] : Fin 0 → Fin S4x10000x128.rank)
  reducesTo_S4x10000x128_S_d0_1_2 : S4x10000x128.ReducesTo [0, 1, 2] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_v28 : IVec S_ 1) (main_v33 : IVec S2x320000 1) : IVec S_ 1 :=
  let main_c_12 : IVec S_ 1 := constantI S_ 1 1#1
  let main_v34 : IVec S_ 1 := (fun x v => Host.reduce IntOp.andi x v reducesTo_S2x320000_S_d0_1 h_S_) main_v33 main_c_12
  let main_v35 : IVec S_ 1 := andi main_v28 main_v34
  main_v35

def fn_part1 {F : FTy → Type} [FloatOps F] (main_arg1 : IVec S2x320000 32) (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x320000 32 := broadcastInDim S2x320000 ![] bcast_S_S2x320000 main_c_10
  let main_v30 : IVec S2x320000 1 := cmpi .sge main_arg1 main_v29
  let main_c_11 : IVec S_ 32 := constantI S_ 32 10000#32
  let main_v31 : IVec S2x320000 32 := broadcastInDim S2x320000 ![] bcast_S_S2x320000 main_c_11
  let main_v32 : IVec S2x320000 1 := cmpi .slt main_arg1 main_v31
  let main_v33 : IVec S2x320000 1 := andi main_v30 main_v32
  fn_part2 (F := F) main_v28 main_v33

def fn {F : FTy → Type} [FloatOps F] (main_arg0 : FVec F S4x10000x128 .f32) (main_arg1 : IVec S2x320000 32) (main_arg2 : FVec F S320000x1 .f32) (main_arg3 : FVec F S128x128 .f32) (main_arg4 : FVec F S128 .f32) (main_arg5 : FVec F S128x64 .f32) (main_arg6 : FVec F S64 .f32) : IVec S_ 1 :=
  let main_v0 : FVec F S4x10000x128 .f32 := Host.absf main_arg0
  let main_cst : FVec F S_ .f32 := constant S_ .f32 0x7F800000#32
  let main_v1 : FVec F S4x10000x128 .f32 := broadcastInDim S4x10000x128 ![] bcast_S_S4x10000x128 main_cst
  let main_v2 : IVec S4x10000x128 1 := cmpf .olt main_v0 main_v1
  let main_c : IVec S_ 1 := constantI S_ 1 1#1
  let main_v3 : IVec S_ 1 := (fun x v => Host.reduce IntOp.andi x v reducesTo_S4x10000x128_S_d0_1_2 h_S_) main_v2 main_c
  let main_v4 : FVec F S320000x1 .f32 := Host.absf main_arg2
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S4x10000x128 : Shape := ⟨3, ![4, 10000, 128]⟩
abbrev S2x320000 : Shape := ⟨2, ![2, 320000]⟩
abbrev S320000x1 : Shape := ⟨2, ![320000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S4x10240x128 : Shape := ⟨3, ![4, 10240, 128]⟩
abbrev S40960x128 : Shape := ⟨2, ![40960, 128]⟩
abbrev S1024x128 : Shape := ⟨2, ![1024, 128]⟩
abbrev S10240x4x128 : Shape := ⟨3, ![10240, 4, 128]⟩
abbrev S10240x512 : Shape := ⟨2, ![10240, 512]⟩
abbrev S1024x1024 : Shape := ⟨2, ![1024, 1024]⟩
abbrev S1024x512 : Shape := ⟨2, ![1024, 512]⟩
abbrev S1x1x128 : Shape := ⟨3, ![1, 1, 128]⟩
abbrev S40960x64 : Shape := ⟨2, ![40960, 64]⟩
abbrev S1024x64 : Shape := ⟨2, ![1024, 64]⟩
abbrev S4x10240x64 : Shape := ⟨3, ![4, 10240, 64]⟩
abbrev S10240x4x64 : Shape := ⟨3, ![10240, 4, 64]⟩
abbrev S10240x256 : Shape := ⟨2, ![10240, 256]⟩
abbrev S1024x256 : Shape := ⟨2, ![1024, 256]⟩
abbrev S1x1x64 : Shape := ⟨3, ![1, 1, 64]⟩
abbrev S4x10000x64 : Shape := ⟨3, ![4, 10000, 64]⟩
abbrev S4x64 : Shape := ⟨2, ![4, 64]⟩

abbrev nBuf : Space → Nat
  | .hbm => 118
  | .vmem => 24
  | .smem => 0
  | _ => 0

abbrev bufTy : (tb : Table) → Fin (tcTables nBuf tb) → BufTy
  | .hbm, ⟨0, _⟩ => ⟨S4x10000x128, .f32⟩
  | .hbm, ⟨1, _⟩ => ⟨S2x320000, .i32⟩
  | .hbm, ⟨2, _⟩ => ⟨S320000x1, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S10000, .i32⟩
  | .hbm, ⟨8, _⟩ => ⟨S1x320000, .i32⟩
  | .hbm, ⟨9, _⟩ => ⟨S320000, .i32⟩
  | .hbm, ⟨10, _⟩ => ⟨S330000, .i32⟩
  | .hbm, ⟨11, _⟩ => ⟨S1x320000, .i32⟩
  | .hbm, ⟨12, _⟩ => ⟨S320000, .i32⟩
  | .hbm, ⟨13, _⟩ => ⟨S330000, .i32⟩
  | .hbm, ⟨14, _⟩ => ⟨S320000, .f32⟩
  | .hbm, ⟨15, _⟩ => ⟨S_, .f32⟩
  | .hbm, ⟨16, _⟩ => ⟨S10000, .f32⟩
  | .hbm, ⟨17, _⟩ => ⟨S330000, .f32⟩
  | .hbm, ⟨18, _⟩ => ⟨S_, .f32⟩
  | .hbm, ⟨19, _⟩ => ⟨S10000, .f32⟩
  | .hbm, ⟨20, _⟩ => ⟨S330000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000, .f32⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000, .f32⟩
  | .hbm, ⟨56, _⟩ => ⟨S330000, .f32⟩
  | .hbm, ⟨57, _⟩ => ⟨S_, .f32⟩
  | .hbm, ⟨58, _⟩ => ⟨S10240x10240, .f32⟩
  | .hbm, ⟨59, _⟩ => ⟨S_, .i32⟩
  | .hbm, ⟨60, _⟩ => ⟨S330000, .i32⟩
  | .hbm, ⟨61, _⟩ => ⟨S330000, .i1⟩
  | .hbm, ⟨62, _⟩ => ⟨S_, .i32⟩
  | .hbm, ⟨63, _⟩ => ⟨S330000, .i32⟩
  | .hbm, ⟨64, _⟩ => ⟨S330000, .i32⟩
  | .hbm, ⟨65, _⟩ => ⟨S330000, .i32⟩
  | .hbm, ⟨66, _⟩ => ⟨S_, .i32⟩
  | .hbm, ⟨67, _⟩ => ⟨S330000, .i32⟩
  | .hbm, ⟨68, _⟩ => ⟨S330000, .i1⟩
  | .hbm, ⟨69, _⟩ => ⟨S_, .i32⟩
  | .hbm, ⟨70, _⟩ => ⟨S330000, .i32⟩
  | .hbm, ⟨71, _⟩ => ⟨S330000, .i32⟩
  | .hbm, ⟨72, _⟩ => ⟨S330000, .i32⟩
  | .hbm, ⟨73, _⟩ => ⟨S330000x1, .i32⟩
  | .hbm, ⟨74, _⟩ => ⟨S330000x1, .i32⟩
  | .hbm, ⟨75, _⟩ => ⟨S330000x2, .i32⟩
  | .hbm, ⟨76, _⟩ => ⟨S10240x10240, .f32⟩
  | .hbm, ⟨77, _⟩ => ⟨S10240x10240, .bf16⟩
  | .hbm, ⟨78, _⟩ => ⟨S_, .i32⟩
  | .hbm, ⟨79, _⟩ => ⟨S_, .f32⟩
  | .hbm, ⟨80, _⟩ => ⟨S4x10240x128, .f32⟩
  | .hbm, ⟨81, _⟩ => ⟨S40960x128, .f32⟩
  | .hbm, ⟨82, _⟩ => ⟨S40960x128, .bf16⟩
  | .hbm, ⟨83, _⟩ => ⟨S128x128, .bf16⟩
  | .hbm, ⟨84, _⟩ => ⟨S128x64, .bf16⟩
  | .hbm, ⟨85, _⟩ => ⟨S40960x128, .f32⟩
  | .hbm, ⟨86, _⟩ => ⟨S4x10240x128, .f32⟩
  | .hbm, ⟨87, _⟩ => ⟨S10240x4x128, .f32⟩
  | .hbm, ⟨88, _⟩ => ⟨S10240x512, .f32⟩
  | .hbm, ⟨89, _⟩ => ⟨S10240x512, .bf16⟩
  | .hbm, ⟨90, _⟩ => ⟨S10240x512, .f32⟩
  | .hbm, ⟨91, _⟩ => ⟨S10240x4x128, .f32⟩
  | .hbm, ⟨92, _⟩ => ⟨S4x10240x128, .f32⟩
  | .hbm, ⟨93, _⟩ => ⟨S1x1x128, .f32⟩
  | .hbm, ⟨94, _⟩ => ⟨S4x10240x128, .f32⟩
  | .hbm, ⟨95, _⟩ => ⟨S4x10240x128, .f32⟩
  | .hbm, ⟨96, _⟩ => ⟨S_, .f32⟩
  | .hbm, ⟨97, _⟩ => ⟨S4x10240x128, .f32⟩
  | .hbm, ⟨98, _⟩ => ⟨S4x10240x128, .f32⟩
  | .hbm, ⟨99, _⟩ => ⟨S40960x128, .f32⟩
  | .hbm, ⟨100, _⟩ => ⟨S40960x128, .bf16⟩
  | .hbm, ⟨101, _⟩ => ⟨S40960x64, .f32⟩
  | .hbm, ⟨102, _⟩ => ⟨S4x10240x64, .f32⟩
  | .hbm, ⟨103, _⟩ => ⟨S10240x4x64, .f32⟩
  | .hbm, ⟨104, _⟩ => ⟨S10240x256, .f32⟩
  | .hbm, ⟨105, _⟩ => ⟨S10240x256, .bf16⟩
  | .hbm, ⟨106, _⟩ => ⟨S10240x256, .f32⟩
  | .hbm, ⟨107, _⟩ => ⟨S10240x4x64, .f32⟩
  | .hbm, ⟨108, _⟩ => ⟨S4x10240x64, .f32⟩
  | .hbm, ⟨109, _⟩ => ⟨S1x1x64, .f32⟩
  | .hbm, ⟨110, _⟩ => ⟨S4x10240x64, .f32⟩
  | .hbm, ⟨111, _⟩ => ⟨S4x10240x64, .f32⟩
  | .hbm, ⟨112, _⟩ => ⟨S4x10000x64, .f32⟩
  | .hbm, ⟨113, _⟩ => ⟨S_, .f32⟩
  | .hbm, ⟨114, _⟩ => ⟨S4x64, .f32⟩
  | .hbm, ⟨115, _⟩ => ⟨S_, .f32⟩
  | .hbm, ⟨116, _⟩ => ⟨S4x64, .f32⟩
  | .hbm, ⟨117, _⟩ => ⟨S4x64, .f32⟩
  | .local _ .vmem, ⟨0, _⟩ => ⟨S1024x128, .bf16⟩
  | .local _ .vmem, ⟨1, _⟩ => ⟨S1024x128, .bf16⟩
  | .local _ .vmem, ⟨2, _⟩ => ⟨S128x128, .bf16⟩
  | .local _ .vmem, ⟨3, _⟩ => ⟨S1024x128, .f32⟩
  | .local _ .vmem, ⟨4, _⟩ => ⟨S1024x128, .f32⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x128, .bf16⟩
  | .local _ .vmem, ⟨13, _⟩ => ⟨S1024x128, .bf16⟩
  | .local _ .vmem, ⟨14, _⟩ => ⟨S128x64, .bf16⟩
  | .local _ .vmem, ⟨15, _⟩ => ⟨S1024x64, .f32⟩
  | .local _ .vmem, ⟨16, _⟩ => ⟨S1024x64, .f32⟩
  | .local _ .vmem, ⟨17, _⟩ => ⟨S1024x1024, .bf16⟩
  | .local _ .vmem, ⟨18, _⟩ => ⟨S1024x1024, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call3_cst : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![10, 10], ![false, false]⟩

def k3_cond2 (i : grid3.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  shapeCasts_S320000x1_S320000 : S320000x1.ShapeCasts S320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  pads_S4x10000x128_S4x10240x128_000_02400_000 : S4x10000x128.Pads (![0, 0, 0] : Fin 3 → Nat) ![0, 240, 0] ![0, 0, 0] S4x10240x128
  h_S_ : 0 < S_.numel
  shapeCasts_S4x10240x128_S40960x128 : S4x10240x128.ShapeCasts S40960x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S40960x128_S4x10240x128 : S40960x128.ShapeCasts S4x10240x128
  transposes_S4x10240x128_S10240x4x128_1_0_2 : S4x10240x128.Transposes [1, 0, 2] S10240x4x128
  shapeCasts_S10240x4x128_S10240x512 : S10240x4x128.ShapeCasts S10240x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S10240x512_S10240x4x128 : S10240x512.ShapeCasts S10240x4x128
  transposes_S10240x4x128_S4x10240x128_1_0_2 : S10240x4x128.Transposes [1, 0, 2] S4x10240x128
  bcast_S128_S1x1x128_2 : S128.BroadcastsInDim S1x1x128 (![2] : Fin 1 → Fin S1x1x128.rank)
  bcast_S1x1x128_S4x10240x128_0_1_2 : S1x1x128.BroadcastsInDim S4x10240x128 (![0, 1, 2] : Fin 3 → Fin S4x10240x128.rank)
  bcast_S_S4x10240x128 : S_.BroadcastsInDim S4x10240x128 (![] : Fin 0 → Fin S4x10240x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1024x64_S1024x64_0_0 : ∀ a, (![0, 0] : Fin 2 → Nat) a + S1024x64.size a ≤ S1024x64.size a
  h_S1024x64 : 0 < S1024x64.numel
  shapeCasts_S40960x64_S4x10240x64 : S40960x64.ShapeCasts S4x10240x64
  transposes_S4x10240x64_S10240x4x64_1_0_2 : S4x10240x64.Transposes [1, 0, 2] S10240x4x64
  shapeCasts_S10240x4x64_S10240x256 : S10240x4x64.ShapeCasts S10240x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S10240x256_S10240x4x64 : S10240x256.ShapeCasts S10240x4x64
  transposes_S10240x4x64_S4x10240x64_1_0_2 : S10240x4x64.Transposes [1, 0, 2] S4x10240x64
  bcast_S64_S1x1x64_2 : S64.BroadcastsInDim S1x1x64 (![2] : Fin 1 → Fin S1x1x64.rank)
  bcast_S1x1x64_S4x10240x64_0_1_2 : S1x1x64.BroadcastsInDim S4x10240x64 (![0, 1, 2] : Fin 3 → Fin S4x10240x64.rank)
  slices_S4x10240x64_S4x10000x64_0_0_0 : S4x10240x64.Slices ![0, 0, 0] S4x10000x64
  reducesTo_S4x10000x64_S4x64_d1 : S4x10000x64.ReducesTo [1] S4x64
  bcast_S_S4x64 : S_.BroadcastsInDim S4x64 (![] : Fin 0 → Fin S4x64.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  dot_S1024x128_S128x128_S1024x128_1_0_0_1_n_n_wf : DotDims.WF S1024x128 S128x128 S1024x128 [1] [0] [0] [1] [] []
  dot_S1024x1024_S1024x512_S1024x512_1_0_0_1_n_n_wf : DotDims.WF S1024x1024 S1024x512 S1024x512 [1] [0] [0] [1] [] []
  dot_S1024x128_S128x64_S1024x64_1_0_0_1_n_n_wf : DotDims.WF S1024x128 S128x64 S1024x64 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S40960x128.size a
  hwx0_0 : ∀ i : grid0.Coords, EltTy.bits .bf16 = 32 ∨ (Rect.block (s := S40960x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S40960x128.size a
  hwx0_2 : ∀ i : grid0.Coords, EltTy.bits .f32 = 32 ∨ (Rect.block (s := S40960x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .bf16 = 32 ∨ (Rect.block (s := S10240x10240) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S10240x512.size a
  hwx1_1 : ∀ i : grid1.Coords, EltTy.bits .bf16 = 32 ∨ (Rect.block (s := S10240x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S10240x512.size a
  hwx1_2 : ∀ i : grid1.Coords, EltTy.bits .f32 = 32 ∨ (Rect.block (s := S10240x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S40960x128.size a
  hwx2_0 : ∀ i : grid2.Coords, EltTy.bits .bf16 = 32 ∨ (Rect.block (s := S40960x128) S1024x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S40960x64.size a
  hwx2_2 : ∀ i : grid2.Coords, EltTy.bits .f32 = 32 ∨ (Rect.block (s := S40960x64) S1024x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S10240x10240.size a
  hwx3_0 : ∀ i : grid3.Coords, EltTy.bits .bf16 = 32 ∨ (Rect.block (s := S10240x10240) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S10240x256.size a
  hwx3_1 : ∀ i : grid3.Coords, EltTy.bits .bf16 = 32 ∨ (Rect.block (s := S10240x256) S1024x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S10240x256.size a
  hwx3_2 : ∀ i : grid3.Coords, EltTy.bits .f32 = 32 ∨ (Rect.block (s := S10240x256) S1024x256.size (cc3_transform_2 i) (hinb3_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v54) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v70) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S4x10000x128 : Shape := ⟨3, ![4, 10000, 128]⟩
abbrev S2x320000 : Shape := ⟨2, ![2, 320000]⟩
abbrev S320000x1 : Shape := ⟨2, ![320000, 1]⟩
abbrev S128x128 : Shape := ⟨2, ![128, 128]⟩
abbrev S128 : Shape := ⟨1, ![128]⟩
abbrev S128x64 : Shape := ⟨2, ![128, 64]⟩
abbrev S64 : Shape := ⟨1, ![64]⟩
abbrev S320000 : Shape := ⟨1, ![320000]⟩
abbrev S10000 : Shape := ⟨1, ![10000]⟩
abbrev S1x320000 : Shape := ⟨2, ![1, 320000]⟩
abbrev S330000 : Shape := ⟨1, ![330000]⟩
abbrev S_ : Shape := ⟨0, ![]⟩
abbrev S330000x1 : Shape := ⟨2, ![330000, 1]⟩
abbrev S4x330000x128 : Shape := ⟨3, ![4, 330000, 128]⟩
abbrev S1x330000x1 : Shape := ⟨3, ![1, 330000, 1]⟩
abbrev S10000x128 : Shape := ⟨2, ![10000, 128]⟩
abbrev S1x1x128 : Shape := ⟨3, ![1, 1, 128]⟩
abbrev S4x10000x64 : Shape := ⟨3, ![4, 10000, 64]⟩
abbrev S4x330000x64 : Shape := ⟨3, ![4, 330000, 64]⟩
abbrev S10000x64 : Shape := ⟨2, ![10000, 64]⟩
abbrev S1x1x64 : Shape := ⟨3, ![1, 1, 64]⟩
abbrev S4x64 : Shape := ⟨2, ![4, 64]⟩

abbrev nBuf : Space → Nat
  | .hbm => 107
  | .vmem => 0
  | .smem => 0
  | _ => 0

abbrev bufTy : (tb : Table) → Fin (tcTables nBuf tb) → BufTy
  | .hbm, ⟨0, _⟩ => ⟨S4x10000x128, .f32⟩
  | .hbm, ⟨1, _⟩ => ⟨S2x320000, .i32⟩
  | .hbm, ⟨2, _⟩ => ⟨S320000x1, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S320000, .f32⟩
  | .hbm, ⟨8, _⟩ => ⟨S10000, .i32⟩
  | .hbm, ⟨9, _⟩ => ⟨S1x320000, .i32⟩
  | .hbm, ⟨10, _⟩ => ⟨S320000, .i32⟩
  | .hbm, ⟨11, _⟩ => ⟨S330000, .i32⟩
  | .hbm, ⟨12, _⟩ => ⟨S1x320000, .i32⟩
  | .hbm, ⟨13, _⟩ => ⟨S320000, .i32⟩
  | .hbm, ⟨14, _⟩ => ⟨S330000, .i32⟩
  | .hbm, ⟨15, _⟩ => ⟨S_, .f32⟩
  | .hbm, ⟨16, _⟩ => ⟨S10000, .f32⟩
  | .hbm, ⟨17, _⟩ => ⟨S330000, .f32⟩
  | .hbm, ⟨18, _⟩ => ⟨S_, .f32⟩
  | .hbm, ⟨19, _⟩ => ⟨S10000, .f32⟩
  | .hbm, ⟨20, _⟩ => ⟨S330000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000, .f32⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000, .f32⟩
  | .hbm, ⟨56, _⟩ => ⟨S330000, .f32⟩
  | .hbm, ⟨57, _⟩ => ⟨S4x10000x128, .f32⟩
  | .hbm, ⟨58, _⟩ => ⟨S_, .i32⟩
  | .hbm, ⟨59, _⟩ => ⟨S330000, .i32⟩
  | .hbm, ⟨60, _⟩ => ⟨S330000, .i1⟩
  | .hbm, ⟨61, _⟩ => ⟨S_, .i32⟩
  | .hbm, ⟨62, _⟩ => ⟨S330000, .i32⟩
  | .hbm, ⟨63, _⟩ => ⟨S330000, .i32⟩
  | .hbm, ⟨64, _⟩ => ⟨S330000, .i32⟩
  | .hbm, ⟨65, _⟩ => ⟨S330000x1, .i32⟩
  | .hbm, ⟨66, _⟩ => ⟨S4x330000x128, .f32⟩
  | .hbm, ⟨67, _⟩ => ⟨S1x330000x1, .f32⟩
  | .hbm, ⟨68, _⟩ => ⟨S4x330000x128, .f32⟩
  | .hbm, ⟨69, _⟩ => ⟨S4x330000x128, .f32⟩
  | .hbm, ⟨70, _⟩ => ⟨S_, .f32⟩
  | .hbm, ⟨71, _⟩ => ⟨S10000x128, .f32⟩
  | .hbm, ⟨72, _⟩ => ⟨S330000x1, .i32⟩
  | .hbm, ⟨73, _⟩ => ⟨S4x10000x128, .f32⟩
  | .hbm, ⟨74, _⟩ => ⟨S4x10000x128, .f32⟩
  | .hbm, ⟨75, _⟩ => ⟨S1x1x128, .f32⟩
  | .hbm, ⟨76, _⟩ => ⟨S4x10000x128, .f32⟩
  | .hbm, ⟨77, _⟩ => ⟨S4x10000x128, .f32⟩
  | .hbm, ⟨78, _⟩ => ⟨S_, .f32⟩
  | .hbm, ⟨79, _⟩ => ⟨S4x10000x128, .f32⟩
  | .hbm, ⟨80, _⟩ => ⟨S4x10000x128, .f32⟩
  | .hbm, ⟨81, _⟩ => ⟨S4x10000x64, .f32⟩
  | .hbm, ⟨82, _⟩ => ⟨S_, .i32⟩
  | .hbm, ⟨83, _⟩ => ⟨S330000, .i32⟩
  | .hbm, ⟨84, _⟩ => ⟨S330000, .i1⟩
  | .hbm, ⟨85, _⟩ => ⟨S_, .i32⟩
  | .hbm, ⟨86, _⟩ => ⟨S330000, .i32⟩
  | .hbm, ⟨87, _⟩ => ⟨S330000, .i32⟩
  | .hbm, ⟨88, _⟩ => ⟨S330000, .i32⟩
  | .hbm, ⟨89, _⟩ => ⟨S330000x1, .i32⟩
  | .hbm, ⟨90, _⟩ => ⟨S4x330000x64, .f32⟩
  | .hbm, ⟨91, _⟩ => ⟨S1x330000x1, .f32⟩
  | .hbm, ⟨92, _⟩ => ⟨S4x330000x64, .f32⟩
  | .hbm, ⟨93, _⟩ => ⟨S4x330000x64, .f32⟩
  | .hbm, ⟨94, _⟩ => ⟨S_, .f32⟩
  | .hbm, ⟨95, _⟩ => ⟨S10000x64, .f32⟩
  | .hbm, ⟨96, _⟩ => ⟨S330000x1, .i32⟩
  | .hbm, ⟨97, _⟩ => ⟨S4x10000x64, .f32⟩
  | .hbm, ⟨98, _⟩ => ⟨S4x10000x64, .f32⟩
  | .hbm, ⟨99, _⟩ => ⟨S1x1x64, .f32⟩
  | .hbm, ⟨100, _⟩ => ⟨S4x10000x64, .f32⟩
  | .hbm, ⟨101, _⟩ => ⟨S4x10000x64, .f32⟩
  | .hbm, ⟨102, _⟩ => ⟨S_, .f32⟩
  | .hbm, ⟨103, _⟩ => ⟨S4x64, .f32⟩
  | .hbm, ⟨104, _⟩ => ⟨S_, .f32⟩
  | .hbm, ⟨105, _⟩ => ⟨S4x64, .f32⟩
  | .hbm, ⟨106, _⟩ => ⟨S4x64, .f32⟩
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]

class Facts₀ : Prop where
  shapeCasts_S320000x1_S320000 : S320000x1.ShapeCasts S320000
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000_S1x330000x1_1 : S330000.BroadcastsInDim S1x330000x1 (![1] : Fin 1 → Fin S1x330000x1.rank)
  bcast_S1x330000x1_S4x330000x128_0_1_2 : S1x330000x1.BroadcastsInDim S4x330000x128 (![0, 1, 2] : Fin 3 → Fin S4x330000x128.rank)
  bcast_S_S10000x128 : S_.BroadcastsInDim S10000x128 (![] : Fin 0 → Fin S10000x128.rank)
  bcast_S10000x128_S4x10000x128_1_2 : S10000x128.BroadcastsInDim S4x10000x128 (![1, 2] : Fin 2 → Fin S4x10000x128.rank)
  bcast_S128_S1x1x128_2 : S128.BroadcastsInDim S1x1x128 (![2] : Fin 1 → Fin S1x1x128.rank)
  bcast_S1x1x128_S4x10000x128_0_1_2 : S1x1x128.BroadcastsInDim S4x10000x128 (![0, 1, 2] : Fin 3 → Fin S4x10000x128.rank)
  bcast_S_S4x10000x128 : S_.BroadcastsInDim S4x10000x128 (![] : Fin 0 → Fin S4x10000x128.rank)
  bcast_S1x330000x1_S4x330000x64_0_1_2 : S1x330000x1.BroadcastsInDim S4x330000x64 (![0, 1, 2] : Fin 3 → Fin S4x330000x64.rank)
  bcast_S_S10000x64 : S_.BroadcastsInDim S10000x64 (![] : Fin 0 → Fin S10000x64.rank)
  bcast_S10000x64_S4x10000x64_1_2 : S10000x64.BroadcastsInDim S4x10000x64 (![1, 2] : Fin 2 → Fin S4x10000x64.rank)
  bcast_S64_S1x1x64_2 : S64.BroadcastsInDim S1x1x64 (![2] : Fin 1 → Fin S1x1x64.rank)
  bcast_S1x1x64_S4x10000x64_0_1_2 : S1x1x64.BroadcastsInDim S4x10000x64 (![0, 1, 2] : Fin 3 → Fin S4x10000x64.rank)
  reducesTo_S4x10000x64_S4x64_d1 : S4x10000x64.ReducesTo [1] S4x64
  h_S_ : 0 < S_.numel
  bcast_S_S4x64 : S_.BroadcastsInDim S4x64 (![] : Fin 0 → Fin S4x64.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S4x10000x128_S128x128_S4x10000x128_2_0_01_1_n_n_wf : DotDims.WF S4x10000x128 S128x128 S4x10000x128 [2] [0] [0, 1] [1] [] []
  gather_S4x10000x128_S330000x1_S4x330000x128_02_1_n_n_1_1_41128_wf : GatherDims.WF S4x10000x128 S330000x1 S4x330000x128 [0, 2] [1] [] [1] [] 1 ![4, 1, 128]
  scatter_S4x10000x128_S330000x1_S4x330000x128_02_1_1_1_wf : ScatterDims.WF S4x10000x128 S330000x1 S4x330000x128 [0, 2] [1] [1] 1
  dot_S4x10000x128_S128x64_S4x10000x64_2_0_01_1_n_n_wf : DotDims.WF S4x10000x128 S128x64 S4x10000x64 [2] [0] [0, 1] [1] [] []
  gather_S4x10000x64_S330000x1_S4x330000x64_02_1_n_n_1_1_4164_wf : GatherDims.WF S4x10000x64 S330000x1 S4x330000x64 [0, 2] [1] [] [1] [] 1 ![4, 1, 64]
  scatter_S4x10000x64_S330000x1_S4x330000x64_02_1_1_1_wf : ScatterDims.WF S4x10000x64 S330000x1 S4x330000x64 [0, 2] [1] [1] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S4x10000x128_S128x128_S4x10000x128_2_0_01_1_n_n : DotDims S4x10000x128 S128x128 S4x10000x128 where
  lhsContracting := [2]
  rhsContracting := [0]
  lhsNonContracting := [0, 1]
  rhsNonContracting := [1]
  lhsBatch := []
  rhsBatch := []
  wf := dot_S4x10000x128_S128x128_S4x10000x128_2_0_01_1_n_n_wf
def gather_S4x10000x128_S330000x1_S4x330000x128_02_1_n_n_1_1_41128 : GatherDims S4x10000x128 S330000x1 S4x330000x128 where
  offsetDims := [0, 2]
  collapsedSliceDims := [1]
  operandBatchingDims := []
  startIndicesBatchingDims := []
  startIndexMap := [1]
  indexVectorDim := 1
  sliceSizes := ![4, 1, 128]
  wf := gather_S4x10000x128_S330000x1_S4x330000x128_02_1_n_n_1_1_41128_wf
def scatter_S4x10000x128_S330000x1_S4x330000x128_02_1_1_1 : ScatterDims S4x10000x128 S330000x1 S4x330000x128 where
  updateWindowDims := [0, 2]
  insertedWindowDims := [1]
  scatterDimsToOperandDims := [1]
  indexVectorDim := 1
  wf := scatter_S4x10000x128_S330000x1_S4x330000x128_02_1_1_1_wf
def dot_S4x10000x128_S128x64_S4x10000x64_2_0_01_1_n_n : DotDims S4x10000x128 S128x64 S4x10000x64 where
  lhsContracting := [2]
  rhsContracting := [0]
  lhsNonContracting := [0, 1]
  rhsNonContracting := [1]
  lhsBatch := []
  rhsBatch := []
  wf := dot_S4x10000x128_S128x64_S4x10000x64_2_0_01_1_n_n_wf
def gather_S4x10000x64_S330000x1_S4x330000x64_02_1_n_n_1_1_4164 : GatherDims S4x10000x64 S330000x1 S4x330000x64 where
  offsetDims := [0, 2]
  collapsedSliceDims := [1]
  operandBatchingDims := []
  startIndicesBatchingDims := []
  startIndexMap := [1]
  indexVectorDim := 1
  sliceSizes := ![4, 1, 64]
  wf := gather_S4x10000x64_S330000x1_S4x330000x64_02_1_n_n_1_1_4164_wf
def scatter_S4x10000x64_S330000x1_S4x330000x64_02_1_1_1 : ScatterDims S4x10000x64 S330000x1 S4x330000x64 where
  updateWindowDims := [0, 2]
  insertedWindowDims := [1]
  scatterDimsToOperandDims := [1]
  indexVectorDim := 1
  wf := scatter_S4x10000x64_S330000x1_S4x330000x64_02_1_1_1_wf

class Facts : Prop extends Facts₀ where

variable [Facts]
-- ==== Proof.K.RunCond.lean ====
/-
  The program's run with its result NAMED. The program is a chain of host stretches and four kernel regions; between two
  items every unscoped buffer of a core is held at a valuation (the launch contents, each host stretch folded over it,
  each region's output array replaced by what the region leaves). Given one region record per kernel region, entered from
  the valuation before it and left at the one after it, the chain runs from the launch to the end, and the final memory is
  the last valuation: in particular the result buffer holds that valuation's contents and every argument is unchanged.
-/
import proofs.«125395_j52793738002724_1_alg».proof.Proof.Gen.Kernel.Regions

set_option maxRecDepth 1080

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- The run of the whole program, given the four regions' records: every weakly fair execution from memory `m` with zero
    counters terminates, and every final memory holds the result buffer at the last valuation's contents (the host
    operations folded over what the regions leave, `outs`) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c)) :
    θ_run defs (onTc (τ := τ) (main (F := F))) ⟨m, fun _ => 0, ρ⟩ (fun r => ∀ c : Dev nD,
      r.2.mem ((c.tc : Thread nD τ).loc main_v85) = V17 m outs c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, .rfl, .rfl, hpre0 c, hpost0 c, hpre1 c, hpost1 c, .rfl, .rfl, hpre2 c, hpost2 c, hpre3 c, hpost3 c, sep_mono .rfl (hE4 c)⟩)
    (hinit := ?_) (QY := fun c s => s.mem ((c.tc : Thread nD τ).loc main_v85) = V17 m outs c (Proc.devRef .tc main_v85) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v85) (Finset.mem_filter.mpr ⟨StableHlo.devRef_mem_tcRefs main_v85, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c)⟩
    · iexact HSI

end Cert.Kernel.Gen

end
-- ==== Proof.K.Run.lean ====
/-
  The four kernel regions as segments of the program's chain, and the program's run with its result named.

  Each region is entered with every unscoped buffer of the core held at a valuation and leaves them at the next one:
  the region's arrays are split out of the buffers, the pipeline runs over them (the body obligation at every grid
  point), and they are put back at what the write-backs leave — the input arrays as entered, the output array at the
  pipeline's final contents. The valuations are folded from the launch memory: a host stretch's operations applied, a
  region's output array replaced. What a region needs of its kernel is collected in one record (the proof datum at any
  entry contents, its arrays, shares and dues, the body obligation, and the invariant's two ends against the class's
  invariant), so that this module is independent of how each kernel's body is run.
-/
import proofs.«125395_j52793738002724_1_alg».proof.Proof.K.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A core-indexed valuation of the TensorCore's references. -/
abbrev VT (F : FTy → Type) [FloatOps F] : Type := (c : Dev nD) → (b : Ref sig .tc) → Buf (Elt F) ((c : Thread nD τ).loc b)

/-- What the run needs of the four kernels: for each region, at any entry contents `V`, the pipeline's proof datum
    with its arrays read off `V`, full shares, nothing owed, the body obligation, and the invariant entered from and
    left to the class's invariant. -/
structure Kernels (F : FTy → Type) [FloatOps F] where
  dat0 : VT F → (c : Dev nD) → Dat τ (Elt F) Unit ℕ (Pipeline.UD sig nD τ) ℕ cfg0 c
  hA0 : ∀ (V : VT F) c w, (dat0 V c).A w = V c (Pipeline.arrRef spec0 w)
  hq0 : ∀ (V : VT F) c w, (dat0 V c).q w = fullShare
  how0 : ∀ (V : VT F) c t, (dat0 V c).owed t = 0
  hrec0 : ∀ (V : VT F) c t, (dat0 V c).recorded t = Set.univ
  hbo0 : ∀ (V : VT F) c, BodyObligation (dat0 V c) (defs₀ (F := F)) Variants.none () Set.univ
  hin0 : ∀ (V : VT F) c, (Pipeline.ΦA spec0 c : sProp (MT nD τ sig Unit (Elt F) ℕ (Pipeline.UD sig nD τ) ℕ)) ⊢ (dat0 V c).Φ 0
  hout0 : ∀ (V : VT F) c, (dat0 V c).Φ (Fin.last cfg0.N) ⊢ (Pipeline.ΦA spec0 c : sProp (MT nD τ sig Unit (Elt F) ℕ (Pipeline.UD sig nD τ) ℕ))
  dat1 : VT F → (c : Dev nD) → Dat τ (Elt F) Unit ℕ (Pipeline.UD sig nD τ) ℕ cfg1 c
  hA1 : ∀ (V : VT F) c w, (dat1 V c).A w = V c (Pipeline.arrRef spec1 w)
  hq1 : ∀ (V : VT F) c w, (dat1 V c).q w = fullShare
  how1 : ∀ (V : VT F) c t, (dat1 V c).owed t = 0
  hrec1 : ∀ (V : VT F) c t, (dat1 V c).recorded t = Set.univ
  hbo1 : ∀ (V : VT F) c, BodyObligation (dat1 V c) (defs₀ (F := F)) Variants.none () Set.univ
  hin1 : ∀ (V : VT F) c, (Pipeline.ΦA spec1 c : sProp (MT nD τ sig Unit (Elt F) ℕ (Pipeline.UD sig nD τ) ℕ)) ⊢ (dat1 V c).Φ 0
  hout1 : ∀ (V : VT F) c, (dat1 V c).Φ (Fin.last cfg1.N) ⊢ (Pipeline.ΦA spec1 c : sProp (MT nD τ sig Unit (Elt F) ℕ (Pipeline.UD sig nD τ) ℕ))
  dat2 : VT F → (c : Dev nD) → Dat τ (Elt F) Unit ℕ (Pipeline.UD sig nD τ) ℕ cfg2 c
  hA2 : ∀ (V : VT F) c w, (dat2 V c).A w = V c (Pipeline.arrRef spec2 w)
  hq2 : ∀ (V : VT F) c w, (dat2 V c).q w = fullShare
  how2 : ∀ (V : VT F) c t, (dat2 V c).owed t = 0
  hrec2 : ∀ (V : VT F) c t, (dat2 V c).recorded t = Set.univ
  hbo2 : ∀ (V : VT F) c, BodyObligation (dat2 V c) (defs₀ (F := F)) Variants.none () Set.univ
  hin2 : ∀ (V : VT F) c, (Pipeline.ΦA spec2 c : sProp (MT nD τ sig Unit (Elt F) ℕ (Pipeline.UD sig nD τ) ℕ)) ⊢ (dat2 V c).Φ 0
  hout2 : ∀ (V : VT F) c, (dat2 V c).Φ (Fin.last cfg2.N) ⊢ (Pipeline.ΦA spec2 c : sProp (MT nD τ sig Unit (Elt F) ℕ (Pipeline.UD sig nD τ) ℕ))
  dat3 : VT F → (c : Dev nD) → Dat τ (Elt F) Unit ℕ (Pipeline.UD sig nD τ) ℕ cfg3 c
  hA3 : ∀ (V : VT F) c w, (dat3 V c).A w = V c (Pipeline.arrRef spec3 w)
  hq3 : ∀ (V : VT F) c w, (dat3 V c).q w = fullShare
  how3 : ∀ (V : VT F) c t, (dat3 V c).owed t = 0
  hrec3 : ∀ (V : VT F) c t, (dat3 V c).recorded t = Set.univ
  hbo3 : ∀ (V : VT F) c, BodyObligation (dat3 V c) (defs₀ (F := F)) Variants.none () Set.univ
  hin3 : ∀ (V : VT F) c, (Pipeline.ΦA spec3 c : sProp (MT nD τ sig Unit (Elt F) ℕ (Pipeline.UD sig nD τ) ℕ)) ⊢ (dat3 V c).Φ 0
  hout3 : ∀ (V : VT F) c, (dat3 V c).Φ (Fin.last cfg3.N) ⊢ (Pipeline.ΦA spec3 c : sProp (MT nD τ sig Unit (Elt F) ℕ (Pipeline.UD sig nD τ) ℕ))

variable (D : Kernels F) (m : (ℓ : Loc nD τ sig) → Buf (Elt F) ℓ) (ρ : Dev nD → PrngReg)

/-! ## The valuations between the items, and what each region leaves -/

/-- Entry of region 0: the launch memory with the first host stretches folded over it. -/
abbrev V7a (c : Dev nD) : Valuation τ sig (Elt F) := V7 m c
abbrev V7a' : VT F := fun c b => V7a m c b
/-- What region 0 leaves in its output array. -/
def o8 (c : Dev nD) : Buf (Elt F) ((c : Thread nD τ).loc main_v57) := (D.dat0 (V7a' m) c).arrAt 2 cfg0.N
abbrev V8a (c : Dev nD) : Valuation τ sig (Elt F) := Function.update (V7a m c) main_v57 (o8 D m c)
abbrev V9a (c : Dev nD) : Valuation τ sig (Elt F) := StableHlo.after hostOps1 (V8a D m c)
abbrev V9a' : VT F := fun c b => V9a D m c b
def o10 (c : Dev nD) : Buf (Elt F) ((c : Thread nD τ).loc main_v62) := (D.dat1 (V9a' D m) c).arrAt 2 cfg1.N
abbrev V10a (c : Dev nD) : Valuation τ sig (Elt F) := Function.update (V9a D m c) main_v62 (o10 D m c)
abbrev V13a (c : Dev nD) : Valuation τ sig (Elt F) := StableHlo.after hostOps2_2 (StableHlo.after hostOps2_1 (StableHlo.after hostOps2 (V10a D m c)))
abbrev V13a' : VT F := fun c b => V13a D m c b
def o14 (c : Dev nD) : Buf (Elt F) ((c : Thread nD τ).loc main_v71) := (D.dat2 (V13a' D m) c).arrAt 2 cfg2.N
abbrev V14a (c : Dev nD) : Valuation τ sig (Elt F) := Function.update (V13a D m c) main_v71 (o14 D m c)
abbrev V15a (c : Dev nD) : Valuation τ sig (Elt F) := StableHlo.after hostOps3 (V14a D m c)
abbrev V15a' : VT F := fun c b => V15a D m c b
def o16 (c : Dev nD) : Buf (Elt F) ((c : Thread nD τ).loc main_v76) := (D.dat3 (V15a' D m) c).arrAt 2 cfg3.N
abbrev V16a (c : Dev nD) : Valuation τ sig (Elt F) := Function.update (V15a D m c) main_v76 (o16 D m c)

/-- What the regions leave, as the family the chain's valuations are written over. -/
def outsF : Outs (F := F) := fun _ r c =>
  if h : (main_v57 : Ref sig .tc) = r then h ▸ o8 D m c
  else if h : (main_v62 : Ref sig .tc) = r then h ▸ o10 D m c
  else if h : (main_v71 : Ref sig .tc) = r then h ▸ o14 D m c
  else if h : (main_v76 : Ref sig .tc) = r then h ▸ o16 D m c
  else V7 m c r

theorem outs_8 (c : Dev nD) : outsF D m 8 main_v57 c = o8 D m c := by unfold outsF; rw [dif_pos rfl]
theorem outs_10 (c : Dev nD) : outsF D m 10 main_v62 c = o10 D m c := by unfold outsF; rw [dif_neg (by decide), dif_pos rfl]
theorem outs_14 (c : Dev nD) : outsF D m 14 main_v71 c = o14 D m c := by unfold outsF; rw [dif_neg (by decide), dif_neg (by decide), dif_pos rfl]
theorem outs_16 (c : Dev nD) : outsF D m 16 main_v76 c = o16 D m c := by unfold outsF; rw [dif_neg (by decide), dif_neg (by decide), dif_neg (by decide), dif_pos rfl]

theorem V8_eq (c : Dev nD) : V8 m (outsF D m) c = V8a D m c := by
  show Function.update (V7 m c) main_v57 (outsF D m 8 main_v57 c) = _; rw [outs_8]
theorem V9_eq (c : Dev nD) : V9 m (outsF D m) c = V9a D m c := by
  show StableHlo.after hostOps1 (V8 m (outsF D m) c) = _; rw [V8_eq]
theorem V10_eq (c : Dev nD) : V10 m (outsF D m) c = V10a D m c := by
  show Function.update (V9 m (outsF D m) c) main_v62 (outsF D m 10 main_v62 c) = _; rw [outs_10, V9_eq]
theorem V13_eq (c : Dev nD) : V13 m (outsF D m) c = V13a D m c := by
  show StableHlo.after hostOps2_2 (StableHlo.after hostOps2_1 (StableHlo.after hostOps2 (V10 m (outsF D m) c))) = _; rw [V10_eq]
theorem V14_eq (c : Dev nD) : V14 m (outsF D m) c = V14a D m c := by
  show Function.update (V13 m (outsF D m) c) main_v71 (outsF D m 14 main_v71 c) = _; rw [outs_14, V13_eq]
theorem V15_eq (c : Dev nD) : V15 m (outsF D m) c = V15a D m c := by
  show StableHlo.after hostOps3 (V14 m (outsF D m) c) = _; rw [V14_eq]
theorem V16_eq (c : Dev nD) : V16 m (outsF D m) c = V16a D m c := by
  show Function.update (V15 m (outsF D m) c) main_v76 (outsF D m 16 main_v76 c) = _; rw [outs_16, V15_eq]

/-- A valuation updated at one reference, read at another. -/
theorem upd_of_ne (W : Valuation τ sig (Elt F)) (o : Ref sig .tc) (v : BufTy.Contents (Elt F) (Proc.devRef (τ := τ) .tc o).ty) (r : Ref sig .tc) (h : r ≠ o) :
    Function.update W (Proc.devRef .tc o) v (Proc.devRef .tc r) = W (Proc.devRef .tc r) :=
  Function.update_of_ne (StableHlo.devRef_ne_of_ne h : (Proc.devRef .tc r : DevRef τ sig) ≠ Proc.devRef .tc o) _ _

/-! ## The proof data family and the thread state -/

/-- Every pipeline's proof datum, each at its region's entry contents (a literal match, so that the pinned
    configuration at a numeral reduces to the printed one). -/
def pdats : (p : Fin 4) → (c : Dev nD) → Dat τ (Elt F) Unit ℕ (Pipeline.UD sig nD τ) ℕ (cfgs p) c
  | ⟨0, _⟩ => fun c => D.dat0 (V7a' m) c
  | ⟨1, _⟩ => fun c => D.dat1 (V9a' D m) c
  | ⟨2, _⟩ => fun c => D.dat2 (V13a' D m) c
  | ⟨3, _⟩ => fun c => D.dat3 (V15a' D m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- At region 0's exit each of its arrays holds what the pipeline leaves: the two input arrays as entered, the output
    array the write-backs folded. -/
theorem hF0 (c : Dev nD) (w : Fin cfg0.W) : (pdats D m 0 c).arrAt w cfg0.N = V8a D m c (Pipeline.arrRef spec0 w) := by
  match w with
  | ⟨0, _⟩ =>
    show (D.dat0 (V7a' m) c).arrAt 0 cfg0.N = Function.update (V7a m c) (Proc.devRef .tc main_v57) (o8 D m c) (Proc.devRef .tc main_v54)
    exact (((D.dat0 (V7a' m) c).arrAt_in 0 rfl _).trans (D.hA0 _ c 0)).trans (upd_of_ne (V7a m c) main_v57 (o8 D m c) main_v54 (by decide)).symm
  | ⟨1, _⟩ =>
    show (D.dat0 (V7a' m) c).arrAt 1 cfg0.N = Function.update (V7a m c) (Proc.devRef .tc main_v57) (o8 D m c) (Proc.devRef .tc main_v55)
    exact (((D.dat0 (V7a' m) c).arrAt_in 1 rfl _).trans (D.hA0 _ c 1)).trans (upd_of_ne (V7a m c) main_v57 (o8 D m c) main_v55 (by decide)).symm
  | ⟨2, _⟩ =>
    show (D.dat0 (V7a' m) c).arrAt 2 cfg0.N = Function.update (V7a m c) (Proc.devRef .tc main_v57) (o8 D m c) (Proc.devRef .tc main_v57)
    exact (Function.update_self (Proc.devRef .tc main_v57) (o8 D m c) (V7a m c)).symm
/-- Every buffer that is none of the region's arrays is as entered. -/
theorem hrest0 (c : Dev nD) : ∀ b : Ref sig .tc, b ∉ Finset.univ.image (Pipeline.arrRef spec0) → V8a D m c b = V7a' m c b :=
  fun b hb => upd_of_ne (V7a m c) main_v57 (o8 D m c) b (fun e => hb (Finset.mem_image.mpr ⟨2, Finset.mem_univ _, e.symm⟩))

set_option backward.isDefEq.respectTransparency.types false in
/-- The class invariant of region 0 from the generator register and the scoped buffers no window stages (no table). -/
theorem phiA_in0 (c : Dev nD) :
    (iprop((∃ r, prngReg c r) ∗ Pipeline.prefHeld (pcfgs (F := F) 0).pre c (fun _ => fullShare) (adm (F := F) 0).1
      ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp
set_option backward.isDefEq.respectTransparency.types false in
/-- … and back. -/
theorem phiA_out0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

/-- At region 1's exit each of its arrays holds what the pipeline leaves: the two input arrays as entered, the output
    array the write-backs folded. -/
theorem hF1 (c : Dev nD) (w : Fin cfg1.W) : (pdats D m 1 c).arrAt w cfg1.N = V10a D m c (Pipeline.arrRef spec1 w) := by
  match w with
  | ⟨0, _⟩ =>
    show (D.dat1 (V9a' D m) c).arrAt 0 cfg1.N = Function.update (V9a D m c) (Proc.devRef .tc main_v62) (o10 D m c) (Proc.devRef .tc main_v51)
    exact (((D.dat1 (V9a' D m) c).arrAt_in 0 rfl _).trans (D.hA1 _ c 0)).trans (upd_of_ne (V9a D m c) main_v62 (o10 D m c) main_v51 (by decide)).symm
  | ⟨1, _⟩ =>
    show (D.dat1 (V9a' D m) c).arrAt 1 cfg1.N = Function.update (V9a D m c) (Proc.devRef .tc main_v62) (o10 D m c) (Proc.devRef .tc main_v61)
    exact (((D.dat1 (V9a' D m) c).arrAt_in 1 rfl _).trans (D.hA1 _ c 1)).trans (upd_of_ne (V9a D m c) main_v62 (o10 D m c) main_v61 (by decide)).symm
  | ⟨2, _⟩ =>
    show (D.dat1 (V9a' D m) c).arrAt 2 cfg1.N = Function.update (V9a D m c) (Proc.devRef .tc main_v62) (o10 D m c) (Proc.devRef .tc main_v62)
    exact (Function.update_self (Proc.devRef .tc main_v62) (o10 D m c) (V9a D m c)).symm
/-- Every buffer that is none of the region's arrays is as entered. -/
theorem hrest1 (c : Dev nD) : ∀ b : Ref sig .tc, b ∉ Finset.univ.image (Pipeline.arrRef spec1) → V10a D m c b = V9a' D m c b :=
  fun b hb => upd_of_ne (V9a D m c) main_v62 (o10 D m c) b (fun e => hb (Finset.mem_image.mpr ⟨2, Finset.mem_univ _, e.symm⟩))

set_option backward.isDefEq.respectTransparency.types false in
/-- The class invariant of region 1 from the generator register and the scoped buffers no window stages (no table). -/
theorem phiA_in1 (c : Dev nD) :
    (iprop((∃ r, prngReg c r) ∗ Pipeline.prefHeld (pcfgs (F := F) 1).pre c (fun _ => fullShare) (adm (F := F) 1).1
      ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp
set_option backward.isDefEq.respectTransparency.types false in
/-- … and back. -/
theorem phiA_out1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

/-- At region 2's exit each of its arrays holds what the pipeline leaves: the two input arrays as entered, the output
    array the write-backs folded. -/
theorem hF2 (c : Dev nD) (w : Fin cfg2.W) : (pdats D m 2 c).arrAt w cfg2.N = V14a D m c (Pipeline.arrRef spec2 w) := by
  match w with
  | ⟨0, _⟩ =>
    show (D.dat2 (V13a' D m) c).arrAt 0 cfg2.N = Function.update (V13a D m c) (Proc.devRef .tc main_v71) (o14 D m c) (Proc.devRef .tc main_v70)
    exact (((D.dat2 (V13a' D m) c).arrAt_in 0 rfl _).trans (D.hA2 _ c 0)).trans (upd_of_ne (V13a D m c) main_v71 (o14 D m c) main_v70 (by decide)).symm
  | ⟨1, _⟩ =>
    show (D.dat2 (V13a' D m) c).arrAt 1 cfg2.N = Function.update (V13a D m c) (Proc.devRef .tc main_v71) (o14 D m c) (Proc.devRef .tc main_v56)
    exact (((D.dat2 (V13a' D m) c).arrAt_in 1 rfl _).trans (D.hA2 _ c 1)).trans (upd_of_ne (V13a D m c) main_v71 (o14 D m c) main_v56 (by decide)).symm
  | ⟨2, _⟩ =>
    show (D.dat2 (V13a' D m) c).arrAt 2 cfg2.N = Function.update (V13a D m c) (Proc.devRef .tc main_v71) (o14 D m c) (Proc.devRef .tc main_v71)
    exact (Function.update_self (Proc.devRef .tc main_v71) (o14 D m c) (V13a D m c)).symm
/-- Every buffer that is none of the region's arrays is as entered. -/
theorem hrest2 (c : Dev nD) : ∀ b : Ref sig .tc, b ∉ Finset.univ.image (Pipeline.arrRef spec2) → V14a D m c b = V13a' D m c b :=
  fun b hb => upd_of_ne (V13a D m c) main_v71 (o14 D m c) b (fun e => hb (Finset.mem_image.mpr ⟨2, Finset.mem_univ _, e.symm⟩))

set_option backward.isDefEq.respectTransparency.types false in
/-- The class invariant of region 2 from the generator register and the scoped buffers no window stages (no table). -/
theorem phiA_in2 (c : Dev nD) :
    (iprop((∃ r, prngReg c r) ∗ Pipeline.prefHeld (pcfgs (F := F) 2).pre c (fun _ => fullShare) (adm (F := F) 2).1
      ∗ Pipeline.scopedRest (Pipeline.pin (pcfgs (F := F)) adm 2).spec c) : sProp 𝕄) ⊢ Pipeline.ΦA spec2 c := by
  unfold Pipeline.ΦA
  iintro ⟨Hp, -, Hr⟩
  isplitl [Hr]; · iexact Hr
  iexact Hp
set_option backward.isDefEq.respectTransparency.types false in
/-- … and back. -/
theorem phiA_out2 (c : Dev nD) :
    (Pipeline.ΦA spec2 c : sProp 𝕄) ⊢ iprop((∃ r, prngReg c r) ∗ BI.emp ∗ Pipeline.scopedRest (Pipeline.pin (pcfgs (F := F)) adm 2).spec c) := by
  unfold Pipeline.ΦA
  iintro ⟨Hr, Hp⟩
  isplitl [Hp]; · iexact Hp
  isplitr; · iempintro
  iexact Hr

/-- At region 3's exit each of its arrays holds what the pipeline leaves: the two input arrays as entered, the output
    array the write-backs folded. -/
theorem hF3 (c : Dev nD) (w : Fin cfg3.W) : (pdats D m 3 c).arrAt w cfg3.N = V16a D m c (Pipeline.arrRef spec3 w) := by
  match w with
  | ⟨0, _⟩ =>
    show (D.dat3 (V15a' D m) c).arrAt 0 cfg3.N = Function.update (V15a D m c) (Proc.devRef .tc main_v76) (o16 D m c) (Proc.devRef .tc main_v51)
    exact (((D.dat3 (V15a' D m) c).arrAt_in 0 rfl _).trans (D.hA3 _ c 0)).trans (upd_of_ne (V15a D m c) main_v76 (o16 D m c) main_v51 (by decide)).symm
  | ⟨1, _⟩ =>
    show (D.dat3 (V15a' D m) c).arrAt 1 cfg3.N = Function.update (V15a D m c) (Proc.devRef .tc main_v76) (o16 D m c) (Proc.devRef .tc main_v75)
    exact (((D.dat3 (V15a' D m) c).arrAt_in 1 rfl _).trans (D.hA3 _ c 1)).trans (upd_of_ne (V15a D m c) main_v76 (o16 D m c) main_v75 (by decide)).symm
  | ⟨2, _⟩ =>
    show (D.dat3 (V15a' D m) c).arrAt 2 cfg3.N = Function.update (V15a D m c) (Proc.devRef .tc main_v76) (o16 D m c) (Proc.devRef .tc main_v76)
    exact (Function.update_self (Proc.devRef .tc main_v76) (o16 D m c) (V15a D m c)).symm
/-- Every buffer that is none of the region's arrays is as entered. -/
theorem hrest3 (c : Dev nD) : ∀ b : Ref sig .tc, b ∉ Finset.univ.image (Pipeline.arrRef spec3) → V16a D m c b = V15a' D m c b :=
  fun b hb => upd_of_ne (V15a D m c) main_v76 (o16 D m c) b (fun e => hb (Finset.mem_image.mpr ⟨2, Finset.mem_univ _, e.symm⟩))

set_option backward.isDefEq.respectTransparency.types false in
/-- The class invariant of region 3 from the generator register and the scoped buffers no window stages (no table). -/
theorem phiA_in3 (c : Dev nD) :
    (iprop((∃ r, prngReg c r) ∗ Pipeline.prefHeld (pcfgs (F := F) 3).pre c (fun _ => fullShare) (adm (F := F) 3).1
      ∗ Pipeline.scopedRest (Pipeline.pin (pcfgs (F := F)) adm 3).spec c) : sProp 𝕄) ⊢ Pipeline.ΦA spec3 c := by
  unfold Pipeline.ΦA
  iintro ⟨Hp, -, Hr⟩
  isplitl [Hr]; · iexact Hr
  iexact Hp
set_option backward.isDefEq.respectTransparency.types false in
/-- … and back. -/
theorem phiA_out3 (c : Dev nD) :
    (Pipeline.ΦA spec3 c : sProp 𝕄) ⊢ iprop((∃ r, prngReg c r) ∗ BI.emp ∗ Pipeline.scopedRest (Pipeline.pin (pcfgs (F := F)) adm 3).spec c) := by
  unfold Pipeline.ΦA
  iintro ⟨Hr, Hp⟩
  isplitl [Hp]; · iexact Hp
  isplitr; · iempintro
  iexact Hr

-- library lemmas stated over the pinned configuration unify with the printed one only when unification may unfold plain
-- definitions in a metavariable's type
set_option backward.isDefEq.respectTransparency.types false in
/-- Region 0 over the thread state: entered from every unscoped buffer at its entry valuation, left at the next. Its
    arrays are split out of the unscoped buffers and put back at the exit contents; the generator register goes into
    the class invariant and comes back; nothing is owed; the kernel has no semaphore of its own. -/
def reg0 : Pipeline.RegionSeg (pcfgs (F := F)) adm (pdats D m) () defs₀ 𝒱₀ L lv 0 where
  win := launch0.win.to₀
  block_pos := launch0.block_pos
  stage_whole := launch0.stage_whole
  K := PEmpty
  osem k := k.elim
  ho := Pipeline.OwnSemFacts.none _
  hbody c := (D.hbo0 (V7a' m) c).loose
  hwaits := Pipeline.hwaits_of_owed_zero _ _ _ _ L lv 0 fun c t => D.how0 _ c t
  pre c := iprop(StableHlo.held (c : Thread nD τ) (Pipeline.ucRefs τ sig) (V7a m c) ∗ R c)
  post c := iprop(StableHlo.held (c : Thread nD τ) (Pipeline.ucRefs τ sig) (V8a D m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V7a' m c)
  hentry c := by
    rw [Pipeline.ownSems0_none]
    have hsplit := Pipeline.arrays_of_unscopedBufs (p := 0) (pcfgs (F := F)) adm (pdats D m) launch0.win launch0.arr_whole c
      ((pdats D m 0 c).share_full fun w => D.hq0 _ c w) (V7a' m c) fun w => D.hA0 _ c w
    rw [Pipeline.unscopedBufs_held] at hsplit
    have h0 : (pdats D m 0 c).owed 0 = 0 := D.how0 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec0 _ c 0).symm ▸ Set.mem_univ x)
      iexact HO
    isplitl [Hp]; · iexact Hp
    iexact Hrest
  hin c := (phiA_in0 c).trans (D.hin0 (V7a' m) c)
  hout c := by
    rw [Pipeline.ownSems0_none]
    exact (D.hout0 (V7a' m) c).trans (phiA_out0 c)
  hexit c := by
    have hjoin := Pipeline.unscopedBufs_of_arrays (p := 0) (pcfgs (F := F)) adm (Ix := Unit) (Name := ℕ) (U := Pipeline.UD sig nD τ) (Lvl := ℕ)
      launch0.win launch0.arr_whole c (pdats D m) ((pdats D m 0 c).share_full fun w => D.hq0 _ c w)
      (V7a' m c) (fun b => V8a D m c b) ((pdats D m 0 c).arrAt · cfg0.N) (hF0 D m c) (hrest0 D m c)
    rw [Pipeline.unscopedBufs_held] at hjoin
    have hN : (pdats D m 0 c).owed (Fin.last (Pipeline.pin (pcfgs (F := F)) adm 0).N) = 0 := D.how0 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

-- library lemmas stated over the pinned configuration unify with the printed one only when unification may unfold plain
-- definitions in a metavariable's type
set_option backward.isDefEq.respectTransparency.types false in
/-- Region 1 over the thread state: entered from every unscoped buffer at its entry valuation, left at the next. Its
    arrays are split out of the unscoped buffers and put back at the exit contents; the generator register goes into
    the class invariant and comes back; nothing is owed; the kernel has no semaphore of its own. -/
def reg1 : Pipeline.RegionSeg (pcfgs (F := F)) adm (pdats D m) () defs₀ 𝒱₀ L lv 1 where
  win := launch1.win.to₀
  block_pos := launch1.block_pos
  stage_whole := launch1.stage_whole
  K := PEmpty
  osem k := k.elim
  ho := Pipeline.OwnSemFacts.none _
  hbody c := (D.hbo1 (V9a' D m) c).loose
  hwaits := Pipeline.hwaits_of_owed_zero _ _ _ _ L lv 1 fun c t => D.how1 _ c t
  pre c := iprop(StableHlo.held (c : Thread nD τ) (Pipeline.ucRefs τ sig) (V9a D m c) ∗ R c)
  post c := iprop(StableHlo.held (c : Thread nD τ) (Pipeline.ucRefs τ sig) (V10a D m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V9a' D m c)
  hentry c := by
    rw [Pipeline.ownSems0_none]
    have hsplit := Pipeline.arrays_of_unscopedBufs (p := 1) (pcfgs (F := F)) adm (pdats D m) launch1.win launch1.arr_whole c
      ((pdats D m 1 c).share_full fun w => D.hq1 _ c w) (V9a' D m c) fun w => D.hA1 _ c w
    rw [Pipeline.unscopedBufs_held] at hsplit
    have h0 : (pdats D m 1 c).owed 0 = 0 := D.how1 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec1 _ c 0).symm ▸ Set.mem_univ x)
      iexact HO
    isplitl [Hp]; · iexact Hp
    iexact Hrest
  hin c := (phiA_in1 c).trans (D.hin1 (V9a' D m) c)
  hout c := by
    rw [Pipeline.ownSems0_none]
    exact (D.hout1 (V9a' D m) c).trans (phiA_out1 c)
  hexit c := by
    have hjoin := Pipeline.unscopedBufs_of_arrays (p := 1) (pcfgs (F := F)) adm (Ix := Unit) (Name := ℕ) (U := Pipeline.UD sig nD τ) (Lvl := ℕ)
      launch1.win launch1.arr_whole c (pdats D m) ((pdats D m 1 c).share_full fun w => D.hq1 _ c w)
      (V9a' D m c) (fun b => V10a D m c b) ((pdats D m 1 c).arrAt · cfg1.N) (hF1 D m c) (hrest1 D m c)
    rw [Pipeline.unscopedBufs_held] at hjoin
    have hN : (pdats D m 1 c).owed (Fin.last (Pipeline.pin (pcfgs (F := F)) adm 1).N) = 0 := D.how1 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

-- library lemmas stated over the pinned configuration unify with the printed one only when unification may unfold plain
-- definitions in a metavariable's type
set_option backward.isDefEq.respectTransparency.types false in
/-- Region 2 over the thread state: entered from every unscoped buffer at its entry valuation, left at the next. Its
    arrays are split out of the unscoped buffers and put back at the exit contents; the generator register goes into
    the class invariant and comes back; nothing is owed; the kernel has no semaphore of its own. -/
def reg2 : Pipeline.RegionSeg (pcfgs (F := F)) adm (pdats D m) () defs₀ 𝒱₀ L lv 2 where
  win := launch2.win.to₀
  block_pos := launch2.block_pos
  stage_whole := launch2.stage_whole
  K := PEmpty
  osem k := k.elim
  ho := Pipeline.OwnSemFacts.none _
  hbody c := (D.hbo2 (V13a' D m) c).loose
  hwaits := Pipeline.hwaits_of_owed_zero _ _ _ _ L lv 2 fun c t => D.how2 _ c t
  pre c := iprop(StableHlo.held (c : Thread nD τ) (Pipeline.ucRefs τ sig) (V13a D m c) ∗ R c)
  post c := iprop(StableHlo.held (c : Thread nD τ) (Pipeline.ucRefs τ sig) (V14a D m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V13a' D m c)
  hentry c := by
    rw [Pipeline.ownSems0_none]
    have hsplit := Pipeline.arrays_of_unscopedBufs (p := 2) (pcfgs (F := F)) adm (pdats D m) launch2.win launch2.arr_whole c
      ((pdats D m 2 c).share_full fun w => D.hq2 _ c w) (V13a' D m c) fun w => D.hA2 _ c w
    rw [Pipeline.unscopedBufs_held] at hsplit
    have h0 : (pdats D m 2 c).owed 0 = 0 := D.how2 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec2 _ c 0).symm ▸ Set.mem_univ x)
      iexact HO
    isplitl [Hp]; · iexact Hp
    iexact Hrest
  hin c := (phiA_in2 c).trans (D.hin2 (V13a' D m) c)
  hout c := by
    rw [Pipeline.ownSems0_none]
    exact (D.hout2 (V13a' D m) c).trans (phiA_out2 c)
  hexit c := by
    have hjoin := Pipeline.unscopedBufs_of_arrays (p := 2) (pcfgs (F := F)) adm (Ix := Unit) (Name := ℕ) (U := Pipeline.UD sig nD τ) (Lvl := ℕ)
      launch2.win launch2.arr_whole c (pdats D m) ((pdats D m 2 c).share_full fun w => D.hq2 _ c w)
      (V13a' D m c) (fun b => V14a D m c b) ((pdats D m 2 c).arrAt · cfg2.N) (hF2 D m c) (hrest2 D m c)
    rw [Pipeline.unscopedBufs_held] at hjoin
    have hN : (pdats D m 2 c).owed (Fin.last (Pipeline.pin (pcfgs (F := F)) adm 2).N) = 0 := D.how2 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

-- library lemmas stated over the pinned configuration unify with the printed one only when unification may unfold plain
-- definitions in a metavariable's type
set_option backward.isDefEq.respectTransparency.types false in
/-- Region 3 over the thread state: entered from every unscoped buffer at its entry valuation, left at the next. Its
    arrays are split out of the unscoped buffers and put back at the exit contents; the generator register goes into
    the class invariant and comes back; nothing is owed; the kernel has no semaphore of its own. -/
def reg3 : Pipeline.RegionSeg (pcfgs (F := F)) adm (pdats D m) () defs₀ 𝒱₀ L lv 3 where
  win := launch3.win.to₀
  block_pos := launch3.block_pos
  stage_whole := launch3.stage_whole
  K := PEmpty
  osem k := k.elim
  ho := Pipeline.OwnSemFacts.none _
  hbody c := (D.hbo3 (V15a' D m) c).loose
  hwaits := Pipeline.hwaits_of_owed_zero _ _ _ _ L lv 3 fun c t => D.how3 _ c t
  pre c := iprop(StableHlo.held (c : Thread nD τ) (Pipeline.ucRefs τ sig) (V15a D m c) ∗ R c)
  post c := iprop(StableHlo.held (c : Thread nD τ) (Pipeline.ucRefs τ sig) (V16a D m c) ∗ R c)
  X c := iprop(∃ r, prngReg c r)
  Y c := iprop(∃ r, prngReg c r)
  Z c := Pipeline.unscopedRest (Ix := Unit) (Name := ℕ) (U := Pipeline.UD sig nD τ) (Lvl := ℕ) spec3 c (V15a' D m c)
  hentry c := by
    rw [Pipeline.ownSems0_none]
    have hsplit := Pipeline.arrays_of_unscopedBufs (p := 3) (pcfgs (F := F)) adm (pdats D m) launch3.win launch3.arr_whole c
      ((pdats D m 3 c).share_full fun w => D.hq3 _ c w) (V15a' D m c) fun w => D.hA3 _ c w
    rw [Pipeline.unscopedBufs_held] at hsplit
    have h0 : (pdats D m 3 c).owed 0 = 0 := D.how3 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec3 _ c 0).symm ▸ Set.mem_univ x)
      iexact HO
    isplitl [Hp]; · iexact Hp
    iexact Hrest
  hin c := (phiA_in3 c).trans (D.hin3 (V15a' D m) c)
  hout c := by
    rw [Pipeline.ownSems0_none]
    exact (D.hout3 (V15a' D m) c).trans (phiA_out3 c)
  hexit c := by
    have hjoin := Pipeline.unscopedBufs_of_arrays (p := 3) (pcfgs (F := F)) adm (Ix := Unit) (Name := ℕ) (U := Pipeline.UD sig nD τ) (Lvl := ℕ)
      launch3.win launch3.arr_whole c (pdats D m) ((pdats D m 3 c).share_full fun w => D.hq3 _ c w)
      (V15a' D m c) (fun b => V16a D m c b) ((pdats D m 3 c).arrAt · cfg3.N) (hF3 D m c) (hrest3 D m c)
    rw [Pipeline.unscopedBufs_held] at hjoin
    have hN : (pdats D m 3 c).owed (Fin.last (Pipeline.pin (pcfgs (F := F)) adm 3).N) = 0 := D.how3 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ## The run -/

-- the run theorem's implicit arguments are found by unifying its conclusion with this one, which takes unfolding
-- plain definitions in a metavariable's type
set_option backward.isDefEq.respectTransparency.types false in
/-- Every weakly fair execution of the program from memory `m` with zero counters terminates without a fault, the result
    buffer ends at the last valuation's contents — the host operations folded over what the four regions leave — and
    every argument ends as launched. -/
theorem run_named : θ_run defs (onTc (τ := τ) (main (F := F))) ⟨m, fun _ => 0, ρ⟩ (fun r => ∀ c : Dev nD,
      r.2.mem ((c.tc : Thread nD τ).loc main_v85) = V17 m (outsF D m) c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.run_cond m (EP := embL) (ι := ()) (𝒱₀ := 𝒱₀) (L := L) (lv := lv) (hL := fun _ _ => rfl) (ρ := ρ) (outs := outsF D m) (pdats := pdats D m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 D m) (hpre0 := fun c => .rfl) (hpost0 := fun c => by rw [V8_eq]; exact .rfl)
    (R1 := reg1 D m) (hpre1 := fun c => by rw [V9_eq]; exact .rfl) (hpost1 := fun c => by rw [V10_eq]; exact .rfl)
    (R2 := reg2 D m) (hpre2 := fun c => by rw [V13_eq]; exact .rfl) (hpost2 := fun c => by rw [V14_eq]; exact .rfl)
    (R3 := reg3 D m) (hpre3 := fun c => by rw [V15_eq]; exact .rfl) (hpost3 := fun c => by rw [V16_eq]; exact .rfl)

end Cert.Kernel.Hand

end
-- ==== Proof.K.RegA.lean ====
import proofs.«125395_j52793738002724_1_alg».proof.Proof.Gen.Kernel.Launch
import proofs.«125395_j52793738002724_1_alg».proof.Proof.Gen.Kernel.Skeleton
import proofs.«125395_j52793738002724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two plain matrix-product regions

Regions 0 and 2 of the program are the same pipeline at two widths: a grid of 40 points, at point `i` the
left operand's rows `[1024 i, 1024 (i+1))`, the whole right operand (its block index never moves), and the
result's rows `[1024 i, 1024 (i+1))`. The body reads both operand buffers whole, multiplies them into a zero
accumulator, reads the result buffer (the value is not used) and stores the product over the whole result buffer.

Per region, at any float interpretation `F` and at a parameter `V` (the core's buffer contents when the region is
entered): each window's block at a point, what the body leaves in the result buffer as a function of the two
operand blocks, the body's triple, the pipeline's proof data and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
-- the core's buffer contents when a region is entered
variable (V : (c : Dev nD) → (b : Ref sig .tc) → Buf (Elt F) ((c : Thread nD τ).loc b))

/-! # Region 0: `cc0__simple_matmul_kernel`, `[40960,128] × [128,128]` by row blocks of 1024 -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's block at every point, for any proof data over the
    entry arrays whose body leaves that block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole right operand at every point: it is fetched at the first
    point only, and where it is not fetched its block index has not moved, so the buffer still holds that block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x128 := Rect.unit (s := S1024x128) ![0, 0] S1024x128.size inb_S1024x128_S1024x128_0_0
abbrev r0_1 : Rect S128x128 := Rect.unit (s := S128x128) ![0, 0] S128x128.size inb_S128x128_S128x128_0_0
abbrev r0_2 : Rect S1024x128 := Rect.unit (s := S1024x128) ![0, 0] S1024x128.size inb_S1024x128_S1024x128_0_0

/-! ## What the body leaves in the result buffer -/

/-- The result buffer after the body, from the two operand blocks: the one store, whose payload is the product of
    the two blocks read whole. -/
def out0_2 (x0 : Vec F S1024x128 .bf16) (x1 : Vec F S128x128 .bf16) : Vec F S1024x128 .f32 :=
  View.canon [⟨r0_2, k0_pay1 (View.ld x0 r0_0) (View.ld x1 r0_1)⟩]

/-- The one store is over the whole buffer, so it covers it. -/
theorem cover0_2 (p0 : Vec F S1024x128 .f32) (y : S1024x128.Idx) :
    ∃ pc ∈ ([⟨r0_2, p0⟩] : List (View.Piece (Elt F) S1024x128 .f32)), y ∈ pc.1.set :=
  View.cover_of_tiled [⟨r0_2, p0⟩] S1024x128.size (by rfl) y

/-! ## The body's triple -/

set_option maxHeartbeats 1000000 in
/-- The body on whole staging memrefs, the operands' at contents `x0`, `x1` and the result's at anything, runs to
    the continuation with the operands' as they were and the result's at `out0_2 x0 x1`. -/
theorem sound_kernel0 (c : Dev nD) (E : Set ℕ) (i : grid0.Coords) (arg1 : Memref sig .tc .vmem S1024x128 .bf16) (harg1 : arg1.IsWhole) (arg2 : Memref sig .tc .vmem S128x128 .bf16) (harg2 : arg2.IsWhole) (arg3 : Memref sig .tc .vmem S1024x128 .f32) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__simple_matmul_kernel i arg1 harg1 arg2 harg2 arg3 harg3) K := by
  simp only [cc0__simple_matmul_kernel_eq_skeleton]; unfold cc0__simple_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the pipeline on core `c`: the arrays as the region finds them; after the body at point `t`
    each operand's buffer at its block and the result's at `out0_2` of the two blocks; the invariant is the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each operand's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 2: `cc2__simple_matmul_kernel`, `[40960,128] × [128,64]` by row blocks of 1024 -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the point's block at every point, for any proof data over the
    entry arrays whose body leaves that block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds the whole right operand at every point: it is fetched at the first
    point only, and where it is not fetched its block index has not moved, so the buffer still holds that block. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x128 := Rect.unit (s := S1024x128) ![0, 0] S1024x128.size inb_S1024x128_S1024x128_0_0
abbrev r2_1 : Rect S128x64 := Rect.unit (s := S128x64) ![0, 0] S128x64.size inb_S128x64_S128x64_0_0
abbrev r2_2 : Rect S1024x64 := Rect.unit (s := S1024x64) ![0, 0] S1024x64.size inb_S1024x64_S1024x64_0_0

/-! ## What the body leaves in the result buffer -/

/-- The result buffer after the body, from the two operand blocks: the one store, whose payload is the product of
    the two blocks read whole. -/
def out2_2 (x0 : Vec F S1024x128 .bf16) (x1 : Vec F S128x64 .bf16) : Vec F S1024x64 .f32 :=
  View.canon [⟨r2_2, k2_pay1 (View.ld x0 r2_0) (View.ld x1 r2_1)⟩]

/-- The one store is over the whole buffer, so it covers it. -/
theorem cover2_2 (p0 : Vec F S1024x64 .f32) (y : S1024x64.Idx) :
    ∃ pc ∈ ([⟨r2_2, p0⟩] : List (View.Piece (Elt F) S1024x64 .f32)), y ∈ pc.1.set :=
  View.cover_of_tiled [⟨r2_2, p0⟩] S1024x64.size (by rfl) y

/-! ## The body's triple -/

set_option maxHeartbeats 1000000 in
/-- The body on whole staging memrefs, the operands' at contents `x0`, `x1` and the result's at anything, runs to
    the continuation with the operands' as they were and the result's at `out2_2 x0 x1`. -/
theorem sound_kernel2 (c : Dev nD) (E : Set ℕ) (i : grid2.Coords) (arg1 : Memref sig .tc .vmem S1024x128 .bf16) (harg1 : arg1.IsWhole) (arg2 : Memref sig .tc .vmem S128x64 .bf16) (harg2 : arg2.IsWhole) (arg3 : Memref sig .tc .vmem S1024x64 .f32) (harg3 : arg3.IsWhole)
    (x0 : Vec F S1024x128 .bf16) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__simple_matmul_kernel i arg1 harg1 arg2 harg2 arg3 harg3) K := by
  simp only [cc2__simple_matmul_kernel_eq_skeleton]; unfold cc2__simple_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-! ## The pipeline's proof data -/

/-- The proof data of the pipeline on core `c`: the arrays as the region finds them; after the body at point `t`
    each operand's buffer at its block and the result's at `out2_2` of the two blocks; the invariant is the scoped
    rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each operand's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.RegR1.Runs.lean ====
import proofs.«125395_j52793738002724_1_alg».proof.Proof.Gen.Kernel.Launch
import proofs.«125395_j52793738002724_1_alg».proof.Proof.Gen.Kernel.Skeleton
import proofs.«125395_j52793738002724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! # Region 1: the accumulating product, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's two branch conditions, in closed form over the grid -/

/-- The first conditional's test: the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's test: the reduction coordinate is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called on -/

/-- One staging buffer of the output window, through which its contents are stated. -/
abbrev VO1_2 : View sig .tc .vmem S1024x512 .f32 := (Memref.whole cc1_stg2_0 : Memref sig .tc .vmem S1024x512 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x512 .f32 := Memref.whole cc1_scratch0
abbrev VS1_0 : View sig .tc .vmem S1024x512 .f32 := scM1_0.view

/-- The scoped buffers of the core other than this region's staging buffers and its accumulator, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_scratch0), ((c : Thread nD τ).loc cc3_scratch0) ↦{fullShare} f))

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_scratch0), ((c : Thread nD τ).loc cc3_scratch0) ↦{fullShare} f)) ∗ (∃ r, prngReg c r)) := by
  unfold Pipeline.ΦA; rw [scopedRest1_eq]; simp only [scM1_0, owns_whole]; try rfl

/-- The class invariant hands over the accumulator at some contents, the other scoped buffers and the generator register, -/
theorem PhiA1_split (c : Dev nD) :
    (Pipeline.ΦA spec1 c : sProp 𝕄) ⊢ iprop((∃ d, owns (c : Thread nD τ) scM1_0 fullShare d) ∗ rest1 (F := F) c ∗ (∃ r, prngReg c r)) := by
  rw [PhiA1_eq]; unfold rest1
  iintro ⟨⟨HR0, HR1, HR2, HR3, HR4, HS0, HR6, HR7, HR8, HR9, HR10, HR11, HR12, HR13, HR14, HR15, HR16, HR17⟩, Hg⟩
  isplitl [HS0]; · iexact HS0
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexact HR17

/-- and takes them back. -/
theorem PhiA1_join (c : Dev nD) :
    iprop((∃ d, owns (c : Thread nD τ) scM1_0 fullShare d) ∗ rest1 (F := F) c ∗ (∃ r, prngReg c r)) ⊢ (Pipeline.ΦA spec1 c : sProp 𝕄) := by
  rw [PhiA1_eq]; unfold rest1
  iintro ⟨HS0, ⟨HR0, HR1, HR2, HR3, HR4, HR6, HR7, HR8, HR9, HR10, HR11, HR12, HR13, HR14, HR15, HR16, HR17⟩, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HS0]; · iexact HS0
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexact HR17

end Cert.Kernel.Hand

end
-- ==== Proof.K.RegR1.RunA.lean ====
import proofs.«125395_j52793738002724_1_alg».proof.Proof.K.RegR1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the first reduction step (the accumulator is zeroed first; the output is not stored), with the
    triple of the body on whole memrefs: the two input blocks at their contents, the accumulator at anything,
    the output buffer handed back untouched. -/
noncomputable def kernelRun1_A (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RegR1.RunB.lean ====
import proofs.«125395_j52793738002724_1_alg».proof.Proof.K.RegR1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of a middle reduction step (neither conditional taken; the output is not stored), with the
    triple of the body on whole memrefs: the two input blocks at their contents, the accumulator at what the step before left,
    the output buffer handed back untouched. -/
noncomputable def kernelRun1_B (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RegR1.RunC.lean ====
import proofs.«125395_j52793738002724_1_alg».proof.Proof.K.RegR1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the last reduction step (the accumulator is copied to the output), with the
    triple of the body on whole memrefs: the two input blocks at their contents, the accumulator at what the step before left,
    the output buffer at anything, left with its pieces written. -/
noncomputable def kernelRun1_C (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.RegR1.lean ====
import proofs.«125395_j52793738002724_1_alg».proof.Proof.K.RegR1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output's staging buffer (nothing is stored there: a placeholder nothing consults). -/
def out1_A_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) : Vec F S1024x512 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) (y : S1024x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x512.size (by sl_kernel_rfl) y

/-- What case A leaves in the accumulator: its pieces read back. -/
def sout1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) : Vec F S1024x512 .f32 :=
  VS1_0.read (Elt F) (VS1_0.writes (Elt F) VS1_0.junk (kernelRun1_A c i arg2 harg2 arg3 harg3 arg4 harg4 arg5 harg5 hc0 hc1 x0 x1).2.1)

/-- What case B leaves in the output's staging buffer (nothing is stored there: a placeholder nothing consults). -/
def out1_B_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) : Vec F S1024x512 .f32 :=
  VO1_2.read (Elt F) (VO1_2.writes (Elt F) VO1_2.junk (kernelRun1_B c i arg2 harg2 arg3 harg3 arg4 harg4 arg5 harg5 hc0 hc1 x0 x1 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) (y : S1024x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x512.size (by sl_kernel_rfl) y

/-- What case B leaves in the accumulator: its pieces read back. -/
def sout1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) : Vec F S1024x512 .f32 :=
  VS1_0.read (Elt F) (VS1_0.writes (Elt F) VS1_0.junk (kernelRun1_B c i arg2 harg2 arg3 harg3 arg4 harg4 arg5 harg5 hc0 hc1 x0 x1 xs0).2.1)

/-- What case C leaves in the output's staging buffer: its pieces read back. -/
def out1_C_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) : Vec F S1024x512 .f32 :=
  VO1_2.read (Elt F) (VO1_2.writes (Elt F) VO1_2.junk (kernelRun1_C c i arg2 harg2 arg3 harg3 arg4 harg4 arg5 harg5 hc0 hc1 x0 x1 xs0).1)

/-- Case C's one store into the output covers its block. -/
theorem cover1_C_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) (y : S1024x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x512.size (by sl_kernel_rfl) y

/-- Case C's stores into the accumulator cover it. -/
theorem scover1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) (y : S1024x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x512.size (by sl_kernel_rfl) y

/-- What case C leaves in the accumulator: its pieces read back. -/
def sout1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) : Vec F S1024x512 .f32 :=
  VS1_0.read (Elt F) (VS1_0.writes (Elt F) VS1_0.junk (kernelRun1_C c i arg2 harg2 arg3 harg3 arg4 harg4 arg5 harg5 hc0 hc1 x0 x1 xs0).2.1)

/-! ## What the output buffer and the accumulator hold after each point -/

/-- After the body at position `n`: (the output's staging buffer, the accumulator), by recursion on the position — the
    case the position's reduction coordinate `n % 10` selects, run on the point's input blocks and, past a row block's
    first step, on what the position before left in the accumulator. -/
def outsAt1 (c : Dev nD) : (n : ℕ) → n < cfg1.N → Vec F S1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 10 = 0 then
      if h1 : (n + 1) % 10 = 9 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 10 = 9 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 (F := F) c ∗ (∃ r, prngReg c r)) := by
  cases n with
  | zero => exact absurd rfl hz
  | succ n => rfl

/-- At any position the invariant yields the accumulator at some contents, the other scoped buffers and the register. -/
theorem PhiS1_pre (c : Dev nD) (n : ℕ) (h : n ≤ cfg1.N) :
    PhiS1 V c n h ⊢ iprop((∃ d, owns (c : Thread nD τ) scM1_0 fullShare d) ∗ rest1 (F := F) c ∗ (∃ r, prngReg c r)) := by
  cases n with
  | zero => exact PhiA1_split c
  | succ n =>
    rw [PhiS1_succ]
    iintro ⟨HS0, HR, Hg⟩
    isplitl [HS0]; · iexists _; iexact HS0
    isplitl [HR]; · iexact HR
    iexact Hg

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the reduction coordinate selects the case; the
    invariant hands the body the accumulator (at what the point before left, or at anything where the body zeroes it
    first) and takes it back at this point's contents; the output's buffer is handed back untouched except at a row
    block's last step, where the body stores into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 10 = 0
  · by_cases h1 : t.val % 10 = 9
    · exfalso; omega
    ·
        rw [show (dat1 V c).leavesExact 0 t = owns (c : Thread nD τ) (ms1_0 t) fullShare ((dat1 V c).after 0 t) from (by unfold Dat.leavesExact; rw [liveAt1_0 t]), after1_0]
        rw [show (dat1 V c).leavesExact 1 t = owns (c : Thread nD τ) (ms1_1 t) fullShare ((dat1 V c).after 1 t) from (by unfold Dat.leavesExact; rw [liveAt1_1 t]), after1_1]
        rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
        rw [outsAt1_A V c t h0 h1]
        unfold sout1_A_0; (try dsimp only)
        rw [PhiS1_castSucc V c t]
        iintro ⟨HΦ, Ho, ⟨%d0, H0⟩, ⟨%d1, H1⟩, ⟨%d2, H2⟩⟩
        ihave HΦ' := (PhiS1_pre V c _ _) $$ HΦ
        icases HΦ' with ⟨HS0, HR, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _)
          isplitl [HR]; · iexact HR
          iexact Hg
        isplitl [Ho]; · iexact Ho
        isplitl [H0]; · iexact H0
        isplitl [H1]; · iexact H1
        iexists _; iexact H2
  · by_cases h1 : t.val % 10 = 9
    ·
        rw [show (dat1 V c).leavesExact 0 t = owns (c : Thread nD τ) (ms1_0 t) fullShare ((dat1 V c).after 0 t) from (by unfold Dat.leavesExact; rw [liveAt1_0 t]), after1_0]
        rw [show (dat1 V c).leavesExact 1 t = owns (c : Thread nD τ) (ms1_1 t) fullShare ((dat1 V c).after 1 t) from (by unfold Dat.leavesExact; rw [liveAt1_1 t]), after1_1]
        rw [show (dat1 V c).leavesExact 2 t = owns (c : Thread nD τ) (ms1_2 t) fullShare ((dat1 V c).after 2 t) from (by unfold Dat.leavesExact; rw [liveAt1_2_C t (fun h => h0 ((hcond1_0 t).mp h)) ((hcond1_1 t).mpr h1)]), after1_2]
        rw [outsAt1_C V c t h0 h1]
        unfold out1_C_2 sout1_C_0; (try dsimp only)
        rw [PhiS1_castSucc V c t]
        rw [PhiS1_pos V c _ _ (by omega)]
        iintro ⟨⟨HS0, HR, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _)
          isplitl [HR]; · iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
        rw [show (dat1 V c).leavesExact 0 t = owns (c : Thread nD τ) (ms1_0 t) fullShare ((dat1 V c).after 0 t) from (by unfold Dat.leavesExact; rw [liveAt1_0 t]), after1_0]
        rw [show (dat1 V c).leavesExact 1 t = owns (c : Thread nD τ) (ms1_1 t) fullShare ((dat1 V c).after 1 t) from (by unfold Dat.leavesExact; rw [liveAt1_1 t]), after1_1]
        rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
        rw [outsAt1_B V c t h0 h1]
        unfold sout1_B_0; (try dsimp only)
        rw [PhiS1_castSucc V c t]
        rw [PhiS1_pos V c _ _ (by omega)]
        iintro ⟨⟨HS0, HR, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _)
          isplitl [HR]; · iexact HR
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HR, Hg⟩
  iapply (PhiA1_join c)
  isplitl [HS0]; · iexists _; iexact HS0
  isplitl [HR]; · iexact HR
  iexact Hg

theorem hout1 (c : Dev nD) : (dat1 V c).Φ (Fin.last cfg1.N) ⊢ Pipeline.ΦA spec1 c :=
  Phi_out1 V c _ (by rw [Fin.val_last]; have : cfg1.N = 100 := N_1; omega)

end Regions

end Cert.Kernel.Hand

end
-- ==== Proof.K.RegR3.Runs.lean ====
import proofs.«125395_j52793738002724_1_alg».proof.Proof.Gen.Kernel.Launch
import proofs.«125395_j52793738002724_1_alg».proof.Proof.Gen.Kernel.Skeleton
import proofs.«125395_j52793738002724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! # Region 3: the accumulating product, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Regions

/-! ## The body's two branch conditions, in closed form over the grid -/

/-- The first conditional's test: the reduction coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- The second conditional's test: the reduction coordinate is 9. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-! ## The memrefs the body is called on -/

/-- One staging buffer of the output window, through which its contents are stated. -/
abbrev VO3_2 : View sig .tc .vmem S1024x256 .f32 := (Memref.whole cc3_stg2_0 : Memref sig .tc .vmem S1024x256 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x256 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S1024x256 .f32 := Memref.whole cc3_scratch0
abbrev VS3_0 : View sig .tc .vmem S1024x256 .f32 := scM3_0.view

/-- The scoped buffers of the core other than this region's staging buffers and its accumulator, each at some contents. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant with the accumulator as a memref owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d)) ∗ (∃ r, prngReg c r)) := by
  unfold Pipeline.ΦA; rw [scopedRest3_eq]; simp only [scM3_0, owns_whole]; try rfl

/-- The class invariant hands over the accumulator at some contents, the other scoped buffers and the generator register, -/
theorem PhiA3_split (c : Dev nD) :
    (Pipeline.ΦA spec3 c : sProp 𝕄) ⊢ iprop((∃ d, owns (c : Thread nD τ) scM3_0 fullShare d) ∗ rest3 (F := F) c ∗ (∃ r, prngReg c r)) := by
  rw [PhiA3_eq]; unfold rest3
  iintro ⟨⟨HR0, HR1, HR2, HR3, HR4, HR5, HR6, HR7, HR8, HR9, HR10, HR11, HR12, HR13, HR14, HR15, HR16, HS0⟩, Hg⟩
  isplitl [HS0]; · iexact HS0
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  iexact HR16

/-- and takes them back. -/
theorem PhiA3_join (c : Dev nD) :
    iprop((∃ d, owns (c : Thread nD τ) scM3_0 fullShare d) ∗ rest3 (F := F) c ∗ (∃ r, prngReg c r)) ⊢ (Pipeline.ΦA spec3 c : sProp 𝕄) := by
  rw [PhiA3_eq]; unfold rest3
  iintro ⟨HS0, ⟨HR0, HR1, HR2, HR3, HR4, HR5, HR6, HR7, HR8, HR9, HR10, HR11, HR12, HR13, HR14, HR15, HR16⟩, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexact HS0

end Cert.Kernel.Hand

end
-- ==== Proof.K.RegR3.RunA.lean ====
import proofs.«125395_j52793738002724_1_alg».proof.Proof.K.RegR3.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the first reduction step (the accumulator is zeroed first; the output is not stored), with the
    triple of the body on whole memrefs: the two input blocks at their contents, the accumulator at anything,
    the output buffer handed back untouched. -/
noncomputable def kernelRun3_A (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__agg_kernel i arg2 harg2 arg3 harg3 arg4 harg4 arg5 harg5) K } := by
  refine ⟨[], ?_, fun xi2 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RegR3.RunB.lean ====
import proofs.«125395_j52793738002724_1_alg».proof.Proof.K.RegR3.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of a middle reduction step (neither conditional taken; the output is not stored), with the
    triple of the body on whole memrefs: the two input blocks at their contents, the accumulator at what the step before left,
    the output buffer handed back untouched. -/
noncomputable def kernelRun3_B (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__agg_kernel i arg2 harg2 arg3 harg3 arg4 harg4 arg5 harg5) K } := by
  refine ⟨[], ?_, fun xi2 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RegR3.RunC.lean ====
import proofs.«125395_j52793738002724_1_alg».proof.Proof.K.RegR3.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the last reduction step (the accumulator is copied to the output), with the
    triple of the body on whole memrefs: the two input blocks at their contents, the accumulator at what the step before left,
    the output buffer at anything, left with its pieces written. -/
noncomputable def kernelRun3_C (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__agg_kernel i arg2 harg2 arg3 harg3 arg4 harg4 arg5 harg5) K } := by
  refine ⟨?_, ?_, fun E K => ?run⟩
  case run =>
    simp only [cc3__agg_kernel_eq_skeleton]; unfold cc3__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.RegR3.lean ====
import proofs.«125395_j52793738002724_1_alg».proof.Proof.K.RegR3.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output's staging buffer (nothing is stored there: a placeholder nothing consults). -/
def out3_A_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) : Vec F S1024x256 .f32 :=
  VO3_2.read (Elt F) (VO3_2.writes (Elt F) VO3_2.junk (kernelRun3_A c i arg2 harg2 arg3 harg3 arg4 harg4 arg5 harg5 hc0 hc1 x0 x1).1)

/-- Case A's stores into the accumulator cover it. -/
theorem scover3_A_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) (y : S1024x256.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x256.size (by sl_kernel_rfl) y

/-- What case A leaves in the accumulator: its pieces read back. -/
def sout3_A_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) : Vec F S1024x256 .f32 :=
  VS3_0.read (Elt F) (VS3_0.writes (Elt F) VS3_0.junk (kernelRun3_A c i arg2 harg2 arg3 harg3 arg4 harg4 arg5 harg5 hc0 hc1 x0 x1).2.1)

/-- What case B leaves in the output's staging buffer (nothing is stored there: a placeholder nothing consults). -/
def out3_B_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) : Vec F S1024x256 .f32 :=
  VO3_2.read (Elt F) (VO3_2.writes (Elt F) VO3_2.junk (kernelRun3_B c i arg2 harg2 arg3 harg3 arg4 harg4 arg5 harg5 hc0 hc1 x0 x1 xs0).1)

/-- Case B's stores into the accumulator cover it. -/
theorem scover3_B_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) (y : S1024x256.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x256.size (by sl_kernel_rfl) y

/-- What case B leaves in the accumulator: its pieces read back. -/
def sout3_B_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) : Vec F S1024x256 .f32 :=
  VS3_0.read (Elt F) (VS3_0.writes (Elt F) VS3_0.junk (kernelRun3_B c i arg2 harg2 arg3 harg3 arg4 harg4 arg5 harg5 hc0 hc1 x0 x1 xs0).2.1)

/-- What case C leaves in the output's staging buffer: its pieces read back. -/
def out3_C_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) : Vec F S1024x256 .f32 :=
  VO3_2.read (Elt F) (VO3_2.writes (Elt F) VO3_2.junk (kernelRun3_C c i arg2 harg2 arg3 harg3 arg4 harg4 arg5 harg5 hc0 hc1 x0 x1 xs0).1)

/-- Case C's one store into the output covers its block. -/
theorem cover3_C_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) (y : S1024x256.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x256.size (by sl_kernel_rfl) y

/-- Case C's stores into the accumulator cover it. -/
theorem scover3_C_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) (y : S1024x256.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x256.size (by sl_kernel_rfl) y

/-- What case C leaves in the accumulator: its pieces read back. -/
def sout3_C_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) : Vec F S1024x256 .f32 :=
  VS3_0.read (Elt F) (VS3_0.writes (Elt F) VS3_0.junk (kernelRun3_C c i arg2 harg2 arg3 harg3 arg4 harg4 arg5 harg5 hc0 hc1 x0 x1 xs0).2.1)

/-! ## What the output buffer and the accumulator hold after each point -/

/-- After the body at position `n`: (the output's staging buffer, the accumulator), by recursion on the position — the
    case the position's reduction coordinate `n % 10` selects, run on the point's input blocks and, past a row block's
    first step, on what the position before left in the accumulator. -/
def outsAt3 (c : Dev nD) : (n : ℕ) → n < cfg3.N → Vec F S1024x256 .f32 × Vec F S1024x256 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 10 = 0 then
      if h1 : (n + 1) % 10 = 9 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 10 = 9 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS3 (c : Dev nD) : (n : ℕ) → n ≤ cfg3.N → sProp 𝕄
  | 0, _ => Pipeline.ΦA spec3 c
  | n + 1, hn => iprop(owns (c : Thread nD τ) scM3_0 fullShare ((outsAt3 V c n hn).2) ∗ rest3 (F := F) c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3_0 fullShare ((outsAt3 V c n hn).2) ∗ rest3 (F := F) c ∗ (∃ r, prngReg c r)) := rfl

theorem PhiS3_pos (c : Dev nD) (n : ℕ) (h : n ≤ cfg3.N) (hz : n ≠ 0) :
    PhiS3 V c n h = iprop(owns (c : Thread nD τ) scM3_0 fullShare ((outsAt3 V c (n - 1) (by omega)).2) ∗ rest3 (F := F) c ∗ (∃ r, prngReg c r)) := by
  cases n with
  | zero => exact absurd rfl hz
  | succ n => rfl

/-- At any position the invariant yields the accumulator at some contents, the other scoped buffers and the register. -/
theorem PhiS3_pre (c : Dev nD) (n : ℕ) (h : n ≤ cfg3.N) :
    PhiS3 V c n h ⊢ iprop((∃ d, owns (c : Thread nD τ) scM3_0 fullShare d) ∗ rest3 (F := F) c ∗ (∃ r, prngReg c r)) := by
  cases n with
  | zero => exact PhiA3_split c
  | succ n =>
    rw [PhiS3_succ]
    iintro ⟨HS0, HR, Hg⟩
    isplitl [HS0]; · iexists _; iexact HS0
    isplitl [HR]; · iexact HR
    iexact Hg

/-! ## The proof data -/

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the reduction coordinate selects the case; the
    invariant hands the body the accumulator (at what the point before left, or at anything where the body zeroes it
    first) and takes it back at this point's contents; the output's buffer is handed back untouched except at a row
    block's last step, where the body stores into it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 100 := lt_of_lt_of_eq t.isLt (show cfg3.N = 100 from N_3)
  by_cases h0 : t.val % 10 = 0
  · by_cases h1 : t.val % 10 = 9
    · exfalso; omega
    ·
        rw [show (dat3 V c).leavesExact 0 t = owns (c : Thread nD τ) (ms3_0 t) fullShare ((dat3 V c).after 0 t) from (by unfold Dat.leavesExact; rw [liveAt3_0 t]), after3_0]
        rw [show (dat3 V c).leavesExact 1 t = owns (c : Thread nD τ) (ms3_1 t) fullShare ((dat3 V c).after 1 t) from (by unfold Dat.leavesExact; rw [liveAt3_1 t]), after3_1]
        rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
        rw [outsAt3_A V c t h0 h1]
        unfold sout3_A_0; (try dsimp only)
        rw [PhiS3_castSucc V c t]
        iintro ⟨HΦ, Ho, ⟨%d0, H0⟩, ⟨%d1, H1⟩, ⟨%d2, H2⟩⟩
        ihave HΦ' := (PhiS3_pre V c _ _) $$ HΦ
        icases HΦ' with ⟨HS0, HR, Hg⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover3_A_0 c _ _ _ _ _ _ _ _ _ _ _ _ _)
          isplitl [HR]; · iexact HR
          iexact Hg
        isplitl [Ho]; · iexact Ho
        isplitl [H0]; · iexact H0
        isplitl [H1]; · iexact H1
        iexists _; iexact H2
  · by_cases h1 : t.val % 10 = 9
    ·
        rw [show (dat3 V c).leavesExact 0 t = owns (c : Thread nD τ) (ms3_0 t) fullShare ((dat3 V c).after 0 t) from (by unfold Dat.leavesExact; rw [liveAt3_0 t]), after3_0]
        rw [show (dat3 V c).leavesExact 1 t = owns (c : Thread nD τ) (ms3_1 t) fullShare ((dat3 V c).after 1 t) from (by unfold Dat.leavesExact; rw [liveAt3_1 t]), after3_1]
        rw [show (dat3 V c).leavesExact 2 t = owns (c : Thread nD τ) (ms3_2 t) fullShare ((dat3 V c).after 2 t) from (by unfold Dat.leavesExact; rw [liveAt3_2_C t (fun h => h0 ((hcond3_0 t).mp h)) ((hcond3_1 t).mpr h1)]), after3_2]
        rw [outsAt3_C V c t h0 h1]
        unfold out3_C_2 sout3_C_0; (try dsimp only)
        rw [PhiS3_castSucc V c t]
        rw [PhiS3_pos V c _ _ (by omega)]
        iintro ⟨⟨HS0, HR, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0]
          · unfold owns; iexists _; isplitr
            swap; · iexact HS0
            ipureintro; exact View.read_writes_of_cover _ _ _ _ _ (scover3_C_0 c _ _ _ _ _ _ _ _ _ _ _ _ _ _)
          isplitl [HR]; · iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    ·
        rw [show (dat3 V c).leavesExact 0 t = owns (c : Thread nD τ) (ms3_0 t) fullShare ((dat3 V c).after 0 t) from (by unfold Dat.leavesExact; rw [liveAt3_0 t]), after3_0]
        rw [show (dat3 V c).leavesExact 1 t = owns (c : Thread nD τ) (ms3_1 t) fullShare ((dat3 V c).after 1 t) from (by unfold Dat.leavesExact; rw [liveAt3_1 t]), after3_1]
        rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
        rw [outsAt3_B V c t h0 h1]
        unfold sout3_B_0; (try dsimp only)
        rw [PhiS3_castSucc V c t]
        rw [PhiS3_pos V c _ _ (by omega)]
        iintro ⟨⟨HS0, HR, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover3_B_0 c _ _ _ _ _ _ _ _ _ _ _ _ _ _)
          isplitl [HR]; · iexact HR
          iexact Hg
        isplitl [Ho]; · iexact Ho
        isplitl [H0]; · iexact H0
        isplitl [H1]; · iexact H1
        iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  iintro ⟨HS0, HR, Hg⟩
  iapply (PhiA3_join c)
  isplitl [HS0]; · iexists _; iexact HS0
  isplitl [HR]; · iexact HR
  iexact Hg

theorem hout3 (c : Dev nD) : (dat3 V c).Φ (Fin.last cfg3.N) ⊢ Pipeline.ΦA spec3 c :=
  Phi_out3 V c _ (by rw [Fin.val_last]; have : cfg3.N = 100 := N_3; omega)

end Regions

end Cert.Kernel.Hand

end
-- ==== Proof.K.Kernels.lean ====
/-
  The four kernels' records for the program's run: the two plain products (regions 0 and 2: the class invariant at
  both ends, by definition) and the two accumulating products (regions 1 and 3: the invariant that carries the
  accumulator, entered from and left to the class invariant).
-/
import proofs.«125395_j52793738002724_1_alg».proof.Proof.K.Run
import proofs.«125395_j52793738002724_1_alg».proof.Proof.K.RegA
import proofs.«125395_j52793738002724_1_alg».proof.Proof.K.RegR1
import proofs.«125395_j52793738002724_1_alg».proof.Proof.K.RegR3

noncomputable section

namespace Cert.Kernel.Hand

open Cert.Kernel Cert.Kernel.Gen
open Idealize.ShloMosaic Idealize.ShloMosaic.TcCoe
open Idealize.SL Idealize.SL.BI
open scoped Idealize.SL.BI

variable {F : FTy → Type} [FloatOps F]

/-- What the run needs of the four kernels, from their proof data. -/
def kernels : Kernels F where
  dat0 := dat0
  hA0 := A_eq0
  hq0 := fun _ _ _ => rfl
  how0 := fun _ _ _ => rfl
  hrec0 := fun _ _ _ => rfl
  hbo0 := body_obligation0
  hin0 := fun _ _ => .rfl
  hout0 := fun _ _ => .rfl
  dat1 := dat1
  hA1 := A_eq1
  hq1 := fun _ _ _ => rfl
  how1 := fun _ _ _ => rfl
  hrec1 := fun _ _ _ => rfl
  hbo1 := body_obligation1
  hin1 := hin1
  hout1 := hout1
  dat2 := dat2
  hA2 := A_eq2
  hq2 := fun _ _ _ => rfl
  how2 := fun _ _ _ => rfl
  hrec2 := fun _ _ _ => rfl
  hbo2 := body_obligation2
  hin2 := fun _ _ => .rfl
  hout2 := fun _ _ => .rfl
  dat3 := dat3
  hA3 := A_eq3
  hq3 := fun _ _ _ => rfl
  how3 := fun _ _ _ => rfl
  hrec3 := fun _ _ _ => rfl
  hbo3 := body_obligation3
  hin3 := hin3
  hout3 := hout3

end Cert.Kernel.Hand

end
-- ==== Proof.KI.RunCond.lean ====
/-
  The program's run with its result NAMED. The program is a chain of host stretches and four kernel regions; between two
  items every unscoped buffer of a core is held at a valuation (the launch contents, each host stretch folded over it,
  each region's output array replaced by what the region leaves). Given one region record per kernel region, entered from
  the valuation before it and left at the one after it, the chain runs from the launch to the end, and the final memory is
  the last valuation: in particular the result buffer holds that valuation's contents and every argument is unchanged.
-/
import proofs.«125395_j52793738002724_1_alg».proof.Proof.Gen.KernelIdeal.Regions

set_option maxRecDepth 1080

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- The run of the whole program, given the four regions' records: every weakly fair execution from memory `m` with zero
    counters terminates, and every final memory holds the result buffer at the last valuation's contents (the host
    operations folded over what the regions leave, `outs`) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c)) :
    θ_run defs (onTc (τ := τ) (main (F := F))) ⟨m, fun _ => 0, ρ⟩ (fun r => ∀ c : Dev nD,
      r.2.mem ((c.tc : Thread nD τ).loc main_v85) = V17 m outs c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, .rfl, .rfl, hpre0 c, hpost0 c, hpre1 c, hpost1 c, .rfl, .rfl, hpre2 c, hpost2 c, hpre3 c, hpost3 c, sep_mono .rfl (hE4 c)⟩)
    (hinit := ?_) (QY := fun c s => s.mem ((c.tc : Thread nD τ).loc main_v85) = V17 m outs c (Proc.devRef .tc main_v85) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v85) (Finset.mem_filter.mpr ⟨StableHlo.devRef_mem_tcRefs main_v85, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c)⟩
    · iexact HSI

end Cert.KernelIdeal.Gen

end
-- ==== Proof.KI.Run.lean ====
/-
  The four kernel regions as segments of the program's chain, and the program's run with its result named.

  Each region is entered with every unscoped buffer of the core held at a valuation and leaves them at the next one:
  the region's arrays are split out of the buffers, the pipeline runs over them (the body obligation at every grid
  point), and they are put back at what the write-backs leave — the input arrays as entered, the output array at the
  pipeline's final contents. The valuations are folded from the launch memory: a host stretch's operations applied, a
  region's output array replaced. What a region needs of its kernel is collected in one record (the proof datum at any
  entry contents, its arrays, shares and dues, the body obligation, and the invariant's two ends against the class's
  invariant), so that this module is independent of how each kernel's body is run.
-/
import proofs.«125395_j52793738002724_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A core-indexed valuation of the TensorCore's references. -/
abbrev VT (F : FTy → Type) [FloatOps F] : Type := (c : Dev nD) → (b : Ref sig .tc) → Buf (Elt F) ((c : Thread nD τ).loc b)

/-- What the run needs of the four kernels: for each region, at any entry contents `V`, the pipeline's proof datum
    with its arrays read off `V`, full shares, nothing owed, the body obligation, and the invariant entered from and
    left to the class's invariant. -/
structure Kernels (F : FTy → Type) [FloatOps F] where
  dat0 : VT F → (c : Dev nD) → Dat τ (Elt F) Unit ℕ (Pipeline.UD sig nD τ) ℕ cfg0 c
  hA0 : ∀ (V : VT F) c w, (dat0 V c).A w = V c (Pipeline.arrRef spec0 w)
  hq0 : ∀ (V : VT F) c w, (dat0 V c).q w = fullShare
  how0 : ∀ (V : VT F) c t, (dat0 V c).owed t = 0
  hrec0 : ∀ (V : VT F) c t, (dat0 V c).recorded t = Set.univ
  hbo0 : ∀ (V : VT F) c, BodyObligation (dat0 V c) (defs₀ (F := F)) Variants.none () Set.univ
  hin0 : ∀ (V : VT F) c, (Pipeline.ΦA spec0 c : sProp (MT nD τ sig Unit (Elt F) ℕ (Pipeline.UD sig nD τ) ℕ)) ⊢ (dat0 V c).Φ 0
  hout0 : ∀ (V : VT F) c, (dat0 V c).Φ (Fin.last cfg0.N) ⊢ (Pipeline.ΦA spec0 c : sProp (MT nD τ sig Unit (Elt F) ℕ (Pipeline.UD sig nD τ) ℕ))
  dat1 : VT F → (c : Dev nD) → Dat τ (Elt F) Unit ℕ (Pipeline.UD sig nD τ) ℕ cfg1 c
  hA1 : ∀ (V : VT F) c w, (dat1 V c).A w = V c (Pipeline.arrRef spec1 w)
  hq1 : ∀ (V : VT F) c w, (dat1 V c).q w = fullShare
  how1 : ∀ (V : VT F) c t, (dat1 V c).owed t = 0
  hrec1 : ∀ (V : VT F) c t, (dat1 V c).recorded t = Set.univ
  hbo1 : ∀ (V : VT F) c, BodyObligation (dat1 V c) (defs₀ (F := F)) Variants.none () Set.univ
  hin1 : ∀ (V : VT F) c, (Pipeline.ΦA spec1 c : sProp (MT nD τ sig Unit (Elt F) ℕ (Pipeline.UD sig nD τ) ℕ)) ⊢ (dat1 V c).Φ 0
  hout1 : ∀ (V : VT F) c, (dat1 V c).Φ (Fin.last cfg1.N) ⊢ (Pipeline.ΦA spec1 c : sProp (MT nD τ sig Unit (Elt F) ℕ (Pipeline.UD sig nD τ) ℕ))
  dat2 : VT F → (c : Dev nD) → Dat τ (Elt F) Unit ℕ (Pipeline.UD sig nD τ) ℕ cfg2 c
  hA2 : ∀ (V : VT F) c w, (dat2 V c).A w = V c (Pipeline.arrRef spec2 w)
  hq2 : ∀ (V : VT F) c w, (dat2 V c).q w = fullShare
  how2 : ∀ (V : VT F) c t, (dat2 V c).owed t = 0
  hrec2 : ∀ (V : VT F) c t, (dat2 V c).recorded t = Set.univ
  hbo2 : ∀ (V : VT F) c, BodyObligation (dat2 V c) (defs₀ (F := F)) Variants.none () Set.univ
  hin2 : ∀ (V : VT F) c, (Pipeline.ΦA spec2 c : sProp (MT nD τ sig Unit (Elt F) ℕ (Pipeline.UD sig nD τ) ℕ)) ⊢ (dat2 V c).Φ 0
  hout2 : ∀ (V : VT F) c, (dat2 V c).Φ (Fin.last cfg2.N) ⊢ (Pipeline.ΦA spec2 c : sProp (MT nD τ sig Unit (Elt F) ℕ (Pipeline.UD sig nD τ) ℕ))
  dat3 : VT F → (c : Dev nD) → Dat τ (Elt F) Unit ℕ (Pipeline.UD sig nD τ) ℕ cfg3 c
  hA3 : ∀ (V : VT F) c w, (dat3 V c).A w = V c (Pipeline.arrRef spec3 w)
  hq3 : ∀ (V : VT F) c w, (dat3 V c).q w = fullShare
  how3 : ∀ (V : VT F) c t, (dat3 V c).owed t = 0
  hrec3 : ∀ (V : VT F) c t, (dat3 V c).recorded t = Set.univ
  hbo3 : ∀ (V : VT F) c, BodyObligation (dat3 V c) (defs₀ (F := F)) Variants.none () Set.univ
  hin3 : ∀ (V : VT F) c, (Pipeline.ΦA spec3 c : sProp (MT nD τ sig Unit (Elt F) ℕ (Pipeline.UD sig nD τ) ℕ)) ⊢ (dat3 V c).Φ 0
  hout3 : ∀ (V : VT F) c, (dat3 V c).Φ (Fin.last cfg3.N) ⊢ (Pipeline.ΦA spec3 c : sProp (MT nD τ sig Unit (Elt F) ℕ (Pipeline.UD sig nD τ) ℕ))

variable (D : Kernels F) (m : (ℓ : Loc nD τ sig) → Buf (Elt F) ℓ) (ρ : Dev nD → PrngReg)

/-! ## The valuations between the items, and what each region leaves -/

/-- Entry of region 0: the launch memory with the first host stretches folded over it. -/
abbrev V7a (c : Dev nD) : Valuation τ sig (Elt F) := V7 m c
abbrev V7a' : VT F := fun c b => V7a m c b
/-- What region 0 leaves in its output array. -/
def o8 (c : Dev nD) : Buf (Elt F) ((c : Thread nD τ).loc main_v57) := (D.dat0 (V7a' m) c).arrAt 2 cfg0.N
abbrev V8a (c : Dev nD) : Valuation τ sig (Elt F) := Function.update (V7a m c) main_v57 (o8 D m c)
abbrev V9a (c : Dev nD) : Valuation τ sig (Elt F) := StableHlo.after hostOps1 (V8a D m c)
abbrev V9a' : VT F := fun c b => V9a D m c b
def o10 (c : Dev nD) : Buf (Elt F) ((c : Thread nD τ).loc main_v62) := (D.dat1 (V9a' D m) c).arrAt 2 cfg1.N
abbrev V10a (c : Dev nD) : Valuation τ sig (Elt F) := Function.update (V9a D m c) main_v62 (o10 D m c)
abbrev V13a (c : Dev nD) : Valuation τ sig (Elt F) := StableHlo.after hostOps2_2 (StableHlo.after hostOps2_1 (StableHlo.after hostOps2 (V10a D m c)))
abbrev V13a' : VT F := fun c b => V13a D m c b
def o14 (c : Dev nD) : Buf (Elt F) ((c : Thread nD τ).loc main_v71) := (D.dat2 (V13a' D m) c).arrAt 2 cfg2.N
abbrev V14a (c : Dev nD) : Valuation τ sig (Elt F) := Function.update (V13a D m c) main_v71 (o14 D m c)
abbrev V15a (c : Dev nD) : Valuation τ sig (Elt F) := StableHlo.after hostOps3 (V14a D m c)
abbrev V15a' : VT F := fun c b => V15a D m c b
def o16 (c : Dev nD) : Buf (Elt F) ((c : Thread nD τ).loc main_v76) := (D.dat3 (V15a' D m) c).arrAt 2 cfg3.N
abbrev V16a (c : Dev nD) : Valuation τ sig (Elt F) := Function.update (V15a D m c) main_v76 (o16 D m c)

/-- What the regions leave, as the family the chain's valuations are written over. -/
def outsF : Outs (F := F) := fun _ r c =>
  if h : (main_v57 : Ref sig .tc) = r then h ▸ o8 D m c
  else if h : (main_v62 : Ref sig .tc) = r then h ▸ o10 D m c
  else if h : (main_v71 : Ref sig .tc) = r then h ▸ o14 D m c
  else if h : (main_v76 : Ref sig .tc) = r then h ▸ o16 D m c
  else V7 m c r

theorem outs_8 (c : Dev nD) : outsF D m 8 main_v57 c = o8 D m c := by unfold outsF; rw [dif_pos rfl]
theorem outs_10 (c : Dev nD) : outsF D m 10 main_v62 c = o10 D m c := by unfold outsF; rw [dif_neg (by decide), dif_pos rfl]
theorem outs_14 (c : Dev nD) : outsF D m 14 main_v71 c = o14 D m c := by unfold outsF; rw [dif_neg (by decide), dif_neg (by decide), dif_pos rfl]
theorem outs_16 (c : Dev nD) : outsF D m 16 main_v76 c = o16 D m c := by unfold outsF; rw [dif_neg (by decide), dif_neg (by decide), dif_neg (by decide), dif_pos rfl]

theorem V8_eq (c : Dev nD) : V8 m (outsF D m) c = V8a D m c := by
  show Function.update (V7 m c) main_v57 (outsF D m 8 main_v57 c) = _; rw [outs_8]
theorem V9_eq (c : Dev nD) : V9 m (outsF D m) c = V9a D m c := by
  show StableHlo.after hostOps1 (V8 m (outsF D m) c) = _; rw [V8_eq]
theorem V10_eq (c : Dev nD) : V10 m (outsF D m) c = V10a D m c := by
  show Function.update (V9 m (outsF D m) c) main_v62 (outsF D m 10 main_v62 c) = _; rw [outs_10, V9_eq]
theorem V13_eq (c : Dev nD) : V13 m (outsF D m) c = V13a D m c := by
  show StableHlo.after hostOps2_2 (StableHlo.after hostOps2_1 (StableHlo.after hostOps2 (V10 m (outsF D m) c))) = _; rw [V10_eq]
theorem V14_eq (c : Dev nD) : V14 m (outsF D m) c = V14a D m c := by
  show Function.update (V13 m (outsF D m) c) main_v71 (outsF D m 14 main_v71 c) = _; rw [outs_14, V13_eq]
theorem V15_eq (c : Dev nD) : V15 m (outsF D m) c = V15a D m c := by
  show StableHlo.after hostOps3 (V14 m (outsF D m) c) = _; rw [V14_eq]
theorem V16_eq (c : Dev nD) : V16 m (outsF D m) c = V16a D m c := by
  show Function.update (V15 m (outsF D m) c) main_v76 (outsF D m 16 main_v76 c) = _; rw [outs_16, V15_eq]

/-- A valuation updated at one reference, read at another. -/
theorem upd_of_ne (W : Valuation τ sig (Elt F)) (o : Ref sig .tc) (v : BufTy.Contents (Elt F) (Proc.devRef (τ := τ) .tc o).ty) (r : Ref sig .tc) (h : r ≠ o) :
    Function.update W (Proc.devRef .tc o) v (Proc.devRef .tc r) = W (Proc.devRef .tc r) :=
  Function.update_of_ne (StableHlo.devRef_ne_of_ne h : (Proc.devRef .tc r : DevRef τ sig) ≠ Proc.devRef .tc o) _ _

/-! ## The proof data family and the thread state -/

/-- Every pipeline's proof datum, each at its region's entry contents (a literal match, so that the pinned
    configuration at a numeral reduces to the printed one). -/
def pdats : (p : Fin 4) → (c : Dev nD) → Dat τ (Elt F) Unit ℕ (Pipeline.UD sig nD τ) ℕ (cfgs p) c
  | ⟨0, _⟩ => fun c => D.dat0 (V7a' m) c
  | ⟨1, _⟩ => fun c => D.dat1 (V9a' D m) c
  | ⟨2, _⟩ => fun c => D.dat2 (V13a' D m) c
  | ⟨3, _⟩ => fun c => D.dat3 (V15a' D m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- At region 0's exit each of its arrays holds what the pipeline leaves: the two input arrays as entered, the output
    array the write-backs folded. -/
theorem hF0 (c : Dev nD) (w : Fin cfg0.W) : (pdats D m 0 c).arrAt w cfg0.N = V8a D m c (Pipeline.arrRef spec0 w) := by
  match w with
  | ⟨0, _⟩ =>
    show (D.dat0 (V7a' m) c).arrAt 0 cfg0.N = Function.update (V7a m c) (Proc.devRef .tc main_v57) (o8 D m c) (Proc.devRef .tc main_v54)
    exact (((D.dat0 (V7a' m) c).arrAt_in 0 rfl _).trans (D.hA0 _ c 0)).trans (upd_of_ne (V7a m c) main_v57 (o8 D m c) main_v54 (by decide)).symm
  | ⟨1, _⟩ =>
    show (D.dat0 (V7a' m) c).arrAt 1 cfg0.N = Function.update (V7a m c) (Proc.devRef .tc main_v57) (o8 D m c) (Proc.devRef .tc main_v55)
    exact (((D.dat0 (V7a' m) c).arrAt_in 1 rfl _).trans (D.hA0 _ c 1)).trans (upd_of_ne (V7a m c) main_v57 (o8 D m c) main_v55 (by decide)).symm
  | ⟨2, _⟩ =>
    show (D.dat0 (V7a' m) c).arrAt 2 cfg0.N = Function.update (V7a m c) (Proc.devRef .tc main_v57) (o8 D m c) (Proc.devRef .tc main_v57)
    exact (Function.update_self (Proc.devRef .tc main_v57) (o8 D m c) (V7a m c)).symm
/-- Every buffer that is none of the region's arrays is as entered. -/
theorem hrest0 (c : Dev nD) : ∀ b : Ref sig .tc, b ∉ Finset.univ.image (Pipeline.arrRef spec0) → V8a D m c b = V7a' m c b :=
  fun b hb => upd_of_ne (V7a m c) main_v57 (o8 D m c) b (fun e => hb (Finset.mem_image.mpr ⟨2, Finset.mem_univ _, e.symm⟩))

set_option backward.isDefEq.respectTransparency.types false in
/-- The class invariant of region 0 from the generator register and the scoped buffers no window stages (no table). -/
theorem phiA_in0 (c : Dev nD) :
    (iprop((∃ r, prngReg c r) ∗ Pipeline.prefHeld (pcfgs (F := F) 0).pre c (fun _ => fullShare) (adm (F := F) 0).1
      ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp
set_option backward.isDefEq.respectTransparency.types false in
/-- … and back. -/
theorem phiA_out0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

/-- At region 1's exit each of its arrays holds what the pipeline leaves: the two input arrays as entered, the output
    array the write-backs folded. -/
theorem hF1 (c : Dev nD) (w : Fin cfg1.W) : (pdats D m 1 c).arrAt w cfg1.N = V10a D m c (Pipeline.arrRef spec1 w) := by
  match w with
  | ⟨0, _⟩ =>
    show (D.dat1 (V9a' D m) c).arrAt 0 cfg1.N = Function.update (V9a D m c) (Proc.devRef .tc main_v62) (o10 D m c) (Proc.devRef .tc main_v51)
    exact (((D.dat1 (V9a' D m) c).arrAt_in 0 rfl _).trans (D.hA1 _ c 0)).trans (upd_of_ne (V9a D m c) main_v62 (o10 D m c) main_v51 (by decide)).symm
  | ⟨1, _⟩ =>
    show (D.dat1 (V9a' D m) c).arrAt 1 cfg1.N = Function.update (V9a D m c) (Proc.devRef .tc main_v62) (o10 D m c) (Proc.devRef .tc main_v61)
    exact (((D.dat1 (V9a' D m) c).arrAt_in 1 rfl _).trans (D.hA1 _ c 1)).trans (upd_of_ne (V9a D m c) main_v62 (o10 D m c) main_v61 (by decide)).symm
  | ⟨2, _⟩ =>
    show (D.dat1 (V9a' D m) c).arrAt 2 cfg1.N = Function.update (V9a D m c) (Proc.devRef .tc main_v62) (o10 D m c) (Proc.devRef .tc main_v62)
    exact (Function.update_self (Proc.devRef .tc main_v62) (o10 D m c) (V9a D m c)).symm
/-- Every buffer that is none of the region's arrays is as entered. -/
theorem hrest1 (c : Dev nD) : ∀ b : Ref sig .tc, b ∉ Finset.univ.image (Pipeline.arrRef spec1) → V10a D m c b = V9a' D m c b :=
  fun b hb => upd_of_ne (V9a D m c) main_v62 (o10 D m c) b (fun e => hb (Finset.mem_image.mpr ⟨2, Finset.mem_univ _, e.symm⟩))

set_option backward.isDefEq.respectTransparency.types false in
/-- The class invariant of region 1 from the generator register and the scoped buffers no window stages (no table). -/
theorem phiA_in1 (c : Dev nD) :
    (iprop((∃ r, prngReg c r) ∗ Pipeline.prefHeld (pcfgs (F := F) 1).pre c (fun _ => fullShare) (adm (F := F) 1).1
      ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp
set_option backward.isDefEq.respectTransparency.types false in
/-- … and back. -/
theorem phiA_out1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

/-- At region 2's exit each of its arrays holds what the pipeline leaves: the two input arrays as entered, the output
    array the write-backs folded. -/
theorem hF2 (c : Dev nD) (w : Fin cfg2.W) : (pdats D m 2 c).arrAt w cfg2.N = V14a D m c (Pipeline.arrRef spec2 w) := by
  match w with
  | ⟨0, _⟩ =>
    show (D.dat2 (V13a' D m) c).arrAt 0 cfg2.N = Function.update (V13a D m c) (Proc.devRef .tc main_v71) (o14 D m c) (Proc.devRef .tc main_v70)
    exact (((D.dat2 (V13a' D m) c).arrAt_in 0 rfl _).trans (D.hA2 _ c 0)).trans (upd_of_ne (V13a D m c) main_v71 (o14 D m c) main_v70 (by decide)).symm
  | ⟨1, _⟩ =>
    show (D.dat2 (V13a' D m) c).arrAt 1 cfg2.N = Function.update (V13a D m c) (Proc.devRef .tc main_v71) (o14 D m c) (Proc.devRef .tc main_v56)
    exact (((D.dat2 (V13a' D m) c).arrAt_in 1 rfl _).trans (D.hA2 _ c 1)).trans (upd_of_ne (V13a D m c) main_v71 (o14 D m c) main_v56 (by decide)).symm
  | ⟨2, _⟩ =>
    show (D.dat2 (V13a' D m) c).arrAt 2 cfg2.N = Function.update (V13a D m c) (Proc.devRef .tc main_v71) (o14 D m c) (Proc.devRef .tc main_v71)
    exact (Function.update_self (Proc.devRef .tc main_v71) (o14 D m c) (V13a D m c)).symm
/-- Every buffer that is none of the region's arrays is as entered. -/
theorem hrest2 (c : Dev nD) : ∀ b : Ref sig .tc, b ∉ Finset.univ.image (Pipeline.arrRef spec2) → V14a D m c b = V13a' D m c b :=
  fun b hb => upd_of_ne (V13a D m c) main_v71 (o14 D m c) b (fun e => hb (Finset.mem_image.mpr ⟨2, Finset.mem_univ _, e.symm⟩))

set_option backward.isDefEq.respectTransparency.types false in
/-- The class invariant of region 2 from the generator register and the scoped buffers no window stages (no table). -/
theorem phiA_in2 (c : Dev nD) :
    (iprop((∃ r, prngReg c r) ∗ Pipeline.prefHeld (pcfgs (F := F) 2).pre c (fun _ => fullShare) (adm (F := F) 2).1
      ∗ Pipeline.scopedRest (Pipeline.pin (pcfgs (F := F)) adm 2).spec c) : sProp 𝕄) ⊢ Pipeline.ΦA spec2 c := by
  unfold Pipeline.ΦA
  iintro ⟨Hp, -, Hr⟩
  isplitl [Hr]; · iexact Hr
  iexact Hp
set_option backward.isDefEq.respectTransparency.types false in
/-- … and back. -/
theorem phiA_out2 (c : Dev nD) :
    (Pipeline.ΦA spec2 c : sProp 𝕄) ⊢ iprop((∃ r, prngReg c r) ∗ BI.emp ∗ Pipeline.scopedRest (Pipeline.pin (pcfgs (F := F)) adm 2).spec c) := by
  unfold Pipeline.ΦA
  iintro ⟨Hr, Hp⟩
  isplitl [Hp]; · iexact Hp
  isplitr; · iempintro
  iexact Hr

/-- At region 3's exit each of its arrays holds what the pipeline leaves: the two input arrays as entered, the output
    array the write-backs folded. -/
theorem hF3 (c : Dev nD) (w : Fin cfg3.W) : (pdats D m 3 c).arrAt w cfg3.N = V16a D m c (Pipeline.arrRef spec3 w) := by
  match w with
  | ⟨0, _⟩ =>
    show (D.dat3 (V15a' D m) c).arrAt 0 cfg3.N = Function.update (V15a D m c) (Proc.devRef .tc main_v76) (o16 D m c) (Proc.devRef .tc main_v51)
    exact (((D.dat3 (V15a' D m) c).arrAt_in 0 rfl _).trans (D.hA3 _ c 0)).trans (upd_of_ne (V15a D m c) main_v76 (o16 D m c) main_v51 (by decide)).symm
  | ⟨1, _⟩ =>
    show (D.dat3 (V15a' D m) c).arrAt 1 cfg3.N = Function.update (V15a D m c) (Proc.devRef .tc main_v76) (o16 D m c) (Proc.devRef .tc main_v75)
    exact (((D.dat3 (V15a' D m) c).arrAt_in 1 rfl _).trans (D.hA3 _ c 1)).trans (upd_of_ne (V15a D m c) main_v76 (o16 D m c) main_v75 (by decide)).symm
  | ⟨2, _⟩ =>
    show (D.dat3 (V15a' D m) c).arrAt 2 cfg3.N = Function.update (V15a D m c) (Proc.devRef .tc main_v76) (o16 D m c) (Proc.devRef .tc main_v76)
    exact (Function.update_self (Proc.devRef .tc main_v76) (o16 D m c) (V15a D m c)).symm
/-- Every buffer that is none of the region's arrays is as entered. -/
theorem hrest3 (c : Dev nD) : ∀ b : Ref sig .tc, b ∉ Finset.univ.image (Pipeline.arrRef spec3) → V16a D m c b = V15a' D m c b :=
  fun b hb => upd_of_ne (V15a D m c) main_v76 (o16 D m c) b (fun e => hb (Finset.mem_image.mpr ⟨2, Finset.mem_univ _, e.symm⟩))

set_option backward.isDefEq.respectTransparency.types false in
/-- The class invariant of region 3 from the generator register and the scoped buffers no window stages (no table). -/
theorem phiA_in3 (c : Dev nD) :
    (iprop((∃ r, prngReg c r) ∗ Pipeline.prefHeld (pcfgs (F := F) 3).pre c (fun _ => fullShare) (adm (F := F) 3).1
      ∗ Pipeline.scopedRest (Pipeline.pin (pcfgs (F := F)) adm 3).spec c) : sProp 𝕄) ⊢ Pipeline.ΦA spec3 c := by
  unfold Pipeline.ΦA
  iintro ⟨Hp, -, Hr⟩
  isplitl [Hr]; · iexact Hr
  iexact Hp
set_option backward.isDefEq.respectTransparency.types false in
/-- … and back. -/
theorem phiA_out3 (c : Dev nD) :
    (Pipeline.ΦA spec3 c : sProp 𝕄) ⊢ iprop((∃ r, prngReg c r) ∗ BI.emp ∗ Pipeline.scopedRest (Pipeline.pin (pcfgs (F := F)) adm 3).spec c) := by
  unfold Pipeline.ΦA
  iintro ⟨Hr, Hp⟩
  isplitl [Hp]; · iexact Hp
  isplitr; · iempintro
  iexact Hr

-- library lemmas stated over the pinned configuration unify with the printed one only when unification may unfold plain
-- definitions in a metavariable's type
set_option backward.isDefEq.respectTransparency.types false in
/-- Region 0 over the thread state: entered from every unscoped buffer at its entry valuation, left at the next. Its
    arrays are split out of the unscoped buffers and put back at the exit contents; the generator register goes into
    the class invariant and comes back; nothing is owed; the kernel has no semaphore of its own. -/
def reg0 : Pipeline.RegionSeg (pcfgs (F := F)) adm (pdats D m) () defs₀ 𝒱₀ L lv 0 where
  win := launch0.win.to₀
  block_pos := launch0.block_pos
  stage_whole := launch0.stage_whole
  K := PEmpty
  osem k := k.elim
  ho := Pipeline.OwnSemFacts.none _
  hbody c := (D.hbo0 (V7a' m) c).loose
  hwaits := Pipeline.hwaits_of_owed_zero _ _ _ _ L lv 0 fun c t => D.how0 _ c t
  pre c := iprop(StableHlo.held (c : Thread nD τ) (Pipeline.ucRefs τ sig) (V7a m c) ∗ R c)
  post c := iprop(StableHlo.held (c : Thread nD τ) (Pipeline.ucRefs τ sig) (V8a D m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V7a' m c)
  hentry c := by
    rw [Pipeline.ownSems0_none]
    have hsplit := Pipeline.arrays_of_unscopedBufs (p := 0) (pcfgs (F := F)) adm (pdats D m) launch0.win launch0.arr_whole c
      ((pdats D m 0 c).share_full fun w => D.hq0 _ c w) (V7a' m c) fun w => D.hA0 _ c w
    rw [Pipeline.unscopedBufs_held] at hsplit
    have h0 : (pdats D m 0 c).owed 0 = 0 := D.how0 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec0 _ c 0).symm ▸ Set.mem_univ x)
      iexact HO
    isplitl [Hp]; · iexact Hp
    iexact Hrest
  hin c := (phiA_in0 c).trans (D.hin0 (V7a' m) c)
  hout c := by
    rw [Pipeline.ownSems0_none]
    exact (D.hout0 (V7a' m) c).trans (phiA_out0 c)
  hexit c := by
    have hjoin := Pipeline.unscopedBufs_of_arrays (p := 0) (pcfgs (F := F)) adm (Ix := Unit) (Name := ℕ) (U := Pipeline.UD sig nD τ) (Lvl := ℕ)
      launch0.win launch0.arr_whole c (pdats D m) ((pdats D m 0 c).share_full fun w => D.hq0 _ c w)
      (V7a' m c) (fun b => V8a D m c b) ((pdats D m 0 c).arrAt · cfg0.N) (hF0 D m c) (hrest0 D m c)
    rw [Pipeline.unscopedBufs_held] at hjoin
    have hN : (pdats D m 0 c).owed (Fin.last (Pipeline.pin (pcfgs (F := F)) adm 0).N) = 0 := D.how0 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

-- library lemmas stated over the pinned configuration unify with the printed one only when unification may unfold plain
-- definitions in a metavariable's type
set_option backward.isDefEq.respectTransparency.types false in
/-- Region 1 over the thread state: entered from every unscoped buffer at its entry valuation, left at the next. Its
    arrays are split out of the unscoped buffers and put back at the exit contents; the generator register goes into
    the class invariant and comes back; nothing is owed; the kernel has no semaphore of its own. -/
def reg1 : Pipeline.RegionSeg (pcfgs (F := F)) adm (pdats D m) () defs₀ 𝒱₀ L lv 1 where
  win := launch1.win.to₀
  block_pos := launch1.block_pos
  stage_whole := launch1.stage_whole
  K := PEmpty
  osem k := k.elim
  ho := Pipeline.OwnSemFacts.none _
  hbody c := (D.hbo1 (V9a' D m) c).loose
  hwaits := Pipeline.hwaits_of_owed_zero _ _ _ _ L lv 1 fun c t => D.how1 _ c t
  pre c := iprop(StableHlo.held (c : Thread nD τ) (Pipeline.ucRefs τ sig) (V9a D m c) ∗ R c)
  post c := iprop(StableHlo.held (c : Thread nD τ) (Pipeline.ucRefs τ sig) (V10a D m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V9a' D m c)
  hentry c := by
    rw [Pipeline.ownSems0_none]
    have hsplit := Pipeline.arrays_of_unscopedBufs (p := 1) (pcfgs (F := F)) adm (pdats D m) launch1.win launch1.arr_whole c
      ((pdats D m 1 c).share_full fun w => D.hq1 _ c w) (V9a' D m c) fun w => D.hA1 _ c w
    rw [Pipeline.unscopedBufs_held] at hsplit
    have h0 : (pdats D m 1 c).owed 0 = 0 := D.how1 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec1 _ c 0).symm ▸ Set.mem_univ x)
      iexact HO
    isplitl [Hp]; · iexact Hp
    iexact Hrest
  hin c := (phiA_in1 c).trans (D.hin1 (V9a' D m) c)
  hout c := by
    rw [Pipeline.ownSems0_none]
    exact (D.hout1 (V9a' D m) c).trans (phiA_out1 c)
  hexit c := by
    have hjoin := Pipeline.unscopedBufs_of_arrays (p := 1) (pcfgs (F := F)) adm (Ix := Unit) (Name := ℕ) (U := Pipeline.UD sig nD τ) (Lvl := ℕ)
      launch1.win launch1.arr_whole c (pdats D m) ((pdats D m 1 c).share_full fun w => D.hq1 _ c w)
      (V9a' D m c) (fun b => V10a D m c b) ((pdats D m 1 c).arrAt · cfg1.N) (hF1 D m c) (hrest1 D m c)
    rw [Pipeline.unscopedBufs_held] at hjoin
    have hN : (pdats D m 1 c).owed (Fin.last (Pipeline.pin (pcfgs (F := F)) adm 1).N) = 0 := D.how1 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

-- library lemmas stated over the pinned configuration unify with the printed one only when unification may unfold plain
-- definitions in a metavariable's type
set_option backward.isDefEq.respectTransparency.types false in
/-- Region 2 over the thread state: entered from every unscoped buffer at its entry valuation, left at the next. Its
    arrays are split out of the unscoped buffers and put back at the exit contents; the generator register goes into
    the class invariant and comes back; nothing is owed; the kernel has no semaphore of its own. -/
def reg2 : Pipeline.RegionSeg (pcfgs (F := F)) adm (pdats D m) () defs₀ 𝒱₀ L lv 2 where
  win := launch2.win.to₀
  block_pos := launch2.block_pos
  stage_whole := launch2.stage_whole
  K := PEmpty
  osem k := k.elim
  ho := Pipeline.OwnSemFacts.none _
  hbody c := (D.hbo2 (V13a' D m) c).loose
  hwaits := Pipeline.hwaits_of_owed_zero _ _ _ _ L lv 2 fun c t => D.how2 _ c t
  pre c := iprop(StableHlo.held (c : Thread nD τ) (Pipeline.ucRefs τ sig) (V13a D m c) ∗ R c)
  post c := iprop(StableHlo.held (c : Thread nD τ) (Pipeline.ucRefs τ sig) (V14a D m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V13a' D m c)
  hentry c := by
    rw [Pipeline.ownSems0_none]
    have hsplit := Pipeline.arrays_of_unscopedBufs (p := 2) (pcfgs (F := F)) adm (pdats D m) launch2.win launch2.arr_whole c
      ((pdats D m 2 c).share_full fun w => D.hq2 _ c w) (V13a' D m c) fun w => D.hA2 _ c w
    rw [Pipeline.unscopedBufs_held] at hsplit
    have h0 : (pdats D m 2 c).owed 0 = 0 := D.how2 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec2 _ c 0).symm ▸ Set.mem_univ x)
      iexact HO
    isplitl [Hp]; · iexact Hp
    iexact Hrest
  hin c := (phiA_in2 c).trans (D.hin2 (V13a' D m) c)
  hout c := by
    rw [Pipeline.ownSems0_none]
    exact (D.hout2 (V13a' D m) c).trans (phiA_out2 c)
  hexit c := by
    have hjoin := Pipeline.unscopedBufs_of_arrays (p := 2) (pcfgs (F := F)) adm (Ix := Unit) (Name := ℕ) (U := Pipeline.UD sig nD τ) (Lvl := ℕ)
      launch2.win launch2.arr_whole c (pdats D m) ((pdats D m 2 c).share_full fun w => D.hq2 _ c w)
      (V13a' D m c) (fun b => V14a D m c b) ((pdats D m 2 c).arrAt · cfg2.N) (hF2 D m c) (hrest2 D m c)
    rw [Pipeline.unscopedBufs_held] at hjoin
    have hN : (pdats D m 2 c).owed (Fin.last (Pipeline.pin (pcfgs (F := F)) adm 2).N) = 0 := D.how2 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

-- library lemmas stated over the pinned configuration unify with the printed one only when unification may unfold plain
-- definitions in a metavariable's type
set_option backward.isDefEq.respectTransparency.types false in
/-- Region 3 over the thread state: entered from every unscoped buffer at its entry valuation, left at the next. Its
    arrays are split out of the unscoped buffers and put back at the exit contents; the generator register goes into
    the class invariant and comes back; nothing is owed; the kernel has no semaphore of its own. -/
def reg3 : Pipeline.RegionSeg (pcfgs (F := F)) adm (pdats D m) () defs₀ 𝒱₀ L lv 3 where
  win := launch3.win.to₀
  block_pos := launch3.block_pos
  stage_whole := launch3.stage_whole
  K := PEmpty
  osem k := k.elim
  ho := Pipeline.OwnSemFacts.none _
  hbody c := (D.hbo3 (V15a' D m) c).loose
  hwaits := Pipeline.hwaits_of_owed_zero _ _ _ _ L lv 3 fun c t => D.how3 _ c t
  pre c := iprop(StableHlo.held (c : Thread nD τ) (Pipeline.ucRefs τ sig) (V15a D m c) ∗ R c)
  post c := iprop(StableHlo.held (c : Thread nD τ) (Pipeline.ucRefs τ sig) (V16a D m c) ∗ R c)
  X c := iprop(∃ r, prngReg c r)
  Y c := iprop(∃ r, prngReg c r)
  Z c := Pipeline.unscopedRest (Ix := Unit) (Name := ℕ) (U := Pipeline.UD sig nD τ) (Lvl := ℕ) spec3 c (V15a' D m c)
  hentry c := by
    rw [Pipeline.ownSems0_none]
    have hsplit := Pipeline.arrays_of_unscopedBufs (p := 3) (pcfgs (F := F)) adm (pdats D m) launch3.win launch3.arr_whole c
      ((pdats D m 3 c).share_full fun w => D.hq3 _ c w) (V15a' D m c) fun w => D.hA3 _ c w
    rw [Pipeline.unscopedBufs_held] at hsplit
    have h0 : (pdats D m 3 c).owed 0 = 0 := D.how3 _ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [h0]
      icases HO with ⟨%W, HO⟩; iexists W; isplitr; · ipureintro; exact fun x _ => Or.inl ((D.hrec3 _ c 0).symm ▸ Set.mem_univ x)
      iexact HO
    isplitl [Hp]; · iexact Hp
    iexact Hrest
  hin c := (phiA_in3 c).trans (D.hin3 (V15a' D m) c)
  hout c := by
    rw [Pipeline.ownSems0_none]
    exact (D.hout3 (V15a' D m) c).trans (phiA_out3 c)
  hexit c := by
    have hjoin := Pipeline.unscopedBufs_of_arrays (p := 3) (pcfgs (F := F)) adm (Ix := Unit) (Name := ℕ) (U := Pipeline.UD sig nD τ) (Lvl := ℕ)
      launch3.win launch3.arr_whole c (pdats D m) ((pdats D m 3 c).share_full fun w => D.hq3 _ c w)
      (V15a' D m c) (fun b => V16a D m c b) ((pdats D m 3 c).arrAt · cfg3.N) (hF3 D m c) (hrest3 D m c)
    rw [Pipeline.unscopedBufs_held] at hjoin
    have hN : (pdats D m 3 c).owed (Fin.last (Pipeline.pin (pcfgs (F := F)) adm 3).N) = 0 := D.how3 _ c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W, -, HO⟩; iexists W; iexact HO

/-! ## The run -/

-- the run theorem's implicit arguments are found by unifying its conclusion with this one, which takes unfolding
-- plain definitions in a metavariable's type
set_option backward.isDefEq.respectTransparency.types false in
/-- Every weakly fair execution of the program from memory `m` with zero counters terminates without a fault, the result
    buffer ends at the last valuation's contents — the host operations folded over what the four regions leave — and
    every argument ends as launched. -/
theorem run_named : θ_run defs (onTc (τ := τ) (main (F := F))) ⟨m, fun _ => 0, ρ⟩ (fun r => ∀ c : Dev nD,
      r.2.mem ((c.tc : Thread nD τ).loc main_v85) = V17 m (outsF D m) c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.run_cond m (EP := embL) (ι := ()) (𝒱₀ := 𝒱₀) (L := L) (lv := lv) (hL := fun _ _ => rfl) (ρ := ρ) (outs := outsF D m) (pdats := pdats D m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by iintro ⟨-, HO⟩; iexact HO)
    (R0 := reg0 D m) (hpre0 := fun c => .rfl) (hpost0 := fun c => by rw [V8_eq]; exact .rfl)
    (R1 := reg1 D m) (hpre1 := fun c => by rw [V9_eq]; exact .rfl) (hpost1 := fun c => by rw [V10_eq]; exact .rfl)
    (R2 := reg2 D m) (hpre2 := fun c => by rw [V13_eq]; exact .rfl) (hpost2 := fun c => by rw [V14_eq]; exact .rfl)
    (R3 := reg3 D m) (hpre3 := fun c => by rw [V15_eq]; exact .rfl) (hpost3 := fun c => by rw [V16_eq]; exact .rfl)

end Cert.KernelIdeal.Hand

end
-- ==== Proof.KI.RegA.lean ====
import proofs.«125395_j52793738002724_1_alg».proof.Proof.Gen.KernelIdeal.Launch
import proofs.«125395_j52793738002724_1_alg».proof.Proof.Gen.KernelIdeal.Skeleton
import proofs.«125395_j52793738002724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two plain matrix-product regions

Regions 0 and 2 of the program are the same pipeline at two widths: a grid of 40 points, at point `i` the
left operand's rows `[1024 i, 1024 (i+1))`, the whole right operand (its block index never moves), and the
result's rows `[1024 i, 1024 (i+1))`. The body reads both operand buffers whole, multiplies them into a zero
accumulator, reads the result buffer (the value is not used) and stores the product over the whole result buffer.

Per region, at any float interpretation `F` and at a parameter `V` (the core's buffer contents when the region is
entered): each window's block at a point, what the body leaves in the result buffer as a function of the two
operand blocks, the body's triple, the pipeline's proof data and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
-- the core's buffer contents when a region is entered
variable (V : (c : Dev nD) → (b : Ref sig .tc) → Buf (Elt F) ((c : Thread nD τ).loc b))

/-! # Region 0: `cc0__simple_matmul_kernel`, `[40960,128] × [128,128]` by row blocks of 1024 -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's block at every point, for any proof data over the
    entry arrays whose body leaves that block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole right operand at every point: it is fetched at the first
    point only, and where it is not fetched its block index has not moved, so the buffer still holds that block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x128 := Rect.unit (s := S1024x128) ![0, 0] S1024x128.size inb_S1024x128_S1024x128_0_0
abbrev r0_1 : Rect S128x128 := Rect.unit (s := S128x128) ![0, 0] S128x128.size inb_S128x128_S128x128_0_0
abbrev r0_2 : Rect S1024x128 := Rect.unit (s := S1024x128) ![0, 0] S1024x128.size inb_S1024x128_S1024x128_0_0

/-! ## What the body leaves in the result buffer -/

/-- The result buffer after the body, from the two operand blocks: the one store, whose payload is the product of
    the two blocks read whole. -/
def out0_2 (x0 : Vec F S1024x128 .bf16) (x1 : Vec F S128x128 .bf16) : Vec F S1024x128 .f32 :=
  View.canon [⟨r0_2, k0_pay1 (View.ld x0 r0_0) (View.ld x1 r0_1)⟩]

/-- The one store is over the whole buffer, so it covers it. -/
theorem cover0_2 (p0 : Vec F S1024x128 .f32) (y : S1024x128.Idx) :
    ∃ pc ∈ ([⟨r0_2, p0⟩] : List (View.Piece (Elt F) S1024x128 .f32)), y ∈ pc.1.set :=
  View.cover_of_tiled [⟨r0_2, p0⟩] S1024x128.size (by rfl) y

/-! ## The body's triple -/

set_option maxHeartbeats 1000000 in
/-- The body on whole staging memrefs, the operands' at contents `x0`, `x1` and the result's at anything, runs to
    the continuation with the operands' as they were and the result's at `out0_2 x0 x1`. -/
theorem sound_kernel0 (c : Dev nD) (E : Set ℕ) (i : grid0.Coords) (arg1 : Memref sig .tc .vmem S1024x128 .bf16) (harg1 : arg1.IsWhole) (arg2 : Memref sig .tc .vmem S128x128 .bf16) (harg2 : arg2.IsWhole) (arg3 : Memref sig .tc .vmem S1024x128 .f32) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__simple_matmul_kernel i arg1 harg1 arg2 harg2 arg3 harg3) K := by
  simp only [cc0__simple_matmul_kernel_eq_skeleton]; unfold cc0__simple_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the pipeline on core `c`: the arrays as the region finds them; after the body at point `t`
    each operand's buffer at its block and the result's at `out0_2` of the two blocks; the invariant is the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each operand's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 2: `cc2__simple_matmul_kernel`, `[40960,128] × [128,64]` by row blocks of 1024 -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the point's block at every point, for any proof data over the
    entry arrays whose body leaves that block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds the whole right operand at every point: it is fetched at the first
    point only, and where it is not fetched its block index has not moved, so the buffer still holds that block. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x128 := Rect.unit (s := S1024x128) ![0, 0] S1024x128.size inb_S1024x128_S1024x128_0_0
abbrev r2_1 : Rect S128x64 := Rect.unit (s := S128x64) ![0, 0] S128x64.size inb_S128x64_S128x64_0_0
abbrev r2_2 : Rect S1024x64 := Rect.unit (s := S1024x64) ![0, 0] S1024x64.size inb_S1024x64_S1024x64_0_0

/-! ## What the body leaves in the result buffer -/

/-- The result buffer after the body, from the two operand blocks: the one store, whose payload is the product of
    the two blocks read whole. -/
def out2_2 (x0 : Vec F S1024x128 .bf16) (x1 : Vec F S128x64 .bf16) : Vec F S1024x64 .f32 :=
  View.canon [⟨r2_2, k2_pay1 (View.ld x0 r2_0) (View.ld x1 r2_1)⟩]

/-- The one store is over the whole buffer, so it covers it. -/
theorem cover2_2 (p0 : Vec F S1024x64 .f32) (y : S1024x64.Idx) :
    ∃ pc ∈ ([⟨r2_2, p0⟩] : List (View.Piece (Elt F) S1024x64 .f32)), y ∈ pc.1.set :=
  View.cover_of_tiled [⟨r2_2, p0⟩] S1024x64.size (by rfl) y

/-! ## The body's triple -/

set_option maxHeartbeats 1000000 in
/-- The body on whole staging memrefs, the operands' at contents `x0`, `x1` and the result's at anything, runs to
    the continuation with the operands' as they were and the result's at `out2_2 x0 x1`. -/
theorem sound_kernel2 (c : Dev nD) (E : Set ℕ) (i : grid2.Coords) (arg1 : Memref sig .tc .vmem S1024x128 .bf16) (harg1 : arg1.IsWhole) (arg2 : Memref sig .tc .vmem S128x64 .bf16) (harg2 : arg2.IsWhole) (arg3 : Memref sig .tc .vmem S1024x64 .f32) (harg3 : arg3.IsWhole)
    (x0 : Vec F S1024x128 .bf16) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__simple_matmul_kernel i arg1 harg1 arg2 harg2 arg3 harg3) K := by
  simp only [cc2__simple_matmul_kernel_eq_skeleton]; unfold cc2__simple_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-! ## The pipeline's proof data -/

/-- The proof data of the pipeline on core `c`: the arrays as the region finds them; after the body at point `t`
    each operand's buffer at its block and the result's at `out2_2` of the two blocks; the invariant is the scoped
    rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each operand's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.RegR1.Runs.lean ====
import proofs.«125395_j52793738002724_1_alg».proof.Proof.Gen.KernelIdeal.Launch
import proofs.«125395_j52793738002724_1_alg».proof.Proof.Gen.KernelIdeal.Skeleton
import proofs.«125395_j52793738002724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! # Region 1: the accumulating product, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's two branch conditions, in closed form over the grid -/

/-- The first conditional's test: the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's test: the reduction coordinate is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called on -/

/-- One staging buffer of the output window, through which its contents are stated. -/
abbrev VO1_2 : View sig .tc .vmem S1024x512 .f32 := (Memref.whole cc1_stg2_0 : Memref sig .tc .vmem S1024x512 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x512 .f32 := Memref.whole cc1_scratch0
abbrev VS1_0 : View sig .tc .vmem S1024x512 .f32 := scM1_0.view

/-- The scoped buffers of the core other than this region's staging buffers and its accumulator, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_scratch0), ((c : Thread nD τ).loc cc3_scratch0) ↦{fullShare} f))

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg1_1), ((c : Thread nD τ).loc cc3_stg1_1) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_scratch0), ((c : Thread nD τ).loc cc3_scratch0) ↦{fullShare} f)) ∗ (∃ r, prngReg c r)) := by
  unfold Pipeline.ΦA; rw [scopedRest1_eq]; simp only [scM1_0, owns_whole]; try rfl

/-- The class invariant hands over the accumulator at some contents, the other scoped buffers and the generator register, -/
theorem PhiA1_split (c : Dev nD) :
    (Pipeline.ΦA spec1 c : sProp 𝕄) ⊢ iprop((∃ d, owns (c : Thread nD τ) scM1_0 fullShare d) ∗ rest1 (F := F) c ∗ (∃ r, prngReg c r)) := by
  rw [PhiA1_eq]; unfold rest1
  iintro ⟨⟨HR0, HR1, HR2, HR3, HR4, HS0, HR6, HR7, HR8, HR9, HR10, HR11, HR12, HR13, HR14, HR15, HR16, HR17⟩, Hg⟩
  isplitl [HS0]; · iexact HS0
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexact HR17

/-- and takes them back. -/
theorem PhiA1_join (c : Dev nD) :
    iprop((∃ d, owns (c : Thread nD τ) scM1_0 fullShare d) ∗ rest1 (F := F) c ∗ (∃ r, prngReg c r)) ⊢ (Pipeline.ΦA spec1 c : sProp 𝕄) := by
  rw [PhiA1_eq]; unfold rest1
  iintro ⟨HS0, ⟨HR0, HR1, HR2, HR3, HR4, HR6, HR7, HR8, HR9, HR10, HR11, HR12, HR13, HR14, HR15, HR16, HR17⟩, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HS0]; · iexact HS0
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexact HR17

end Cert.KernelIdeal.Hand

end
-- ==== Proof.KI.RegR1.RunA.lean ====
import proofs.«125395_j52793738002724_1_alg».proof.Proof.KI.RegR1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the first reduction step (the accumulator is zeroed first; the output is not stored), with the
    triple of the body on whole memrefs: the two input blocks at their contents, the accumulator at anything,
    the output buffer handed back untouched. -/
noncomputable def kernelRun1_A (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RegR1.RunB.lean ====
import proofs.«125395_j52793738002724_1_alg».proof.Proof.KI.RegR1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of a middle reduction step (neither conditional taken; the output is not stored), with the
    triple of the body on whole memrefs: the two input blocks at their contents, the accumulator at what the step before left,
    the output buffer handed back untouched. -/
noncomputable def kernelRun1_B (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨[], ?_, fun xi2 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RegR1.RunC.lean ====
import proofs.«125395_j52793738002724_1_alg».proof.Proof.KI.RegR1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the last reduction step (the accumulator is copied to the output), with the
    triple of the body on whole memrefs: the two input blocks at their contents, the accumulator at what the step before left,
    the output buffer at anything, left with its pieces written. -/
noncomputable def kernelRun1_C (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__agg_kernel i arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.RegR1.lean ====
import proofs.«125395_j52793738002724_1_alg».proof.Proof.KI.RegR1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output's staging buffer (nothing is stored there: a placeholder nothing consults). -/
def out1_A_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) : Vec F S1024x512 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) (y : S1024x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x512.size (by sl_kernel_rfl) y

/-- What case A leaves in the accumulator: its pieces read back. -/
def sout1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .bf16) (x1 : Vec F S1024x512 .bf16) : Vec F S1024x512 .f32 :=
  VS1_0.read (Elt F) (VS1_0.writes (Elt F) VS1_0.junk (kernelRun1_A c i arg2 harg2 arg3 harg3 arg4 harg4 arg5 harg5 hc0 hc1 x0 x1).2.1)

/-- What case B leaves in the output's staging buffer (nothing is stored there: a placeholder nothing consults). -/
def out1_B_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) : Vec F S1024x512 .f32 :=
  VO1_2.read (Elt F) (VO1_2.writes (Elt F) VO1_2.junk (kernelRun1_B c i arg2 harg2 arg3 harg3 arg4 harg4 arg5 harg5 hc0 hc1 x0 x1 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) (y : S1024x512.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x512.size (by sl_kernel_rfl) y

/-- What case B leaves in the accumulator: its pieces read back. -/
def sout1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .bf16) (x1 : Vec F S1024x512 .bf16) (xs0 : Vec F S1024x512 .f32) : Vec F S1024x512 .f32 :=
  VS1_0.read (Elt F) (VS1_0.writes (Elt F) VS1_0.junk (kernelRun1_B c i arg2 harg2 arg3 harg3 arg4 harg4 arg5 harg5 hc0 hc1 x0 x1 xs0).2.1)

/-- What case C leaves in the output's staging buffer: its pieces read back. -/
def out1_C_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) : Vec F S1024x512 .f32 :=
  VO1_2.read (Elt F) (VO1_2.writes (Elt F) VO1_2.junk (kernelRun1_C c i arg2 harg2 arg3 harg3 arg4 harg4 arg5 harg5 hc0 hc1 x0 x1 xs0).1)

/-- Case C's one store into the output covers its block. -/
theorem cover1_C_2 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) (y : S1024x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x512.size (by sl_kernel_rfl) y

/-- Case C's stores into the accumulator cover it. -/
theorem scover1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) (y : S1024x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x512.size (by sl_kernel_rfl) y

/-- What case C leaves in the accumulator: its pieces read back. -/
def sout1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .bf16) (x1 : Vec F S1024x512 .bf16) (xs0 : Vec F S1024x512 .f32) : Vec F S1024x512 .f32 :=
  VS1_0.read (Elt F) (VS1_0.writes (Elt F) VS1_0.junk (kernelRun1_C c i arg2 harg2 arg3 harg3 arg4 harg4 arg5 harg5 hc0 hc1 x0 x1 xs0).2.1)

/-! ## What the output buffer and the accumulator hold after each point -/

/-- After the body at position `n`: (the output's staging buffer, the accumulator), by recursion on the position — the
    case the position's reduction coordinate `n % 10` selects, run on the point's input blocks and, past a row block's
    first step, on what the position before left in the accumulator. -/
def outsAt1 (c : Dev nD) : (n : ℕ) → n < cfg1.N → Vec F S1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 10 = 0 then
      if h1 : (n + 1) % 10 = 9 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 10 = 9 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 10 = 0) (h1 : ¬t.val % 10 = 9) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 10 = 0) (h1 : ¬t.val % 10 = 9) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 (F := F) c ∗ (∃ r, prngReg c r)) := by
  cases n with
  | zero => exact absurd rfl hz
  | succ n => rfl

/-- At any position the invariant yields the accumulator at some contents, the other scoped buffers and the register. -/
theorem PhiS1_pre (c : Dev nD) (n : ℕ) (h : n ≤ cfg1.N) :
    PhiS1 V c n h ⊢ iprop((∃ d, owns (c : Thread nD τ) scM1_0 fullShare d) ∗ rest1 (F := F) c ∗ (∃ r, prngReg c r)) := by
  cases n with
  | zero => exact PhiA1_split c
  | succ n =>
    rw [PhiS1_succ]
    iintro ⟨HS0, HR, Hg⟩
    isplitl [HS0]; · iexists _; iexact HS0
    isplitl [HR]; · iexact HR
    iexact Hg

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the reduction coordinate selects the case; the
    invariant hands the body the accumulator (at what the point before left, or at anything where the body zeroes it
    first) and takes it back at this point's contents; the output's buffer is handed back untouched except at a row
    block's last step, where the body stores into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 10 = 0
  · by_cases h1 : t.val % 10 = 9
    · exfalso; omega
    ·
        rw [show (dat1 V c).leavesExact 0 t = owns (c : Thread nD τ) (ms1_0 t) fullShare ((dat1 V c).after 0 t) from (by unfold Dat.leavesExact; rw [liveAt1_0 t]), after1_0]
        rw [show (dat1 V c).leavesExact 1 t = owns (c : Thread nD τ) (ms1_1 t) fullShare ((dat1 V c).after 1 t) from (by unfold Dat.leavesExact; rw [liveAt1_1 t]), after1_1]
        rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
        rw [outsAt1_A V c t h0 h1]
        unfold sout1_A_0; (try dsimp only)
        rw [PhiS1_castSucc V c t]
        iintro ⟨HΦ, Ho, ⟨%d0, H0⟩, ⟨%d1, H1⟩, ⟨%d2, H2⟩⟩
        ihave HΦ' := (PhiS1_pre V c _ _) $$ HΦ
        icases HΦ' with ⟨HS0, HR, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _)
          isplitl [HR]; · iexact HR
          iexact Hg
        isplitl [Ho]; · iexact Ho
        isplitl [H0]; · iexact H0
        isplitl [H1]; · iexact H1
        iexists _; iexact H2
  · by_cases h1 : t.val % 10 = 9
    ·
        rw [show (dat1 V c).leavesExact 0 t = owns (c : Thread nD τ) (ms1_0 t) fullShare ((dat1 V c).after 0 t) from (by unfold Dat.leavesExact; rw [liveAt1_0 t]), after1_0]
        rw [show (dat1 V c).leavesExact 1 t = owns (c : Thread nD τ) (ms1_1 t) fullShare ((dat1 V c).after 1 t) from (by unfold Dat.leavesExact; rw [liveAt1_1 t]), after1_1]
        rw [show (dat1 V c).leavesExact 2 t = owns (c : Thread nD τ) (ms1_2 t) fullShare ((dat1 V c).after 2 t) from (by unfold Dat.leavesExact; rw [liveAt1_2_C t (fun h => h0 ((hcond1_0 t).mp h)) ((hcond1_1 t).mpr h1)]), after1_2]
        rw [outsAt1_C V c t h0 h1]
        unfold out1_C_2 sout1_C_0; (try dsimp only)
        rw [PhiS1_castSucc V c t]
        rw [PhiS1_pos V c _ _ (by omega)]
        iintro ⟨⟨HS0, HR, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _)
          isplitl [HR]; · iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
        rw [show (dat1 V c).leavesExact 0 t = owns (c : Thread nD τ) (ms1_0 t) fullShare ((dat1 V c).after 0 t) from (by unfold Dat.leavesExact; rw [liveAt1_0 t]), after1_0]
        rw [show (dat1 V c).leavesExact 1 t = owns (c : Thread nD τ) (ms1_1 t) fullShare ((dat1 V c).after 1 t) from (by unfold Dat.leavesExact; rw [liveAt1_1 t]), after1_1]
        rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
        rw [outsAt1_B V c t h0 h1]
        unfold sout1_B_0; (try dsimp only)
        rw [PhiS1_castSucc V c t]
        rw [PhiS1_pos V c _ _ (by omega)]
        iintro ⟨⟨HS0, HR, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _)
          isplitl [HR]; · iexact HR
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HR, Hg⟩
  iapply (PhiA1_join c)
  isplitl [HS0]; · iexists _; iexact HS0
  isplitl [HR]; · iexact HR
  iexact Hg

theorem hout1 (c : Dev nD) : (dat1 V c).Φ (Fin.last cfg1.N) ⊢ Pipeline.ΦA spec1 c :=
  Phi_out1 V c _ (by rw [Fin.val_last]; have : cfg1.N = 100 := N_1; omega)

end Regions

end Cert.KernelIdeal.Hand

end
-- ==== Proof.KI.RegR3.Runs.lean ====
import proofs.«125395_j52793738002724_1_alg».proof.Proof.Gen.KernelIdeal.Launch
import proofs.«125395_j52793738002724_1_alg».proof.Proof.Gen.KernelIdeal.Skeleton
import proofs.«125395_j52793738002724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! # Region 3: the accumulating product, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Regions

/-! ## The body's two branch conditions, in closed form over the grid -/

/-- The first conditional's test: the reduction coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

/-- The second conditional's test: the reduction coordinate is 9. -/
abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-! ## The memrefs the body is called on -/

/-- One staging buffer of the output window, through which its contents are stated. -/
abbrev VO3_2 : View sig .tc .vmem S1024x256 .f32 := (Memref.whole cc3_stg2_0 : Memref sig .tc .vmem S1024x256 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x256 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S1024x256 .f32 := Memref.whole cc3_scratch0
abbrev VS3_0 : View sig .tc .vmem S1024x256 .f32 := scM3_0.view

/-- The scoped buffers of the core other than this region's staging buffers and its accumulator, each at some contents. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant with the accumulator as a memref owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d)) ∗ (∃ r, prngReg c r)) := by
  unfold Pipeline.ΦA; rw [scopedRest3_eq]; simp only [scM3_0, owns_whole]; try rfl

/-- The class invariant hands over the accumulator at some contents, the other scoped buffers and the generator register, -/
theorem PhiA3_split (c : Dev nD) :
    (Pipeline.ΦA spec3 c : sProp 𝕄) ⊢ iprop((∃ d, owns (c : Thread nD τ) scM3_0 fullShare d) ∗ rest3 (F := F) c ∗ (∃ r, prngReg c r)) := by
  rw [PhiA3_eq]; unfold rest3
  iintro ⟨⟨HR0, HR1, HR2, HR3, HR4, HR5, HR6, HR7, HR8, HR9, HR10, HR11, HR12, HR13, HR14, HR15, HR16, HS0⟩, Hg⟩
  isplitl [HS0]; · iexact HS0
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  iexact HR16

/-- and takes them back. -/
theorem PhiA3_join (c : Dev nD) :
    iprop((∃ d, owns (c : Thread nD τ) scM3_0 fullShare d) ∗ rest3 (F := F) c ∗ (∃ r, prngReg c r)) ⊢ (Pipeline.ΦA spec3 c : sProp 𝕄) := by
  rw [PhiA3_eq]; unfold rest3
  iintro ⟨HS0, ⟨HR0, HR1, HR2, HR3, HR4, HR5, HR6, HR7, HR8, HR9, HR10, HR11, HR12, HR13, HR14, HR15, HR16⟩, Hg⟩
  isplitr [Hg]
  swap; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  isplitl [HR16]; · iexact HR16
  iexact HS0

end Cert.KernelIdeal.Hand

end
-- ==== Proof.KI.RegR3.RunA.lean ====
import proofs.«125395_j52793738002724_1_alg».proof.Proof.KI.RegR3.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the first reduction step (the accumulator is zeroed first; the output is not stored), with the
    triple of the body on whole memrefs: the two input blocks at their contents, the accumulator at anything,
    the output buffer handed back untouched. -/
noncomputable def kernelRun3_A (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__agg_kernel i arg2 harg2 arg3 harg3 arg4 harg4 arg5 harg5) K } := by
  refine ⟨[], ?_, fun xi2 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RegR3.RunB.lean ====
import proofs.«125395_j52793738002724_1_alg».proof.Proof.KI.RegR3.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of a middle reduction step (neither conditional taken; the output is not stored), with the
    triple of the body on whole memrefs: the two input blocks at their contents, the accumulator at what the step before left,
    the output buffer handed back untouched. -/
noncomputable def kernelRun3_B (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__agg_kernel i arg2 harg2 arg3 harg3 arg4 harg4 arg5 harg5) K } := by
  refine ⟨[], ?_, fun xi2 E K => ?run⟩
  case run =>
    simp only [cc3__agg_kernel_eq_skeleton]; unfold cc3__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RegR3.RunC.lean ====
import proofs.«125395_j52793738002724_1_alg».proof.Proof.KI.RegR3.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 1000000 in
/-- What the body's stores leave, as pieces (last first), in the case of the last reduction step (the accumulator is copied to the output), with the
    triple of the body on whole memrefs: the two input blocks at their contents, the accumulator at what the step before left,
    the output buffer at anything, left with its pieces written. -/
noncomputable def kernelRun3_C (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__agg_kernel i arg2 harg2 arg3 harg3 arg4 harg4 arg5 harg5) K } := by
  refine ⟨?_, ?_, fun E K => ?run⟩
  case run =>
    simp only [cc3__agg_kernel_eq_skeleton]; unfold cc3__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.RegR3.lean ====
import proofs.«125395_j52793738002724_1_alg».proof.Proof.KI.RegR3.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-- What case A leaves in the output's staging buffer (nothing is stored there: a placeholder nothing consults). -/
def out3_A_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) : Vec F S1024x256 .f32 :=
  VO3_2.read (Elt F) (VO3_2.writes (Elt F) VO3_2.junk (kernelRun3_A c i arg2 harg2 arg3 harg3 arg4 harg4 arg5 harg5 hc0 hc1 x0 x1).1)

/-- Case A's stores into the accumulator cover it. -/
theorem scover3_A_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) (y : S1024x256.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x256.size (by sl_kernel_rfl) y

/-- What case A leaves in the accumulator: its pieces read back. -/
def sout3_A_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .bf16) (x1 : Vec F S1024x256 .bf16) : Vec F S1024x256 .f32 :=
  VS3_0.read (Elt F) (VS3_0.writes (Elt F) VS3_0.junk (kernelRun3_A c i arg2 harg2 arg3 harg3 arg4 harg4 arg5 harg5 hc0 hc1 x0 x1).2.1)

/-- What case B leaves in the output's staging buffer (nothing is stored there: a placeholder nothing consults). -/
def out3_B_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) : Vec F S1024x256 .f32 :=
  VO3_2.read (Elt F) (VO3_2.writes (Elt F) VO3_2.junk (kernelRun3_B c i arg2 harg2 arg3 harg3 arg4 harg4 arg5 harg5 hc0 hc1 x0 x1 xs0).1)

/-- Case B's stores into the accumulator cover it. -/
theorem scover3_B_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) (y : S1024x256.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x256.size (by sl_kernel_rfl) y

/-- What case B leaves in the accumulator: its pieces read back. -/
def sout3_B_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .bf16) (x1 : Vec F S1024x256 .bf16) (xs0 : Vec F S1024x256 .f32) : Vec F S1024x256 .f32 :=
  VS3_0.read (Elt F) (VS3_0.writes (Elt F) VS3_0.junk (kernelRun3_B c i arg2 harg2 arg3 harg3 arg4 harg4 arg5 harg5 hc0 hc1 x0 x1 xs0).2.1)

/-- What case C leaves in the output's staging buffer: its pieces read back. -/
def out3_C_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) : Vec F S1024x256 .f32 :=
  VO3_2.read (Elt F) (VO3_2.writes (Elt F) VO3_2.junk (kernelRun3_C c i arg2 harg2 arg3 harg3 arg4 harg4 arg5 harg5 hc0 hc1 x0 x1 xs0).1)

/-- Case C's one store into the output covers its block. -/
theorem cover3_C_2 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) (y : S1024x256.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x256.size (by sl_kernel_rfl) y

/-- Case C's stores into the accumulator cover it. -/
theorem scover3_C_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) (y : S1024x256.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x256.size (by sl_kernel_rfl) y

/-- What case C leaves in the accumulator: its pieces read back. -/
def sout3_C_0 (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .bf16) (x1 : Vec F S1024x256 .bf16) (xs0 : Vec F S1024x256 .f32) : Vec F S1024x256 .f32 :=
  VS3_0.read (Elt F) (VS3_0.writes (Elt F) VS3_0.junk (kernelRun3_C c i arg2 harg2 arg3 harg3 arg4 harg4 arg5 harg5 hc0 hc1 x0 x1 xs0).2.1)

/-! ## What the output buffer and the accumulator hold after each point -/

/-- After the body at position `n`: (the output's staging buffer, the accumulator), by recursion on the position — the
    case the position's reduction coordinate `n % 10` selects, run on the point's input blocks and, past a row block's
    first step, on what the position before left in the accumulator. -/
def outsAt3 (c : Dev nD) : (n : ℕ) → n < cfg3.N → Vec F S1024x256 .f32 × Vec F S1024x256 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 10 = 0 then
      if h1 : (n + 1) % 10 = 9 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 10 = 9 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 10 = 0) (h1 : ¬t.val % 10 = 9) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 10 = 0) (h1 : t.val % 10 = 9) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS3 (c : Dev nD) : (n : ℕ) → n ≤ cfg3.N → sProp 𝕄
  | 0, _ => Pipeline.ΦA spec3 c
  | n + 1, hn => iprop(owns (c : Thread nD τ) scM3_0 fullShare ((outsAt3 V c n hn).2) ∗ rest3 (F := F) c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3_0 fullShare ((outsAt3 V c n hn).2) ∗ rest3 (F := F) c ∗ (∃ r, prngReg c r)) := rfl

theorem PhiS3_pos (c : Dev nD) (n : ℕ) (h : n ≤ cfg3.N) (hz : n ≠ 0) :
    PhiS3 V c n h = iprop(owns (c : Thread nD τ) scM3_0 fullShare ((outsAt3 V c (n - 1) (by omega)).2) ∗ rest3 (F := F) c ∗ (∃ r, prngReg c r)) := by
  cases n with
  | zero => exact absurd rfl hz
  | succ n => rfl

/-- At any position the invariant yields the accumulator at some contents, the other scoped buffers and the register. -/
theorem PhiS3_pre (c : Dev nD) (n : ℕ) (h : n ≤ cfg3.N) :
    PhiS3 V c n h ⊢ iprop((∃ d, owns (c : Thread nD τ) scM3_0 fullShare d) ∗ rest3 (F := F) c ∗ (∃ r, prngReg c r)) := by
  cases n with
  | zero => exact PhiA3_split c
  | succ n =>
    rw [PhiS3_succ]
    iintro ⟨HS0, HR, Hg⟩
    isplitl [HS0]; · iexists _; iexact HS0
    isplitl [HR]; · iexact HR
    iexact Hg

/-! ## The proof data -/

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the reduction coordinate selects the case; the
    invariant hands the body the accumulator (at what the point before left, or at anything where the body zeroes it
    first) and takes it back at this point's contents; the output's buffer is handed back untouched except at a row
    block's last step, where the body stores into it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 100 := lt_of_lt_of_eq t.isLt (show cfg3.N = 100 from N_3)
  by_cases h0 : t.val % 10 = 0
  · by_cases h1 : t.val % 10 = 9
    · exfalso; omega
    ·
        rw [show (dat3 V c).leavesExact 0 t = owns (c : Thread nD τ) (ms3_0 t) fullShare ((dat3 V c).after 0 t) from (by unfold Dat.leavesExact; rw [liveAt3_0 t]), after3_0]
        rw [show (dat3 V c).leavesExact 1 t = owns (c : Thread nD τ) (ms3_1 t) fullShare ((dat3 V c).after 1 t) from (by unfold Dat.leavesExact; rw [liveAt3_1 t]), after3_1]
        rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
        rw [outsAt3_A V c t h0 h1]
        unfold sout3_A_0; (try dsimp only)
        rw [PhiS3_castSucc V c t]
        iintro ⟨HΦ, Ho, ⟨%d0, H0⟩, ⟨%d1, H1⟩, ⟨%d2, H2⟩⟩
        ihave HΦ' := (PhiS3_pre V c _ _) $$ HΦ
        icases HΦ' with ⟨HS0, HR, Hg⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover3_A_0 c _ _ _ _ _ _ _ _ _ _ _ _ _)
          isplitl [HR]; · iexact HR
          iexact Hg
        isplitl [Ho]; · iexact Ho
        isplitl [H0]; · iexact H0
        isplitl [H1]; · iexact H1
        iexists _; iexact H2
  · by_cases h1 : t.val % 10 = 9
    ·
        rw [show (dat3 V c).leavesExact 0 t = owns (c : Thread nD τ) (ms3_0 t) fullShare ((dat3 V c).after 0 t) from (by unfold Dat.leavesExact; rw [liveAt3_0 t]), after3_0]
        rw [show (dat3 V c).leavesExact 1 t = owns (c : Thread nD τ) (ms3_1 t) fullShare ((dat3 V c).after 1 t) from (by unfold Dat.leavesExact; rw [liveAt3_1 t]), after3_1]
        rw [show (dat3 V c).leavesExact 2 t = owns (c : Thread nD τ) (ms3_2 t) fullShare ((dat3 V c).after 2 t) from (by unfold Dat.leavesExact; rw [liveAt3_2_C t (fun h => h0 ((hcond3_0 t).mp h)) ((hcond3_1 t).mpr h1)]), after3_2]
        rw [outsAt3_C V c t h0 h1]
        unfold out3_C_2 sout3_C_0; (try dsimp only)
        rw [PhiS3_castSucc V c t]
        rw [PhiS3_pos V c _ _ (by omega)]
        iintro ⟨⟨HS0, HR, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0]
          · unfold owns; iexists _; isplitr
            swap; · iexact HS0
            ipureintro; exact View.read_writes_of_cover _ _ _ _ _ (scover3_C_0 c _ _ _ _ _ _ _ _ _ _ _ _ _ _)
          isplitl [HR]; · iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    ·
        rw [show (dat3 V c).leavesExact 0 t = owns (c : Thread nD τ) (ms3_0 t) fullShare ((dat3 V c).after 0 t) from (by unfold Dat.leavesExact; rw [liveAt3_0 t]), after3_0]
        rw [show (dat3 V c).leavesExact 1 t = owns (c : Thread nD τ) (ms3_1 t) fullShare ((dat3 V c).after 1 t) from (by unfold Dat.leavesExact; rw [liveAt3_1 t]), after3_1]
        rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
        rw [outsAt3_B V c t h0 h1]
        unfold sout3_B_0; (try dsimp only)
        rw [PhiS3_castSucc V c t]
        rw [PhiS3_pos V c _ _ (by omega)]
        iintro ⟨⟨HS0, HR, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0]
          · unfold owns; iexists _; isplitr
            swap; · iexact HS0
            ipureintro; exact View.read_writes_of_cover _ _ _ _ _ (scover3_B_0 c _ _ _ _ _ _ _ _ _ _ _ _ _ _)
          isplitl [HR]; · iexact HR
          iexact Hg
        isplitl [Ho]; · iexact Ho
        isplitl [H0]; · iexact H0
        isplitl [H1]; · iexact H1
        iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  iintro ⟨HS0, HR, Hg⟩
  iapply (PhiA3_join c)
  isplitl [HS0]; · iexists _; iexact HS0
  isplitl [HR]; · iexact HR
  iexact Hg

theorem hout3 (c : Dev nD) : (dat3 V c).Φ (Fin.last cfg3.N) ⊢ Pipeline.ΦA spec3 c :=
  Phi_out3 V c _ (by rw [Fin.val_last]; have : cfg3.N = 100 := N_3; omega)

end Regions

end Cert.KernelIdeal.Hand

end
-- ==== Proof.KI.Kernels.lean ====
/-
  The four kernels' records for the program's run: the two plain products (regions 0 and 2: the class invariant at
  both ends, by definition) and the two accumulating products (regions 1 and 3: the invariant that carries the
  accumulator, entered from and left to the class invariant).
-/
import proofs.«125395_j52793738002724_1_alg».proof.Proof.KI.Run
import proofs.«125395_j52793738002724_1_alg».proof.Proof.KI.RegA
import proofs.«125395_j52793738002724_1_alg».proof.Proof.KI.RegR1
import proofs.«125395_j52793738002724_1_alg».proof.Proof.KI.RegR3

noncomputable section

namespace Cert.KernelIdeal.Hand

open Cert.KernelIdeal Cert.KernelIdeal.Gen
open Idealize.ShloMosaic Idealize.ShloMosaic.TcCoe
open Idealize.SL Idealize.SL.BI
open scoped Idealize.SL.BI

variable {F : FTy → Type} [FloatOps F]

/-- What the run needs of the four kernels, from their proof data. -/
def kernels : Kernels F where
  dat0 := dat0
  hA0 := A_eq0
  hq0 := fun _ _ _ => rfl
  how0 := fun _ _ _ => rfl
  hrec0 := fun _ _ _ => rfl
  hbo0 := body_obligation0
  hin0 := fun _ _ => .rfl
  hout0 := fun _ _ => .rfl
  dat1 := dat1
  hA1 := A_eq1
  hq1 := fun _ _ _ => rfl
  how1 := fun _ _ _ => rfl
  hrec1 := fun _ _ _ => rfl
  hbo1 := body_obligation1
  hin1 := hin1
  hout1 := hout1
  dat2 := dat2
  hA2 := A_eq2
  hq2 := fun _ _ _ => rfl
  how2 := fun _ _ _ => rfl
  hrec2 := fun _ _ _ => rfl
  hbo2 := body_obligation2
  hin2 := fun _ _ => .rfl
  hout2 := fun _ _ => .rfl
  dat3 := dat3
  hA3 := A_eq3
  hq3 := fun _ _ _ => rfl
  how3 := fun _ _ _ => rfl
  hrec3 := fun _ _ _ => rfl
  hbo3 := body_obligation3
  hin3 := hin3
  hout3 := hout3

end Cert.KernelIdeal.Hand

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KI.ValA.lean ====
import proofs.«125395_j52793738002724_1_alg».proof.Proof.KI.RegA
import proofs.«125395_j52793738002724_1_alg».proof.Proof.LibPlainProduct
import Idealize.ShloMosaic.Lib.Pipeline.Value
import Idealize.ShloMosaic.Lib.ValueIdx

/-! # The two plain matrix-product regions: the result array, entry by entry

On the extended reals, the result array of region 0 after its last point holds at `(r, j)` the sum over `k` of
`left[r, k] · right[k, j]`, the operands as the region finds them; the same for region 2 at its width.

Per region: the body's payload at an entry is that sum over the two blocks it is given (the product into a zero
accumulator); the left block at point `t` is rows `1024 t … 1024 t + 1023` of the left array and the right block is
the whole right array (the printed index maps, decided over the 40 points); so what point `t` writes back is block
`t` of ONE function of the arrays; the 40 blocks cover the result array (row `r` is in block `r / 1024`); hence the
array ends holding that function. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-! # Region 0 -/

/-! ## The dimension numbers: contraction over the left operand's axis 1 and the right operand's axis 0 -/

theorem dot0_lhs0 (j : S1024x128.Idx) (q : dot_S1024x128_S128x128_S1024x128_1_0_0_1_n_n.contr.Idx) :
    (dot_S1024x128_S128x128_S1024x128_1_0_0_1_n_n.lhsIdx j q (0 : Fin 2)).val = (j (0 : Fin 2)).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem dot0_lhs1 (j : S1024x128.Idx) (q : dot_S1024x128_S128x128_S1024x128_1_0_0_1_n_n.contr.Idx) :
    (dot_S1024x128_S128x128_S1024x128_1_0_0_1_n_n.lhsIdx j q (1 : Fin 2)).val = (q ⟨0, by decide⟩).val :=
  dot_S1024x128_S128x128_S1024x128_1_0_0_1_n_n.lhsIdx_val_of_single rfl j q
theorem dot0_rhs0 (j : S1024x128.Idx) (q : dot_S1024x128_S128x128_S1024x128_1_0_0_1_n_n.contr.Idx) :
    (dot_S1024x128_S128x128_S1024x128_1_0_0_1_n_n.rhsIdx j q (0 : Fin 2)).val = (q ⟨0, by decide⟩).val :=
  dot_S1024x128_S128x128_S1024x128_1_0_0_1_n_n.rhsIdx_val_of_single rfl j q
theorem dot0_rhs1 (j : S1024x128.Idx) (q : dot_S1024x128_S128x128_S1024x128_1_0_0_1_n_n.contr.Idx) :
    (dot_S1024x128_S128x128_S1024x128_1_0_0_1_n_n.rhsIdx j q (1 : Fin 2)).val = (j (1 : Fin 2)).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-! ## The payload at an entry -/

/-- The body's payload at entry `(p, q)`: the row `p` of the left block against the column `q` of the right block. -/
theorem pay0_entry (x0 : Vec Ideal S1024x128 .bf16) (x1 : Vec Ideal S128x128 .bf16) (p : Fin 1024) (q : Fin 128) :
    k0_pay1 x0 x1 (ix2 p q) = ∑ k : Fin 128, x0 (ix2 p k) * x1 (ix2 k q) := by
  unfold k0_pay1
  simp only [shapeCast_self]
  exact Cert.PlainProduct.matmul_zero_entry dot_S1024x128_S128x128_S1024x128_1_0_0_1_n_n rfl rfl dot0_lhs0 dot0_lhs1 dot0_rhs0 dot0_rhs1 x0 x1 p q

/-! ## The blocks as parts of the arrays -/

/-- The printed index maps, decided over the grid: at point `t` the left operand's and the result's row-block index
    is `t`, every other block index is `0`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point `t` is rows `1024 t … 1024 t + 1023` of the left array. -/
theorem iblk0_left (c : Dev nD) (t : Fin cfg0.N) (x : S1024x128.Idx) (i : S40960x128.Idx)
    (h0 : (i 0).val = 1024 * t.val + (x 0).val) (h1 : (i 1).val = (x 1).val) :
    (iblk0 V c 0 t : Vec Ideal S1024x128 .bf16) x = (V c main_v54 : S40960x128.Idx → EReal) i := by
  obtain ⟨e0, e1, -, -, -, -⟩ := idx_facts0 t
  unfold iblk0
  rw [View.read_apply]
  show V c main_v54 _ = V c main_v54 _
  congr 1
  funext a
  apply Fin.ext
  match a with
  | ⟨0, _⟩ => show win0_0.index t 0 * 1024 + 1 * (x 0).val = (i 0).val; rw [e0, h0]; omega
  | ⟨1, _⟩ => show win0_0.index t 1 * 128 + 1 * (x 1).val = (i 1).val; rw [e1, h1]; omega

/-- The right block at every point is the whole right array. -/
theorem iblk0_right (c : Dev nD) (t : Fin cfg0.N) (x : S128x128.Idx) :
    (iblk0 V c 1 t : Vec Ideal S128x128 .bf16) x = (V c main_v55 : S128x128.Idx → EReal) x := by
  obtain ⟨-, -, e2, e3, -, -⟩ := idx_facts0 t
  unfold iblk0
  rw [View.read_apply]
  show V c main_v55 _ = V c main_v55 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-! ## What each point writes back -/

/-- The product of a left array `a` and a right array `b`, entry by entry. -/
abbrev G0 (a : S40960x128.Idx → EReal) (b : S128x128.Idx → EReal) : S40960x128.Idx → EReal := fun i =>
  ∑ k : Fin 128, a (ix2 (i 0) k) * b (ix2 k (i 1))

/-- What point `t` writes back is block `t` of `G0`. -/
theorem flushed0_eq (c : Dev nD) (t : Fin cfg0.N) :
    (dat0 V c).flushed 2 t = ((cfg0.win 2).blk t).view.read (Elt Ideal) (G0 (V c main_v54) (V c main_v55)) := by
  show (cfg0.win 2).cut (grid0.coords t) ((dat0 V c).after 2 t) = _
  rw [after0_2]
  unfold out0_2
  rw [View.canon_unit_zero zero_offsets]
  simp only [View.ld_unit_zero (S := S1024x128) zero_offsets, View.ld_unit_zero (S := S128x128) zero_offsets]
  obtain ⟨-, -, -, -, e4, e5⟩ := idx_facts0 t
  funext y
  obtain ⟨p, q, rfl⟩ : ∃ (p : Fin 1024) (q : Fin 128), y = ix2 p q := ⟨y 0, y 1, eq_ix2 y⟩
  show k0_pay1 (iblk0 V c 0 t) (iblk0 V c 1 t) (ix2 p q) = _
  refine (pay0_entry (iblk0 V c 0 t) (iblk0 V c 1 t) p q).trans ?_
  show _ = G0 (V c main_v54) (V c main_v55) (((cfg0.win 2).blk t).view.emb (ix2 p q))
  unfold G0
  refine Finset.sum_congr rfl fun k _ => ?_
  congr 1
  · refine iblk0_left V c t (ix2 p k) _ ?_ rfl
    show win0_2.index t 0 * 1024 + 1 * p.val = 1024 * t.val + p.val
    rw [e4]; omega
  · refine (iblk0_right V c t (ix2 k q)).trans ?_
    congr 1
    funext a
    apply Fin.ext
    match a with
    | ⟨0, _⟩ => rfl
    | ⟨1, _⟩ => show q.val = win0_2.index t 1 * 128 + 1 * q.val; rw [e5]; omega

/-! ## The blocks cover the result array -/

/-- An index of the result array is in point `t`'s block iff each coordinate is in the block's range on its axis. -/
theorem mem_blk0 (t : Fin cfg0.N) (i : S40960x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v57).slice (win0_2.rect t)).set ↔ _
  rw [View.set_slice_whole, Rect.mem_set_unit]
  exact Iff.rfl

/-- Row `r` of the result array is in the block of point `r / 1024`, which writes back. -/
theorem cover0 (i : S40960x128.Idx) :
    ∃ t : Fin cfg0.N, (cfg0.win 2).flush t = true ∧ i ∈ ((cfg0.win 2).blk t).view.set := by
  have hi0 : (i 0).val < 40960 := (i 0).isLt
  have hi1 : (i 1).val < 128 := (i 1).isLt
  obtain ⟨t, ht⟩ : ∃ t : Fin cfg0.N, t.val = (i 0).val / 1024 :=
    ⟨⟨(i 0).val / 1024, by rw [show cfg0.N = 40 from N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 128 ≤ (i 1).val ∧ (i 1).val < win0_2.index t (1 : Fin 2) * 128 + 128; rw [e5]; omega

/-! ## The result array after the region -/

/-- The result array after the last point is `G0`. -/
theorem final0 (c : Dev nD) : (dat0 V c).arrAt 2 cfg0.N = G0 (V c main_v54) (V c main_v55) :=
  (dat0 V c).arrAt_eq_of_cover 2 (G0 (V c main_v54) (V c main_v55)) (fun t _ => flushed0_eq V c t) cover0

/-- Entry `(r, j)` of the result array after the region: row `r` of the left array against column `j` of the right one
    (`G0` is reducible: the right-hand side is `∑ k, left (r, k) * right (k, j)`). -/
theorem value0 (c : Dev nD) (r : Fin 40960) (j : Fin 128) :
    (dat0 (F := Ideal) V c).arrAt 2 cfg0.N (ix2 r j) = G0 (V c main_v54) (V c main_v55) (ix2 r j) :=
  congrFun (final0 V c) (ix2 r j)

/-- The same with the two arrays named: for `a`, `b` the left and right arrays as the region finds them. -/
theorem value0_of (c : Dev nD) (r : Fin 40960) (j : Fin 128) (a : S40960x128.Idx → EReal) (b : S128x128.Idx → EReal)
    (ha : V c main_v54 = a) (hb : V c main_v55 = b) :
    (dat0 (F := Ideal) V c).arrAt 2 cfg0.N (ix2 r j) = ∑ k : Fin 128, a (ix2 r k) * b (ix2 k j) := by
  subst ha hb
  exact value0 V c r j

/-! # Region 2 -/

/-! ## The dimension numbers: contraction over the left operand's axis 1 and the right operand's axis 0 -/

theorem dot2_lhs0 (j : S1024x64.Idx) (q : dot_S1024x128_S128x64_S1024x64_1_0_0_1_n_n.contr.Idx) :
    (dot_S1024x128_S128x64_S1024x64_1_0_0_1_n_n.lhsIdx j q (0 : Fin 2)).val = (j (0 : Fin 2)).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem dot2_lhs1 (j : S1024x64.Idx) (q : dot_S1024x128_S128x64_S1024x64_1_0_0_1_n_n.contr.Idx) :
    (dot_S1024x128_S128x64_S1024x64_1_0_0_1_n_n.lhsIdx j q (1 : Fin 2)).val = (q ⟨0, by decide⟩).val :=
  dot_S1024x128_S128x64_S1024x64_1_0_0_1_n_n.lhsIdx_val_of_single rfl j q
theorem dot2_rhs0 (j : S1024x64.Idx) (q : dot_S1024x128_S128x64_S1024x64_1_0_0_1_n_n.contr.Idx) :
    (dot_S1024x128_S128x64_S1024x64_1_0_0_1_n_n.rhsIdx j q (0 : Fin 2)).val = (q ⟨0, by decide⟩).val :=
  dot_S1024x128_S128x64_S1024x64_1_0_0_1_n_n.rhsIdx_val_of_single rfl j q
theorem dot2_rhs1 (j : S1024x64.Idx) (q : dot_S1024x128_S128x64_S1024x64_1_0_0_1_n_n.contr.Idx) :
    (dot_S1024x128_S128x64_S1024x64_1_0_0_1_n_n.rhsIdx j q (1 : Fin 2)).val = (j (1 : Fin 2)).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-! ## The payload at an entry -/

/-- The body's payload at entry `(p, q)`: the row `p` of the left block against the column `q` of the right block. -/
theorem pay2_entry (x0 : Vec Ideal S1024x128 .bf16) (x1 : Vec Ideal S128x64 .bf16) (p : Fin 1024) (q : Fin 64) :
    k2_pay1 x0 x1 (ix2 p q) = ∑ k : Fin 128, x0 (ix2 p k) * x1 (ix2 k q) := by
  unfold k2_pay1
  simp only [shapeCast_self]
  exact Cert.PlainProduct.matmul_zero_entry dot_S1024x128_S128x64_S1024x64_1_0_0_1_n_n rfl rfl dot2_lhs0 dot2_lhs1 dot2_rhs0 dot2_rhs1 x0 x1 p q

/-! ## The blocks as parts of the arrays -/

/-- The printed index maps, decided over the grid: at point `t` the left operand's and the result's row-block index
    is `t`, every other block index is `0`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point `t` is rows `1024 t … 1024 t + 1023` of the left array. -/
theorem iblk2_left (c : Dev nD) (t : Fin cfg2.N) (x : S1024x128.Idx) (i : S40960x128.Idx)
    (h0 : (i 0).val = 1024 * t.val + (x 0).val) (h1 : (i 1).val = (x 1).val) :
    (iblk2 V c 0 t : Vec Ideal S1024x128 .bf16) x = (V c main_v70 : S40960x128.Idx → EReal) i := by
  obtain ⟨e0, e1, -, -, -, -⟩ := idx_facts2 t
  unfold iblk2
  rw [View.read_apply]
  show V c main_v70 _ = V c main_v70 _
  congr 1
  funext a
  apply Fin.ext
  match a with
  | ⟨0, _⟩ => show win2_0.index t 0 * 1024 + 1 * (x 0).val = (i 0).val; rw [e0, h0]; omega
  | ⟨1, _⟩ => show win2_0.index t 1 * 128 + 1 * (x 1).val = (i 1).val; rw [e1, h1]; omega

/-- The right block at every point is the whole right array. -/
theorem iblk2_right (c : Dev nD) (t : Fin cfg2.N) (x : S128x64.Idx) :
    (iblk2 V c 1 t : Vec Ideal S128x64 .bf16) x = (V c main_v56 : S128x64.Idx → EReal) x := by
  obtain ⟨-, -, e2, e3, -, -⟩ := idx_facts2 t
  unfold iblk2
  rw [View.read_apply]
  show V c main_v56 _ = V c main_v56 _
  congr 1
  funext a
  apply Fin.ext
  match a with
  | ⟨0, _⟩ => show win2_1.index t 0 * 128 + 1 * (x 0).val = (x 0).val; rw [e2]; omega
  | ⟨1, _⟩ => show win2_1.index t 1 * 64 + 1 * (x 1).val = (x 1).val; rw [e3]; omega

/-! ## What each point writes back -/

/-- The product of a left array `a` and a right array `b`, entry by entry. -/
abbrev G2 (a : S40960x128.Idx → EReal) (b : S128x64.Idx → EReal) : S40960x64.Idx → EReal := fun i =>
  ∑ k : Fin 128, a (ix2 (i 0) k) * b (ix2 k (i 1))

/-- What point `t` writes back is block `t` of `G2`. -/
theorem flushed2_eq (c : Dev nD) (t : Fin cfg2.N) :
    (dat2 V c).flushed 2 t = ((cfg2.win 2).blk t).view.read (Elt Ideal) (G2 (V c main_v70) (V c main_v56)) := by
  show (cfg2.win 2).cut (grid2.coords t) ((dat2 V c).after 2 t) = _
  rw [after2_2]
  unfold out2_2
  rw [View.canon_unit_zero zero_offsets]
  simp only [View.ld_unit_zero (S := S1024x128) zero_offsets, View.ld_unit_zero (S := S128x64) zero_offsets]
  obtain ⟨-, -, -, -, e4, e5⟩ := idx_facts2 t
  funext y
  obtain ⟨p, q, rfl⟩ : ∃ (p : Fin 1024) (q : Fin 64), y = ix2 p q := ⟨y 0, y 1, eq_ix2 y⟩
  show k2_pay1 (iblk2 V c 0 t) (iblk2 V c 1 t) (ix2 p q) = _
  refine (pay2_entry (iblk2 V c 0 t) (iblk2 V c 1 t) p q).trans ?_
  show _ = G2 (V c main_v70) (V c main_v56) (((cfg2.win 2).blk t).view.emb (ix2 p q))
  unfold G2
  refine Finset.sum_congr rfl fun k _ => ?_
  congr 1
  · refine iblk2_left V c t (ix2 p k) _ ?_ rfl
    show win2_2.index t 0 * 1024 + 1 * p.val = 1024 * t.val + p.val
    rw [e4]; omega
  · refine (iblk2_right V c t (ix2 k q)).trans ?_
    congr 1
    funext a
    apply Fin.ext
    match a with
    | ⟨0, _⟩ => rfl
    | ⟨1, _⟩ => show q.val = win2_2.index t 1 * 64 + 1 * q.val; rw [e5]; omega

/-! ## The blocks cover the result array -/

/-- An index of the result array is in point `t`'s block iff each coordinate is in the block's range on its axis. -/
theorem mem_blk2 (t : Fin cfg2.N) (i : S40960x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole main_v71).slice (win2_2.rect t)).set ↔ _
  rw [View.set_slice_whole, Rect.mem_set_unit]
  exact Iff.rfl

/-- Row `r` of the result array is in the block of point `r / 1024`, which writes back. -/
theorem cover2 (i : S40960x64.Idx) :
    ∃ t : Fin cfg2.N, (cfg2.win 2).flush t = true ∧ i ∈ ((cfg2.win 2).blk t).view.set := by
  have hi0 : (i 0).val < 40960 := (i 0).isLt
  have hi1 : (i 1).val < 64 := (i 1).isLt
  obtain ⟨t, ht⟩ : ∃ t : Fin cfg2.N, t.val = (i 0).val / 1024 :=
    ⟨⟨(i 0).val / 1024, by rw [show cfg2.N = 40 from N_2]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e4, ht]; omega
  | ⟨1, _⟩ => show win2_2.index t (1 : Fin 2) * 64 ≤ (i 1).val ∧ (i 1).val < win2_2.index t (1 : Fin 2) * 64 + 64; rw [e5]; omega

/-! ## The result array after the region -/

/-- The result array after the last point is `G2`. -/
theorem final2 (c : Dev nD) : (dat2 V c).arrAt 2 cfg2.N = G2 (V c main_v70) (V c main_v56) :=
  (dat2 V c).arrAt_eq_of_cover 2 (G2 (V c main_v70) (V c main_v56)) (fun t _ => flushed2_eq V c t) cover2

/-- Entry `(r, j)` of the result array after the region: row `r` of the left array against column `j` of the right one
    (`G2` is reducible: the right-hand side is `∑ k, left (r, k) * right (k, j)`). -/
theorem value2 (c : Dev nD) (r : Fin 40960) (j : Fin 64) :
    (dat2 (F := Ideal) V c).arrAt 2 cfg2.N (ix2 r j) = G2 (V c main_v70) (V c main_v56) (ix2 r j) :=
  congrFun (final2 V c) (ix2 r j)

/-- The same with the two arrays named: for `a`, `b` the left and right arrays as the region finds them. -/
theorem value2_of (c : Dev nD) (r : Fin 40960) (j : Fin 64) (a : S40960x128.Idx → EReal) (b : S128x64.Idx → EReal)
    (ha : V c main_v70 = a) (hb : V c main_v56 = b) :
    (dat2 (F := Ideal) V c).arrAt 2 cfg2.N (ix2 r j) = ∑ k : Fin 128, a (ix2 r k) * b (ix2 k j) := by
  subst ha hb
  exact value2 V c r j

end Cert.KernelIdeal.Hand

end
-- ==== Proof.KI.ValR1.lean ====
import proofs.«125395_j52793738002724_1_alg».proof.Proof.KI.RegR1
import proofs.«125395_j52793738002724_1_alg».proof.Proof.LibPlainProduct
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

section Generic
variable {F : FTy → Type} [FloatOps F]

theorem hz1 : (![0, 0] : Fin 2 → Nat) = fun _ => 0 := funext fun a => by fin_cases a <;> rfl

/-- A row block's first step leaves in the accumulator the step's product added onto zeros. -/
theorem soutA1_eq (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i) (x0 : Vec F S1024x1024 .bf16) (x1 : Vec F S1024x512 .bf16) :
    sout1_A_0 c i arg2 harg2 arg3 harg3 arg4 harg4 arg5 harg5 hc0 hc1 x0 x1 = k1_pay2 (k1_pay1 (F := F)) x0 x1 := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_words
  rw [View.canon_cons_unit_zero hz1]
  simp only [View.readAt_eq_ld, harg2.read_unread, harg3.read_unread, View.ld_unit_zero (S := S1024x1024) hz1, View.ld_unit_zero (S := S1024x512) hz1, View.readCov_unit_zero (S := S1024x512) _ hz1]

/-- A middle step adds its product onto what the accumulator held. -/
theorem soutB1_eq (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i) (x0 : Vec F S1024x1024 .bf16) (x1 : Vec F S1024x512 .bf16) (xs0 : Vec F S1024x512 .f32) :
    sout1_B_0 c i arg2 harg2 arg3 harg3 arg4 harg4 arg5 harg5 hc0 hc1 x0 x1 xs0 = k1_pay2 xs0 x0 x1 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  rw [View.canon_unit_zero hz1]
  simp only [View.readAt_eq_ld, harg2.read_unread, harg3.read_unread, harg5.read_unread, View.ld_unit_zero (S := S1024x1024) hz1, View.ld_unit_zero (S := S1024x512) hz1]

/-- So does the last step, -/
theorem soutC1_eq (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i) (x0 : Vec F S1024x1024 .bf16) (x1 : Vec F S1024x512 .bf16) (xs0 : Vec F S1024x512 .f32) :
    sout1_C_0 c i arg2 harg2 arg3 harg3 arg4 harg4 arg5 harg5 hc0 hc1 x0 x1 xs0 = k1_pay2 xs0 x0 x1 := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_words
  rw [View.canon_unit_zero hz1]
  simp only [View.readAt_eq_ld, harg2.read_unread, harg3.read_unread, harg5.read_unread, View.ld_unit_zero (S := S1024x1024) hz1, View.ld_unit_zero (S := S1024x512) hz1]

/-- which then copies the accumulator into the output's buffer. -/
theorem outC1_eq (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i) (x0 : Vec F S1024x1024 .bf16) (x1 : Vec F S1024x512 .bf16) (xs0 : Vec F S1024x512 .f32) :
    out1_C_2 c i arg2 harg2 arg3 harg3 arg4 harg4 arg5 harg5 hc0 hc1 x0 x1 xs0 = k1_pay2 xs0 x0 x1 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero hz1, View.readCov_unit_zero (S := S1024x512) _ hz1]
  simp only [View.readAt_eq_ld, harg2.read_unread, harg3.read_unread, harg5.read_unread, View.ld_unit_zero (S := S1024x1024) hz1, View.ld_unit_zero (S := S1024x512) hz1]

end Generic

section AtIdeal

/-- The zero-fill at an entry. -/
theorem pay1_1_entry (p : Fin 1024) (j : Fin 512) : (k1_pay1 (F := Ideal) : S1024x512.Idx → Ideal .f32) (ix2 p j) = 0 := by
  unfold k1_pay1
  simp only [shapeCast_self]
  exact Ideal.ofBits_zero_f32

/-- One step's payload at an entry: what the accumulator held plus the row of the left block times the column of the right. -/
theorem pay2_1_entry (xs : S1024x512.Idx → Ideal .f32) (x0 : S1024x1024.Idx → Ideal .bf16) (x1 : S1024x512.Idx → Ideal .bf16) (p : Fin 1024) (j : Fin 512) :
    (k1_pay2 (F := Ideal) xs x0 x1 : S1024x512.Idx → Ideal .f32) (ix2 p j) = xs (ix2 p j) + ∑ q : Fin 1024, x0 (ix2 p q) * x1 (ix2 q j) := by
  unfold k1_pay2
  simp only [shapeCast_self]
  refine (addf_apply _ _ _).trans ?_
  refine congrArg (xs (ix2 p j) + ·) ?_
  exact Cert.PlainProduct.matmul_zero_entry dot_S1024x1024_S1024x512_S1024x512_1_0_0_1_n_n (by decide) (by decide)
    (fun _ _ => rfl) (fun _ _ => rfl) (fun _ _ => rfl) (fun _ _ => rfl) x0 x1 p j

variable (V : (c : Dev nD) → (b : Ref sig .tc) → Buf (Elt Ideal) ((c : Thread nD τ).loc b))

/-! ## The arrays and blocks as functions into the extended reals -/

/-- The left array, the right array and the result array of the region, -/
abbrev lArr1 (c : Dev nD) : S10240x10240.Idx → Ideal .bf16 := V c main_v51
abbrev rArr1 (c : Dev nD) : S10240x512.Idx → Ideal .bf16 := V c main_v61
abbrev oArr1 (c : Dev nD) : S10240x512.Idx → Ideal .f32 := (dat1 (F := Ideal) V c).arrAt 2 cfg1.N
/-- the two input blocks at a point and the accumulator after it. -/
abbrev lblk1 (c : Dev nD) (t : Fin cfg1.N) : S1024x1024.Idx → Ideal .bf16 := iblk1 V c 0 t
abbrev rblk1 (c : Dev nD) (t : Fin cfg1.N) : S1024x512.Idx → Ideal .bf16 := iblk1 V c 1 t
abbrev accAt1 (c : Dev nD) (t : Fin cfg1.N) : S1024x512.Idx → Ideal .f32 := (outsAt1 V c t.val t.isLt).2

theorem idx1_0 : ∀ t : Fin cfg1.N, win1_0.index t 0 = t.val / 10 ∧ win1_0.index t 1 = t.val % 10 :=
  (by decide +kernel : ∀ t : Fin grid1.N, win1_0.index t 0 = t.val / 10 ∧ win1_0.index t 1 = t.val % 10)
theorem idx1_1 : ∀ t : Fin cfg1.N, win1_1.index t 0 = t.val % 10 ∧ win1_1.index t 1 = 0 :=
  (by decide +kernel : ∀ t : Fin grid1.N, win1_1.index t 0 = t.val % 10 ∧ win1_1.index t 1 = 0)
theorem idx1_2 : ∀ t : Fin cfg1.N, win1_2.index t 0 = t.val / 10 ∧ win1_2.index t 1 = 0 :=
  (by decide +kernel : ∀ t : Fin grid1.N, win1_2.index t 0 = t.val / 10 ∧ win1_2.index t 1 = 0)

/-- The left array and the right array, read at natural-number coordinates (zero outside the array). -/
def aN1 (c : Dev nD) (r s : ℕ) : EReal :=
  if h : r < 10240 ∧ s < 10240 then lArr1 V c (ix2 ⟨r, h.1⟩ ⟨s, h.2⟩) else 0
def bN1 (c : Dev nD) (r s : ℕ) : EReal :=
  if h : r < 10240 ∧ s < 512 then rArr1 V c (ix2 ⟨r, h.1⟩ ⟨s, h.2⟩) else 0

/-- Entry `(p, q)` of the left window's block at point `t` is entry `(1024 (t / 10) + p, 1024 (t % 10) + q)` of the array. -/
theorem iblk1_0_N (c : Dev nD) (t : Fin cfg1.N) (p q : Fin 1024) :
    lblk1 V c t (ix2 p q) = aN1 V c (t.val / 10 * 1024 + p.val) (t.val % 10 * 1024 + q.val) := by
  have hN : t.val < 100 := lt_of_lt_of_eq t.isLt (show cfg1.N = 100 from N_1)
  have hi := idx1_0 t
  unfold aN1
  rw [dif_pos ⟨by omega, by omega⟩]
  unfold lblk1 lArr1 iblk1
  rw [View.read_apply]
  show (V c main_v51 : S10240x10240.Idx → Ideal .bf16) _ = _
  refine congrArg _ ?_
  funext a
  apply Fin.ext
  match a with
  | ⟨0, _⟩ => show win1_0.index t 0 * 1024 + 1 * p.val = t.val / 10 * 1024 + p.val; rw [hi.1]; omega
  | ⟨1, _⟩ => show win1_0.index t 1 * 1024 + 1 * q.val = t.val % 10 * 1024 + q.val; rw [hi.2]; omega

/-- Entry `(q, j)` of the right window's block at point `t` is entry `(1024 (t % 10) + q, j)` of the array. -/
theorem iblk1_1_N (c : Dev nD) (t : Fin cfg1.N) (q : Fin 1024) (j : Fin 512) :
    rblk1 V c t (ix2 q j) = bN1 V c (t.val % 10 * 1024 + q.val) j.val := by
  have hN : t.val < 100 := lt_of_lt_of_eq t.isLt (show cfg1.N = 100 from N_1)
  have hi := idx1_1 t
  unfold bN1
  rw [dif_pos ⟨by omega, j.isLt⟩]
  unfold rblk1 rArr1 iblk1
  rw [View.read_apply]
  show (V c main_v61 : S10240x512.Idx → Ideal .bf16) _ = _
  refine congrArg _ ?_
  funext a
  apply Fin.ext
  match a with
  | ⟨0, _⟩ => show win1_1.index t 0 * 1024 + 1 * q.val = t.val % 10 * 1024 + q.val; rw [hi.1]; omega
  | ⟨1, _⟩ => show win1_1.index t 1 * 512 + 1 * j.val = j.val; rw [hi.2]; omega

/-! ## The accumulator after each point -/

/-- The partial product of row block `n / 10` over the reduction blocks `0 … n % 10`, at entry `(p, j)`. -/
def accN1 (c : Dev nD) (n p j : ℕ) : EReal :=
  ∑ kb ∈ Finset.range (n % 10 + 1), ∑ q ∈ Finset.range 1024, aN1 V c (n / 10 * 1024 + p) (kb * 1024 + q) * bN1 V c (kb * 1024 + q) j

/-- One step's term, as a sum over a range. -/
theorem step1_term (c : Dev nD) (t : Fin cfg1.N) (p : Fin 1024) (j : Fin 512) :
    (∑ q : Fin 1024, lblk1 V c t (ix2 p q) * rblk1 V c t (ix2 q j))
      = ∑ q ∈ Finset.range 1024, aN1 V c (t.val / 10 * 1024 + p.val) (t.val % 10 * 1024 + q) * bN1 V c (t.val % 10 * 1024 + q) j.val := by
  rw [Finset.sum_range]
  refine Finset.sum_congr rfl fun q _ => ?_
  rw [iblk1_0_N V c t p q, iblk1_1_N V c t q j]

set_option maxHeartbeats 3200000 in
/-- THE INVARIANT: after point `t` the accumulator holds the partial product over the reduction blocks up to `t % 10`. -/
theorem scratch1_inv (c : Dev nD) : ∀ (n : ℕ) (t : Fin cfg1.N), t.val = n → ∀ (p : Fin 1024) (j : Fin 512),
    accAt1 V c t (ix2 p j) = accN1 V c t.val p.val j.val := by
  intro n
  induction n using Nat.strong_induction_on with
  | _ n IH =>
    intro t ht p j
    have hN : t.val < 100 := lt_of_lt_of_eq t.isLt (show cfg1.N = 100 from N_1)
    by_cases h0 : t.val % 10 = 0
    · have h1 : ¬t.val % 10 = 9 := by omega
      have hacc : accN1 V c t.val p.val j.val
          = 0 + ∑ q ∈ Finset.range 1024, aN1 V c (t.val / 10 * 1024 + p.val) (t.val % 10 * 1024 + q) * bN1 V c (t.val % 10 * 1024 + q) j.val := by
        unfold accN1
        rw [h0, Finset.sum_range_one, zero_add]
      rw [hacc, ← step1_term V c t p j, ← pay1_1_entry p j]
      show ((outsAt1 V c t.val t.isLt).2 : S1024x512.Idx → Ideal .f32) (ix2 p j) = _
      rw [outsAt1_A V c t h0 h1]
      dsimp only
      rw [soutA1_eq]
      exact pay2_1_entry (k1_pay1 (F := Ideal)) (lblk1 V c t) (rblk1 V c t) p j
    · have hlt : t.val - 1 < cfg1.N := by have := t.isLt; omega
      have ih : accAt1 V c ⟨t.val - 1, hlt⟩ (ix2 p j) = accN1 V c (t.val - 1) p.val j.val :=
        IH (t.val - 1) (by omega) ⟨t.val - 1, hlt⟩ rfl p j
      have hm1 : (t.val - 1) / 10 = t.val / 10 := by omega
      have hm2 : (t.val - 1) % 10 + 1 = t.val % 10 := by omega
      have hacc : accN1 V c t.val p.val j.val = accN1 V c (t.val - 1) p.val j.val
          + ∑ q ∈ Finset.range 1024, aN1 V c (t.val / 10 * 1024 + p.val) (t.val % 10 * 1024 + q) * bN1 V c (t.val % 10 * 1024 + q) j.val := by
        unfold accN1
        rw [hm1, ← hm2, Finset.sum_range_succ, hm2]
      rw [hacc, ← step1_term V c t p j, ← ih]
      show ((outsAt1 V c t.val t.isLt).2 : S1024x512.Idx → Ideal .f32) (ix2 p j) = _
      by_cases h1 : t.val % 10 = 9
      · rw [outsAt1_C V c t h0 h1]
        dsimp only
        rw [soutC1_eq]
        exact pay2_1_entry (accAt1 V c ⟨t.val - 1, hlt⟩) (lblk1 V c t) (rblk1 V c t) p j
      · rw [outsAt1_B V c t h0 h1]
        dsimp only
        rw [soutB1_eq]
        exact pay2_1_entry (accAt1 V c ⟨t.val - 1, hlt⟩) (lblk1 V c t) (rblk1 V c t) p j

/-- At a row block's last step the output's buffer holds what the accumulator holds. -/
theorem out1_last (c : Dev nD) (t : Fin cfg1.N) (h9 : t.val % 10 = 9) :
    (outsAt1 V c t.val t.isLt).1 = (outsAt1 V c t.val t.isLt).2 := by
  rw [outsAt1_C V c t (by omega) h9]
  dsimp only
  rw [outC1_eq, soutC1_eq]

/-! ## The result array -/

/-- The product, entry by entry, over natural-number coordinates. -/
def result1 (c : Dev nD) : S10240x512.Idx → Ideal .f32 := fun i =>
  ∑ kb ∈ Finset.range 10, ∑ q ∈ Finset.range 1024, aN1 V c (i 0).val (kb * 1024 + q) * bN1 V c (kb * 1024 + q) (i 1).val

/-- What a write-back writes is its block of the product. -/
theorem flushed1_eq (c : Dev nD) (t : Fin cfg1.N) (hf : (cfg1.win 2).flush t = true) :
    (dat1 V c).flushed 2 t = ((cfg1.win 2).blk t).view.read (Elt Ideal) (result1 V c) := by
  have hN : t.val < 100 := lt_of_lt_of_eq t.isLt (show cfg1.N = 100 from N_1)
  have h9 : t.val % 10 = 9 := (flush1_2 t).mp hf
  have hi := idx1_2 t
  show (dat1 V c).after 2 t = _
  rw [after1_2, out1_last V c t h9]
  funext y
  obtain ⟨p, j, rfl⟩ : ∃ (p : Fin 1024) (j : Fin 512), y = ix2 p j := ⟨_, _, eq_ix2 y⟩
  refine (scratch1_inv V c t.val t rfl p j).trans ?_
  rw [View.read_apply]
  have e0 : ((((cfg1.win 2).blk t).view.emb (ix2 p j)) 0).val = t.val / 10 * 1024 + p.val := by
    show win1_2.index t 0 * 1024 + 1 * p.val = _; rw [hi.1]; omega
  have e1 : ((((cfg1.win 2).blk t).view.emb (ix2 p j)) 1).val = j.val := by
    show win1_2.index t 1 * 512 + 1 * j.val = _; rw [hi.2]; omega
  show _ = result1 V c _
  unfold result1 accN1
  rw [e0, e1, h9]

/-- So the result array ends holding the product: the row blocks' last points write back blocks that tile it. -/
theorem final1 (c : Dev nD) : (dat1 V c).arrAt 2 cfg1.N = result1 V c :=
  (dat1 V c).arrAt_eq_of_cover 2 (result1 V c) (flushed1_eq V c) fun i => by
    have h0 : (i 0 : Nat) < 10240 := (i 0).isLt
    have h1 : (i 1 : Nat) < 512 := (i 1).isLt
    have hlt : (i 0 : Nat) / 1024 * 10 + 9 < cfg1.N := by rw [show cfg1.N = 100 from N_1]; omega
    refine ⟨⟨(i 0 : Nat) / 1024 * 10 + 9, hlt⟩, (flush1_2 _).mpr (by show ((i 0 : Nat) / 1024 * 10 + 9) % 10 = 9; omega), ?_⟩
    have hi := idx1_2 ⟨(i 0 : Nat) / 1024 * 10 + 9, hlt⟩
    show i ∈ ((View.whole main_v62).slice (win1_2.rect ⟨(i 0 : Nat) / 1024 * 10 + 9, hlt⟩)).set
    rw [View.set_slice_whole, Rect.mem_set_unit]
    intro a
    match a with
    | ⟨0, _⟩ =>
      show win1_2.index ⟨(i 0 : Nat) / 1024 * 10 + 9, hlt⟩ 0 * 1024 ≤ (i 0 : Nat) ∧ (i 0 : Nat) < win1_2.index ⟨(i 0 : Nat) / 1024 * 10 + 9, hlt⟩ 0 * 1024 + 1024
      rw [hi.1]; show ((i 0 : Nat) / 1024 * 10 + 9) / 10 * 1024 ≤ (i 0 : Nat) ∧ (i 0 : Nat) < ((i 0 : Nat) / 1024 * 10 + 9) / 10 * 1024 + 1024; omega
    | ⟨1, _⟩ =>
      show win1_2.index ⟨(i 0 : Nat) / 1024 * 10 + 9, hlt⟩ 1 * 512 ≤ (i 1 : Nat) ∧ (i 1 : Nat) < win1_2.index ⟨(i 0 : Nat) / 1024 * 10 + 9, hlt⟩ 1 * 512 + 512
      rw [hi.2]; omega

/-- THE VALUE of region 1's output array: entry `(n, j)` is the sum over the ten reduction blocks and the 1024 columns of
    each of the left array's entry times the right array's. -/
theorem value1 (c : Dev nD) (n : Fin 10240) (j : Fin 512) :
    oArr1 V c (ix2 n j)
      = ∑ kb : Fin 10, ∑ q : Fin 1024,
          lArr1 V c (ix2 n ⟨kb.val * 1024 + q.val, by omega⟩) * rArr1 V c (ix2 ⟨kb.val * 1024 + q.val, by omega⟩ j) := by
  unfold oArr1
  rw [final1 V c]
  show ∑ kb ∈ Finset.range 10, ∑ q ∈ Finset.range 1024, aN1 V c n.val (kb * 1024 + q) * bN1 V c (kb * 1024 + q) j.val = _
  rw [Finset.sum_range]
  refine Finset.sum_congr rfl fun kb _ => ?_
  rw [Finset.sum_range]
  refine Finset.sum_congr rfl fun q _ => ?_
  unfold aN1 bN1
  rw [dif_pos ⟨n.isLt, by omega⟩, dif_pos ⟨by omega, j.isLt⟩]

end AtIdeal

end Cert.KernelIdeal.Hand

end
-- ==== Proof.KI.ValR3.lean ====
import proofs.«125395_j52793738002724_1_alg».proof.Proof.KI.RegR3
import proofs.«125395_j52793738002724_1_alg».proof.Proof.LibPlainProduct
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

section Generic
variable {F : FTy → Type} [FloatOps F]

theorem hz3 : (![0, 0] : Fin 2 → Nat) = fun _ => 0 := funext fun a => by fin_cases a <;> rfl

/-- A row block's first step leaves in the accumulator the step's product added onto zeros. -/
theorem soutA3_eq (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i) (x0 : Vec F S1024x1024 .bf16) (x1 : Vec F S1024x256 .bf16) :
    sout3_A_0 c i arg2 harg2 arg3 harg3 arg4 harg4 arg5 harg5 hc0 hc1 x0 x1 = k3_pay2 (k3_pay1 (F := F)) x0 x1 := by
  unfold sout3_A_0
  rw [View.read_writes_eq_canon _ _ _ (scover3_A_0 c i arg2 harg2 arg3 harg3 arg4 harg4 arg5 harg5 hc0 hc1 x0 x1)]
  unfold kernelRun3_A
  dsimp only
  try sl_unfold_words
  rw [View.canon_cons_unit_zero hz3]
  simp only [View.readAt_eq_ld, harg2.read_unread, harg3.read_unread, View.ld_unit_zero (S := S1024x1024) hz3, View.ld_unit_zero (S := S1024x256) hz3, View.readCov_unit_zero (S := S1024x256) _ hz3]

/-- A middle step adds its product onto what the accumulator held. -/
theorem soutB3_eq (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i) (x0 : Vec F S1024x1024 .bf16) (x1 : Vec F S1024x256 .bf16) (xs0 : Vec F S1024x256 .f32) :
    sout3_B_0 c i arg2 harg2 arg3 harg3 arg4 harg4 arg5 harg5 hc0 hc1 x0 x1 xs0 = k3_pay2 xs0 x0 x1 := by
  unfold sout3_B_0
  rw [View.read_writes_eq_canon _ _ _ (scover3_B_0 c i arg2 harg2 arg3 harg3 arg4 harg4 arg5 harg5 hc0 hc1 x0 x1 xs0)]
  unfold kernelRun3_B
  dsimp only
  try sl_unfold_words
  rw [View.canon_unit_zero hz3]
  simp only [View.readAt_eq_ld, harg2.read_unread, harg3.read_unread, harg5.read_unread, View.ld_unit_zero (S := S1024x1024) hz3, View.ld_unit_zero (S := S1024x256) hz3]

/-- So does the last step, -/
theorem soutC3_eq (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x1024 .bf16) (x1 : Vec F S1024x256 .bf16) (xs0 : Vec F S1024x256 .f32) :
    sout3_C_0 c i arg2 harg2 arg3 harg3 arg4 harg4 arg5 harg5 hc0 hc1 x0 x1 xs0 = k3_pay2 xs0 x0 x1 := by
  unfold sout3_C_0
  rw [View.read_writes_eq_canon _ _ _ (scover3_C_0 c i arg2 harg2 arg3 harg3 arg4 harg4 arg5 harg5 hc0 hc1 x0 x1 xs0)]
  unfold kernelRun3_C
  dsimp only
  try sl_unfold_words
  rw [View.canon_unit_zero hz3]
  simp only [View.readAt_eq_ld, harg2.read_unread, harg3.read_unread, harg5.read_unread, View.ld_unit_zero (S := S1024x1024) hz3, View.ld_unit_zero (S := S1024x256) hz3]

/-- which then copies the accumulator into the output's buffer. -/
theorem outC3_eq (c : Dev nD) (i : grid3.Coords) (arg2 : Memref sig .tc .vmem S1024x1024 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i) (x0 : Vec F S1024x1024 .bf16) (x1 : Vec F S1024x256 .bf16) (xs0 : Vec F S1024x256 .f32) :
    out3_C_2 c i arg2 harg2 arg3 harg3 arg4 harg4 arg5 harg5 hc0 hc1 x0 x1 xs0 = k3_pay2 xs0 x0 x1 := by
  unfold out3_C_2
  rw [View.read_writes_eq_canon _ _ _ (cover3_C_2 c i arg2 harg2 arg3 harg3 arg4 harg4 arg5 harg5 hc0 hc1 x0 x1 xs0)]
  unfold kernelRun3_C
  dsimp only
  try sl_unfold_words
  rw [View.canon_unit_zero hz3, View.readCov_unit_zero (S := S1024x256) _ hz3]
  simp only [View.readAt_eq_ld, harg2.read_unread, harg3.read_unread, harg5.read_unread, View.ld_unit_zero (S := S1024x1024) hz3, View.ld_unit_zero (S := S1024x256) hz3]

end Generic

section AtIdeal

/-- The zero-fill at an entry. -/
theorem pay1_3_entry (p : Fin 1024) (j : Fin 256) : (k3_pay1 (F := Ideal) : S1024x256.Idx → Ideal .f32) (ix2 p j) = 0 := by
  unfold k3_pay1
  simp only [shapeCast_self]
  exact Ideal.ofBits_zero_f32

/-- One step's payload at an entry: what the accumulator held plus the row of the left block times the column of the right. -/
theorem pay2_3_entry (xs : S1024x256.Idx → Ideal .f32) (x0 : S1024x1024.Idx → Ideal .bf16) (x1 : S1024x256.Idx → Ideal .bf16) (p : Fin 1024) (j : Fin 256) :
    (k3_pay2 (F := Ideal) xs x0 x1 : S1024x256.Idx → Ideal .f32) (ix2 p j) = xs (ix2 p j) + ∑ q : Fin 1024, x0 (ix2 p q) * x1 (ix2 q j) := by
  unfold k3_pay2
  simp only [shapeCast_self]
  refine (addf_apply _ _ _).trans ?_
  refine congrArg (xs (ix2 p j) + ·) ?_
  exact Cert.PlainProduct.matmul_zero_entry dot_S1024x1024_S1024x256_S1024x256_1_0_0_1_n_n (by decide) (by decide)
    (fun _ _ => rfl) (fun _ _ => rfl) (fun _ _ => rfl) (fun _ _ => rfl) x0 x1 p j

variable (V : (c : Dev nD) → (b : Ref sig .tc) → Buf (Elt Ideal) ((c : Thread nD τ).loc b))

/-! ## The arrays and blocks as functions into the extended reals -/

/-- The left array, the right array and the result array of the region, -/
abbrev lArr3 (c : Dev nD) : S10240x10240.Idx → Ideal .bf16 := V c main_v51
abbrev rArr3 (c : Dev nD) : S10240x256.Idx → Ideal .bf16 := V c main_v75
abbrev oArr3 (c : Dev nD) : S10240x256.Idx → Ideal .f32 := (dat3 (F := Ideal) V c).arrAt 2 cfg3.N
/-- the two input blocks at a point and the accumulator after it. -/
abbrev lblk3 (c : Dev nD) (t : Fin cfg3.N) : S1024x1024.Idx → Ideal .bf16 := iblk3 V c 0 t
abbrev rblk3 (c : Dev nD) (t : Fin cfg3.N) : S1024x256.Idx → Ideal .bf16 := iblk3 V c 1 t
abbrev accAt3 (c : Dev nD) (t : Fin cfg3.N) : S1024x256.Idx → Ideal .f32 := (outsAt3 V c t.val t.isLt).2

theorem idx3_0 : ∀ t : Fin cfg3.N, win3_0.index t 0 = t.val / 10 ∧ win3_0.index t 1 = t.val % 10 :=
  (by decide +kernel : ∀ t : Fin grid3.N, win3_0.index t 0 = t.val / 10 ∧ win3_0.index t 1 = t.val % 10)
theorem idx3_1 : ∀ t : Fin cfg3.N, win3_1.index t 0 = t.val % 10 ∧ win3_1.index t 1 = 0 :=
  (by decide +kernel : ∀ t : Fin grid3.N, win3_1.index t 0 = t.val % 10 ∧ win3_1.index t 1 = 0)
theorem idx3_2 : ∀ t : Fin cfg3.N, win3_2.index t 0 = t.val / 10 ∧ win3_2.index t 1 = 0 :=
  (by decide +kernel : ∀ t : Fin grid3.N, win3_2.index t 0 = t.val / 10 ∧ win3_2.index t 1 = 0)

/-- The left array and the right array, read at natural-number coordinates (zero outside the array). -/
def aN3 (c : Dev nD) (r s : ℕ) : EReal :=
  if h : r < 10240 ∧ s < 10240 then lArr3 V c (ix2 ⟨r, h.1⟩ ⟨s, h.2⟩) else 0
def bN3 (c : Dev nD) (r s : ℕ) : EReal :=
  if h : r < 10240 ∧ s < 256 then rArr3 V c (ix2 ⟨r, h.1⟩ ⟨s, h.2⟩) else 0

/-- Entry `(p, q)` of the left window's block at point `t` is entry `(1024 (t / 10) + p, 1024 (t % 10) + q)` of the array. -/
theorem iblk3_0_N (c : Dev nD) (t : Fin cfg3.N) (p q : Fin 1024) :
    lblk3 V c t (ix2 p q) = aN3 V c (t.val / 10 * 1024 + p.val) (t.val % 10 * 1024 + q.val) := by
  have hN : t.val < 100 := lt_of_lt_of_eq t.isLt (show cfg3.N = 100 from N_3)
  have hi := idx3_0 t
  unfold aN3
  rw [dif_pos ⟨by omega, by omega⟩]
  unfold lblk3 lArr3 iblk3
  rw [View.read_apply]
  show (V c main_v51 : S10240x10240.Idx → Ideal .bf16) _ = _
  refine congrArg _ ?_
  funext a
  apply Fin.ext
  match a with
  | ⟨0, _⟩ => show win3_0.index t 0 * 1024 + 1 * p.val = t.val / 10 * 1024 + p.val; rw [hi.1]; omega
  | ⟨1, _⟩ => show win3_0.index t 1 * 1024 + 1 * q.val = t.val % 10 * 1024 + q.val; rw [hi.2]; omega

/-- Entry `(q, j)` of the right window's block at point `t` is entry `(1024 (t % 10) + q, j)` of the array. -/
theorem iblk3_1_N (c : Dev nD) (t : Fin cfg3.N) (q : Fin 1024) (j : Fin 256) :
    rblk3 V c t (ix2 q j) = bN3 V c (t.val % 10 * 1024 + q.val) j.val := by
  have hN : t.val < 100 := lt_of_lt_of_eq t.isLt (show cfg3.N = 100 from N_3)
  have hi := idx3_1 t
  unfold bN3
  rw [dif_pos ⟨by omega, j.isLt⟩]
  unfold rblk3 rArr3 iblk3
  rw [View.read_apply]
  show (V c main_v75 : S10240x256.Idx → Ideal .bf16) _ = _
  refine congrArg _ ?_
  funext a
  apply Fin.ext
  match a with
  | ⟨0, _⟩ => show win3_1.index t 0 * 1024 + 1 * q.val = t.val % 10 * 1024 + q.val; rw [hi.1]; omega
  | ⟨1, _⟩ => show win3_1.index t 1 * 256 + 1 * j.val = j.val; rw [hi.2]; omega

/-! ## The accumulator after each point -/

/-- The partial product of row block `n / 10` over the reduction blocks `0 … n % 10`, at entry `(p, j)`. -/
def accN3 (c : Dev nD) (n p j : ℕ) : EReal :=
  ∑ kb ∈ Finset.range (n % 10 + 1), ∑ q ∈ Finset.range 1024, aN3 V c (n / 10 * 1024 + p) (kb * 1024 + q) * bN3 V c (kb * 1024 + q) j

/-- One step's term, as a sum over a range. -/
theorem step3_term (c : Dev nD) (t : Fin cfg3.N) (p : Fin 1024) (j : Fin 256) :
    (∑ q : Fin 1024, lblk3 V c t (ix2 p q) * rblk3 V c t (ix2 q j))
      = ∑ q ∈ Finset.range 1024, aN3 V c (t.val / 10 * 1024 + p.val) (t.val % 10 * 1024 + q) * bN3 V c (t.val % 10 * 1024 + q) j.val := by
  rw [Finset.sum_range]
  refine Finset.sum_congr rfl fun q _ => ?_
  rw [iblk3_0_N V c t p q, iblk3_1_N V c t q j]

set_option maxHeartbeats 3200000 in
/-- THE INVARIANT: after point `t` the accumulator holds the partial product over the reduction blocks up to `t % 10`. -/
theorem scratch3_inv (c : Dev nD) : ∀ (n : ℕ) (t : Fin cfg3.N), t.val = n → ∀ (p : Fin 1024) (j : Fin 256),
    accAt3 V c t (ix2 p j) = accN3 V c t.val p.val j.val := by
  intro n
  induction n using Nat.strong_induction_on with
  | _ n IH =>
    intro t ht p j
    have hN : t.val < 100 := lt_of_lt_of_eq t.isLt (show cfg3.N = 100 from N_3)
    by_cases h0 : t.val % 10 = 0
    · have h1 : ¬t.val % 10 = 9 := by omega
      have hacc : accN3 V c t.val p.val j.val
          = 0 + ∑ q ∈ Finset.range 1024, aN3 V c (t.val / 10 * 1024 + p.val) (t.val % 10 * 1024 + q) * bN3 V c (t.val % 10 * 1024 + q) j.val := by
        unfold accN3
        rw [h0, Finset.sum_range_one, zero_add]
      rw [hacc, ← step3_term V c t p j, ← pay1_3_entry p j]
      show ((outsAt3 V c t.val t.isLt).2 : S1024x256.Idx → Ideal .f32) (ix2 p j) = _
      rw [outsAt3_A V c t h0 h1]
      dsimp only
      rw [soutA3_eq]
      exact pay2_3_entry (k3_pay1 (F := Ideal)) (lblk3 V c t) (rblk3 V c t) p j
    · have hlt : t.val - 1 < cfg3.N := by have := t.isLt; omega
      have ih : accAt3 V c ⟨t.val - 1, hlt⟩ (ix2 p j) = accN3 V c (t.val - 1) p.val j.val :=
        IH (t.val - 1) (by omega) ⟨t.val - 1, hlt⟩ rfl p j
      have hm1 : (t.val - 1) / 10 = t.val / 10 := by omega
      have hm2 : (t.val - 1) % 10 + 1 = t.val % 10 := by omega
      have hacc : accN3 V c t.val p.val j.val = accN3 V c (t.val - 1) p.val j.val
          + ∑ q ∈ Finset.range 1024, aN3 V c (t.val / 10 * 1024 + p.val) (t.val % 10 * 1024 + q) * bN3 V c (t.val % 10 * 1024 + q) j.val := by
        unfold accN3
        rw [hm1, ← hm2, Finset.sum_range_succ, hm2]
      rw [hacc, ← step3_term V c t p j, ← ih]
      show ((outsAt3 V c t.val t.isLt).2 : S1024x256.Idx → Ideal .f32) (ix2 p j) = _
      by_cases h1 : t.val % 10 = 9
      · rw [outsAt3_C V c t h0 h1]
        dsimp only
        rw [soutC3_eq]
        exact pay2_3_entry (accAt3 V c ⟨t.val - 1, hlt⟩) (lblk3 V c t) (rblk3 V c t) p j
      · rw [outsAt3_B V c t h0 h1]
        dsimp only
        rw [soutB3_eq]
        exact pay2_3_entry (accAt3 V c ⟨t.val - 1, hlt⟩) (lblk3 V c t) (rblk3 V c t) p j

/-- At a row block's last step the output's buffer holds what the accumulator holds. -/
theorem out3_last (c : Dev nD) (t : Fin cfg3.N) (h9 : t.val % 10 = 9) :
    (outsAt3 V c t.val t.isLt).1 = (outsAt3 V c t.val t.isLt).2 := by
  rw [outsAt3_C V c t (by omega) h9]
  dsimp only
  rw [outC3_eq, soutC3_eq]

/-! ## The result array -/

/-- The product, entry by entry, over natural-number coordinates. -/
def result3 (c : Dev nD) : S10240x256.Idx → Ideal .f32 := fun i =>
  ∑ kb ∈ Finset.range 10, ∑ q ∈ Finset.range 1024, aN3 V c (i 0).val (kb * 1024 + q) * bN3 V c (kb * 1024 + q) (i 1).val

/-- What a write-back writes is its block of the product. -/
theorem flushed3_eq (c : Dev nD) (t : Fin cfg3.N) (hf : (cfg3.win 2).flush t = true) :
    (dat3 V c).flushed 2 t = ((cfg3.win 2).blk t).view.read (Elt Ideal) (result3 V c) := by
  have hN : t.val < 100 := lt_of_lt_of_eq t.isLt (show cfg3.N = 100 from N_3)
  have h9 : t.val % 10 = 9 := (flush3_2 t).mp hf
  have hi := idx3_2 t
  show (dat3 V c).after 2 t = _
  rw [after3_2, out3_last V c t h9]
  funext y
  obtain ⟨p, j, rfl⟩ : ∃ (p : Fin 1024) (j : Fin 256), y = ix2 p j := ⟨_, _, eq_ix2 y⟩
  refine (scratch3_inv V c t.val t rfl p j).trans ?_
  rw [View.read_apply]
  have e0 : ((((cfg3.win 2).blk t).view.emb (ix2 p j)) 0).val = t.val / 10 * 1024 + p.val := by
    show win3_2.index t 0 * 1024 + 1 * p.val = _; rw [hi.1]; omega
  have e1 : ((((cfg3.win 2).blk t).view.emb (ix2 p j)) 1).val = j.val := by
    show win3_2.index t 1 * 256 + 1 * j.val = _; rw [hi.2]; omega
  show _ = result3 V c _
  unfold result3 accN3
  rw [e0, e1, h9]

/-- So the result array ends holding the product: the row blocks' last points write back blocks that tile it. -/
theorem final3 (c : Dev nD) : (dat3 V c).arrAt 2 cfg3.N = result3 V c :=
  (dat3 V c).arrAt_eq_of_cover 2 (result3 V c) (flushed3_eq V c) fun i => by
    have h0 : (i 0 : Nat) < 10240 := (i 0).isLt
    have h1 : (i 1 : Nat) < 256 := (i 1).isLt
    have hlt : (i 0 : Nat) / 1024 * 10 + 9 < cfg3.N := by rw [show cfg3.N = 100 from N_3]; omega
    refine ⟨⟨(i 0 : Nat) / 1024 * 10 + 9, hlt⟩, (flush3_2 _).mpr (by show ((i 0 : Nat) / 1024 * 10 + 9) % 10 = 9; omega), ?_⟩
    have hi := idx3_2 ⟨(i 0 : Nat) / 1024 * 10 + 9, hlt⟩
    show i ∈ ((View.whole main_v76).slice (win3_2.rect ⟨(i 0 : Nat) / 1024 * 10 + 9, hlt⟩)).set
    rw [View.set_slice_whole, Rect.mem_set_unit]
    intro a
    match a with
    | ⟨0, _⟩ =>
      show win3_2.index ⟨(i 0 : Nat) / 1024 * 10 + 9, hlt⟩ 0 * 1024 ≤ (i 0 : Nat) ∧ (i 0 : Nat) < win3_2.index ⟨(i 0 : Nat) / 1024 * 10 + 9, hlt⟩ 0 * 1024 + 1024
      rw [hi.1]; show ((i 0 : Nat) / 1024 * 10 + 9) / 10 * 1024 ≤ (i 0 : Nat) ∧ (i 0 : Nat) < ((i 0 : Nat) / 1024 * 10 + 9) / 10 * 1024 + 1024; omega
    | ⟨1, _⟩ =>
      show win3_2.index ⟨(i 0 : Nat) / 1024 * 10 + 9, hlt⟩ 1 * 256 ≤ (i 1 : Nat) ∧ (i 1 : Nat) < win3_2.index ⟨(i 0 : Nat) / 1024 * 10 + 9, hlt⟩ 1 * 256 + 256
      rw [hi.2]; omega

/-- THE VALUE of region 3's output array: entry `(n, j)` is the sum over the ten reduction blocks and the 1024 columns of
    each of the left array's entry times the right array's. -/
theorem value3 (c : Dev nD) (n : Fin 10240) (j : Fin 256) :
    oArr3 V c (ix2 n j)
      = ∑ kb : Fin 10, ∑ q : Fin 1024,
          lArr3 V c (ix2 n ⟨kb.val * 1024 + q.val, by omega⟩) * rArr3 V c (ix2 ⟨kb.val * 1024 + q.val, by omega⟩ j) := by
  unfold oArr3
  rw [final3 V c]
  show ∑ kb ∈ Finset.range 10, ∑ q ∈ Finset.range 1024, aN3 V c n.val (kb * 1024 + q) * bN3 V c (kb * 1024 + q) j.val = _
  rw [Finset.sum_range]
  refine Finset.sum_congr rfl fun kb _ => ?_
  rw [Finset.sum_range]
  refine Finset.sum_congr rfl fun q _ => ?_
  unfold aN3 bN3
  rw [dif_pos ⟨n.isLt, by omega⟩, dif_pos ⟨by omega, j.isLt⟩]

end AtIdeal

end Cert.KernelIdeal.Hand

end
-- ==== Proof.Spec.lean ====
/-
  The two programs as formulas over plain index types, on the extended reals.

  A graph convolution over E weighted edges (self loops included), edge e going from node s e to node d e with normalised
  weight u e, applied to per-node features f:
    reference:  agg n = 0 + ∑ over the edges e with d e = n of f (s e) * u e        (gather the source row, scale, segment-sum)
    kernel:     A n m = 0 + ∑ over the edges e with (d e, s e) = (n, m) of u e      (the dense adjacency, P ≥ N rows and columns)
                agg n = ∑ over the nb column blocks kb, ∑ over the bs columns q of a block, A n (pos kb q) * g (pos kb q)
  with g the features padded by zero rows up to P. A layer is a dense projection of the features, the aggregation, a bias;
  the model is two layers with max(·, 0) between them, and the result sums the second layer over the N nodes (the mean's
  division by N is the same operation in both programs and stays outside these formulas).
-/
import Idealize.ShloMosaic.PureOps.Ideal

noncomputable section

namespace Cert.Spec

open scoped BigOperators

/-- A value of the extended reals that is a real number. -/
def IsReal (v : EReal) : Prop := ∃ r : ℝ, v = (r : EReal)

/-- Row m of x times column c of W. -/
def proj {M K C : ℕ} (x : Fin M → Fin K → EReal) (W : Fin K → Fin C → EReal) (m : Fin M) (c : Fin C) : EReal :=
  ∑ k : Fin K, x m k * W k c

/-- max(v, 0). -/
def relu (v : EReal) : EReal := max v 0

section Reference
variable {N E : ℕ}

/-- The reference's aggregation at node n: the rows gathered at each edge's source, scaled, summed over the edges whose
    destination index reads n. -/
def aggR (srcRow : Fin E → Fin N) (dstI : Fin E → ℤ) (u : Fin E → EReal) (f : Fin N → EReal) (n : Fin N) : EReal :=
  0 + ∑ e ∈ Finset.univ.filter (fun e : Fin E => dstI e = (n.val : ℤ)), f (srcRow e) * u e

/-- One reference layer at (node n, channel c). -/
def layerR (srcRow : Fin E → Fin N) (dstI : Fin E → ℤ) (u : Fin E → EReal) {K C : ℕ}
    (x : Fin N → Fin K → EReal) (W : Fin K → Fin C → EReal) (bias : Fin C → EReal) (n : Fin N) (c : Fin C) : EReal :=
  aggR srcRow dstI u (fun m => proj x W m c) n + bias c

/-- The reference's sum over the nodes of the second layer, for one batch entry x, at channel c. -/
def numR (srcRow : Fin E → Fin N) (dstI : Fin E → ℤ) (u : Fin E → EReal) {K H C : ℕ}
    (x : Fin N → Fin K → EReal) (W1 : Fin K → Fin H → EReal) (b1 : Fin H → EReal)
    (W2 : Fin H → Fin C → EReal) (b2 : Fin C → EReal) (c : Fin C) : EReal :=
  0 + ∑ n : Fin N, layerR srcRow dstI u (fun m d => relu (layerR srcRow dstI u x W1 b1 m d)) W2 b2 n c

end Reference

section Kernel
variable {N P E nb bs : ℕ}

/-- The dense adjacency at (n, m): zero plus the weights of the edges whose index pair reads (n, m). -/
def adj (rowI colI : Fin E → ℤ) (u : Fin E → EReal) (n m : Fin P) : EReal :=
  0 + ∑ e : Fin E, if rowI e = (n.val : ℤ) ∧ colI e = (m.val : ℤ) then u e else 0

/-- The kernel's aggregation at row n: the adjacency row times the features, column block by column block. -/
def aggK (pos : Fin nb → Fin bs → Fin P) (A : Fin P → Fin P → EReal) (g : Fin P → EReal) (n : Fin P) : EReal :=
  ∑ kb : Fin nb, ∑ q : Fin bs, A n (pos kb q) * g (pos kb q)

/-- The features padded with zero rows up to P. -/
def pad {K : ℕ} (x : Fin N → Fin K → EReal) (m : Fin P) (k : Fin K) : EReal :=
  if h : m.val < N then x ⟨m.val, h⟩ k else 0

/-- One kernel layer at (row n, channel c), over all P rows. -/
def layerK (pos : Fin nb → Fin bs → Fin P) (A : Fin P → Fin P → EReal) {K C : ℕ}
    (x : Fin P → Fin K → EReal) (W : Fin K → Fin C → EReal) (bias : Fin C → EReal) (n : Fin P) (c : Fin C) : EReal :=
  aggK pos A (fun m => proj x W m c) n + bias c

/-- The kernel's sum over the first N rows of the second layer, for one batch entry x, at channel c. -/
def numK (hNP : N ≤ P) (pos : Fin nb → Fin bs → Fin P) (A : Fin P → Fin P → EReal) {K H C : ℕ}
    (x : Fin N → Fin K → EReal) (W1 : Fin K → Fin H → EReal) (b1 : Fin H → EReal)
    (W2 : Fin H → Fin C → EReal) (b2 : Fin C → EReal) (c : Fin C) : EReal :=
  0 + ∑ n : Fin N, layerK pos A (fun m d => relu (layerK pos A (pad x) W1 b1 m d)) W2 b2
        ⟨n.val, lt_of_lt_of_le n.isLt hNP⟩ c

end Kernel

end Cert.Spec

end
-- ==== Proof.Idx.lean ====
/-
  Index words: a signed 32-bit node index that is negative is shifted up by the extent of the axis it indexes
  (numpy's wrap-around of a negative index), otherwise kept.
-/
import Idealize.ShloMosaic.PureOps.Ideal

namespace Cert.Spec

/-- The index word v, shifted up by N when it reads negative. -/
def norm32 (N v : BitVec 32) : BitVec 32 := if v.slt 0#32 then v + N else v

end Cert.Spec
-- ==== Proof.Math.Real.lean ====
/-
  The real numbers inside the extended reals are closed under the operations the two formulas use:
  zero, sums, products, finite sums, max with zero, and a choice between two reals.
-/
import proofs.«125395_j52793738002724_1_alg».proof.Proof.Spec

namespace Cert.Spec

open scoped BigOperators

theorem isReal_coe (r : ℝ) : IsReal (r : EReal) := ⟨r, rfl⟩

theorem isReal_zero : IsReal (0 : EReal) := ⟨0, EReal.coe_zero.symm⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h a (Finset.mem_insert_self a s))
      (ih (fun i hi => h i (Finset.mem_insert_of_mem hi)))

theorem isReal_max_zero {v : EReal} (hv : IsReal v) : IsReal (relu v) := by
  unfold relu
  rcases max_cases v 0 with h | h
  · rw [h.1]; exact hv
  · rw [h.1]; exact isReal_zero

theorem isReal_ite {p : Prop} [Decidable p] {a b : EReal} (ha : IsReal a) (hb : IsReal b) :
    IsReal (if p then a else b) := by
  split_ifs
  · exact ha
  · exact hb

theorem isReal_proj {M K C : ℕ} {x : Fin M → Fin K → EReal} {W : Fin K → Fin C → EReal}
    (hx : ∀ m k, IsReal (x m k)) (hW : ∀ k c, IsReal (W k c)) (m : Fin M) (c : Fin C) :
    IsReal (proj x W m c) :=
  isReal_sum _ _ (fun k _ => isReal_mul (hx m k) (hW k c))

theorem isReal_pad {N P K : ℕ} {x : Fin N → Fin K → EReal} (hx : ∀ m k, IsReal (x m k))
    (m : Fin P) (k : Fin K) : IsReal (pad x m k) := by
  unfold pad
  split_ifs
  · exact hx _ _
  · exact isReal_zero

theorem isReal_adj {P E : ℕ} (rowI colI : Fin E → ℤ) {u : Fin E → EReal} (hu : ∀ e, IsReal (u e))
    (n m : Fin P) : IsReal (adj rowI colI u n m) :=
  isReal_add isReal_zero (isReal_sum _ _ (fun e _ => isReal_ite (hu e) isReal_zero))

theorem isReal_aggK {P nb bs : ℕ} (pos : Fin nb → Fin bs → Fin P) {A : Fin P → Fin P → EReal}
    (hA : ∀ n m, IsReal (A n m)) {g : Fin P → EReal} (hg : ∀ m, IsReal (g m)) (n : Fin P) :
    IsReal (aggK pos A g n) :=
  isReal_sum _ _ (fun kb _ => isReal_sum _ _ (fun q _ => isReal_mul (hA _ _) (hg _)))

theorem isReal_layerK {P nb bs K C : ℕ} (pos : Fin nb → Fin bs → Fin P) {A : Fin P → Fin P → EReal}
    (hA : ∀ n m, IsReal (A n m)) {x : Fin P → Fin K → EReal} (hx : ∀ m k, IsReal (x m k))
    {W : Fin K → Fin C → EReal} (hW : ∀ k c, IsReal (W k c)) {bias : Fin C → EReal}
    (hb : ∀ c, IsReal (bias c)) (n : Fin P) (c : Fin C) : IsReal (layerK pos A x W bias n c) :=
  isReal_add (isReal_aggK pos hA (fun m => isReal_proj hx hW m c) n) (hb c)

end Cert.Spec
-- ==== Proof.Math.Agg.lean ====
/-
  The adjacency row times a column of real features, as a sum over the edges: for real weights u and real g,
    ∑ m, A n m * g m = ∑ over the edges e whose row index reads n of u e * g (col e),
  where col e is the column the edge's column index reads. On the extended reals the product distributes over the sums
  because every term is a real number; the proof moves to the reals and back. And the kernel's sum over the column
  blocks is the plain sum over the columns, the blocks being a bijection onto them.
-/
import proofs.«125395_j52793738002724_1_alg».proof.Proof.Math.Real

namespace Cert.Spec

open scoped BigOperators

/-- The sum over the column blocks is the sum over all columns. -/
theorem aggK_eq_sum {P nb bs : ℕ} (pos : Fin nb → Fin bs → Fin P)
    (hpos : Function.Bijective (fun p : Fin nb × Fin bs => pos p.1 p.2))
    (A : Fin P → Fin P → EReal) (g : Fin P → EReal) (n : Fin P) :
    aggK pos A g n = ∑ m : Fin P, A n m * g m := by
  unfold aggK
  rw [← Fintype.sum_prod_type' (f := fun kb q => A n (pos kb q) * g (pos kb q))]
  exact hpos.sum_comp (fun m => A n m * g m)

/-- Over the reals: a row of the adjacency times g is the sum over the row's edges of weight times g at the edge's
    column. -/
theorem real_sum_adj_mul {P E : ℕ} (rowI colI : Fin E → ℤ) (col : Fin E → Fin P)
    (hcol : ∀ e, colI e = ((col e).val : ℤ)) (ur : Fin E → ℝ) (gr : Fin P → ℝ) (n : Fin P) :
    ∑ m : Fin P, (∑ e : Fin E, if rowI e = (n.val : ℤ) ∧ colI e = (m.val : ℤ) then ur e else 0) * gr m
      = ∑ e ∈ Finset.univ.filter (fun e : Fin E => rowI e = (n.val : ℤ)), ur e * gr (col e) := by
  simp only [Finset.sum_mul]
  rw [Finset.sum_comm, Finset.sum_filter]
  apply Finset.sum_congr rfl
  intro e _
  by_cases h : rowI e = (n.val : ℤ)
  · simp only [h, true_and, if_true]
    rw [Finset.sum_eq_single (col e)]
    · simp [hcol e]
    · intro m _ hm
      have hne : ¬ colI e = (m.val : ℤ) := by
        intro hc
        apply hm
        apply Fin.ext
        have := (hcol e).symm.trans hc
        exact_mod_cast this.symm
      simp [hne]
    · intro hmem
      exact absurd (Finset.mem_univ _) hmem
  · simp [h]

/-- An adjacency entry of real weights is the embedded real sum. -/
theorem adj_coe {P E : ℕ} (rowI colI : Fin E → ℤ) (u : Fin E → EReal) (ur : Fin E → ℝ)
    (hur : ∀ e, u e = (ur e : EReal)) (n m : Fin P) :
    adj rowI colI u n m
      = ((∑ e : Fin E, if rowI e = (n.val : ℤ) ∧ colI e = (m.val : ℤ) then ur e else 0 : ℝ) : EReal) := by
  unfold adj
  rw [zero_add, coe_sum]
  apply Finset.sum_congr rfl
  intro e _
  split_ifs
  · exact hur e
  · exact EReal.coe_zero.symm

/-- The adjacency row times real features, as a sum over the row's edges. -/
theorem sum_adj_mul {P E : ℕ} (rowI colI : Fin E → ℤ) (col : Fin E → Fin P)
    (hcol : ∀ e, colI e = ((col e).val : ℤ)) (u : Fin E → EReal) (hu : ∀ e, IsReal (u e))
    (g : Fin P → EReal) (hg : ∀ m, IsReal (g m)) (n : Fin P) :
    ∑ m : Fin P, adj rowI colI u n m * g m
      = ∑ e ∈ Finset.univ.filter (fun e : Fin E => rowI e = (n.val : ℤ)), u e * g (col e) := by
  choose ur hur using hu
  choose gr hgr using hg
  have hL : ∀ m : Fin P, adj rowI colI u n m * g m
      = (((∑ e : Fin E, if rowI e = (n.val : ℤ) ∧ colI e = (m.val : ℤ) then ur e else 0) * gr m : ℝ) : EReal) := by
    intro m
    rw [adj_coe rowI colI u ur hur n m, hgr m, EReal.coe_mul]
  have hR : ∀ e : Fin E, u e * g (col e) = ((ur e * gr (col e) : ℝ) : EReal) := by
    intro e
    rw [hur e, hgr (col e), EReal.coe_mul]
  rw [Finset.sum_congr rfl (fun m _ => hL m), Finset.sum_congr rfl (fun e _ => hR e), ← coe_sum, ← coe_sum,
    real_sum_adj_mul rowI colI col hcol ur gr n]

end Cert.Spec
-- ==== Proof.Math.Adjacency.lean ====
/-
  The kernel's formula equals the reference's. Every edge runs between two of the first N nodes, so a row n < N of the
  dense adjacency has its mass in the columns < N only: the aggregation of the kernel at such a row reads the features
  at the edges' sources, where the padded features are the features, and the rows ≥ N of whatever it multiplies need only
  be real. The first layer's agreement on the rows < N feeds the second; the sums over the N nodes then agree term by
  term.
-/
import proofs.«125395_j52793738002724_1_alg».proof.Proof.Math.Agg

namespace Cert.Spec

open scoped BigOperators

section
variable {N P E nb bs : ℕ} (hNP : N ≤ P) (pos : Fin nb → Fin bs → Fin P)
  (hpos : Function.Bijective (fun p : Fin nb × Fin bs => pos p.1 p.2))
  (s d : Fin E → Fin N)
  (srcRow : Fin E → Fin N) (hsr : ∀ e, srcRow e = s e)
  (dstI : Fin E → ℤ) (hdI : ∀ e, dstI e = ((d e).val : ℤ))
  (rowI colI : Fin E → ℤ) (hrow : ∀ e, rowI e = ((d e).val : ℤ)) (hcol : ∀ e, colI e = ((s e).val : ℤ))
  (u : Fin E → EReal) (hu : ∀ e, IsReal (u e))

include hpos hsr hdI hrow hcol hu

/-- The kernel's aggregation at a row n < N of features that are real everywhere and agree with f on the rows < N is
    the reference's aggregation of f at n. -/
theorem aggK_adj_eq_aggR (g : Fin P → EReal) (hg : ∀ m, IsReal (g m)) (f : Fin N → EReal)
    (hgf : ∀ m : Fin N, g ⟨m.val, lt_of_lt_of_le m.isLt hNP⟩ = f m) (n : Fin N) :
    aggK pos (adj rowI colI u) g ⟨n.val, lt_of_lt_of_le n.isLt hNP⟩ = aggR srcRow dstI u f n := by
  rw [aggK_eq_sum pos hpos,
    sum_adj_mul rowI colI (fun e => ⟨(s e).val, lt_of_lt_of_le (s e).isLt hNP⟩) hcol u hu g hg]
  unfold aggR
  rw [zero_add]
  have hfilter : (Finset.univ.filter (fun e : Fin E => rowI e = (((⟨n.val, lt_of_lt_of_le n.isLt hNP⟩ : Fin P).val : ℕ) : ℤ)))
      = Finset.univ.filter (fun e : Fin E => dstI e = (n.val : ℤ)) := by
    apply Finset.filter_congr
    intro e _
    rw [hrow e, hdI e]
  rw [hfilter]
  apply Finset.sum_congr rfl
  intro e _
  rw [hgf (s e), hsr e, mul_comm]

/-- One layer: the kernel's layer at a row n < N, on features real everywhere that agree with y on the rows < N, is the
    reference's layer on y at n. -/
theorem layerK_eq_layerR {K C : ℕ} (xk : Fin P → Fin K → EReal) (hxk : ∀ m k, IsReal (xk m k))
    (y : Fin N → Fin K → EReal) (hxy : ∀ (m : Fin N) k, xk ⟨m.val, lt_of_lt_of_le m.isLt hNP⟩ k = y m k)
    (W : Fin K → Fin C → EReal) (hW : ∀ k c, IsReal (W k c)) (bias : Fin C → EReal) (n : Fin N) (c : Fin C) :
    layerK pos (adj rowI colI u) xk W bias ⟨n.val, lt_of_lt_of_le n.isLt hNP⟩ c
      = layerR srcRow dstI u y W bias n c := by
  unfold layerK layerR
  rw [aggK_adj_eq_aggR hNP pos hpos s d srcRow hsr dstI hdI rowI colI hrow hcol u hu
    (fun m => proj xk W m c) (fun m => isReal_proj hxk hW m c) (fun m => proj y W m c) _ n]
  intro m
  unfold proj
  apply Finset.sum_congr rfl
  intro k _
  rw [hxy m k]

end

/-- The kernel's sum over the first N rows of its second layer is the reference's sum over the N nodes. -/
theorem numK_eq_numR {N P E nb bs K H C : ℕ} (hNP : N ≤ P) (pos : Fin nb → Fin bs → Fin P)
    (hpos : Function.Bijective (fun p : Fin nb × Fin bs => pos p.1 p.2))
    (s d : Fin E → Fin N)
    (srcRow : Fin E → Fin N) (hsr : ∀ e, srcRow e = s e)
    (dstI : Fin E → ℤ) (hdI : ∀ e, dstI e = ((d e).val : ℤ))
    (rowI colI : Fin E → ℤ) (hrow : ∀ e, rowI e = ((d e).val : ℤ)) (hcol : ∀ e, colI e = ((s e).val : ℤ))
    (u : Fin E → EReal) (hu : ∀ e, IsReal (u e))
    (x : Fin N → Fin K → EReal) (hx : ∀ m k, IsReal (x m k))
    (W1 : Fin K → Fin H → EReal) (hW1 : ∀ k h, IsReal (W1 k h)) (b1 : Fin H → EReal) (hb1 : ∀ h, IsReal (b1 h))
    (W2 : Fin H → Fin C → EReal) (hW2 : ∀ h c, IsReal (W2 h c)) (b2 : Fin C → EReal) (hb2 : ∀ c, IsReal (b2 c)) (c : Fin C) :
    numK hNP pos (adj rowI colI u) x W1 b1 W2 b2 c = numR srcRow dstI u x W1 b1 W2 b2 c := by
  unfold numK numR
  congr 1
  apply Finset.sum_congr rfl
  intro n _
  apply layerK_eq_layerR hNP pos hpos s d srcRow hsr dstI hdI rowI colI hrow hcol u hu
  · intro m k
    exact isReal_max_zero (isReal_layerK pos (isReal_adj rowI colI hu) (isReal_pad hx) hW1 hb1 m k)
  · intro m k
    congr 1
    apply layerK_eq_layerR hNP pos hpos s d srcRow hsr dstI hdI rowI colI hrow hcol u hu
    · exact isReal_pad hx
    · intro m' k'
      unfold pad
      rw [dif_pos m'.isLt]
    · exact hW1
  · exact hW2

end Cert.Spec
-- ==== Proof.LibScatterPairs1.lean ====
/-
  A scatter-add whose start indices have TWO components, the updates forming a plain list, read at one entry.

  The operand has shape [N, C]; the scatter indices have shape [E, 2], their last axis holding the index
  vector; the updates have shape [E]. Both operand axes are inserted window axes (a window is a single
  element), and component c of the index vector is the start on operand axis c. Update e therefore lands at
  the operand entry (I0, I1), where I0 = idx[e, 0] and I1 = idx[e, 1] are read as signed integers and NOT
  clamped; it is dropped when (I0, I1) lies outside [0, N) x [0, C).

  lands_iff: update e lands at the entry (n, k) exactly when I0 = n and I1 = k (an entry (n, k) of the
  operand is inside it, so the bounds need no separate mention).
  scatterAdd_pairs1: the exact scatter-add at the entry (n, k) is the operand's value there plus the sum,
  over all updates e, of the update's value where (I0, I1) = (n, k) and of 0 elsewhere.
  host_scatterAdd_pairs1: the same for the host operation at the exact instance, which is that sum by
  definition.

  The three sizes N, C, E and the index width w are arbitrary: nothing here computes with them.
-/
import Idealize.ShloMosaic.Lib.ValueIdx
import Idealize.ShloMosaic.PureOps.Ideal.Laws

noncomputable section

open scoped BigOperators

namespace Cert.ScatterPairs1

open Idealize.ShloMosaic Idealize.ShloMosaic.ValueIdx

variable {N C E : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- With both operand axes inserted, no operand axis is kept for a window, so the window coordinate is 0
    on each axis. -/
theorem window_zero (d : ScatterDims ⟨2, ![N, C]⟩ ⟨2, ![E, 2]⟩ ⟨1, ![E]⟩)
    (h2 : d.insertedWindowDims = [0, 1]) (j : (⟨1, ![E]⟩ : Shape).Idx) (a : Fin 2) :
    d.window j a = 0 := by
  obtain ⟨uw, iw, sd, iv, wf⟩ := d
  subst h2
  unfold ScatterDims.window
  rw [dif_neg]
  intro hmem
  have h := (List.mem_filter.1 hmem).2
  match a with
  | ⟨0, _⟩ => simp at h
  | ⟨1, _⟩ => simp at h

/-- The place in the scatter indices where update e reads component c of its start index is (e, c): with
    no window axes the one update axis is a scatter axis, and it is the scatter indices' first axis; the
    index vector lies along the second. -/
theorem siIdx_eq (d : ScatterDims ⟨2, ![N, C]⟩ ⟨2, ![E, 2]⟩ ⟨1, ![E]⟩)
    (h1 : d.updateWindowDims = []) (h4 : d.indexVectorDim = 1) (e : Fin E)
    (c : Fin d.scatterDimsToOperandDims.length) (c' : Fin 2) (hc : c.val = c'.val) :
    d.siIdx (ix1 e) c = ix2 e c' := by
  obtain ⟨uw, iw, sd, iv, wf⟩ := d
  subst h1 h4
  funext b
  match b with
  | ⟨0, _⟩ => rfl
  | ⟨1, _⟩ => exact Fin.ext hc

/-- The start on operand axis a for update e is idx[e, a], read signed: axis a is the a-th entry of the
    map from index-vector components to operand axes. -/
theorem start_eq (d : ScatterDims ⟨2, ![N, C]⟩ ⟨2, ![E, 2]⟩ ⟨1, ![E]⟩)
    (h1 : d.updateWindowDims = []) (h3 : d.scatterDimsToOperandDims = [0, 1]) (h4 : d.indexVectorDim = 1)
    {w : Nat} (idx : IVec ⟨2, ![E, 2]⟩ w) (e : Fin E) (a : Fin 2) :
    d.start (ix1 e) idx a = (idx (ix2 e a)).toInt := by
  unfold ScatterDims.start
  have ha : a ∈ d.scatterDimsToOperandDims := by
    rw [h3]
    match a with
    | ⟨0, _⟩ => simp
    | ⟨1, _⟩ => simp
  rw [dif_pos ha]
  congr 2
  apply siIdx_eq d h1 h4
  show List.idxOf a d.scatterDimsToOperandDims = a.val
  rw [h3]
  match a with
  | ⟨0, _⟩ => rfl
  | ⟨1, _⟩ => rfl

/-- Update e lands at the operand entry (n, k) exactly when its two signed start components are n and k.
    Left to right: a landing update's result index is (I0 + 0, I1 + 0) with both inside the operand, so
    equality of indices is equality of the two integers. Right to left: n < N and k < C put (I0, I1) inside
    the operand, and the index built from them is (n, k). -/
theorem lands_iff (d : ScatterDims ⟨2, ![N, C]⟩ ⟨2, ![E, 2]⟩ ⟨1, ![E]⟩)
    (h1 : d.updateWindowDims = []) (h2 : d.insertedWindowDims = [0, 1])
    (h3 : d.scatterDimsToOperandDims = [0, 1]) (h4 : d.indexVectorDim = 1)
    {w : Nat} (idx : IVec ⟨2, ![E, 2]⟩ w) (e : Fin E) (n : Fin N) (k : Fin C) :
    d.resultIdx? (ix1 e) idx = some (ix2 n k) ↔
      (idx (ix2 e (0 : Fin 2))).toInt = (n.val : Int) ∧ (idx (ix2 e (1 : Fin 2))).toInt = (k.val : Int) := by
  have hw := window_zero d h2 (ix1 e)
  have hs := start_eq d h1 h3 h4 idx e
  unfold ScatterDims.resultIdx?
  constructor
  · intro h
    split at h
    · rename_i hc
      have hf := Option.some.inj h
      have h0 := congrArg Fin.val (congrFun hf (0 : Fin 2))
      have h1' := congrArg Fin.val (congrFun hf (1 : Fin 2))
      have c0 := hc (0 : Fin 2)
      have c1 := hc (1 : Fin 2)
      simp only [hw, hs] at h0 h1' c0 c1
      have h0 : ((idx (ix2 e (0 : Fin 2))).toInt + ((0 : Nat) : Int)).toNat = n.val := h0
      have h1' : ((idx (ix2 e (1 : Fin 2))).toInt + ((0 : Nat) : Int)).toNat = k.val := h1'
      have p0 := c0.1
      have p1 := c1.1
      constructor <;> omega
    · cases h
  · rintro ⟨ha, hb⟩
    have hc0 : 0 ≤ d.start (ix1 e) idx (0 : Fin 2) + ((d.window (ix1 e) (0 : Fin 2) : Nat) : Int) ∧
        d.start (ix1 e) idx (0 : Fin 2) + ((d.window (ix1 e) (0 : Fin 2) : Nat) : Int) < ((N : Nat) : Int) := by
      rw [hs, hw, ha]
      have := n.isLt
      omega
    have hc1 : 0 ≤ d.start (ix1 e) idx (1 : Fin 2) + ((d.window (ix1 e) (1 : Fin 2) : Nat) : Int) ∧
        d.start (ix1 e) idx (1 : Fin 2) + ((d.window (ix1 e) (1 : Fin 2) : Nat) : Int) < ((C : Nat) : Int) := by
      rw [hs, hw, hb]
      have := k.isLt
      omega
    have hc : ∀ a : Fin 2, 0 ≤ d.start (ix1 e) idx a + ((d.window (ix1 e) a : Nat) : Int) ∧
        d.start (ix1 e) idx a + ((d.window (ix1 e) a : Nat) : Int) <
          (((⟨2, ![N, C]⟩ : Shape).size a : Nat) : Int) := by
      intro a
      match a with
      | ⟨0, _⟩ => exact hc0
      | ⟨1, _⟩ => exact hc1
    rw [dif_pos hc]
    congr 1
    funext a
    match a with
    | ⟨0, _⟩ =>
      apply Fin.ext
      show (d.start (ix1 e) idx (0 : Fin 2) + ((d.window (ix1 e) (0 : Fin 2) : Nat) : Int)).toNat = n.val
      rw [hs, hw, ha]
      omega
    | ⟨1, _⟩ =>
      apply Fin.ext
      show (d.start (ix1 e) idx (1 : Fin 2) + ((d.window (ix1 e) (1 : Fin 2) : Nat) : Int)).toNat = k.val
      rw [hs, hw, hb]
      omega

/-- The exact scatter-add read at the entry (n, k): the operand's value there plus, over all updates e, the
    update's value where its two signed start components are (n, k) and 0 elsewhere. The sum over the
    updates that land at (n, k) is the sum over all updates of an if-then-else, the rank-1 update index set
    is its coordinate range, and lands_iff rewrites the condition. -/
theorem scatterAdd_pairs1 (d : ScatterDims ⟨2, ![N, C]⟩ ⟨2, ![E, 2]⟩ ⟨1, ![E]⟩)
    (h1 : d.updateWindowDims = []) (h2 : d.insertedWindowDims = [0, 1])
    (h3 : d.scatterDimsToOperandDims = [0, 1]) (h4 : d.indexVectorDim = 1)
    {w : Nat} (x : (⟨2, ![N, C]⟩ : Shape).Idx → EReal) (idx : IVec ⟨2, ![E, 2]⟩ w)
    (upd : (⟨1, ![E]⟩ : Shape).Idx → EReal) (n : Fin N) (k : Fin C) :
    Ideal.hostScatterAdd d x idx upd (ix2 n k) =
      x (ix2 n k) + ∑ e : Fin E,
        if (idx (ix2 e (0 : Fin 2))).toInt = (n.val : Int) ∧ (idx (ix2 e (1 : Fin 2))).toInt = (k.val : Int)
        then upd (ix1 e) else 0 := by
  unfold Ideal.hostScatterAdd
  congr 1
  rw [Finset.sum_filter, sum_idx1]
  refine Finset.sum_congr rfl fun e _ => ?_
  exact if_congr (lands_iff d h1 h2 h3 h4 idx e n k) rfl rfl

/-- The host's accumulating scatter at the exact instance is that sum by definition, so it reads the same
    way at the entry (n, k). -/
theorem host_scatterAdd_pairs1 {φ : FTy} (d : ScatterDims ⟨2, ![N, C]⟩ ⟨2, ![E, 2]⟩ ⟨1, ![E]⟩)
    (h1 : d.updateWindowDims = []) (h2 : d.insertedWindowDims = [0, 1])
    (h3 : d.scatterDimsToOperandDims = [0, 1]) (h4 : d.indexVectorDim = 1)
    {w : Nat} (x : FVec Ideal ⟨2, ![N, C]⟩ φ) (idx : IVec ⟨2, ![E, 2]⟩ w)
    (upd : FVec Ideal ⟨1, ![E]⟩ φ) (n : Fin N) (k : Fin C) :
    Host.scatterAdd (F := Ideal) d x idx upd (ix2 n k) =
      x (ix2 n k) + ∑ e : Fin E,
        if (idx (ix2 e (0 : Fin 2))).toInt = (n.val : Int) ∧ (idx (ix2 e (1 : Fin 2))).toInt = (k.val : Int)
        then upd (ix1 e) else 0 :=
  scatterAdd_pairs1 d h1 h2 h3 h4 x idx upd n k

end Cert.ScatterPairs1

end
-- ==== Proof.LibFoldSplit.lean ====
/-
  Two general facts about a straight line of host operations, for reading such a line back a stretch at a time.

  * `after_append`, `after_take_drop`: the contents after a list of operations is the contents after its tail from the
    contents after its head — so a long line can be cut at any position, the first part read once, and the second part read
    over the first part's buffers as opaque arrays.
  * `ofBuf_toBuf`: an operation of an outlined function is stated over typed references, whose contents are moved to the
    buffer's own type and back along the reference's type equation; a value moved there and back is the value. Unlike a
    rewrite that must recognise each move as the identity, this cancels the pair as it stands, whatever the buffer's
    position in the signature.
-/
import Idealize.ShloMosaic.Lib.StableHlo.Run

noncomputable section

namespace Cert.FoldSplit

open Idealize.ShloMosaic Idealize.ShloMosaic.StableHlo

variable {τ : Topo} {sig : RefSig} {Val : EltTy → Type}

/-- The contents after two lists of operations run one after the other: the second list's, from the first's. -/
theorem after_append (l1 l2 : List (HloOp τ sig Val)) (V : Valuation τ sig Val) :
    after (l1 ++ l2) V = after l2 (after l1 V) := by
  induction l1 generalizing V with
  | nil => rfl
  | cons op l ih => exact ih _

/-- A list of operations cut at position `n`: its first `n` operations, then the rest from what they leave. -/
theorem after_take_drop (n : ℕ) (l : List (HloOp τ sig Val)) (V : Valuation τ sig Val) :
    after l V = after (l.drop n) (after (l.take n) V) :=
  (congrArg (fun k => after k V) (List.take_append_drop n l).symm).trans (after_append _ _ _)

/-- Contents moved to a typed reference's own buffer type and back are the contents. -/
theorem ofBuf_toBuf {T : BufTy} (x : TRef sig T) (v : T.Contents Val) : x.ofBuf (x.toBuf v) = v := by
  obtain ⟨r, h, h1, h2⟩ := x
  subst h
  rfl

end Cert.FoldSplit

end
-- ==== Proof.KI.HostPre.lean ====
/-
  The host operations before the first kernel region, read at an index on the extended reals.

  When the first region is entered, four of the buffers it reads have been written by host operations from the launch
  arguments (node features x0 : [4, 10000, 128], edge list x1 : [2, 320000], edge weights x2 : [320000, 1], layer weights
  x3 : [128, 128] and x5 : [128, 64]):

  * the dense adjacency, [10240, 10240]: zeros, plus the normalised edge weights scattered at the pairs
    (destination, source), an index word that reads negative shifted up by 10240 (v51_apply). The sources, the
    destinations and the normalised weights are built by the same operations, in the same order, as the reference program
    builds its own, so they are stated as the reference's stage functions of x1 and x2 (wts_eq, V4_v3, V4_v6, V4_v19);
  * the features, padded with 240 zero rows per batch entry and flattened to [40960, 128] (v54_apply);
  * the two layer weight matrices, unchanged (v55_apply, v56_apply).
  A change of float format is the identity on the extended reals.

  The contents at that point are a chain of seven folds of host operations over the launch contents. Each stretch is read
  once, at the buffers needed, from arbitrary contents W (section Stages); the resulting terms are read at an index
  (section AtIndex); the chain is then walked from the launch contents, a buffer a stretch does not write keeping its
  value (section Chain).
-/
import proofs.«125395_j52793738002724_1_alg».proof.Proof.Gen.KernelIdeal.Regions
import proofs.«125395_j52793738002724_1_alg».proof.Proof.Gen.ReferenceIdeal.Read
import proofs.«125395_j52793738002724_1_alg».proof.Proof.Spec
import proofs.«125395_j52793738002724_1_alg».proof.Proof.Idx
import proofs.«125395_j52793738002724_1_alg».proof.Proof.LibScatterPairs1
import proofs.«125395_j52793738002724_1_alg».proof.Proof.LibFoldSplit
import Idealize.ShloMosaic.Lib.ValueIdx
import Idealize.ShloMosaic.Lib.KernelVsHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-! ## The buffers the first region reads, as terms over the buffers of an earlier point

Each stretch of host operations is read at one buffer from ARBITRARY contents W: the result is a term over W at
the buffers the stretch reads and does not itself write. -/

section Stages
variable (W : Valuation τ sig (Elt Ideal))

/-- The source indices (the edge list's row 0, then one index per node for the self loops). -/
theorem A_v3 : (StableHlo.after hostOps0 W main_v3 : IVec S330000 32)
    = Cert.ReferenceIdeal.Read.val_main_v4 (F := Ideal) (W main_arg1) := by
  dsimp only [hostOps0]
  after_results_simp <;> rfl

/-- The destination indices (row 1, then the self loops). -/
theorem A_v6 : (StableHlo.after hostOps0 W main_v6 : IVec S330000 32)
    = Cert.ReferenceIdeal.Read.val_main_v7 (F := Ideal) (W main_arg1) := by
  dsimp only [hostOps0]
  after_results_simp <;> rfl

/-- The raw edge weights (the given ones, then 1 per self loop). -/
theorem A_v9 : (StableHlo.after hostOps0 W main_v9 : S330000.Idx → EReal)
    = Cert.ReferenceIdeal.Read.val_main_v9 (F := Ideal) (W main_arg2) := by
  dsimp only [hostOps0]
  after_results_simp <;> rfl

/-- The weighted in-degrees. -/
theorem A_v12 : (StableHlo.after hostOps0 W main_v12 : S10000.Idx → EReal)
    = Cert.ReferenceIdeal.Read.val_main_v12 (F := Ideal) (W main_arg1) (W main_arg2) := by
  dsimp only [hostOps0]
  after_results_simp <;> rfl

theorem A_v14 : (StableHlo.after hostOps0 W main_v14 : IVec S10000 1)
    = Cert.ReferenceIdeal.Read.val_main_v14 (F := Ideal) (W main_arg1) (W main_arg2) := by
  dsimp only [hostOps0]
  after_results_simp <;> rfl

theorem A_v16 : (StableHlo.after hostOps0 W main_v16 : IVec S10000 1)
    = Cert.ReferenceIdeal.Read.val_main_v16 (F := Ideal) (W main_arg1) (W main_arg2) := by
  dsimp only [hostOps0]
  after_results_simp <;> rfl

theorem A_cst3 : (StableHlo.after hostOps0 W main_cst_3 : S_.Idx → EReal)
    = Cert.ReferenceIdeal.Read.val_main_cst_3 (F := Ideal) := by
  dsimp only [hostOps0]
  after_results_simp <;> rfl

/-- The degrees with 1 in place of a degree that is not positive. -/
theorem B_v17 : (StableHlo.after hostOps0_1 W main_v17 : S10000.Idx → EReal)
    = select (W main_v16 : IVec S10000 1) (W main_v12 : S10000.Idx → EReal)
        (broadcastInDim S10000 ![] bcast_S_S10000 (W main_cst_3 : S_.Idx → EReal)) := by
  dsimp only [hostOps0_1]
  after_results_simp <;> rfl

theorem C_v18 : (StableHlo.after hostOps0_2 W main_v18 : S10000.Idx → EReal)
    = Host.rsqrt (F := Ideal) (φ := .f32) (W main_v17 : S10000.Idx → EReal) := by
  dsimp only [hostOps0_2]
  after_results_simp <;> rfl

theorem C_cst4 : (StableHlo.after hostOps0_2 W main_cst_4 : S_.Idx → EReal)
    = Cert.ReferenceIdeal.Read.val_main_cst_4 (F := Ideal) := by
  dsimp only [hostOps0_2]
  after_results_simp <;> rfl

/-- The inverse square roots of the degrees, 0 where the degree is not positive. -/
theorem D_v19 : (StableHlo.after hostOps0_3 W main_v19 : S10000.Idx → EReal)
    = select (W main_v14 : IVec S10000 1) (W main_v18 : S10000.Idx → EReal)
        (broadcastInDim S10000 ![] bcast_S_S10000 (W main_cst_4 : S_.Idx → EReal)) := by
  dsimp only [hostOps0_3]
  after_results_simp <;> rfl

end Stages

/-- An index word list with every negative word shifted up by N (a select on "word < 0" between word + N and word). -/
def wrap (N : BitVec 32) (v : IVec S330000 32) : IVec S330000 32 :=
  select (cmpi .slt v (broadcastInDim S330000 ![] bcast_S_S330000 (constantI S_ 32 0#32)))
    (addi v (broadcastInDim S330000 ![] bcast_S_S330000 (constantI S_ 32 N))) v

/-- The normalised edge weights over the sources v3, the destinations v6, the raw weights v9 and the degree factors
    v19: the factor at the (wrapped) source, times the raw weight, times the factor at the (wrapped) destination. -/
def wts (v3 v6 : IVec S330000 32) (v9 : S330000.Idx → EReal) (v19 : S10000.Idx → EReal) : S330000.Idx → EReal :=
  mulf (F := Ideal) (φ := .f32) (mulf (F := Ideal) (φ := .f32) (Host.gather gather_S10000_S330000x1_S330000_n_0_n_n_0_1_1 v19
      (broadcastInDim S330000x1 ![0] bcast_S330000_S330000x1_0 (wrap 10000#32 v3))) v9)
    (Host.gather gather_S10000_S330000x1_S330000_n_0_n_n_0_1_1 v19
      (broadcastInDim S330000x1 ![0] bcast_S330000_S330000x1_0 (wrap 10000#32 v6)))

/-- The index pairs: column 0 the wrapped destinations, column 1 the wrapped sources. -/
def pairs (v3 v6 : IVec S330000 32) : IVec S330000x2 32 :=
  concatenate S330000x2 1
    [⟨S330000x1, broadcastInDim S330000x1 ![0] bcast_S330000_S330000x1_0 (wrap 10240#32 v6)⟩,
     ⟨S330000x1, broadcastInDim S330000x1 ![0] bcast_S330000_S330000x1_0 (wrap 10240#32 v3)⟩]
    concatenates_S330000x1_S330000x1_S330000x2_d1

/-- The dense adjacency buffer: the weights scattered onto zeros at the index pairs (the change of float format is the
    identity on the extended reals). -/
def adjBuf (v3 v6 : IVec S330000 32) (v9 : S330000.Idx → EReal) (v19 : S10000.Idx → EReal) : S10240x10240.Idx → EReal :=
  truncf .bf16 (Host.scatterAdd (F := Ideal) scatter_S10240x10240_S330000x2_S330000_n_01_01_1
    (broadcastInDim S10240x10240 ![] bcast_S_S10240x10240 (constant (F := Ideal) S_ .f32 0x00000000#32))
    (pairs v3 v6) (wts v3 v6 v9 v19)) bitsLt_bf16_f32

section Stages2
variable (W : Valuation τ sig (Elt Ideal))

/-! The long stretch is cut after the index pairs (operation 39 of 42): its first part is read at the three buffers the
    scatter reads, its last three operations over those buffers as given arrays. -/

theorem H_v35 : (StableHlo.after (hostOps0_4.take 39) W main_v35 : S330000.Idx → EReal)
    = wts (W main_v3) (W main_v6) (W main_v9) (W main_v19) := by
  simp only [hostOps0_4, List.take_succ_cons, List.take_zero]
  after_results_simp <;> rfl

theorem H_v49 : (StableHlo.after (hostOps0_4.take 39) W main_v49 : IVec S330000x2 32)
    = pairs (W main_v3) (W main_v6) := by
  simp only [hostOps0_4, List.take_succ_cons, List.take_zero]
  after_results_simp <;> rfl

theorem H_v36 : (StableHlo.after (hostOps0_4.take 39) W main_v36 : S10240x10240.Idx → EReal)
    = broadcastInDim S10240x10240 ![] bcast_S_S10240x10240 (constant (F := Ideal) S_ .f32 0x00000000#32) := by
  simp only [hostOps0_4, List.take_succ_cons, List.take_zero]
  after_results_simp <;> rfl

theorem T_v51 : (StableHlo.after (hostOps0_4.drop 39) W main_v51 : S10240x10240.Idx → EReal)
    = truncf (F := Ideal) .bf16 (Host.scatterAdd (F := Ideal) (φ := .f32) scatter_S10240x10240_S330000x2_S330000_n_01_01_1
        (W main_v36) (W main_v49) (W main_v35)) bitsLt_bf16_f32 := by
  simp only [hostOps0_4, List.drop_succ_cons, List.drop_zero]
  after_results_simp <;> rfl

theorem T_c13 : (StableHlo.after (hostOps0_4.drop 39) W main_c_13 : IVec S_ 32) = constantI S_ 32 0#32 := by
  simp only [hostOps0_4, List.drop_succ_cons, List.drop_zero]
  after_results_simp <;> rfl

theorem E_v51 : (StableHlo.after hostOps0_4 W main_v51 : S10240x10240.Idx → EReal)
    = adjBuf (W main_v3) (W main_v6) (W main_v9) (W main_v19) := by
  rw [Cert.FoldSplit.after_take_drop 39 hostOps0_4 W]
  refine (T_v51 _).trans ?_
  rw [H_v36 W, H_v49 W, H_v35 W]
  rfl

theorem E_c13 : (StableHlo.after hostOps0_4 W main_c_13 : IVec S_ 32) = constantI S_ 32 0#32 := by
  rw [Cert.FoldSplit.after_take_drop 39 hostOps0_4 W]
  exact T_c13 _

/-- The features padded with 240 rows of the value in main_c_13, converted. -/
theorem F5_v52 : (StableHlo.after hostOps0_5 W main_v52 : S4x10240x128.Idx → EReal)
    = pad S4x10240x128 ![0, 0, 0] ![0, 240, 0] ![0, 0, 0] (W main_arg0 : S4x10000x128.Idx → EReal)
        (sitofp (F := Ideal) .f32 (W main_c_13 : IVec S_ 32)) pads_S4x10000x128_S4x10240x128_000_02400_000 h_S_ := by
  dsimp only [hostOps0_5]
  after_results_simp <;> rfl

theorem F6_v54 : (StableHlo.after hostOps0_6 W main_v54 : S40960x128.Idx → EReal)
    = truncf (F := Ideal) .bf16 (shapeCast S40960x128 (W main_v52 : FVec Ideal S4x10240x128 .f32) shapeCasts_S4x10240x128_S40960x128) bitsLt_bf16_f32 := by
  dsimp only [hostOps0_6]
  after_results_simp <;> rfl

theorem F6_v55 : (StableHlo.after hostOps0_6 W main_v55 : S128x128.Idx → EReal) = (W main_arg3 : S128x128.Idx → EReal) := by
  dsimp only [hostOps0_6]
  after_results_simp <;> rfl

theorem F6_v56 : (StableHlo.after hostOps0_6 W main_v56 : S128x64.Idx → EReal) = (W main_arg5 : S128x64.Idx → EReal) := by
  dsimp only [hostOps0_6]
  after_results_simp <;> rfl

end Stages2

/-! ## The terms read at an index -/

section AtIndex

/-- A wrapped index list at an entry is the entry's word, shifted up by N when it reads negative. -/
theorem wrap_apply (N : BitVec 32) (v : IVec S330000 32) (e : Fin 330000) :
    wrap N v (ix1 e) = Cert.Spec.norm32 N (v (ix1 e)) := by
  show Scalar.select (IntOp.cmpi .slt (v (ix1 e)) 0#32) (v (ix1 e) + N) (v (ix1 e)) = _
  unfold Cert.Spec.norm32 Scalar.select IntOp.cmpi
  cases h : (v (ix1 e)).slt 0#32 <;> simp

/-- A list laid out as a one-column matrix, read at row e. -/
theorem column_apply (y : IVec S330000 32) (e : Fin 330000) :
    broadcastInDim S330000x1 ![0] bcast_S330000_S330000x1_0 y (ix2 e (0 : Fin 1)) = y (ix1 e) :=
  broadcastInDim_apply _ bcast_S330000_S330000x1_0 y (ix2 e (0 : Fin 1)) (ix1 e) (fun a => match a with
    | ⟨0, _⟩ => by show e.val = if (330000 : Nat) = 1 then 0 else e.val; rw [if_neg (by decide)])

/-- Column 0 of the index pairs holds the wrapped destinations. -/
theorem pairs_col0 (v3 v6 : IVec S330000 32) (e : Fin 330000) :
    pairs v3 v6 (ix2 e (0 : Fin 2)) = Cert.Spec.norm32 10240#32 (v6 (ix1 e)) := by
  unfold pairs
  refine (concatenate_pair_apply_left (t := S330000x2) (s₁ := S330000x1) (s₂ := S330000x1) (1 : Fin 2) _ _
    concatenates_S330000x1_S330000x1_S330000x2_d1
    (ix2 e (0 : Fin 2)) (rfl : S330000x1.rank = S330000x2.rank) (ix2 e (0 : Fin 1)) (fun b => match b with
      | ⟨0, _⟩ => rfl
      | ⟨1, _⟩ => rfl)).trans ?_
  exact (column_apply _ e).trans (wrap_apply _ _ e)

/-- Column 1 of the index pairs holds the wrapped sources. -/
theorem pairs_col1 (v3 v6 : IVec S330000 32) (e : Fin 330000) :
    pairs v3 v6 (ix2 e (1 : Fin 2)) = Cert.Spec.norm32 10240#32 (v3 (ix1 e)) := by
  unfold pairs
  refine (concatenate_pair_apply_right (t := S330000x2) (s₁ := S330000x1) (s₂ := S330000x1) (1 : Fin 2) _ _
    concatenates_S330000x1_S330000x1_S330000x2_d1
    (ix2 e (1 : Fin 2)) (rfl : S330000x1.rank = S330000x2.rank) (rfl : S330000x1.rank = S330000x2.rank)
    (ix2 e (0 : Fin 1)) (fun b hb => match b, hb with
      | ⟨0, _⟩, _ => rfl
      | ⟨1, _⟩, hb => absurd rfl hb) rfl).trans ?_
  exact (column_apply _ e).trans (wrap_apply _ _ e)

/-- The adjacency buffer at (n, k): zero plus the weights of the edges whose wrapped (destination, source) pair reads
    (n, k). -/
theorem adjBuf_apply (v3 v6 : IVec S330000 32) (v9 : S330000.Idx → EReal) (v19 : S10000.Idx → EReal) (n k : Fin 10240) :
    adjBuf v3 v6 v9 v19 (ix2 n k) = Cert.Spec.adj (E := 330000)
      (fun e => (Cert.Spec.norm32 10240#32 (v6 (ix1 e))).toInt)
      (fun e => (Cert.Spec.norm32 10240#32 (v3 (ix1 e))).toInt)
      (fun e => wts v3 v6 v9 v19 (ix1 e)) n k := by
  unfold Cert.Spec.adj adjBuf
  refine (truncf_apply (φ := .f32) (ψ := .bf16) _ bitsLt_bf16_f32 _).trans ?_
  refine (Cert.ScatterPairs1.host_scatterAdd_pairs1 (φ := .f32) scatter_S10240x10240_S330000x2_S330000_n_01_01_1
    rfl rfl rfl rfl _ (pairs v3 v6) (wts v3 v6 v9 v19) n k).trans ?_
  exact congrArg₂ (fun a b : EReal => a + b) Ideal.ofBits_zero_f32
    (Finset.sum_congr rfl fun e _ => by rw [pairs_col0, pairs_col1])

/-- The padded, flattened features at row b * 10240 + r: the features of batch entry b padded with zero rows. -/
theorem padded_apply (x0 : S4x10000x128.Idx → EReal) (b : Fin 4) (r : Fin 10240) (k : Fin 128) :
    truncf (F := Ideal) .bf16 (shapeCast S40960x128
        (pad S4x10240x128 ![0, 0, 0] ![0, 240, 0] ![0, 0, 0] x0 (sitofp (F := Ideal) .f32 (constantI S_ 32 0#32))
          pads_S4x10000x128_S4x10240x128_000_02400_000 h_S_ : FVec Ideal S4x10240x128 .f32)
        shapeCasts_S4x10240x128_S40960x128) bitsLt_bf16_f32 (ix2 ⟨b.val * 10240 + r.val, by omega⟩ k)
      = Cert.Spec.pad (N := 10000) (fun mm kk => x0 (ix3 b mm kk)) r k := by
  refine (truncf_apply (φ := .f32) (ψ := .bf16) _ bitsLt_bf16_f32 _).trans ?_
  refine (shapeCast_apply _ shapeCasts_S4x10240x128_S40960x128 _ (ix3 b r k) ?_).trans ?_
  · rw [Shape.rowMajor_val_three, Shape.rowMajor_val_two]
    rfl
  · unfold Cert.Spec.pad
    by_cases hr : r.val < 10000
    · rw [dif_pos hr]
      exact pad_apply_of_inside _ _ _ x0 _ pads_S4x10000x128_S4x10240x128_000_02400_000 h_S_ (ix3 b r k)
        (ix3 b ⟨r.val, hr⟩ k) (fun a => match a with
          | ⟨0, _⟩ => by show b.val = 0 + b.val * (0 + 1); omega
          | ⟨1, _⟩ => by show r.val = 0 + r.val * (0 + 1); omega
          | ⟨2, _⟩ => by show k.val = 0 + k.val * (0 + 1); omega)
    · rw [dif_neg hr]
      refine (pad_apply_of_not_inside _ _ _ x0 _ pads_S4x10000x128_S4x10240x128_000_02400_000 h_S_ (ix3 b r k)
        (1 : Fin 3) ?_).trans ?_
      · show ¬(0 ≤ r.val ∧ (r.val - 0) % (0 + 1) = 0 ∧ (r.val - 0) / (0 + 1) < 10000)
        omega
      · show ((((0#32 : BitVec 32).toInt : ℝ)) : EReal) = 0
        simp

end AtIndex

/-! ## The chain of valuations: each buffer at the point where the first region is entered -/

section Chain
variable (m : (ℓ : Loc nD τ sig) → Buf (Elt Ideal) ℓ) (c : Dev nD)

/-- The node features as launched. -/
abbrev X0 : S4x10000x128.Idx → EReal := m ((c : Thread nD τ).loc main_arg0)
/-- The edge list as launched. -/
abbrev X1 : IVec S2x320000 32 := m ((c : Thread nD τ).loc main_arg1)
/-- The edge weights as launched. -/
abbrev X2 : S320000x1.Idx → EReal := m ((c : Thread nD τ).loc main_arg2)
/-- The first layer's weights as launched. -/
abbrev X3 : S128x128.Idx → EReal := m ((c : Thread nD τ).loc main_arg3)
/-- The second layer's weights as launched. -/
abbrev X5 : S128x64.Idx → EReal := m ((c : Thread nD τ).loc main_arg5)

open Cert.ReferenceIdeal in
theorem V1_v3 : (V1 m c main_v3 : IVec S330000 32) = Read.val_main_v4 (F := Ideal) (X1 m c) := A_v3 (V0 m c)
open Cert.ReferenceIdeal in
theorem V1_v6 : (V1 m c main_v6 : IVec S330000 32) = Read.val_main_v7 (F := Ideal) (X1 m c) := A_v6 (V0 m c)
open Cert.ReferenceIdeal in
theorem V1_v9 : (V1 m c main_v9 : S330000.Idx → EReal) = Read.val_main_v9 (F := Ideal) (X2 m c) := A_v9 (V0 m c)
open Cert.ReferenceIdeal in
theorem V1_v12 : (V1 m c main_v12 : S10000.Idx → EReal) = Read.val_main_v12 (F := Ideal) (X1 m c) (X2 m c) := A_v12 (V0 m c)
open Cert.ReferenceIdeal in
theorem V1_v14 : (V1 m c main_v14 : IVec S10000 1) = Read.val_main_v14 (F := Ideal) (X1 m c) (X2 m c) := A_v14 (V0 m c)
open Cert.ReferenceIdeal in
theorem V1_v16 : (V1 m c main_v16 : IVec S10000 1) = Read.val_main_v16 (F := Ideal) (X1 m c) (X2 m c) := A_v16 (V0 m c)
open Cert.ReferenceIdeal in
theorem V1_cst3 : (V1 m c main_cst_3 : S_.Idx → EReal) = Read.val_main_cst_3 (F := Ideal) := A_cst3 (V0 m c)

open Cert.ReferenceIdeal in
theorem V2_v17 : (V2 m c main_v17 : S10000.Idx → EReal) = Read.val_main_v17 (F := Ideal) (X1 m c) (X2 m c) := by
  refine (B_v17 (V1 m c)).trans ?_
  rw [V1_v16 m c, V1_v12 m c, V1_cst3 m c]
  rfl

open Cert.ReferenceIdeal in
theorem V3_v18 : (V3 m c main_v18 : S10000.Idx → EReal) = Read.val_main_v18 (F := Ideal) (X1 m c) (X2 m c) := by
  refine (C_v18 (V2 m c)).trans ?_
  rw [V2_v17 m c]
  rfl

open Cert.ReferenceIdeal in
theorem V3_cst4 : (V3 m c main_cst_4 : S_.Idx → EReal) = Read.val_main_cst_4 (F := Ideal) := C_cst4 (V2 m c)

open Cert.ReferenceIdeal in
theorem V3_v14 : (V3 m c main_v14 : IVec S10000 1) = Read.val_main_v14 (F := Ideal) (X1 m c) (X2 m c) :=
  (V3_of m c main_v14 (by decide)).trans ((V2_of m c main_v14 (by decide)).trans (V1_v14 m c))

open Cert.ReferenceIdeal in
theorem V4_v19 : (V4 m c main_v19 : S10000.Idx → EReal) = Read.val_main_v19 (F := Ideal) (X1 m c) (X2 m c) := by
  refine (D_v19 (V3 m c)).trans ?_
  rw [V3_v14 m c, V3_v18 m c, V3_cst4 m c]
  rfl

open Cert.ReferenceIdeal in
theorem V4_v3 : (V4 m c main_v3 : IVec S330000 32) = Read.val_main_v4 (F := Ideal) (X1 m c) :=
  (V4_of m c main_v3 (by decide)).trans ((V3_of m c main_v3 (by decide)).trans ((V2_of m c main_v3 (by decide)).trans (V1_v3 m c)))
open Cert.ReferenceIdeal in
theorem V4_v6 : (V4 m c main_v6 : IVec S330000 32) = Read.val_main_v7 (F := Ideal) (X1 m c) :=
  (V4_of m c main_v6 (by decide)).trans ((V3_of m c main_v6 (by decide)).trans ((V2_of m c main_v6 (by decide)).trans (V1_v6 m c)))
open Cert.ReferenceIdeal in
theorem V4_v9 : (V4 m c main_v9 : S330000.Idx → EReal) = Read.val_main_v9 (F := Ideal) (X2 m c) :=
  (V4_of m c main_v9 (by decide)).trans ((V3_of m c main_v9 (by decide)).trans ((V2_of m c main_v9 (by decide)).trans (V1_v9 m c)))

/-- The kernel's weight term over the reference's stage functions IS the reference's normalised weights: the same
    operations in the same order. -/
theorem wts_eq (x1 : IVec S2x320000 32) (x2 : S320000x1.Idx → EReal) :
    wts (Cert.ReferenceIdeal.Read.val_main_v4 (F := Ideal) x1) (Cert.ReferenceIdeal.Read.val_main_v7 (F := Ideal) x1)
        (Cert.ReferenceIdeal.Read.val_main_v9 (F := Ideal) x2) (Cert.ReferenceIdeal.Read.val_main_v19 (F := Ideal) x1 x2)
      = Cert.ReferenceIdeal.Read.val_main_v35 (F := Ideal) x1 x2 := rfl

open Cert.ReferenceIdeal in
theorem V7_v51 : (V7 m c main_v51 : S10240x10240.Idx → EReal)
    = adjBuf (Read.val_main_v4 (F := Ideal) (X1 m c)) (Read.val_main_v7 (F := Ideal) (X1 m c))
        (Read.val_main_v9 (F := Ideal) (X2 m c)) (Read.val_main_v19 (F := Ideal) (X1 m c) (X2 m c)) := by
  refine (V7_of m c main_v51 (by decide)).trans ((V6_of m c main_v51 (by decide)).trans ?_)
  refine (E_v51 (V4 m c)).trans ?_
  rw [V4_v3 m c, V4_v6 m c, V4_v9 m c, V4_v19 m c]

theorem v51_apply (n k : Fin 10240) :
    (V7 m c main_v51 : S10240x10240.Idx → EReal) (ix2 n k) = Cert.Spec.adj (E := 330000)
      (fun e => (Cert.Spec.norm32 10240#32 (Cert.ReferenceIdeal.Read.val_main_v7 (F := Ideal) (X1 m c) (ix1 e))).toInt)
      (fun e => (Cert.Spec.norm32 10240#32 (Cert.ReferenceIdeal.Read.val_main_v4 (F := Ideal) (X1 m c) (ix1 e))).toInt)
      (fun e => Cert.ReferenceIdeal.Read.val_main_v35 (F := Ideal) (X1 m c) (X2 m c) (ix1 e)) n k := by
  rw [V7_v51 m c, adjBuf_apply, wts_eq]

theorem V6_v52 : (V6 m c main_v52 : S4x10240x128.Idx → EReal)
    = pad S4x10240x128 ![0, 0, 0] ![0, 240, 0] ![0, 0, 0] (X0 m c) (sitofp (F := Ideal) .f32 (constantI S_ 32 0#32))
        pads_S4x10000x128_S4x10240x128_000_02400_000 h_S_ := by
  refine (F5_v52 (V5 m c)).trans ?_
  have e0 : (V5 m c main_arg0 : S4x10000x128.Idx → EReal) = X0 m c :=
    (V5_of m c main_arg0 (by decide)).trans ((V4_of m c main_arg0 (by decide)).trans ((V3_of m c main_arg0 (by decide)).trans
      ((V2_of m c main_arg0 (by decide)).trans ((V1_of m c main_arg0 (by decide)).trans rfl))))
  have ec : (V5 m c main_c_13 : IVec S_ 32) = constantI S_ 32 0#32 := E_c13 (V4 m c)
  rw [e0, ec]

theorem v54_apply (b : Fin 4) (r : Fin 10240) (k : Fin 128) :
    (V7 m c main_v54 : S40960x128.Idx → EReal) (ix2 ⟨b.val * 10240 + r.val, by omega⟩ k)
      = Cert.Spec.pad (N := 10000) (fun mm kk => X0 m c (ix3 b mm kk)) r k := by
  have e : (V7 m c main_v54 : S40960x128.Idx → EReal) = _ := (F6_v54 (V6 m c)).trans (by rw [V6_v52 m c])
  rw [e]
  exact padded_apply (X0 m c) b r k

theorem v55_apply (k h : Fin 128) : (V7 m c main_v55 : S128x128.Idx → EReal) (ix2 k h) = X3 m c (ix2 k h) := by
  have e3 : (V6 m c main_arg3 : S128x128.Idx → EReal) = X3 m c :=
    (V6_of m c main_arg3 (by decide)).trans ((V5_of m c main_arg3 (by decide)).trans ((V4_of m c main_arg3 (by decide)).trans
      ((V3_of m c main_arg3 (by decide)).trans ((V2_of m c main_arg3 (by decide)).trans ((V1_of m c main_arg3 (by decide)).trans rfl)))))
  exact congrFun ((F6_v55 (V6 m c)).trans e3) (ix2 k h)

theorem v56_apply (h : Fin 128) (j : Fin 64) : (V7 m c main_v56 : S128x64.Idx → EReal) (ix2 h j) = X5 m c (ix2 h j) := by
  have e5 : (V6 m c main_arg5 : S128x64.Idx → EReal) = X5 m c :=
    (V6_of m c main_arg5 (by decide)).trans ((V5_of m c main_arg5 (by decide)).trans ((V4_of m c main_arg5 (by decide)).trans
      ((V3_of m c main_arg5 (by decide)).trans ((V2_of m c main_arg5 (by decide)).trans ((V1_of m c main_arg5 (by decide)).trans rfl)))))
  exact congrFun ((F6_v56 (V6 m c)).trans e5) (ix2 h j)

end Chain

end Cert.KernelIdeal.Hand

end
-- ==== Proof.KI.HostPost1.lean ====
import proofs.«125395_j52793738002724_1_alg».proof.Proof.Gen.KernelIdeal.Regions
import proofs.«125395_j52793738002724_1_alg».proof.Proof.Spec
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe
open Idealize.ShloMosaic.ValueIdx
open scoped BigOperators

variable (m : (ℓ : Loc nD τ sig) → Buf (Elt Ideal) ℓ) (outs : Outs (F := Ideal)) (c : Dev nD)

/-! # The host operations between the regions, read at an index: the two regroupings of rows into channels

After a row-by-row product the program views its 40960 rows as 4 groups of 10240, moves the group axis behind the
rows and merges it into the channels, so that one adjacency product serves the 4 groups at once. Read at an index
this is a renaming of coordinates; the conversion that follows is the identity on the extended reals. -/

/-- Column q of column block kb of the adjacency array. -/
abbrev pos : Fin 10 → Fin 1024 → Fin 10240 := fun kb q => ⟨kb.val * 1024 + q.val, by omega⟩

/-- Rows grouped by a leading axis of 4, that axis moved behind the rows, then merged into the channels: entry
    (r, b·128 + d) of the result is entry (b·10240 + r, d) of the operand. -/
theorem regroup128 (y : S40960x128.Idx → EReal) (mm : Fin 10240) (b : Fin 4) (d : Fin 128) :
    shapeCast S10240x512 (transpose S10240x4x128 [1, 0, 2] (shapeCast S4x10240x128 y shapeCasts_S40960x128_S4x10240x128)
        transposes_S4x10240x128_S10240x4x128_1_0_2) shapeCasts_S10240x4x128_S10240x512 (ix2 mm ⟨b.val * 128 + d.val, by omega⟩)
      = y (ix2 ⟨b.val * 10240 + mm.val, by omega⟩ d) := by
  refine (shapeCast_apply _ shapeCasts_S10240x4x128_S10240x512 _ (ix3 mm b d) ?_).trans ?_
  · rw [Shape.rowMajor_val_three, Shape.rowMajor_val_two]
    show (mm.val * 4 + b.val) * 128 + d.val = mm.val * 512 + (b.val * 128 + d.val)
    omega
  refine (transpose_apply _ _ transposes_S4x10240x128_S10240x4x128_1_0_2 _ (ix3 b mm d) ?_).trans ?_
  · intro a
    match a with
    | ⟨0, _⟩ => rfl
    | ⟨1, _⟩ => rfl
    | ⟨2, _⟩ => rfl
  refine shapeCast_apply _ shapeCasts_S40960x128_S4x10240x128 _ (ix2 ⟨b.val * 10240 + mm.val, by omega⟩ d) ?_
  rw [Shape.rowMajor_val_two, Shape.rowMajor_val_three]
  show (b.val * 10240 + mm.val) * 128 + d.val = (b.val * 10240 + mm.val) * 128 + d.val
  rfl

/-- Rows grouped by a leading axis of 4, that axis moved behind the rows, then merged into the channels: entry
    (r, b·64 + d) of the result is entry (b·10240 + r, d) of the operand. -/
theorem regroup64 (y : S40960x64.Idx → EReal) (mm : Fin 10240) (b : Fin 4) (d : Fin 64) :
    shapeCast S10240x256 (transpose S10240x4x64 [1, 0, 2] (shapeCast S4x10240x64 y shapeCasts_S40960x64_S4x10240x64)
        transposes_S4x10240x64_S10240x4x64_1_0_2) shapeCasts_S10240x4x64_S10240x256 (ix2 mm ⟨b.val * 64 + d.val, by omega⟩)
      = y (ix2 ⟨b.val * 10240 + mm.val, by omega⟩ d) := by
  refine (shapeCast_apply _ shapeCasts_S10240x4x64_S10240x256 _ (ix3 mm b d) ?_).trans ?_
  · rw [Shape.rowMajor_val_three, Shape.rowMajor_val_two]
    show (mm.val * 4 + b.val) * 64 + d.val = mm.val * 256 + (b.val * 64 + d.val)
    omega
  refine (transpose_apply _ _ transposes_S4x10240x64_S10240x4x64_1_0_2 _ (ix3 b mm d) ?_).trans ?_
  · intro a
    match a with
    | ⟨0, _⟩ => rfl
    | ⟨1, _⟩ => rfl
    | ⟨2, _⟩ => rfl
  refine shapeCast_apply _ shapeCasts_S40960x64_S4x10240x64 _ (ix2 ⟨b.val * 10240 + mm.val, by omega⟩ d) ?_
  rw [Shape.rowMajor_val_two, Shape.rowMajor_val_three]
  show (b.val * 10240 + mm.val) * 64 + d.val = (b.val * 10240 + mm.val) * 64 + d.val
  rfl

/-- The right operand of the first adjacency product: entry (r, b·128 + d) is entry (b·10240 + r, d) of what the first
    row-by-row product left. -/
theorem v61_apply (mm : Fin 10240) (b : Fin 4) (d : Fin 128) :
    (V9 m outs c main_v61 : S10240x512.Idx → EReal) (ix2 mm ⟨b.val * 128 + d.val, by omega⟩)
      = (outs 8 main_v57 c : S40960x128.Idx → EReal) (ix2 ⟨b.val * 10240 + mm.val, by omega⟩ d) := by
  show StableHlo.after hostOps1 (V8 m outs c) (Proc.devRef .tc main_v61) _ = _
  after_results
  simp only [V8, Function.update_self]
  exact regroup128 (outs 8 main_v57 c) mm b d

/-- The right operand of the second adjacency product: entry (r, b·64 + j) is entry (b·10240 + r, j) of what the second
    row-by-row product left. -/
theorem v75_apply (mm : Fin 10240) (b : Fin 4) (j : Fin 64) :
    (V15 m outs c main_v75 : S10240x256.Idx → EReal) (ix2 mm ⟨b.val * 64 + j.val, by omega⟩)
      = (outs 14 main_v71 c : S40960x64.Idx → EReal) (ix2 ⟨b.val * 10240 + mm.val, by omega⟩ j) := by
  show StableHlo.after hostOps3 (V14 m outs c) (Proc.devRef .tc main_v75) _ = _
  after_results
  simp only [V14, Function.update_self]
  exact regroup64 (outs 14 main_v71 c) mm b j

/-! ## Buffers the stretches in between leave alone -/

/-- The adjacency array is still what it was before the first region when the second region starts. -/
theorem keep_v51_9 : V9 m outs c main_v51 = V7 m c main_v51 :=
  (V9_of m outs c main_v51 (by decide)).trans (V8_of m outs c main_v51 (by decide))

/-- The second layer's weights are still what they were before the first region when the third region starts. -/
theorem keep_v56_13 : V13 m outs c main_v56 = V7 m c main_v56 :=
  (V13_of m outs c main_v56 (by decide)).trans <| (V12_of m outs c main_v56 (by decide)).trans <|
    (V11_of m outs c main_v56 (by decide)).trans <| (V10_of m outs c main_v56 (by decide)).trans <|
    (V9_of m outs c main_v56 (by decide)).trans (V8_of m outs c main_v56 (by decide))

/-- The adjacency array is still what it was before the first region when the fourth region starts. -/
theorem keep_v51_15 : V15 m outs c main_v51 = V7 m c main_v51 :=
  (V15_of m outs c main_v51 (by decide)).trans <| (V14_of m outs c main_v51 (by decide)).trans <|
    (V13_of m outs c main_v51 (by decide)).trans <| (V12_of m outs c main_v51 (by decide)).trans <|
    (V11_of m outs c main_v51 (by decide)).trans <| (V10_of m outs c main_v51 (by decide)).trans <|
    (V9_of m outs c main_v51 (by decide)).trans (V8_of m outs c main_v51 (by decide))

end Cert.KernelIdeal.Hand

end
-- ==== Proof.KI.HostPost2.lean ====
import proofs.«125395_j52793738002724_1_alg».proof.Proof.Gen.KernelIdeal.Regions
import proofs.«125395_j52793738002724_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Hand

open Cert.KernelIdeal Cert.KernelIdeal.Gen Idealize.ShloMosaic Idealize.ShloMosaic.TcCoe
open Idealize.ShloMosaic.ValueIdx
open scoped BigOperators

variable (m : (ℓ : Loc nD τ sig) → Buf (Elt Ideal) ℓ) (outs : Outs (F := Ideal)) (c : Dev nD)

/-- Sum and product of extended reals, with the type written out. -/
local notation:65 a:65 " +ₑ " b:66 => @HAdd.hAdd EReal EReal EReal instHAdd a b
local notation:70 a:70 " *ₑ " b:71 => @HMul.hMul EReal EReal EReal instHMul a b

/-! # The host operations between the second and the third region, read at an index

What the first adjacency product left, [10240, 4·128], is viewed as [4, 10240, 128] (channels split into 4 groups, the
group axis moved to the front), the first bias is added along the channels, max(·, 0) is taken, and the result is
flattened to 40960 rows for the next row-by-row product. Read at an index each of these renames coordinates or acts
entry by entry; the conversion at the end is the identity on the extended reals. -/

/-- The channels split into 4 groups and the group axis moved in front of the rows: entry (b, r, d) of the result is
    entry (r, b·128 + d) of the operand. -/
theorem ungroup128 (y : S10240x512.Idx → EReal) (b : Fin 4) (mm : Fin 10240) (d : Fin 128) :
    transpose S4x10240x128 [1, 0, 2] (shapeCast S10240x4x128 y shapeCasts_S10240x512_S10240x4x128)
        transposes_S10240x4x128_S4x10240x128_1_0_2 (ix3 b mm d)
      = y (ix2 mm ⟨b.val * 128 + d.val, by omega⟩) := by
  refine (transpose_apply _ _ transposes_S10240x4x128_S4x10240x128_1_0_2 _ (ix3 mm b d) ?_).trans ?_
  · intro a
    match a with
    | ⟨0, _⟩ => rfl
    | ⟨1, _⟩ => rfl
    | ⟨2, _⟩ => rfl
  refine shapeCast_apply _ shapeCasts_S10240x512_S10240x4x128 _ (ix2 mm ⟨b.val * 128 + d.val, by omega⟩) ?_
  rw [Shape.rowMajor_val_two, Shape.rowMajor_val_three]
  show mm.val * 512 + (b.val * 128 + d.val) = (mm.val * 4 + b.val) * 128 + d.val
  omega

/-- A vector over the channels broadcast over groups and rows reads, at (b, r, d), its entry d. -/
theorem bias128 (v : S128.Idx → EReal) (b : Fin 4) (mm : Fin 10240) (d : Fin 128) :
    broadcastInDim S4x10240x128 ![0, 1, 2] bcast_S1x1x128_S4x10240x128_0_1_2
        (broadcastInDim S1x1x128 ![2] bcast_S128_S1x1x128_2 v) (ix3 b mm d)
      = v (ix1 d) := by
  refine (broadcastInDim_apply _ bcast_S1x1x128_S4x10240x128_0_1_2 _ (ix3 b mm d)
    (ix3 (⟨0, Nat.one_pos⟩ : Fin 1) (⟨0, Nat.one_pos⟩ : Fin 1) d) ?_).trans ?_
  · intro a
    match a with
    | ⟨0, _⟩ => show (0 : ℕ) = if (1 : ℕ) = 1 then 0 else b.val; rw [if_pos rfl]
    | ⟨1, _⟩ => show (0 : ℕ) = if (1 : ℕ) = 1 then 0 else mm.val; rw [if_pos rfl]
    | ⟨2, _⟩ => show d.val = if (128 : ℕ) = 1 then 0 else d.val; rw [if_neg (by decide)]
  refine broadcastInDim_apply _ bcast_S128_S1x1x128_2 v _ (ix1 d) ?_
  intro a
  match a with
  | ⟨0, _⟩ => show d.val = if (128 : ℕ) = 1 then 0 else d.val; rw [if_neg (by decide)]

/-- Groups and rows flattened into one row axis: entry (b·10240 + r, d) of the result is entry (b, r, d) of the operand. -/
theorem flat128 (y : S4x10240x128.Idx → EReal) (b : Fin 4) (mm : Fin 10240) (d : Fin 128) :
    shapeCast S40960x128 y shapeCasts_S4x10240x128_S40960x128 (ix2 ⟨b.val * 10240 + mm.val, by omega⟩ d) = y (ix3 b mm d) := by
  refine shapeCast_apply _ shapeCasts_S4x10240x128_S40960x128 _ (ix3 b mm d) ?_
  rw [Shape.rowMajor_val_three, Shape.rowMajor_val_two]
  show (b.val * 10240 + mm.val) * 128 + d.val = (b.val * 10240 + mm.val) * 128 + d.val
  rfl

/-- The regrouping and the bias, over any contents of the buffers read. -/
theorem add_step (W : Valuation τ sig (Elt Ideal)) (b : Fin 4) (mm : Fin 10240) (d : Fin 128) :
    (StableHlo.after hostOps2 W (Proc.devRef .tc main_v67) : S4x10240x128.Idx → EReal) (ix3 b mm d)
      = (W (Proc.devRef .tc main_v62) : S10240x512.Idx → EReal) (ix2 mm ⟨b.val * 128 + d.val, by omega⟩)
          +ₑ (W (Proc.devRef .tc main_arg4) : S128.Idx → EReal) (ix1 d) := by
  show StableHlo.after hostOps2 W (Proc.devRef .tc main_v67) _ = _
  after_results
  exact congrArg₂ (@HAdd.hAdd EReal EReal EReal instHAdd) (ungroup128 (W (Proc.devRef .tc main_v62)) b mm d)
    (bias128 (W (Proc.devRef .tc main_arg4)) b mm d)

/-- The maximum with the zero constant, over any contents of the buffer read. -/
theorem relu_step (W : Valuation τ sig (Elt Ideal)) (i : S4x10240x128.Idx) :
    (StableHlo.after hostOps2_1 W (Proc.devRef .tc main_v68) : S4x10240x128.Idx → EReal) i
      = Cert.Spec.relu ((W (Proc.devRef .tc main_v67) : S4x10240x128.Idx → EReal) i) := by
  show StableHlo.after hostOps2_1 W (Proc.devRef .tc main_v68) _ = _
  after_results
  show @max EReal _ ((W (Proc.devRef .tc main_v67) : S4x10240x128.Idx → EReal) i) (Ideal.ofBits .f32 0x00000000#32) = _
  rw [Ideal.ofBits_zero_f32]
  rfl

/-- The flattening and the conversion, over any contents of the buffer read. -/
theorem flat_step (W : Valuation τ sig (Elt Ideal)) (b : Fin 4) (mm : Fin 10240) (d : Fin 128) :
    (StableHlo.after hostOps2_2 W (Proc.devRef .tc main_v70) : S40960x128.Idx → EReal) (ix2 ⟨b.val * 10240 + mm.val, by omega⟩ d)
      = (W (Proc.devRef .tc main_v68) : S4x10240x128.Idx → EReal) (ix3 b mm d) := by
  show StableHlo.after hostOps2_2 W (Proc.devRef .tc main_v70) _ = _
  after_results
  exact flat128 (W (Proc.devRef .tc main_v68)) b mm d

/-- An argument array no operation writes holds its launch contents. -/
theorem keep_arg4_10 : V10 m outs c main_arg4 = m ((c.tc : Thread nD τ).loc main_arg4) :=
  (V10_of m outs c main_arg4 (by decide)).trans <|
    (V9_of m outs c main_arg4 (by decide)).trans <|
    (V8_of m outs c main_arg4 (by decide)).trans <|
    (V7_of m c main_arg4 (by decide)).trans <|
    (V6_of m c main_arg4 (by decide)).trans <|
    (V5_of m c main_arg4 (by decide)).trans <|
    (V4_of m c main_arg4 (by decide)).trans <|
    (V3_of m c main_arg4 (by decide)).trans <|
    (V2_of m c main_arg4 (by decide)).trans <|
    (V1_of m c main_arg4 (by decide))

/-- The left operand of the second row-by-row product: entry (b·10240 + r, d) is max(·, 0) of entry (r, b·128 + d) of what
    the first adjacency product left plus the first bias at d. -/
theorem v70_apply (b : Fin 4) (mm : Fin 10240) (d : Fin 128) :
    (V13 m outs c main_v70 : S40960x128.Idx → EReal) (ix2 ⟨b.val * 10240 + mm.val, by omega⟩ d)
      = Cert.Spec.relu ((outs 10 main_v62 c : S10240x512.Idx → EReal) (ix2 mm ⟨b.val * 128 + d.val, by omega⟩)
          +ₑ (m ((c.tc : Thread nD τ).loc main_arg4) : S128.Idx → EReal) (ix1 d)) := by
  refine (flat_step (V12 m outs c) b mm d).trans ?_
  refine (relu_step (V11 m outs c) (ix3 b mm d)).trans ?_
  refine congrArg Cert.Spec.relu ?_
  refine (add_step (V10 m outs c) b mm d).trans ?_
  have h62 : V10 m outs c (Proc.devRef .tc main_v62) = outs 10 main_v62 c := by
    simp only [V10, Function.update_self]
  rw [h62, show V10 m outs c (Proc.devRef .tc main_arg4) = m ((c.tc : Thread nD τ).loc main_arg4) from keep_arg4_10 m outs c]

end Cert.KernelIdeal.Hand

end
-- ==== Proof.KI.HostPost3.lean ====
import proofs.«125395_j52793738002724_1_alg».proof.Proof.Gen.KernelIdeal.Regions
import proofs.«125395_j52793738002724_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Hand

open Cert.KernelIdeal Cert.KernelIdeal.Gen Idealize.ShloMosaic Idealize.ShloMosaic.TcCoe
open Idealize.ShloMosaic.ValueIdx
open scoped BigOperators

variable (m : (ℓ : Loc nD τ sig) → Buf (Elt Ideal) ℓ) (outs : Outs (F := Ideal)) (c : Dev nD)

/-- Sum and product of extended reals, with the type written out. -/
local notation:65 a:65 " +ₑ " b:66 => @HAdd.hAdd EReal EReal EReal instHAdd a b
local notation:70 a:70 " *ₑ " b:71 => @HMul.hMul EReal EReal EReal instHMul a b

/-! # The host operations after the last region, read at an index

What the second adjacency product left, [10240, 4·64], is viewed as [4, 10240, 64], the second bias is added along the
channels, the first 10000 rows are kept, summed over the rows onto the zero constant, and divided by the constant
10000. Read at an index: the division of zero plus the sum over the 10000 rows of entry plus bias. -/

/-- The channels split into 4 groups and the group axis moved in front of the rows: entry (b, r, d) of the result is
    entry (r, b·64 + d) of the operand. -/
theorem ungroup64 (y : S10240x256.Idx → EReal) (b : Fin 4) (mm : Fin 10240) (d : Fin 64) :
    transpose S4x10240x64 [1, 0, 2] (shapeCast S10240x4x64 y shapeCasts_S10240x256_S10240x4x64)
        transposes_S10240x4x64_S4x10240x64_1_0_2 (ix3 b mm d)
      = y (ix2 mm ⟨b.val * 64 + d.val, by omega⟩) := by
  refine (transpose_apply _ _ transposes_S10240x4x64_S4x10240x64_1_0_2 _ (ix3 mm b d) ?_).trans ?_
  · intro a
    match a with
    | ⟨0, _⟩ => rfl
    | ⟨1, _⟩ => rfl
    | ⟨2, _⟩ => rfl
  refine shapeCast_apply _ shapeCasts_S10240x256_S10240x4x64 _ (ix2 mm ⟨b.val * 64 + d.val, by omega⟩) ?_
  rw [Shape.rowMajor_val_two, Shape.rowMajor_val_three]
  show mm.val * 256 + (b.val * 64 + d.val) = (mm.val * 4 + b.val) * 64 + d.val
  omega

/-- A vector over the channels broadcast over groups and rows reads, at (b, r, d), its entry d. -/
theorem bias64 (v : S64.Idx → EReal) (b : Fin 4) (mm : Fin 10240) (d : Fin 64) :
    broadcastInDim S4x10240x64 ![0, 1, 2] bcast_S1x1x64_S4x10240x64_0_1_2
        (broadcastInDim S1x1x64 ![2] bcast_S64_S1x1x64_2 v) (ix3 b mm d)
      = v (ix1 d) := by
  refine (broadcastInDim_apply _ bcast_S1x1x64_S4x10240x64_0_1_2 _ (ix3 b mm d)
    (ix3 (⟨0, Nat.one_pos⟩ : Fin 1) (⟨0, Nat.one_pos⟩ : Fin 1) d) ?_).trans ?_
  · intro a
    match a with
    | ⟨0, _⟩ => show (0 : ℕ) = if (1 : ℕ) = 1 then 0 else b.val; rw [if_pos rfl]
    | ⟨1, _⟩ => show (0 : ℕ) = if (1 : ℕ) = 1 then 0 else mm.val; rw [if_pos rfl]
    | ⟨2, _⟩ => show d.val = if (64 : ℕ) = 1 then 0 else d.val; rw [if_neg (by decide)]
  refine broadcastInDim_apply _ bcast_S64_S1x1x64_2 v _ (ix1 d) ?_
  intro a
  match a with
  | ⟨0, _⟩ => show d.val = if (64 : ℕ) = 1 then 0 else d.val; rw [if_neg (by decide)]

/-- The rows kept, their sum onto the zero constant and the division by a constant, over any array y of the shape
    before the rows are cut. -/
theorem mean_tail (y : FVec Ideal S4x10240x64 .f32) (b : Fin 4) (j : Fin 64) :
    Host.divf (F := Ideal)
        (Host.reduceAdd (F := Ideal) (extractStridedSlice S4x10000x64 ![0, 0, 0] y slices_S4x10240x64_S4x10000x64_0_0_0)
          (constant (F := Ideal) S_ .f32 0x00000000#32) reducesTo_S4x10000x64_S4x64_d1 h_S_)
        (broadcastInDim S4x64 ![] bcast_S_S4x64 (constant (F := Ideal) S_ .f32 0x461C4000#32)) (ix2 b j)
      = Ideal.div (0 +ₑ ∑ n : Fin 10000, (y (ix3 b ⟨n.val, by omega⟩ j) : EReal)) (Ideal.ofBits .f32 0x461C4000#32) := by
  show Ideal.div (Ideal.hostReduceAdd reducesTo_S4x10000x64_S4x64_d1
      (extractStridedSlice S4x10000x64 ![0, 0, 0] y slices_S4x10240x64_S4x10000x64_0_0_0)
      (Ideal.ofBits .f32 0x00000000#32) (ix2 b j)) (Ideal.ofBits .f32 0x461C4000#32) = _
  rw [Ideal.hostReduceAdd_single reducesTo_S4x10000x64_S4x64_d1 (by decide), Ideal.ofBits_zero_f32]
  refine congrArg (fun s : EReal => Ideal.div (0 +ₑ s) (Ideal.ofBits .f32 0x461C4000#32)) (Finset.sum_congr rfl fun (n : Fin 10000) _ => ?_)
  refine extractStridedSlice_apply _ y slices_S4x10240x64_S4x10000x64_0_0_0 _ (ix3 b ⟨n.val, by omega⟩ j) ?_
  intro a
  match a with
  | ⟨0, _⟩ => show b.val = 0 + b.val; omega
  | ⟨1, _⟩ => show n.val = 0 + n.val; omega
  | ⟨2, _⟩ => show j.val = 0 + j.val; omega

/-- The whole stretch, over any contents of the buffers read. -/
theorem tail_step (W : Valuation τ sig (Elt Ideal)) (b : Fin 4) (j : Fin 64) :
    (StableHlo.after hostOps4 W (Proc.devRef .tc main_v85) : S4x64.Idx → EReal) (ix2 b j)
      = Ideal.div (0 +ₑ ∑ n : Fin 10000, ((W (Proc.devRef .tc main_v76) : S10240x256.Idx → EReal) (ix2 ⟨n.val, by omega⟩ ⟨b.val * 64 + j.val, by omega⟩)
          +ₑ (W (Proc.devRef .tc main_arg6) : S64.Idx → EReal) (ix1 j))) (Ideal.ofBits .f32 0x461C4000#32) := by
  show StableHlo.after hostOps4 W (Proc.devRef .tc main_v85) _ = _
  after_results
  refine (mean_tail _ b j).trans ?_
  refine congrArg (fun s : EReal => Ideal.div (0 +ₑ s) (Ideal.ofBits .f32 0x461C4000#32)) (Finset.sum_congr rfl fun n _ => ?_)
  exact congrArg₂ (@HAdd.hAdd EReal EReal EReal instHAdd) (ungroup64 (W (Proc.devRef .tc main_v76)) b ⟨n.val, by omega⟩ j)
    (bias64 (W (Proc.devRef .tc main_arg6)) b ⟨n.val, by omega⟩ j)

/-- An argument array no operation writes holds its launch contents. -/
theorem keep_arg6_16 : V16 m outs c main_arg6 = m ((c.tc : Thread nD τ).loc main_arg6) :=
  (V16_of m outs c main_arg6 (by decide)).trans <|
    (V15_of m outs c main_arg6 (by decide)).trans <|
    (V14_of m outs c main_arg6 (by decide)).trans <|
    (V13_of m outs c main_arg6 (by decide)).trans <|
    (V12_of m outs c main_arg6 (by decide)).trans <|
    (V11_of m outs c main_arg6 (by decide)).trans <|
    (V10_of m outs c main_arg6 (by decide)).trans <|
    (V9_of m outs c main_arg6 (by decide)).trans <|
    (V8_of m outs c main_arg6 (by decide)).trans <|
    (V7_of m c main_arg6 (by decide)).trans <|
    (V6_of m c main_arg6 (by decide)).trans <|
    (V5_of m c main_arg6 (by decide)).trans <|
    (V4_of m c main_arg6 (by decide)).trans <|
    (V3_of m c main_arg6 (by decide)).trans <|
    (V2_of m c main_arg6 (by decide)).trans <|
    (V1_of m c main_arg6 (by decide))

/-- The program's result at (b, j): zero plus the sum over the first 10000 rows of what the second adjacency product left
    at (row, b·64 + j) plus the second bias at j, divided by the constant. -/
theorem v85_apply (b : Fin 4) (j : Fin 64) :
    (V17 m outs c main_v85 : S4x64.Idx → EReal) (ix2 b j)
      = Ideal.div (0 +ₑ ∑ n : Fin 10000, ((outs 16 main_v76 c : S10240x256.Idx → EReal) (ix2 ⟨n.val, by omega⟩ ⟨b.val * 64 + j.val, by omega⟩)
          +ₑ (m ((c.tc : Thread nD τ).loc main_arg6) : S64.Idx → EReal) (ix1 j))) (Ideal.ofBits .f32 0x461C4000#32) := by
  refine (tail_step (V16 m outs c) b j).trans ?_
  have h76 : V16 m outs c (Proc.devRef .tc main_v76) = outs 16 main_v76 c := by
    simp only [V16, Function.update_self]
  rw [h76, show V16 m outs c (Proc.devRef .tc main_arg6) = m ((c.tc : Thread nD τ).loc main_arg6) from keep_arg6_16 m outs c]

end Cert.KernelIdeal.Hand

end
-- ==== Proof.KI.HostPost.lean ====
import proofs.«125395_j52793738002724_1_alg».proof.Proof.KI.HostPost1
import proofs.«125395_j52793738002724_1_alg».proof.Proof.KI.HostPost2
import proofs.«125395_j52793738002724_1_alg».proof.Proof.KI.HostPost3

noncomputable section

namespace Cert.KernelIdeal.Hand

open Cert.KernelIdeal Cert.KernelIdeal.Gen Idealize.ShloMosaic Idealize.ShloMosaic.TcCoe
open Idealize.ShloMosaic.ValueIdx
open scoped BigOperators

variable (m : (ℓ : Loc nD τ sig) → Buf (Elt Ideal) ℓ) (outs : Outs (F := Ideal)) (c : Dev nD)

/-- Sum and product of extended reals, with the type written out. -/
local notation:65 a:65 " +ₑ " b:66 => @HAdd.hAdd EReal EReal EReal instHAdd a b
local notation:70 a:70 " *ₑ " b:71 => @HMul.hMul EReal EReal EReal instHMul a b

/-! # The program's result as one formula

Given what each of the four regions leaves in its result array — a row-by-row product, an adjacency product block by
block of columns, and the same two again — and the contents of the operand arrays before the first region, the
program's result at (b, j) is the division by the constant of zero plus the sum over the first 10000 rows of the second
layer at (row, j), for batch entry b: every host operation in between renames coordinates, adds a bias or takes
max(·, 0), so the chain of equalities is a rewriting under the sums. -/

/-- The program's result at (b, j), from the four regions' results and the operand arrays' contents. -/
theorem ker_value (A : Fin 10240 → Fin 10240 → EReal) (hA : ∀ n k, (V7 m c main_v51 : S10240x10240.Idx → EReal) (ix2 n k) = A n k)
    (x : Fin 4 → Fin 10000 → Fin 128 → EReal)
    (hx : ∀ (b : Fin 4) (r : Fin 10240) (k : Fin 128), (V7 m c main_v54 : S40960x128.Idx → EReal) (ix2 ⟨b.val * 10240 + r.val, by omega⟩ k) = Cert.Spec.pad (N := 10000) (x b) r k)
    (W1 : Fin 128 → Fin 128 → EReal) (hW1 : ∀ k h, (V7 m c main_v55 : S128x128.Idx → EReal) (ix2 k h) = W1 k h)
    (W2 : Fin 128 → Fin 64 → EReal) (hW2 : ∀ h j, (V7 m c main_v56 : S128x64.Idx → EReal) (ix2 h j) = W2 h j)
    (h8 : ∀ (r : Fin 40960) (j : Fin 128), (outs 8 main_v57 c : S40960x128.Idx → EReal) (ix2 r j)
        = ∑ k : Fin 128, (V7 m c main_v54 : S40960x128.Idx → EReal) (ix2 r k) *ₑ (V7 m c main_v55 : S128x128.Idx → EReal) (ix2 k j))
    (h10 : ∀ (n : Fin 10240) (j : Fin 512), (outs 10 main_v62 c : S10240x512.Idx → EReal) (ix2 n j)
        = ∑ kb : Fin 10, ∑ q : Fin 1024, (V9 m outs c main_v51 : S10240x10240.Idx → EReal) (ix2 n (pos kb q)) *ₑ (V9 m outs c main_v61 : S10240x512.Idx → EReal) (ix2 (pos kb q) j))
    (h14 : ∀ (r : Fin 40960) (j : Fin 64), (outs 14 main_v71 c : S40960x64.Idx → EReal) (ix2 r j)
        = ∑ k : Fin 128, (V13 m outs c main_v70 : S40960x128.Idx → EReal) (ix2 r k) *ₑ (V13 m outs c main_v56 : S128x64.Idx → EReal) (ix2 k j))
    (h16 : ∀ (n : Fin 10240) (j : Fin 256), (outs 16 main_v76 c : S10240x256.Idx → EReal) (ix2 n j)
        = ∑ kb : Fin 10, ∑ q : Fin 1024, (V15 m outs c main_v51 : S10240x10240.Idx → EReal) (ix2 n (pos kb q)) *ₑ (V15 m outs c main_v75 : S10240x256.Idx → EReal) (ix2 (pos kb q) j))
    (b : Fin 4) (j : Fin 64) :
    (V17 m outs c main_v85 : S4x64.Idx → EReal) (ix2 b j)
      = Ideal.div (Cert.Spec.numK (N := 10000) (P := 10240) (by decide) pos A (x b) W1
          (fun h => (m ((c.tc : Thread nD τ).loc main_arg4) : S128.Idx → EReal) (ix1 h)) W2
          (fun j => (m ((c.tc : Thread nD τ).loc main_arg6) : S64.Idx → EReal) (ix1 j)) j) (Ideal.ofBits .f32 0x461C4000#32) := by
  have p1 : ∀ (p' : Fin 10240) (k : Fin 128),
      (V9 m outs c main_v61 : S10240x512.Idx → EReal) (ix2 p' ⟨b.val * 128 + k.val, by omega⟩)
        = Cert.Spec.proj (Cert.Spec.pad (N := 10000) (x b)) W1 p' k := fun p' k => by
    rw [v61_apply m outs c p' b k, h8]
    unfold Cert.Spec.proj
    show @Eq EReal _ _
    exact Finset.sum_congr rfl fun k' _ => congrArg₂ (@HMul.hMul EReal EReal EReal instHMul) (hx b p' k') (hW1 k' k)
  have p2 : ∀ (p : Fin 10240) (k : Fin 128),
      (outs 10 main_v62 c : S10240x512.Idx → EReal) (ix2 p ⟨b.val * 128 + k.val, by omega⟩)
        = Cert.Spec.aggK pos A (fun mm => Cert.Spec.proj (Cert.Spec.pad (N := 10000) (x b)) W1 mm k) p := fun p k => by
    rw [h10]
    unfold Cert.Spec.aggK
    show @Eq EReal _ _
    exact Finset.sum_congr rfl fun kb _ => Finset.sum_congr rfl fun q _ =>
      congrArg₂ (@HMul.hMul EReal EReal EReal instHMul)
        ((congrFun (keep_v51_9 m outs c) (ix2 p (pos kb q))).trans (hA p (pos kb q))) (p1 (pos kb q) k)
  have p3 : ∀ (p : Fin 10240) (k : Fin 128),
      (V13 m outs c main_v70 : S40960x128.Idx → EReal) (ix2 ⟨b.val * 10240 + p.val, by omega⟩ k)
        = Cert.Spec.relu (Cert.Spec.layerK pos A (Cert.Spec.pad (N := 10000) (x b)) W1
            (fun h => (m ((c.tc : Thread nD τ).loc main_arg4) : S128.Idx → EReal) (ix1 h)) p k) := fun p k => by
    rw [v70_apply m outs c b p k, p2 p k]
    rfl
  have p4 : ∀ (p : Fin 10240),
      (outs 14 main_v71 c : S40960x64.Idx → EReal) (ix2 ⟨b.val * 10240 + p.val, by omega⟩ j)
        = Cert.Spec.proj (fun mm d => Cert.Spec.relu (Cert.Spec.layerK pos A (Cert.Spec.pad (N := 10000) (x b)) W1
            (fun h => (m ((c.tc : Thread nD τ).loc main_arg4) : S128.Idx → EReal) (ix1 h)) mm d)) W2 p j := fun p => by
    rw [h14]
    unfold Cert.Spec.proj
    show @Eq EReal _ _
    exact Finset.sum_congr rfl fun k _ => congrArg₂ (@HMul.hMul EReal EReal EReal instHMul) (p3 p k)
      ((congrFun (keep_v56_13 m outs c) (ix2 k j)).trans (hW2 k j))
  have p5 : ∀ (n' : Fin 10240),
      (outs 16 main_v76 c : S10240x256.Idx → EReal) (ix2 n' ⟨b.val * 64 + j.val, by omega⟩)
        = Cert.Spec.aggK pos A (fun mm => Cert.Spec.proj (fun mm d => Cert.Spec.relu (Cert.Spec.layerK pos A
            (Cert.Spec.pad (N := 10000) (x b)) W1
            (fun h => (m ((c.tc : Thread nD τ).loc main_arg4) : S128.Idx → EReal) (ix1 h)) mm d)) W2 mm j) n' := fun n' => by
    rw [h16]
    unfold Cert.Spec.aggK
    show @Eq EReal _ _
    exact Finset.sum_congr rfl fun kb _ => Finset.sum_congr rfl fun q _ =>
      congrArg₂ (@HMul.hMul EReal EReal EReal instHMul)
        ((congrFun (keep_v51_15 m outs c) (ix2 n' (pos kb q))).trans (hA n' (pos kb q)))
        ((v75_apply m outs c (pos kb q) b j).trans (p4 (pos kb q)))
  rw [v85_apply m outs c b j]
  unfold Cert.Spec.numK
  refine congrArg (fun s : EReal => Ideal.div (0 +ₑ s) (Ideal.ofBits .f32 0x461C4000#32)) (Finset.sum_congr rfl fun n _ => ?_)
  rw [p5 ⟨n.val, by omega⟩]
  rfl

end Cert.KernelIdeal.Hand

end
-- ==== Proof.LibGatherRows.lean ====
/-
  A host gather of whole rows, read at one element.

  Two layouts of the same indexing x[idx] along one axis.  For a matrix of shape [N, C] and start indices of shape
  [E, 1] (one row number per result row), the result [E, C] holds at (e, c) the operand's element (r, c), where r is
  the start index of e read as a signed integer and clamped into [0, N - 1].  For a rank-3 array of shape [B, N, C]
  gathered along its MIDDLE axis (x[:, idx]), the result [B, E, C] holds at (b, e, c) the operand's element (b, r, c)
  with the same r.  The clamp is the gather's own: a start index below zero reads row 0, one past the end reads the
  last row.
-/
import Idealize.ShloMosaic.PureOps.ShapeOps
import Idealize.ShloMosaic.Lib.ValueIdx

namespace Cert.GatherRows

open Idealize.ShloMosaic Idealize.ShloMosaic.ValueIdx

variable {α : Type} {B N E C w : Nat}

/-- The row a start index names: read signed, clamped into [0, N - 1]. -/
def row (hN : 0 < N) (idx : IVec ⟨2, ![E, 1]⟩ w) (e : Fin E) : Fin N :=
  ⟨min (idx (ix2 e 0)).toInt.toNat (N - 1), by omega⟩

/-! ## Rows of a matrix -/

/-- The dimension numbers of x[idx] on a matrix: axis 0 collapsed and indexed, axis 1 carried over whole. -/
abbrev rowsDims (N E C : Nat) (sb : List (Fin 2))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

theorem rowsDims_apply (hN : 0 < N) (sb : List (Fin 2))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (c : Fin C) :
    Host.gather (rowsDims N E C sb wf) x idx (ix2 e c) = x (ix2 (row hN idx e) c) := by
  unfold Host.gather
  congr 1
  funext a
  refine Fin.ext ?_
  match a with
  | ⟨0, _⟩ =>
    show (rowsDims N E C sb wf).start (ix2 e c) idx 0 + (rowsDims N E C sb wf).batchCoord (ix2 e c) 0
      + (rowsDims N E C sb wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C sb wf).startIndexMap from List.mem_singleton.mpr rfl)]
    have hsi : (rowsDims N E C sb wf).siIdx (ix2 e c) ⟨List.idxOf (0 : Fin 2) (rowsDims N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C sb wf).start (ix2 e c) idx 1 + (rowsDims N E C sb wf).batchCoord (ix2 e c) 1
      + (rowsDims N E C sb wf).offCoord (ix2 e c) 1 = c.val
    rw [GatherDims.batchCoord_eq_zero _ _ _ List.not_mem_nil]
    have hst : (rowsDims N E C sb wf).start (ix2 e c) idx 1 = 0 := by
      unfold GatherDims.start
      rw [dif_neg (by simp)]
    have hoc : (rowsDims N E C sb wf).offCoord (ix2 e c) 1 = c.val := by
      unfold GatherDims.offCoord
      rw [dif_pos (by simp [GatherDims.sKept, Shape.kept])]
      rfl
    rw [hst, hoc]
    omega

/-- Rows of a matrix gathered: result (e, c) is the operand at (row of e, c). -/
theorem gather_rows2 (hN : 0 < N) (d : GatherDims ⟨2, ![N, C]⟩ ⟨2, ![E, 1]⟩ ⟨2, ![E, C]⟩)
    (hod : d.offsetDims = [1]) (hcs : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (c : Fin C) :
    Host.gather d x idx (ix2 e c) = x (ix2 (row hN idx e) c) := by
  obtain ⟨od, cs, ob, sb, sm, iv, ss, wf⟩ := d
  simp only at hod hcs hob hsm hiv hss
  subst hod hcs hob hsm hiv hss
  exact rowsDims_apply hN sb wf x idx e c

/-! ## Rows along the middle axis of a rank-3 array -/

/-- The dimension numbers of x[:, idx] on a rank-3 array: axis 1 collapsed and indexed, axes 0 and 2 carried over whole. -/
abbrev midDims (B N E C : Nat) (sb : List (Fin 2))
    (wf : GatherDims.WF ⟨3, ![B, N, C]⟩ ⟨2, ![E, 1]⟩ ⟨3, ![B, E, C]⟩ [0, 2] [1] [] [1] sb 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := sb
  startIndexMap := [1]
  indexVectorDim := 1
  sliceSizes := ![B, 1, C]
  wf := wf

theorem midDims_apply (hN : 0 < N) (sb : List (Fin 2))
    (wf : GatherDims.WF ⟨3, ![B, N, C]⟩ ⟨2, ![E, 1]⟩ ⟨3, ![B, E, C]⟩ [0, 2] [1] [] [1] sb 1 ![B, 1, C])
    (x : (⟨3, ![B, N, C]⟩ : Shape).Idx → α) (idx : IVec ⟨2, ![E, 1]⟩ w) (b : Fin B) (e : Fin E) (c : Fin C) :
    Host.gather (midDims B N E C sb wf) x idx (ix3 b e c) = x (ix3 b (row hN idx e) c) := by
  unfold Host.gather
  congr 1
  funext a
  refine Fin.ext ?_
  match a with
  | ⟨0, _⟩ =>
    show (midDims B N E C sb wf).start (ix3 b e c) idx 0 + (midDims B N E C sb wf).batchCoord (ix3 b e c) 0
      + (midDims B N E C sb wf).offCoord (ix3 b e c) 0 = b.val
    rw [GatherDims.batchCoord_eq_zero _ _ _ List.not_mem_nil]
    have hst : (midDims B N E C sb wf).start (ix3 b e c) idx 0 = 0 := by
      unfold GatherDims.start
      rw [dif_neg (by simp)]
    have hoc : (midDims B N E C sb wf).offCoord (ix3 b e c) 0 = b.val := by
      unfold GatherDims.offCoord
      rw [dif_pos (by simp [GatherDims.sKept, Shape.kept])]
      rfl
    rw [hst, hoc]
    omega
  | ⟨1, _⟩ =>
    show (midDims B N E C sb wf).start (ix3 b e c) idx 1 + (midDims B N E C sb wf).batchCoord (ix3 b e c) 1
      + (midDims B N E C sb wf).offCoord (ix3 b e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N E C sb wf).startIndexMap from List.mem_singleton.mpr rfl)]
    have hsi : (midDims B N E C sb wf).siIdx (ix3 b e c) ⟨List.idxOf (1 : Fin 3) (midDims B N E C sb wf).startIndexMap,
        List.idxOf_lt_length_iff.2 (List.mem_singleton.mpr rfl)⟩ = ix2 e 0 := by
      funext b'; refine Fin.ext ?_
      match b' with
      | ⟨0, _⟩ => rfl
      | ⟨1, _⟩ => rfl
    rw [hsi]
    rfl
  | ⟨2, _⟩ =>
    show (midDims B N E C sb wf).start (ix3 b e c) idx 2 + (midDims B N E C sb wf).batchCoord (ix3 b e c) 2
      + (midDims B N E C sb wf).offCoord (ix3 b e c) 2 = c.val
    rw [GatherDims.batchCoord_eq_zero _ _ _ List.not_mem_nil]
    have hst : (midDims B N E C sb wf).start (ix3 b e c) idx 2 = 0 := by
      unfold GatherDims.start
      rw [dif_neg (by simp)]
    have hoc : (midDims B N E C sb wf).offCoord (ix3 b e c) 2 = c.val := by
      unfold GatherDims.offCoord
      rw [dif_pos (by simp [GatherDims.sKept, Shape.kept])]
      rfl
    rw [hst, hoc]
    omega

/-- Rows gathered along the middle axis of a rank-3 array: result (b, e, c) is the operand at (b, row of e, c). -/
theorem gather_mid3 (hN : 0 < N) (d : GatherDims ⟨3, ![B, N, C]⟩ ⟨2, ![E, 1]⟩ ⟨3, ![B, E, C]⟩)
    (hod : d.offsetDims = [0, 2]) (hcs : d.collapsedSliceDims = [1]) (hob : d.operandBatchingDims = [])
    (hsm : d.startIndexMap = [1]) (hiv : d.indexVectorDim = 1) (hss : d.sliceSizes = ![B, 1, C])
    (x : (⟨3, ![B, N, C]⟩ : Shape).Idx → α) (idx : IVec ⟨2, ![E, 1]⟩ w) (b : Fin B) (e : Fin E) (c : Fin C) :
    Host.gather d x idx (ix3 b e c) = x (ix3 b (row hN idx e) c) := by
  obtain ⟨od, cs, ob, sb, sm, iv, ss, wf⟩ := d
  simp only at hod hcs hob hsm hiv hss
  subst hod hcs hob hsm hiv hss
  exact midDims_apply hN sb wf x idx b e c

end Cert.GatherRows
-- ==== Proof.LibScatterMiddle.lean ====
/-
  A host scatter whose combiner is float addition, read at one element, when the scattered axis is the MIDDLE axis
  of a rank-3 operand: an operand of shape [B, N, C], scatter indices of shape [E, 1] (one start coordinate per update
  slab, on operand axis 1), updates of shape [B, E, C] whose axes 0 and 2 are window axes carried over unchanged and
  whose axis 1 runs over the scatter indices.  This is what a batched segment sum over the middle axis
  (operand.at[:, idx].add(updates)) lowers to.  At the ideal instance the result element (b, n, c) is the operand's element
  plus the sum, over the update positions e whose start index is n, of the update element (b, e, c); an update whose start
  index is outside [0, N) lands nowhere and contributes to no element.
-/
import Idealize.ShloMosaic.PureOps.Ideal
import Idealize.ShloMosaic.Lib.ValueIdx

noncomputable section

namespace Cert.ScatterMiddle

open Idealize.ShloMosaic Idealize.ShloMosaic.ValueIdx

/-- An update index lands on the operand index i exactly when, on every operand axis, its start coordinate plus its
    window coordinate is i's coordinate (a sum outside the axis's range lands nowhere, so equals no coordinate). -/
theorem lands_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h, Option.some.injEq]
    constructor
    · intro hf a
      rw [← hf]
      exact (Int.toNat_of_nonneg (h a).1).symm
    · intro hf
      funext a
      apply Fin.ext
      show (d.start j idx a + (d.window j a : ℤ)).toNat = (i a).val
      rw [hf a]
      exact Int.toNat_natCast _
  · rw [dif_neg h]
    constructor
    · intro hf
      cases hf
    · intro hf
      exact absurd (fun a => by
        rw [hf a]
        exact ⟨Int.natCast_nonneg _, by exact_mod_cast (i a).isLt⟩) h

variable {B N E C w : Nat}

/-- The scatter-indices position an update index reads its start coordinate from is (its middle coordinate, 0). -/
theorem siIdx_mid (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1) (j : (⟨3, ![B, E, C]⟩ : Shape).Idx) (h0 : 0 < d.scatterDimsToOperandDims.length) :
    d.siIdx j ⟨0, h0⟩ = ix2 (j 1) 0 := by
  obtain ⟨uw, iw, sd, iv, wf⟩ := d
  simp only at huw hiw hsd hiv
  subst huw hiw hsd hiv
  funext b
  match b with
  | ⟨0, _⟩ => rfl
  | ⟨1, _⟩ => rfl

/-- An update index lands on (b, n, c) exactly when its outer coordinate is b, the start index of its middle coordinate
    is n, and its inner coordinate is c. -/
theorem lands_mid_iff (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1) (j : (⟨3, ![B, E, C]⟩ : Shape).Idx) (idx : IVec ⟨2, ![E, 1]⟩ w)
    (b : Fin B) (n : Fin N) (c : Fin C) :
    d.resultIdx? j idx = some (ix3 b n c)
      ↔ (j 0).val = b.val ∧ (idx (ix2 (j 1) 0)).toInt = (n.val : ℤ) ∧ (j 2).val = c.val := by
  rw [lands_iff]
  have hs := siIdx_mid d huw hiw hsd hiv j
  obtain ⟨uw, iw, sd, iv, wf⟩ := d
  simp only at huw hiw hsd hiv
  subst huw hiw hsd hiv
  have s0 : ScatterDims.start ⟨[0, 2], [1], [1], 1, wf⟩ j idx 0 = 0 := by
    unfold ScatterDims.start
    rw [dif_neg (by simp)]
  have s1 : ScatterDims.start ⟨[0, 2], [1], [1], 1, wf⟩ j idx 1 = (idx (ix2 (j 1) 0)).toInt := by
    unfold ScatterDims.start
    rw [dif_pos (show _ from List.mem_singleton.2 rfl)]
    exact congrArg (fun t => (idx t).toInt) (hs _)
  have s2 : ScatterDims.start ⟨[0, 2], [1], [1], 1, wf⟩ j idx 2 = 0 := by
    unfold ScatterDims.start
    rw [dif_neg (by simp)]
  have w0 : ScatterDims.window ⟨[0, 2], [1], [1], 1, wf⟩ j 0 = (j 0).val := by
    unfold ScatterDims.window
    rw [dif_pos (by simp [ScatterDims.sKept, Shape.kept])]
    rfl
  have w1 : ScatterDims.window ⟨[0, 2], [1], [1], 1, wf⟩ j 1 = 0 := by
    unfold ScatterDims.window
    rw [dif_neg (by simp [ScatterDims.sKept, Shape.kept])]
  have w2 : ScatterDims.window ⟨[0, 2], [1], [1], 1, wf⟩ j 2 = (j 2).val := by
    unfold ScatterDims.window
    rw [dif_pos (by simp [ScatterDims.sKept, Shape.kept])]
    rfl
  constructor
  · intro h
    have h0 := h 0
    have h1 := h 1
    have h2 := h 2
    rw [s0, w0] at h0
    rw [s1, w1] at h1
    rw [s2, w2] at h2
    have h0' : (0 : ℤ) + (((j 0).val : ℕ) : ℤ) = (b.val : ℤ) := h0
    have h1' : (idx (ix2 (j 1) 0)).toInt + ((0 : ℕ) : ℤ) = (n.val : ℤ) := h1
    have h2' : (0 : ℤ) + (((j 2).val : ℕ) : ℤ) = (c.val : ℤ) := h2
    exact ⟨by omega, by omega, by omega⟩
  · rintro ⟨h0, h1, h2⟩ a
    match a with
    | ⟨0, _⟩ =>
      show ScatterDims.start ⟨[0, 2], [1], [1], 1, wf⟩ j idx 0
        + ((ScatterDims.window ⟨[0, 2], [1], [1], 1, wf⟩ j 0 : ℕ) : ℤ) = (b.val : ℤ)
      rw [s0, w0]
      omega
    | ⟨1, _⟩ =>
      show ScatterDims.start ⟨[0, 2], [1], [1], 1, wf⟩ j idx 1
        + ((ScatterDims.window ⟨[0, 2], [1], [1], 1, wf⟩ j 1 : ℕ) : ℤ) = (n.val : ℤ)
      rw [s1, w1]
      omega
    | ⟨2, _⟩ =>
      show ScatterDims.start ⟨[0, 2], [1], [1], 1, wf⟩ j idx 2
        + ((ScatterDims.window ⟨[0, 2], [1], [1], 1, wf⟩ j 2 : ℕ) : ℤ) = (c.val : ℤ)
      rw [s2, w2]
      omega

/-- Slabs scattered onto the middle axis: element (b, n, c) gains element (b, e, c) of every update position e whose
    start index is n. -/
theorem scatterAdd_mid3 (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1)
    (x : (⟨3, ![B, N, C]⟩ : Shape).Idx → EReal) (idx : IVec ⟨2, ![E, 1]⟩ w)
    (upd : (⟨3, ![B, E, C]⟩ : Shape).Idx → EReal) (b : Fin B) (n : Fin N) (c : Fin C) :
    Ideal.hostScatterAdd d x idx upd (ix3 b n c)
      = x (ix3 b n c)
        + ∑ e ∈ Finset.univ.filter (fun e : Fin E => (idx (ix2 e 0)).toInt = (n.val : ℤ)), upd (ix3 b e c) := by
  unfold Ideal.hostScatterAdd
  congr 1
  symm
  apply Finset.sum_nbij (fun e => ix3 b e c)
  · intro e he
    rw [Finset.mem_filter] at he ⊢
    refine ⟨Finset.mem_univ _, ?_⟩
    rw [lands_mid_iff d huw hiw hsd hiv]
    exact ⟨rfl, he.2, rfl⟩
  · intro e1 _ e2 _ h
    exact congrFun h 1
  · intro j hj
    rw [Finset.mem_coe, Finset.mem_filter, lands_mid_iff d huw hiw hsd hiv] at hj
    refine ⟨j 1, ?_, ?_⟩
    · exact Finset.mem_coe.2 (Finset.mem_filter.2 ⟨Finset.mem_univ _, hj.2.2.1⟩)
    · have hb : j 0 = b := Fin.ext hj.2.1
      have hc : j 2 = c := Fin.ext hj.2.2.2
      rw [← hb, ← hc]
      exact (eq_ix3 j).symm
  · intro e _
    rfl

/-- The same, stated of the host operation at the ideal instance (there it is the exact sum by definition). -/
theorem host_scatterAdd_mid3 {φ : FTy} (d : ScatterDims ⟨3, ![B, N, C]⟩ ⟨2, ![E, 1]⟩ ⟨3, ![B, E, C]⟩)
    (huw : d.updateWindowDims = [0, 2]) (hiw : d.insertedWindowDims = [1]) (hsd : d.scatterDimsToOperandDims = [1])
    (hiv : d.indexVectorDim = 1)
    (x : FVec Ideal ⟨3, ![B, N, C]⟩ φ) (idx : IVec ⟨2, ![E, 1]⟩ w) (upd : FVec Ideal ⟨3, ![B, E, C]⟩ φ)
    (b : Fin B) (n : Fin N) (c : Fin C) :
    Host.scatterAdd (F := Ideal) d x idx upd (ix3 b n c)
      = x (ix3 b n c)
        + ∑ e ∈ Finset.univ.filter (fun e : Fin E => (idx (ix2 e 0)).toInt = (n.val : ℤ)), upd (ix3 b e c) :=
  scatterAdd_mid3 d huw hiw hsd hiv x idx upd b n c

end Cert.ScatterMiddle

end
-- ==== Proof.Ref.Layer.lean ====
/-
  The reference program's first graph-convolution layer, read at one element of the extended reals.

  The source indices are the edge list's first row followed by 0 .. N-1 (the self loops); a negative index word is shifted
  up by N before it is used, and the gather then clamps it into [0, N-1].  The destination indices are the second row
  followed by 0 .. N-1, used as they are: an update whose destination is outside [0, N) lands nowhere.  With the per-edge
  weights u kept as one opaque vector, element (b, n, d) of the layer is
      (0 + ∑ over the edges e whose destination reads n of (∑ k, x[b, src e, k] * W[k, d]) * u e) + bias d.
-/
import proofs.«125395_j52793738002724_1_alg».proof.Proof.Gen.ReferenceIdeal.Read
import proofs.«125395_j52793738002724_1_alg».proof.Proof.Spec
import proofs.«125395_j52793738002724_1_alg».proof.Proof.LibGatherRows
import proofs.«125395_j52793738002724_1_alg».proof.Proof.LibScatterMiddle
import proofs.«125395_j52793738002724_1_alg».proof.Proof.Idx

noncomputable section

namespace Cert.RefValue

open Cert.ReferenceIdeal Cert.ReferenceIdeal.Read Idealize.ShloMosaic Idealize.ShloMosaic.ValueIdx
open scoped BigOperators

/-- The node an edge's source index names: the index column read signed and clamped into [0, N - 1]. -/
abbrev srcRow (x1 : (⟨S2x320000, .i32⟩ : BufTy).Contents (Elt Ideal)) : Fin 330000 → Fin 10000 :=
  fun e => Cert.GatherRows.row (by decide : 0 < 10000) (val_main_v42 (F := Ideal) x1) e
/-- An edge's destination index, read as a signed integer. -/
abbrev dstI (x1 : (⟨S2x320000, .i32⟩ : BufTy).Contents (Elt Ideal)) : Fin 330000 → ℤ :=
  fun e => (val_main_v48 (F := Ideal) x1 (ix2 e 0)).toInt
/-- The normalised weight of an edge (kept as one opaque vector). -/
abbrev nrm (x1 : (⟨S2x320000, .i32⟩ : BufTy).Contents (Elt Ideal)) (x2 : (⟨S320000x1, .f32⟩ : BufTy).Contents (Elt Ideal)) : Fin 330000 → EReal :=
  fun e => val_main_v35 (F := Ideal) x1 x2 (ix1 e)

/-! ## The index columns -/

/-- The source column at edge e is the source index word, shifted up by N when it reads negative. -/
theorem v42_apply (x1 : (⟨S2x320000, .i32⟩ : BufTy).Contents (Elt Ideal)) (e : Fin 330000) :
    val_main_v42 (F := Ideal) x1 (ix2 e 0) = Cert.Spec.norm32 10000#32 (val_main_v4 (F := Ideal) x1 (ix1 e)) := by
  have hi : idx_main_v42 (ix2 e 0) = ix1 e := funext fun a => Fin.ext (by match a with | ⟨0, _⟩ => rfl)
  rw [val_main_v42_apply, val_main_v41_apply, val_main_v38_apply, val_main_v40_apply, val_main_v37_apply,
    val_main_v39_apply, val_main_c_8_apply, val_main_c_9_apply, hi]
  generalize val_main_v4 (F := Ideal) x1 (ix1 e) = v
  unfold Cert.Spec.norm32 IntOp.cmpi IntOp.addi
  by_cases h : v.slt 0#32 = true
  · rw [if_pos h]
    show Scalar.select (BitVec.ofBool (v.slt 0#32)) (v + 10000#32) v = v + 10000#32
    rw [h]
    exact select_one _ _
  · rw [if_neg h]
    have h' : v.slt 0#32 = false := by simpa using h
    show Scalar.select (BitVec.ofBool (v.slt 0#32)) (v + 10000#32) v = v
    rw [h']
    exact select_zero _ _

/-- The destination column at edge e is the destination index word. -/
theorem v48_apply (x1 : (⟨S2x320000, .i32⟩ : BufTy).Contents (Elt Ideal)) (e : Fin 330000) :
    val_main_v48 (F := Ideal) x1 (ix2 e 0) = val_main_v7 (F := Ideal) x1 (ix1 e) := by
  rw [val_main_v48_apply]
  exact congrArg _ (funext fun a => Fin.ext (by match a with | ⟨0, _⟩ => rfl))

/-- The second layer's source column is built by the same operations as the first's. -/
theorem v61_eq (x1 : (⟨S2x320000, .i32⟩ : BufTy).Contents (Elt Ideal)) : val_main_v61 (F := Ideal) x1 = val_main_v42 (F := Ideal) x1 := rfl
/-- The second layer's destination column is built by the same operation as the first's. -/
theorem v67_eq (x1 : (⟨S2x320000, .i32⟩ : BufTy).Contents (Elt Ideal)) : val_main_v67 (F := Ideal) x1 = val_main_v48 (F := Ideal) x1 := rfl

/-! ## The first layer -/

/-- The first projection at (b, m, d): row m of batch entry b times column d of the weights. -/
theorem v36_at (x0 : (⟨S4x10000x128, .f32⟩ : BufTy).Contents (Elt Ideal)) (x3 : (⟨S128x128, .f32⟩ : BufTy).Contents (Elt Ideal)) (b : Fin 4) (m : Fin 10000) (d : Fin 128) :
    val_main_v36 (F := Ideal) x0 x3 (ix3 b m d) = Cert.Spec.proj (fun m k => x0 (ix3 b m k)) (fun k h => x3 (ix2 k h)) m d := by
  rw [val_main_v36_apply]
  unfold Cert.Spec.proj
  refine Finset.sum_congr rfl fun k _ => ?_
  have el : lidx_main_v36 (ix3 b m d) k = ix3 b m k :=
    funext fun a => Fin.ext (by match a with | ⟨0, _⟩ => rfl | ⟨1, _⟩ => rfl | ⟨2, _⟩ => rfl)
  have er : ridx_main_v36 (ix3 b m d) k = ix2 k d :=
    funext fun a => Fin.ext (by match a with | ⟨0, _⟩ => rfl | ⟨1, _⟩ => rfl)
  rw [el, er]

/-- The scaled message of edge e at (b, e, d): the projected row of the edge's source node times the edge's weight. -/
theorem v46_at (x0 : (⟨S4x10000x128, .f32⟩ : BufTy).Contents (Elt Ideal)) (x1 : (⟨S2x320000, .i32⟩ : BufTy).Contents (Elt Ideal)) (x2 : (⟨S320000x1, .f32⟩ : BufTy).Contents (Elt Ideal)) (x3 : (⟨S128x128, .f32⟩ : BufTy).Contents (Elt Ideal)) (b : Fin 4) (e : Fin 330000) (d : Fin 128) :
    val_main_v46 (F := Ideal) x0 x1 x2 x3 (ix3 b e d)
      = Cert.Spec.proj (fun m k => x0 (ix3 b m k)) (fun k h => x3 (ix2 k h)) (srcRow x1 e) d * nrm x1 x2 e := by
  have hg : val_main_v43 (F := Ideal) x0 x1 x3 (ix3 b e d)
      = val_main_v36 (F := Ideal) x0 x3 (ix3 b (srcRow x1 e) d) := by
    unfold val_main_v43
    exact Cert.GatherRows.gather_mid3 (by decide) gather_S4x10000x128_S330000x1_S4x330000x128_02_1_n_n_1_1_41128
      rfl rfl rfl rfl rfl rfl _ _ b e d
  have hw : val_main_v45 (F := Ideal) x1 x2 (ix3 b e d) = nrm x1 x2 e := by
    rw [val_main_v45_apply, val_main_v44_apply]
    exact congrArg _ (funext fun a => Fin.ext (by match a with | ⟨0, _⟩ => rfl))
  rw [val_main_v46_apply, Ideal.mulf_def, hg, hw, v36_at]

/-- The first layer at (b, n, d). -/
theorem v53_at (x0 : (⟨S4x10000x128, .f32⟩ : BufTy).Contents (Elt Ideal)) (x1 : (⟨S2x320000, .i32⟩ : BufTy).Contents (Elt Ideal)) (x2 : (⟨S320000x1, .f32⟩ : BufTy).Contents (Elt Ideal)) (x3 : (⟨S128x128, .f32⟩ : BufTy).Contents (Elt Ideal)) (x4 : (⟨S128, .f32⟩ : BufTy).Contents (Elt Ideal)) (b : Fin 4) (n : Fin 10000) (d : Fin 128) :
    val_main_v53 (F := Ideal) x0 x1 x2 x3 x4 (ix3 b n d)
      = Cert.Spec.layerR (srcRow x1) (dstI x1) (nrm x1 x2) (fun m k => x0 (ix3 b m k)) (fun k h => x3 (ix2 k h)) (fun h => x4 (ix1 h)) n d := by
  have hs : val_main_v50 (F := Ideal) x0 x1 x2 x3 (ix3 b n d)
      = val_main_v49 (F := Ideal) (ix3 b n d)
        + ∑ e ∈ Finset.univ.filter (fun e : Fin 330000 => (val_main_v48 (F := Ideal) x1 (ix2 e 0)).toInt = (n.val : ℤ)),
            val_main_v46 (F := Ideal) x0 x1 x2 x3 (ix3 b e d) := by
    unfold val_main_v50
    exact Cert.ScatterMiddle.host_scatterAdd_mid3 scatter_S4x10000x128_S330000x1_S4x330000x128_02_1_1_1
      rfl rfl rfl rfl _ _ _ b n d
  have hz : val_main_v49 (F := Ideal) (ix3 b n d) = 0 := by
    rw [val_main_v49_apply, val_main_v47_apply, val_main_cst_10_apply, Ideal.ofBits_def, Ideal.ofBits_zero_f32]
  have hb : val_main_v52 (F := Ideal) x4 (ix3 b n d) = x4 (ix1 d) := by
    rw [val_main_v52_apply, val_main_v51_apply]
    exact congrArg _ (funext fun a => Fin.ext (by match a with | ⟨0, _⟩ => rfl))
  rw [val_main_v53_apply, Ideal.addf_def, hs, hz, hb]
  unfold Cert.Spec.layerR Cert.Spec.aggR
  refine congrArg (· + x4 (ix1 d)) (congrArg (0 + ·) (Finset.sum_congr rfl fun e _ => ?_))
  exact v46_at x0 x1 x2 x3 b e d

/-- The first layer after max(·, 0), at (b, m, h). -/
theorem v54_at (x0 : (⟨S4x10000x128, .f32⟩ : BufTy).Contents (Elt Ideal)) (x1 : (⟨S2x320000, .i32⟩ : BufTy).Contents (Elt Ideal)) (x2 : (⟨S320000x1, .f32⟩ : BufTy).Contents (Elt Ideal)) (x3 : (⟨S128x128, .f32⟩ : BufTy).Contents (Elt Ideal)) (x4 : (⟨S128, .f32⟩ : BufTy).Contents (Elt Ideal)) (b : Fin 4) (m : Fin 10000) (h : Fin 128) :
    val_main_v54 (F := Ideal) x0 x1 x2 x3 x4 (ix3 b m h)
      = Cert.Spec.relu (Cert.Spec.layerR (srcRow x1) (dstI x1) (nrm x1 x2) (fun m k => x0 (ix3 b m k)) (fun k h => x3 (ix2 k h)) (fun h => x4 (ix1 h)) m h) := by
  rw [val_main_v54_apply, Ideal.maximumf_def, val_main_call2_v0_apply, val_main_call2_cst_apply, Ideal.ofBits_def,
    Ideal.ofBits_zero_f32, v53_at]
  rfl

end Cert.RefValue

end
-- ==== Proof.Ref.Value.lean ====
/-
  The reference program read at one element of its result, on the extended reals.

  The second layer repeats the first on the first layer's output after max(·, 0), with the second weight matrix and bias and
  the same edge lists and weights; the result at (b, c) is the sum over the nodes of the second layer (onto 0), divided by
  the constant the program broadcasts (the node count as a float word, left unevaluated).
-/
import proofs.«125395_j52793738002724_1_alg».proof.Proof.Gen.ReferenceIdeal.Read
import proofs.«125395_j52793738002724_1_alg».proof.Proof.Spec
import proofs.«125395_j52793738002724_1_alg».proof.Proof.LibGatherRows
import proofs.«125395_j52793738002724_1_alg».proof.Proof.LibScatterMiddle
import proofs.«125395_j52793738002724_1_alg».proof.Proof.Idx
import proofs.«125395_j52793738002724_1_alg».proof.Proof.Ref.Layer

noncomputable section

namespace Cert.RefValue

open Cert.ReferenceIdeal Cert.ReferenceIdeal.Read Idealize.ShloMosaic Idealize.ShloMosaic.ValueIdx
open scoped BigOperators

/-! ## The second layer -/

/-- The second projection at (b, m, c): row m of the first layer's output (after max(·, 0)) times column c of the weights. -/
theorem v55_at (x0 : (⟨S4x10000x128, .f32⟩ : BufTy).Contents (Elt Ideal)) (x1 : (⟨S2x320000, .i32⟩ : BufTy).Contents (Elt Ideal)) (x2 : (⟨S320000x1, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (b : Fin 4) (m : Fin 10000) (c : Fin 64) :
    val_main_v55 (F := Ideal) x0 x1 x2 x3 x4 x5 (ix3 b m c) = Cert.Spec.proj (fun m h => Cert.Spec.relu (Cert.Spec.layerR (srcRow x1) (dstI x1) (nrm x1 x2) (fun m k => x0 (ix3 b m k)) (fun k h => x3 (ix2 k h)) (fun h => x4 (ix1 h)) m h)) (fun h c => x5 (ix2 h c)) m c := by
  rw [val_main_v55_apply]
  unfold Cert.Spec.proj
  refine Finset.sum_congr rfl fun k _ => ?_
  have el : lidx_main_v55 (ix3 b m c) k = ix3 b m k :=
    funext fun a => Fin.ext (by match a with | ⟨0, _⟩ => rfl | ⟨1, _⟩ => rfl | ⟨2, _⟩ => rfl)
  have er : ridx_main_v55 (ix3 b m c) k = ix2 k c :=
    funext fun a => Fin.ext (by match a with | ⟨0, _⟩ => rfl | ⟨1, _⟩ => rfl)
  rw [el, er, v54_at]

/-- The second layer's scaled message of edge e at (b, e, c). -/
theorem v65_at (x0 : (⟨S4x10000x128, .f32⟩ : BufTy).Contents (Elt Ideal)) (x1 : (⟨S2x320000, .i32⟩ : BufTy).Contents (Elt Ideal)) (x2 : (⟨S320000x1, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (b : Fin 4) (e : Fin 330000) (c : Fin 64) :
    val_main_v65 (F := Ideal) x0 x1 x2 x3 x4 x5 (ix3 b e c)
      = Cert.Spec.proj (fun m h => Cert.Spec.relu (Cert.Spec.layerR (srcRow x1) (dstI x1) (nrm x1 x2) (fun m k => x0 (ix3 b m k)) (fun k h => x3 (ix2 k h)) (fun h => x4 (ix1 h)) m h)) (fun h c => x5 (ix2 h c)) (srcRow x1 e) c * nrm x1 x2 e := by
  have hg : val_main_v62 (F := Ideal) x0 x1 x2 x3 x4 x5 (ix3 b e c)
      = val_main_v55 (F := Ideal) x0 x1 x2 x3 x4 x5 (ix3 b (srcRow x1 e) c) := by
    unfold val_main_v62
    rw [v61_eq]
    exact Cert.GatherRows.gather_mid3 (by decide) gather_S4x10000x64_S330000x1_S4x330000x64_02_1_n_n_1_1_4164
      rfl rfl rfl rfl rfl rfl _ _ b e c
  have hw : val_main_v64 (F := Ideal) x1 x2 (ix3 b e c) = nrm x1 x2 e := by
    rw [val_main_v64_apply, val_main_v63_apply]
    exact congrArg _ (funext fun a => Fin.ext (by match a with | ⟨0, _⟩ => rfl))
  rw [val_main_v65_apply, Ideal.mulf_def, hg, hw, v55_at]

/-- The second layer at (b, n, c). -/
theorem v72_at (x0 : (⟨S4x10000x128, .f32⟩ : BufTy).Contents (Elt Ideal)) (x1 : (⟨S2x320000, .i32⟩ : BufTy).Contents (Elt Ideal)) (x2 : (⟨S320000x1, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (b : Fin 4) (n : Fin 10000) (c : Fin 64) :
    val_main_v72 (F := Ideal) x0 x1 x2 x3 x4 x5 x6 (ix3 b n c)
      = Cert.Spec.layerR (srcRow x1) (dstI x1) (nrm x1 x2) (fun m h => Cert.Spec.relu (Cert.Spec.layerR (srcRow x1) (dstI x1) (nrm x1 x2) (fun m k => x0 (ix3 b m k)) (fun k h => x3 (ix2 k h)) (fun h => x4 (ix1 h)) m h)) (fun h c => x5 (ix2 h c)) (fun c => x6 (ix1 c)) n c := by
  have hs : val_main_v69 (F := Ideal) x0 x1 x2 x3 x4 x5 (ix3 b n c)
      = val_main_v68 (F := Ideal) (ix3 b n c)
        + ∑ e ∈ Finset.univ.filter (fun e : Fin 330000 => (val_main_v48 (F := Ideal) x1 (ix2 e 0)).toInt = (n.val : ℤ)),
            val_main_v65 (F := Ideal) x0 x1 x2 x3 x4 x5 (ix3 b e c) := by
    unfold val_main_v69
    rw [v67_eq]
    exact Cert.ScatterMiddle.host_scatterAdd_mid3 scatter_S4x10000x64_S330000x1_S4x330000x64_02_1_1_1
      rfl rfl rfl rfl _ _ _ b n c
  have hz : val_main_v68 (F := Ideal) (ix3 b n c) = 0 := by
    rw [val_main_v68_apply, val_main_v66_apply, val_main_cst_13_apply, Ideal.ofBits_def, Ideal.ofBits_zero_f32]
  have hb : val_main_v71 (F := Ideal) x6 (ix3 b n c) = x6 (ix1 c) := by
    rw [val_main_v71_apply, val_main_v70_apply]
    exact congrArg _ (funext fun a => Fin.ext (by match a with | ⟨0, _⟩ => rfl))
  rw [val_main_v72_apply, Ideal.addf_def, hs, hz, hb]
  unfold Cert.Spec.layerR Cert.Spec.aggR
  refine congrArg (· + x6 (ix1 c)) (congrArg (0 + ·) (Finset.sum_congr rfl fun e _ => ?_))
  exact v65_at x0 x1 x2 x3 x4 x5 b e c

/-! ## The result -/

/-- The reference's result at (b, ch): the sum over the nodes of the second layer, divided by the broadcast constant. -/
theorem ref_value (x0 : (⟨S4x10000x128, .f32⟩ : BufTy).Contents (Elt Ideal)) (x1 : (⟨S2x320000, .i32⟩ : BufTy).Contents (Elt Ideal)) (x2 : (⟨S320000x1, .f32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (b : Fin 4) (ch : Fin 64) :
    val_main_v75 (F := Ideal) x0 x1 x2 x3 x4 x5 x6 (ix2 b ch)
      = Ideal.div (Cert.Spec.numR (srcRow x1) (dstI x1) (nrm x1 x2) (fun m k => x0 (ix3 b m k)) (fun k h => x3 (ix2 k h)) (fun h => x4 (ix1 h)) (fun h c => x5 (ix2 h c)) (fun c => x6 (ix1 c)) ch)
          (val_main_v74 (F := Ideal) (ix2 b ch)) := by
  rw [val_main_v75_apply, Ideal.hostDivf_def, val_main_v73_apply, val_main_cst_14_apply, Ideal.ofBits_def,
    Ideal.ofBits_zero_f32]
  have hn : ∀ n : Fin 10000, val_main_v72 (F := Ideal) x0 x1 x2 x3 x4 x5 x6 (idx_main_v73 (ix2 b ch) n)
      = Cert.Spec.layerR (srcRow x1) (dstI x1) (nrm x1 x2) (fun m h => Cert.Spec.relu (Cert.Spec.layerR (srcRow x1) (dstI x1) (nrm x1 x2) (fun m k => x0 (ix3 b m k)) (fun k h => x3 (ix2 k h)) (fun h => x4 (ix1 h)) m h)) (fun h c => x5 (ix2 h c)) (fun c => x6 (ix1 c)) n ch := by
    intro n
    have hi : idx_main_v73 (ix2 b ch) n = ix3 b n ch :=
      funext fun a => Fin.ext (by match a with | ⟨0, _⟩ => rfl | ⟨1, _⟩ => rfl | ⟨2, _⟩ => rfl)
    rw [hi]
    exact v72_at x0 x1 x2 x3 x4 x5 x6 b n ch
  unfold Cert.Spec.numR
  simp only [hn]

end Cert.RefValue

end
-- ==== Proof.Ref.Edges.lean ====
/-
  The edge lists of the reference, read at one edge.

  The source list is row 0 of the edge index followed by the node numbers 0 … 9999 (one self loop per node); the
  destination list is row 1 followed by the same numbers.  When every entry of the edge index lies in [0, 10000), so does
  every entry of both lists.  Two facts on index words follow: a nonnegative word is not shifted by the wrap-around of
  negative indices, and a word that reads n < 10000 names row n of a gather (the clamp does nothing).
-/
import proofs.«125395_j52793738002724_1_alg».proof.Proof.Gen.ReferenceIdeal.Read
import proofs.«125395_j52793738002724_1_alg».proof.Proof.Idx
import proofs.«125395_j52793738002724_1_alg».proof.Proof.LibGatherRows

noncomputable section

namespace Cert.Edges

open Cert.ReferenceIdeal Cert.ReferenceIdeal.Gen Cert.ReferenceIdeal.Read Idealize.ShloMosaic Idealize.ShloMosaic.ValueIdx

/-- Every entry of the edge index is a node number. -/
def InRange (x1 : (⟨S2x320000, .i32⟩ : BufTy).Contents (Elt Ideal)) : Prop :=
  ∀ i : S2x320000.Idx, 0 ≤ (x1 i).toInt ∧ (x1 i).toInt < 10000

/-- A word written from a number below 2³¹ reads that number. -/
theorem toInt_ofNat_small (n : Nat) (h : n < 2 ^ 31) : (BitVec.ofNat 32 n).toInt = (n : ℤ) := by
  rw [BitVec.toInt_ofNat']
  exact Int.bmod_eq_of_le (by omega) (by omega)

/-- A two-piece list of 320000 + 10000 entries before the join point reads its first piece. -/
theorem concat_left {α : Type} (x : S320000.Idx → α) (y : S10000.Idx → α) (e : Fin 330000) (he : e.val < 320000) :
    concatenate S330000 0 [⟨S320000, x⟩, ⟨S10000, y⟩] concatenates_S320000_S10000_S330000_d0 (ix1 e)
      = x (ix1 ⟨e.val, he⟩) :=
  concatenate_pair_apply_left (t := S330000) (s₁ := S320000) (s₂ := S10000) 0 x y
    concatenates_S320000_S10000_S330000_d0 (ix1 e) rfl (ix1 ⟨e.val, he⟩)
    (fun b => match b with | ⟨0, _⟩ => rfl)

/-- … and from the join point on, its second piece. -/
theorem concat_right {α : Type} (x : S320000.Idx → α) (y : S10000.Idx → α) (e : Fin 330000) (he : 320000 ≤ e.val) :
    concatenate S330000 0 [⟨S320000, x⟩, ⟨S10000, y⟩] concatenates_S320000_S10000_S330000_d0 (ix1 e)
      = y (ix1 ⟨e.val - 320000, by have := e.isLt; omega⟩) :=
  concatenate_pair_apply_right (t := S330000) (s₁ := S320000) (s₂ := S10000) 0 x y
    concatenates_S320000_S10000_S330000_d0 (ix1 e) rfl rfl (ix1 ⟨e.val - 320000, by have := e.isLt; omega⟩)
    (fun b hb => match b, hb with | ⟨0, _⟩, hb => absurd rfl hb)
    (by show e.val - 320000 + 320000 = e.val; omega)

/-- The source of an edge of the index: its entry in row 0. -/
theorem src_left (x1 : (⟨S2x320000, .i32⟩ : BufTy).Contents (Elt Ideal)) (e : Fin 330000) (he : e.val < 320000) :
    val_main_v4 (F := Ideal) x1 (ix1 e) = x1 (ix2 0 ⟨e.val, he⟩) := by
  unfold val_main_v4
  rw [concat_left _ _ e he, val_main_v3_apply, val_main_v2_apply]
  congr 1
  funext a
  match a with
  | ⟨0, _⟩ => rfl
  | ⟨1, _⟩ => exact Fin.ext (Nat.mod_eq_of_lt he)

/-- The source of a self loop: its node number. -/
theorem src_right (x1 : (⟨S2x320000, .i32⟩ : BufTy).Contents (Elt Ideal)) (e : Fin 330000) (he : 320000 ≤ e.val) :
    val_main_v4 (F := Ideal) x1 (ix1 e) = BitVec.ofNat 32 (e.val - 320000) := by
  unfold val_main_v4
  rw [concat_right _ _ e he, val_main_v1_apply]

/-- The destination of an edge of the index: its entry in row 1. -/
theorem dst_left (x1 : (⟨S2x320000, .i32⟩ : BufTy).Contents (Elt Ideal)) (e : Fin 330000) (he : e.val < 320000) :
    val_main_v7 (F := Ideal) x1 (ix1 e) = x1 (ix2 1 ⟨e.val, he⟩) := by
  unfold val_main_v7
  rw [concat_left _ _ e he, val_main_v6_apply, val_main_v5_apply]
  congr 1
  funext a
  match a with
  | ⟨0, _⟩ => rfl
  | ⟨1, _⟩ => exact Fin.ext (Nat.mod_eq_of_lt he)

/-- The destination of a self loop: its node number. -/
theorem dst_right (x1 : (⟨S2x320000, .i32⟩ : BufTy).Contents (Elt Ideal)) (e : Fin 330000) (he : 320000 ≤ e.val) :
    val_main_v7 (F := Ideal) x1 (ix1 e) = BitVec.ofNat 32 (e.val - 320000) := by
  unfold val_main_v7
  rw [concat_right _ _ e he, val_main_v1_apply]

/-- Every source is a node number. -/
theorem src_range (x1 : (⟨S2x320000, .i32⟩ : BufTy).Contents (Elt Ideal)) (h : InRange x1) (e : Fin 330000) :
    0 ≤ (val_main_v4 (F := Ideal) x1 (ix1 e)).toInt ∧ (val_main_v4 (F := Ideal) x1 (ix1 e)).toInt < 10000 := by
  by_cases he : e.val < 320000
  · rw [src_left x1 e he]; exact h _
  · have hlt := e.isLt
    rw [src_right x1 e (by omega), toInt_ofNat_small _ (by omega)]
    omega

/-- Every destination is a node number. -/
theorem dst_range (x1 : (⟨S2x320000, .i32⟩ : BufTy).Contents (Elt Ideal)) (h : InRange x1) (e : Fin 330000) :
    0 ≤ (val_main_v7 (F := Ideal) x1 (ix1 e)).toInt ∧ (val_main_v7 (F := Ideal) x1 (ix1 e)).toInt < 10000 := by
  by_cases he : e.val < 320000
  · rw [dst_left x1 e he]; exact h _
  · have hlt := e.isLt
    rw [dst_right x1 e (by omega), toInt_ofNat_small _ (by omega)]
    omega

/-- A nonnegative index word is kept by the wrap-around of negative indices. -/
theorem norm32_of_nonneg (N v : BitVec 32) (h : 0 ≤ v.toInt) : Cert.Spec.norm32 N v = v := by
  unfold Cert.Spec.norm32
  rw [if_neg]
  rw [BitVec.slt_iff_toInt_lt, show (0#32 : BitVec 32).toInt = 0 from by decide]
  omega

/-- A start index that reads n < 10000 names row n: the gather's clamp does nothing. -/
theorem row_of_range {E : ℕ} (idx : IVec ⟨2, ![E, 1]⟩ 32) (e : Fin E) (n : Fin 10000)
    (h : (idx (ix2 e 0)).toInt = (n.val : ℤ)) : Cert.GatherRows.row (by decide : 0 < 10000) idx e = n := by
  refine Fin.ext ?_
  show min (idx (ix2 e 0)).toInt.toNat (10000 - 1) = n.val
  rw [h, Int.toNat_natCast]
  have := n.isLt
  omega

end Cert.Edges

end
-- ==== Proof.Ref.Pre.lean ====
/-
  The precondition, decoded.

  The predicate on the inputs is a conjunction of seven whole-array tests: for each of the six float arrays, every entry has
  |x| < +∞, and for the edge index every entry lies in [0, 10000).  When the predicate holds, every float entry is a real
  number (neither infinity, nor the junk value below every real) and every index entry is a node number.
-/
import proofs.«125395_j52793738002724_1_alg».proof.Proof.Gen.Pre_finite_inputs
import proofs.«125395_j52793738002724_1_alg».proof.Proof.Spec
import proofs.«125395_j52793738002724_1_alg».proof.Proof.Ref.Edges
import Idealize.ShloMosaic.Lib.ReduceAll

noncomputable section

namespace Cert.Edges

open Cert.ReferenceIdeal Idealize.ShloMosaic Idealize.ShloMosaic.ValueIdx

instance subsingleton_scalar_idx : Subsingleton Cert.Pre_finite_inputs.S_.Idx := ⟨fun a b => funext fun d => d.elim0⟩

/-- A conjunction of two one-bit arrays is 1 at an index exactly when both are. -/
theorem andi_apply_eq_one {s : Shape} (a b : IVec s 1) (i : s.Idx) : andi a b i = 1#1 ↔ a i = 1#1 ∧ b i = 1#1 :=
  IntOp.andi_eq_one

/-- An extended real whose absolute value is below +∞ is a real number. -/
theorem isReal_of_abs_lt_top (x : EReal)
    (h : Ideal.cmp .olt (max x (-x)) (Ideal.ofBits .f32 0x7F800000#32) = 1#1) : Cert.Spec.IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

theorem pre_decode
    (x0 : (⟨S4x10000x128, .f32⟩ : BufTy).Contents (Elt Ideal))
    (x1 : (⟨S2x320000, .i32⟩ : BufTy).Contents (Elt Ideal))
    (x2 : (⟨S320000x1, .f32⟩ : BufTy).Contents (Elt Ideal))
    (x3 : (⟨S128x128, .f32⟩ : BufTy).Contents (Elt Ideal))
    (x4 : (⟨S128, .f32⟩ : BufTy).Contents (Elt Ideal))
    (x5 : (⟨S128x64, .f32⟩ : BufTy).Contents (Elt Ideal))
    (x6 : (⟨S64, .f32⟩ : BufTy).Contents (Elt Ideal))
    (h : Cert.Pre_finite_inputs.fn (F := Ideal) x0 x1 x2 x3 x4 x5 x6 = fun _ => 1#1) :
    (∀ i, Cert.Spec.IsReal (x0 i)) ∧ InRange x1 ∧ (∀ i, Cert.Spec.IsReal (x2 i)) ∧ (∀ i, Cert.Spec.IsReal (x3 i))
      ∧ (∀ i, Cert.Spec.IsReal (x4 i)) ∧ (∀ i, Cert.Spec.IsReal (x5 i)) ∧ (∀ i, Cert.Spec.IsReal (x6 i)) := by
  have h0 := congrFun h ValueIdx.ix0
  dsimp only [Cert.Pre_finite_inputs.fn, Cert.Pre_finite_inputs.fn_part1, Cert.Pre_finite_inputs.fn_part2] at h0
  simp only [andi_apply_eq_one] at h0
  obtain ⟨⟨⟨⟨⟨⟨h0, h2⟩, h3⟩, h4⟩, h5⟩, h6⟩, h1⟩ := h0
  refine ⟨fun i => isReal_of_abs_lt_top _ (Host.reduce_andi_all _ _ _ _ _ h0 i), ?_,
    fun i => isReal_of_abs_lt_top _ (Host.reduce_andi_all _ _ _ _ _ h2 i),
    fun i => isReal_of_abs_lt_top _ (Host.reduce_andi_all _ _ _ _ _ h3 i),
    fun i => isReal_of_abs_lt_top _ (Host.reduce_andi_all _ _ _ _ _ h4 i),
    fun i => isReal_of_abs_lt_top _ (Host.reduce_andi_all _ _ _ _ _ h5 i),
    fun i => isReal_of_abs_lt_top _ (Host.reduce_andi_all _ _ _ _ _ h6 i)⟩
  intro i
  have hi := Host.reduce_andi_all _ _ _ _ _ h1 i
  rw [andi_apply_eq_one] at hi
  obtain ⟨ha, hb⟩ := hi
  have ha' : (0#32 : BitVec 32).toInt ≤ (x1 i).toInt := IntOp.cmpi_sge.1 ha
  have hb' : (x1 i).toInt < (10000#32 : BitVec 32).toInt := IntOp.cmpi_slt.1 hb
  rw [show (0#32 : BitVec 32).toInt = 0 from by decide] at ha'
  rw [show (10000#32 : BitVec 32).toInt = 10000 from by decide] at hb'
  exact ⟨ha', hb'⟩

end Cert.Edges

end
-- ==== Proof.LibGatherVector.lean ====
/-
  A host gather of single elements of a vector, read at one element: x[idx] for a vector of shape [N] and start
  indices of shape [E, 1] (one position per result element).  The result [E] holds at e the operand's element r,
  where r is the start index of e read as a signed integer and clamped into [0, N - 1] — the same row the gather of
  whole rows of a matrix reads (the companion file on rows, whose `row` this statement uses).
-/
import Idealize.ShloMosaic.PureOps.ShapeOps
import Idealize.ShloMosaic.Lib.ValueIdx
import proofs.«125395_j52793738002724_1_alg».proof.Proof.LibGatherRows

namespace Cert.GatherVector

open Idealize.ShloMosaic Idealize.ShloMosaic.ValueIdx

variable {α : Type} {N E w : Nat}

/-- The dimension numbers of x[idx] on a vector: its one axis collapsed and indexed, no axis carried over. -/
abbrev elemsDims (N E : Nat) (sb : List (Fin 2))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

theorem elemsDims_apply (hN : 0 < N) (sb : List (Fin 2))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (elemsDims N E sb wf) x idx (ix1 e) = x (ix1 (Cert.GatherRows.row hN idx e)) := by
  unfold Host.gather
  congr 1
  funext a
  refine Fin.ext ?_
  match a with
  | ⟨0, _⟩ =>
    show (elemsDims N E sb wf).start (ix1 e) idx 0 + (elemsDims N E sb wf).batchCoord (ix1 e) 0
      + (elemsDims N E sb wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (elemsDims N E sb wf).startIndexMap from List.mem_singleton.mpr rfl)]
    have hsi : (elemsDims N E sb wf).siIdx (ix1 e) ⟨List.idxOf (0 : Fin 1) (elemsDims N E sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- Elements of a vector gathered: result e is the operand at the row of e. -/
theorem gather_elems1 (hN : 0 < N) (d : GatherDims ⟨1, ![N]⟩ ⟨2, ![E, 1]⟩ ⟨1, ![E]⟩)
    (hod : d.offsetDims = []) (hcs : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 (Cert.GatherRows.row hN idx e)) := by
  obtain ⟨od, cs, ob, sb, sm, iv, ss, wf⟩ := d
  simp only at hod hcs hob hsm hiv hss
  subst hod hcs hob hsm hiv hss
  exact elemsDims_apply hN sb wf x idx e

end Cert.GatherVector
-- ==== Proof.Ref.Weights.lean ====
/-
  The normalised edge weights of the reference are real numbers.

  With deg n the sum of the weights of the edges whose destination is n, the reference computes
  dinv n = where(deg n > 0, rsqrt(where(deg n > 0, deg n, 1)), 0) and gives edge e the weight
  dinv (source e) · w e · dinv (destination e).  The argument of the reciprocal square root is positive whatever deg n is (it is
  deg n when that is positive and 1 otherwise), and on the extended reals the reciprocal square root of a positive value is a
  real number (of +∞ it is 0).  So dinv n is a real number for every n, without any hypothesis; each gather reads dinv at
  some node; the weights are real when the given edge weights are (the self loops weigh 1); products of reals are real.
-/
import proofs.«125395_j52793738002724_1_alg».proof.Proof.Gen.ReferenceIdeal.Read
import proofs.«125395_j52793738002724_1_alg».proof.Proof.Spec
import proofs.«125395_j52793738002724_1_alg».proof.Proof.LibGatherRows
import proofs.«125395_j52793738002724_1_alg».proof.Proof.LibGatherVector
import proofs.«125395_j52793738002724_1_alg».proof.Proof.Ref.Edges

noncomputable section

namespace Cert.Edges

open Cert.ReferenceIdeal Cert.ReferenceIdeal.Gen Cert.ReferenceIdeal.Read Idealize.ShloMosaic Idealize.ShloMosaic.ValueIdx
open Cert.Spec (IsReal)

/-- A product of two reals is a real. -/
theorem real_mul {a b : EReal} (ha : IsReal a) (hb : IsReal b) : IsReal (a * b) := by
  obtain ⟨r, rfl⟩ := ha; obtain ⟨s, rfl⟩ := hb; exact ⟨r * s, (EReal.coe_mul r s).symm⟩

theorem real_zero : IsReal (0 : EReal) := ⟨0, EReal.coe_zero.symm⟩

theorem real_one : IsReal (1 : EReal) := ⟨1, EReal.coe_one.symm⟩

/-- The f32 pattern of 1.0 denotes 1. -/
theorem ofBits_one_f32 : Ideal.ofBits .f32 0x3F800000#32 = 1 := by
  simp [Ideal.ofBits, Ideal.ieee]
  first
    | (norm_cast; norm_num; done)
    | (rw [← EReal.coe_mul, ← EReal.coe_one]; congr 1; norm_num; done)

/-- The comparison "greater than" is 1 exactly when the order says so. -/
theorem cmp_ogt_eq_one (x y : EReal) : Ideal.cmp .ogt x y = 1#1 ↔ y < x := by
  by_cases h : y < x <;> simp [Ideal.cmp, h]

/-- The reciprocal square root of a positive extended real is a real number. -/
theorem rsqrt_real_of_pos (x : EReal) (h : 0 < x) : IsReal (Ideal.rsqrt x) := by
  induction x using EReal.rec with
  | bot => simp at h
  | top => exact ⟨0, rfl⟩
  | coe r =>
    have hr : 0 < r := by exact_mod_cast h
    refine ⟨(Real.sqrt r)⁻¹, ?_⟩
    show (if r < 0 then (⊥ : EReal) else if r = 0 then ⊤ else (((Real.sqrt r)⁻¹ : ℝ) : EReal)) = _
    rw [if_neg (not_lt.2 hr.le), if_neg hr.ne']

/-- The weights — the given ones, then 1 for every self loop — are real when the given ones are. -/
theorem wts_real (x2 : (⟨S320000x1, .f32⟩ : BufTy).Contents (Elt Ideal)) (hx2 : ∀ i, IsReal (x2 i)) (e : Fin 330000) :
    IsReal (val_main_v9 (F := Ideal) x2 (ix1 e)) := by
  unfold val_main_v9
  by_cases he : e.val < 320000
  · rw [concat_left _ _ e he, val_main_v0_apply]
    exact hx2 _
  · have hlt := e.isLt
    rw [concat_right _ _ e (by omega), val_main_v8_apply, val_main_cst_apply]
    show IsReal (Ideal.ofBits .f32 0x3F800000#32)
    rw [ofBits_one_f32]
    exact real_one

/-- The argument of the reciprocal square root is positive: the degree where that is positive, 1 elsewhere. -/
theorem v17_pos (x1 : (⟨S2x320000, .i32⟩ : BufTy).Contents (Elt Ideal)) (x2 : (⟨S320000x1, .f32⟩ : BufTy).Contents (Elt Ideal))
    (i : S10000.Idx) : 0 < val_main_v17 (F := Ideal) x1 x2 i := by
  rw [val_main_v17_apply]
  unfold Scalar.select
  split
  · rename_i hc
    rw [val_main_v16_apply] at hc
    have hc' : Ideal.cmp .ogt (val_main_v12 (F := Ideal) x1 x2 i) (val_main_v15 (F := Ideal) i) = 1#1 := hc
    rw [cmp_ogt_eq_one, val_main_v15_apply, val_main_cst_2_apply] at hc'
    have hz : (FloatOps.ofBits (F := Ideal) .f32 0x00000000#32 : EReal) = 0 := Ideal.ofBits_zero_f32
    rw [hz] at hc'
    exact hc'
  · rw [val_main_call0_v1_apply, val_main_call0_v0_apply, val_main_cst_3_apply]
    show 0 < Ideal.ofBits .f32 0x3F800000#32
    rw [ofBits_one_f32]
    exact zero_lt_one

/-- The inverse square root of the degree, 0 where the degree is not positive, is a real number at every node. -/
theorem dinv_real (x1 : (⟨S2x320000, .i32⟩ : BufTy).Contents (Elt Ideal)) (x2 : (⟨S320000x1, .f32⟩ : BufTy).Contents (Elt Ideal))
    (i : S10000.Idx) : IsReal (val_main_v19 (F := Ideal) x1 x2 i) := by
  rw [val_main_v19_apply]
  unfold Scalar.select
  split
  · rw [val_main_v18_apply]
    have hp := v17_pos x1 x2 i
    generalize val_main_v17 (F := Ideal) x1 x2 i = y at hp ⊢
    exact rsqrt_real_of_pos y hp
  · rw [val_main_call1_v1_apply, val_main_call1_v0_apply, val_main_cst_4_apply]
    show IsReal (Ideal.ofBits .f32 0x00000000#32)
    rw [Ideal.ofBits_zero_f32]
    exact real_zero

/-- A gather of the inverse square roots reads one of them, whatever the start indices. -/
theorem gathered_real (x1 : (⟨S2x320000, .i32⟩ : BufTy).Contents (Elt Ideal)) (x2 : (⟨S320000x1, .f32⟩ : BufTy).Contents (Elt Ideal))
    (idx : IVec S330000x1 32) (e : Fin 330000) :
    IsReal (Host.gather gather_S10000_S330000x1_S330000_n_0_n_n_0_1_1 (val_main_v19 (F := Ideal) x1 x2) idx (ix1 e)) := by
  rw [Cert.GatherVector.gather_elems1 (N := 10000) (E := 330000) (by decide : 0 < 10000)
    gather_S10000_S330000x1_S330000_n_0_n_n_0_1_1 rfl rfl rfl rfl rfl rfl]
  exact dinv_real x1 x2 _

/-- The normalised weight of every edge is a real number. -/
theorem nrm_real (x1 : (⟨S2x320000, .i32⟩ : BufTy).Contents (Elt Ideal)) (x2 : (⟨S320000x1, .f32⟩ : BufTy).Contents (Elt Ideal))
    (hx2 : ∀ i, IsReal (x2 i)) (e : Fin 330000) :
    IsReal (val_main_v35 (F := Ideal) x1 x2 (ix1 e)) := by
  rw [val_main_v35_apply, val_main_v27_apply, Ideal.mulf_def, Ideal.mulf_def]
  refine real_mul (real_mul ?_ (wts_real x2 hx2 e)) ?_
  · unfold val_main_v26
    exact gathered_real x1 x2 _ e
  · unfold val_main_v34
    exact gathered_real x1 x2 _ e

end Cert.Edges

end
-- ==== Proof.Ref.Nodes.lean ====
/-
  The nodes the edge lists name, when every entry of the edge index is a node number.

  Each source and destination word then reads a number below 10000: the node.  The gather's row for the source column is
  that node (the wrap-around of negative indices keeps a nonnegative word and the clamp does nothing); the destination
  column reads the node as an integer; and the same words, wrapped against a larger extent, still read the node.  Last, the
  positions of a 10 × 1024 tiling: (block, offset) ↦ 1024 · block + offset is a bijection onto the 10240 positions.
-/
import proofs.«125395_j52793738002724_1_alg».proof.Proof.Ref.Edges
import proofs.«125395_j52793738002724_1_alg».proof.Proof.Ref.Layer
import proofs.«125395_j52793738002724_1_alg».proof.Proof.Idx
import proofs.«125395_j52793738002724_1_alg».proof.Proof.Spec

noncomputable section

namespace Cert.Edges

open Cert.ReferenceIdeal Cert.ReferenceIdeal.Gen Cert.ReferenceIdeal.Read Idealize.ShloMosaic Idealize.ShloMosaic.ValueIdx

/-- The node the source word of edge e reads. -/
def srcNode (x1 : (⟨S2x320000, .i32⟩ : BufTy).Contents (Elt Ideal)) (h : InRange x1) (e : Fin 330000) : Fin 10000 :=
  ⟨(val_main_v4 (F := Ideal) x1 (ix1 e)).toInt.toNat, by have := src_range x1 h e; omega⟩

/-- The node the destination word of edge e reads. -/
def dstNode (x1 : (⟨S2x320000, .i32⟩ : BufTy).Contents (Elt Ideal)) (h : InRange x1) (e : Fin 330000) : Fin 10000 :=
  ⟨(val_main_v7 (F := Ideal) x1 (ix1 e)).toInt.toNat, by have := dst_range x1 h e; omega⟩

/-- The source word reads its node. -/
theorem srcNode_val (x1 : (⟨S2x320000, .i32⟩ : BufTy).Contents (Elt Ideal)) (h : InRange x1) (e : Fin 330000) :
    ((srcNode x1 h e).val : ℤ) = (val_main_v4 (F := Ideal) x1 (ix1 e)).toInt :=
  Int.toNat_of_nonneg (src_range x1 h e).1

/-- The destination word reads its node. -/
theorem dstNode_val (x1 : (⟨S2x320000, .i32⟩ : BufTy).Contents (Elt Ideal)) (h : InRange x1) (e : Fin 330000) :
    ((dstNode x1 h e).val : ℤ) = (val_main_v7 (F := Ideal) x1 (ix1 e)).toInt :=
  Int.toNat_of_nonneg (dst_range x1 h e).1

/-- The row the gather reads for edge e is the edge's source node. -/
theorem srcRow_eq (x1 : (⟨S2x320000, .i32⟩ : BufTy).Contents (Elt Ideal)) (h : InRange x1) (e : Fin 330000) :
    Cert.RefValue.srcRow x1 e = srcNode x1 h e := by
  refine row_of_range (E := 330000) (val_main_v42 (F := Ideal) x1) e (srcNode x1 h e) ?_
  rw [Cert.RefValue.v42_apply, norm32_of_nonneg _ _ (src_range x1 h e).1]
  exact (srcNode_val x1 h e).symm

/-- The destination column reads the edge's destination node. -/
theorem dstI_eq (x1 : (⟨S2x320000, .i32⟩ : BufTy).Contents (Elt Ideal)) (h : InRange x1) (e : Fin 330000) :
    Cert.RefValue.dstI x1 e = ((dstNode x1 h e).val : ℤ) := by
  show (val_main_v48 (F := Ideal) x1 (ix2 e 0)).toInt = _
  rw [Cert.RefValue.v48_apply]
  exact (dstNode_val x1 h e).symm

/-- The destination word wrapped against the extent 10240 reads the destination node. -/
theorem rowI_eq (x1 : (⟨S2x320000, .i32⟩ : BufTy).Contents (Elt Ideal)) (h : InRange x1) (e : Fin 330000) :
    (Cert.Spec.norm32 10240#32 (val_main_v7 (F := Ideal) x1 (ix1 e))).toInt = ((dstNode x1 h e).val : ℤ) := by
  rw [norm32_of_nonneg _ _ (dst_range x1 h e).1]
  exact (dstNode_val x1 h e).symm

/-- The source word wrapped against the extent 10240 reads the source node. -/
theorem colI_eq (x1 : (⟨S2x320000, .i32⟩ : BufTy).Contents (Elt Ideal)) (h : InRange x1) (e : Fin 330000) :
    (Cert.Spec.norm32 10240#32 (val_main_v4 (F := Ideal) x1 (ix1 e))).toInt = ((srcNode x1 h e).val : ℤ) := by
  rw [norm32_of_nonneg _ _ (src_range x1 h e).1]
  exact (srcNode_val x1 h e).symm

/-- Block and offset determine the position and every position has them: quotient and remainder by 1024. -/
theorem pos_bijective :
    Function.Bijective (fun p : Fin 10 × Fin 1024 =>
      (⟨p.1.val * 1024 + p.2.val, by have := p.1.isLt; have := p.2.isLt; omega⟩ : Fin 10240)) := by
  constructor
  · rintro ⟨a, b⟩ ⟨c, d⟩ hpq
    have hv : a.val * 1024 + b.val = c.val * 1024 + d.val := congrArg Fin.val hpq
    have hb := b.isLt
    have hd := d.isLt
    exact Prod.ext (Fin.ext (by show a.val = c.val; omega)) (Fin.ext (by show b.val = d.val; omega))
  · intro n
    have hn := n.isLt
    refine ⟨(⟨n.val / 1024, by omega⟩, ⟨n.val % 1024, Nat.mod_lt _ (by decide)⟩), Fin.ext ?_⟩
    show n.val / 1024 * 1024 + n.val % 1024 = n.val
    omega

end Cert.Edges

end
-- ==== Proof.Bridge.lean ====
/-
  The two programs' results agree under the precondition.

  What the kernel program leaves in its result array is, given what its four regions compute, a closed formula over a dense
  adjacency array; what the reference computes is a closed formula over the edge lists.  This file joins them: the precondition
  makes every float entry real and every index entry a node number; then each edge's index words read the same two nodes in
  both programs, the normalised edge weights are real, and the dense-adjacency formula equals the edge-list formula.
-/
import proofs.«125395_j52793738002724_1_alg».proof.Proof.Gen.KernelIdeal.Regions
import proofs.«125395_j52793738002724_1_alg».proof.Proof.Gen.Pre_finite_inputs
import proofs.«125395_j52793738002724_1_alg».proof.Proof.Spec
import proofs.«125395_j52793738002724_1_alg».proof.Proof.Idx
import proofs.«125395_j52793738002724_1_alg».proof.Proof.Math.Adjacency
import proofs.«125395_j52793738002724_1_alg».proof.Proof.KI.HostPre
import proofs.«125395_j52793738002724_1_alg».proof.Proof.KI.HostPost
import proofs.«125395_j52793738002724_1_alg».proof.Proof.Ref.Value
import proofs.«125395_j52793738002724_1_alg».proof.Proof.Ref.Pre
import proofs.«125395_j52793738002724_1_alg».proof.Proof.Ref.Weights
import proofs.«125395_j52793738002724_1_alg».proof.Proof.Ref.Nodes
import Idealize.ShloMosaic.Lib.ValueIdx

noncomputable section

namespace Cert.Bridge

open Cert.KernelIdeal Cert.KernelIdeal.Gen Cert.KernelIdeal.Hand Idealize.ShloMosaic Idealize.ShloMosaic.TcCoe
open Idealize.ShloMosaic.ValueIdx
open scoped BigOperators

variable (m : (ℓ : Loc nD τ sig) → Buf (Elt Ideal) ℓ) (outs : Outs (F := Ideal)) (c : Dev nD)

/-- Product on the extended reals with the type written out (a buffer read at an index has the extended reals as its type
    only after the buffer's declared type is computed). -/
local notation:70 a:70 " *ₑ " b:71 => @HMul.hMul EReal EReal EReal instHMul a b

/-- The two programs' results agree at (b, j).  The kernel program's result is the quotient by the node count of its
    dense-adjacency formula; the reference's is the quotient by the same constant of its gather-and-segment-sum formula.  Under
    the precondition every float entry is real and every index entry is a node number, so each edge's index words read its
    two nodes on both sides, the normalised weights are real, and the two formulas are equal. -/
theorem result_eq
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1)
    (h8 : ∀ (r : Fin 40960) (j : Fin 128), (outs 8 main_v57 c : S40960x128.Idx → EReal) (ix2 r j)
        = ∑ k : Fin 128, (V7 m c main_v54 : S40960x128.Idx → EReal) (ix2 r k) *ₑ (V7 m c main_v55 : S128x128.Idx → EReal) (ix2 k j))
    (h10 : ∀ (n : Fin 10240) (j : Fin 512), (outs 10 main_v62 c : S10240x512.Idx → EReal) (ix2 n j)
        = ∑ kb : Fin 10, ∑ q : Fin 1024, (V9 m outs c main_v51 : S10240x10240.Idx → EReal) (ix2 n (pos kb q)) *ₑ (V9 m outs c main_v61 : S10240x512.Idx → EReal) (ix2 (pos kb q) j))
    (h14 : ∀ (r : Fin 40960) (j : Fin 64), (outs 14 main_v71 c : S40960x64.Idx → EReal) (ix2 r j)
        = ∑ k : Fin 128, (V13 m outs c main_v70 : S40960x128.Idx → EReal) (ix2 r k) *ₑ (V13 m outs c main_v56 : S128x64.Idx → EReal) (ix2 k j))
    (h16 : ∀ (n : Fin 10240) (j : Fin 256), (outs 16 main_v76 c : S10240x256.Idx → EReal) (ix2 n j)
        = ∑ kb : Fin 10, ∑ q : Fin 1024, (V15 m outs c main_v51 : S10240x10240.Idx → EReal) (ix2 n (pos kb q)) *ₑ (V15 m outs c main_v75 : S10240x256.Idx → EReal) (ix2 (pos kb q) j))
    (b : Fin 4) (j : Fin 64) :
    (V17 m outs c main_v85 : S4x64.Idx → EReal) (ix2 b j)
      = Cert.ReferenceIdeal.Read.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 b j) := by
  obtain ⟨hx0, hr1, hx2, hx3, hx4, hx5, hx6⟩ := Cert.Edges.pre_decode _ _ _ _ _ _ _ hpre
  refine (ker_value m outs c _ (v51_apply m c) (fun b mm kk => X0 m c (ix3 b mm kk)) (v54_apply m c)
    _ (v55_apply m c) _ (v56_apply m c) h8 h10 h14 h16 b j).trans ?_
  refine Eq.trans ?_ (Cert.RefValue.ref_value _ _ _ _ _ _ _ b j).symm
  have hden : Cert.ReferenceIdeal.Read.val_main_v74 (F := Ideal) (ix2 b j) = Ideal.ofBits .f32 0x461C4000#32 := by
    rw [Cert.ReferenceIdeal.Read.val_main_v74_apply, Cert.ReferenceIdeal.Read.val_main_cst_15_apply]
    rfl
  rw [hden]
  refine congrArg (fun s : EReal => Ideal.div s (Ideal.ofBits .f32 0x461C4000#32)) ?_
  exact Cert.Spec.numK_eq_numR (by decide) pos Cert.Edges.pos_bijective
    (Cert.Edges.srcNode _ hr1) (Cert.Edges.dstNode _ hr1)
    _ (Cert.Edges.srcRow_eq _ hr1) _ (Cert.Edges.dstI_eq _ hr1)
    _ _ (Cert.Edges.rowI_eq _ hr1) (Cert.Edges.colI_eq _ hr1)
    _ (Cert.Edges.nrm_real _ _ hx2)
    _ (fun mm kk => hx0 _) _ (fun k h => hx3 _) _ (fun h => hx4 _) _ (fun h cc => hx5 _) _ (fun cc => hx6 _) j

end Cert.Bridge

end
-- ==== Proof.lean ====
/-
  The certificate of a two-layer graph convolution with mean pooling.

  Both programs first compute, by the same host operations, the edge lists with self loops (source s e, destination
  d e, for E = 330000 edges over N = 10000 nodes) and the normalised edge weights u e (degree by a segment sum,
  inverse square root under a guard, two gathers). The reference then, per layer, projects the node features, gathers
  the projected row of each edge's source, scales it by u e and segment-sums over the edges by destination. The
  kernel instead scatters the weights into a dense P × P adjacency (P = 10240), A n m = the sum of u e over the edges
  with (d e, s e) = (n, m), pads the features with zero rows up to P, and computes each layer's aggregation as the
  matrix product A · (X W), accumulated over ten column blocks in a scratch accumulator; max(·, 0) between the
  layers; both take the mean over the N nodes.

  With every index of the edge list in [0, N) — the precondition's integer conjunct — and every float input finite,
  the two agree on the extended reals: all quantities are real, so a sum of weights times a feature is the sum of the
  products, and regrouping the edges by source column turns the adjacency row times the features into the sum over the
  edges into that row; adjacency columns ≥ N are zero, so the padding rows never contribute.

  The frames: each program is a chain of host stretches and four kernel regions; every region is run by the pipeline
  over its proof datum (the body's triple at every grid point), and the chain's valuations are folded from the launch
  memory, which no host operation or region changes at an argument. The reference has no kernel: its frame is its run.
-/
import proofs.«125395_j52793738002724_1_alg».proof.Defs
import proofs.«125395_j52793738002724_1_alg».proof.Proof.Gen.Kernel
import proofs.«125395_j52793738002724_1_alg».proof.Proof.Gen.KernelIdeal
import proofs.«125395_j52793738002724_1_alg».proof.Proof.Gen.ReferenceIdeal
import proofs.«125395_j52793738002724_1_alg».proof.Proof.Gen.Pre_finite_inputs
import proofs.«125395_j52793738002724_1_alg».proof.Proof.Gen.ReferenceIdeal.Run
import proofs.«125395_j52793738002724_1_alg».proof.Proof.Gen.ReferenceIdeal.Read
import proofs.«125395_j52793738002724_1_alg».proof.Proof.K.Kernels
import proofs.«125395_j52793738002724_1_alg».proof.Proof.KI.Kernels
import proofs.«125395_j52793738002724_1_alg».proof.Proof.KI.ValA
import proofs.«125395_j52793738002724_1_alg».proof.Proof.KI.ValR1
import proofs.«125395_j52793738002724_1_alg».proof.Proof.KI.ValR3
import proofs.«125395_j52793738002724_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_k : Cert.frame_Kernel := fun m ρ _ =>
  (θ_run Cert.Kernel.defs _ _).mono (fun _ h c => (h c).2) (Cert.Kernel.Hand.run_named Cert.Kernel.Hand.kernels m ρ)

theorem frame_ki : Cert.frame_KernelIdeal := fun m ρ _ =>
  (θ_run Cert.KernelIdeal.defs _ _).mono (fun _ h c => (h c).2) (Cert.KernelIdeal.Hand.run_named Cert.KernelIdeal.Hand.kernels m ρ)

theorem frame_ri : Cert.frame_ReferenceIdeal := fun m ρ _ =>
  (θ_run Cert.ReferenceIdeal.defs _ _).mono (fun _ h c => (h c).2) (Cert.ReferenceIdeal.Value.run (F := Ideal) m ρ)

/-! ## The value claim -/

section Value

open Cert.KernelIdeal Cert.KernelIdeal.Gen Cert.KernelIdeal.Hand

variable (m : (ℓ : Loc nD τ sig) → Buf (Elt Ideal) ℓ) (c : Dev nD)

local notation "KD" => (kernels (F := Ideal))
local notation "OUTS" => outsF KD m

/-- What region 0 leaves: the plain product of its two input arrays, entry by entry. -/
theorem h8 (r : Fin 40960) (j : Fin 128) :
    (OUTS 8 main_v57 c : S40960x128.Idx → EReal) (ix2 r j)
      = ∑ k : Fin 128, @HMul.hMul EReal EReal EReal instHMul ((V7 m c main_v54 : S40960x128.Idx → EReal) (ix2 r k)) ((V7 m c main_v55 : S128x128.Idx → EReal) (ix2 k j)) := by
  rw [outs_8]
  exact value0 (V7a' m) c r j

/-- What region 1 leaves: the product of the adjacency and the projected features, summed block by block. -/
theorem h10 (n : Fin 10240) (j : Fin 512) :
    (OUTS 10 main_v62 c : S10240x512.Idx → EReal) (ix2 n j)
      = ∑ kb : Fin 10, ∑ q : Fin 1024, @HMul.hMul EReal EReal EReal instHMul ((V9 m OUTS c main_v51 : S10240x10240.Idx → EReal) (ix2 n (pos kb q))) ((V9 m OUTS c main_v61 : S10240x512.Idx → EReal) (ix2 (pos kb q) j)) := by
  rw [outs_10, V9_eq]
  exact value1 (V9a' KD m) c n j

/-- What region 2 leaves. -/
theorem h14 (r : Fin 40960) (j : Fin 64) :
    (OUTS 14 main_v71 c : S40960x64.Idx → EReal) (ix2 r j)
      = ∑ k : Fin 128, @HMul.hMul EReal EReal EReal instHMul ((V13 m OUTS c main_v70 : S40960x128.Idx → EReal) (ix2 r k)) ((V13 m OUTS c main_v56 : S128x64.Idx → EReal) (ix2 k j)) := by
  rw [outs_14, V13_eq]
  exact value2 (V13a' KD m) c r j

/-- What region 3 leaves. -/
theorem h16 (n : Fin 10240) (j : Fin 256) :
    (OUTS 16 main_v76 c : S10240x256.Idx → EReal) (ix2 n j)
      = ∑ kb : Fin 10, ∑ q : Fin 1024, @HMul.hMul EReal EReal EReal instHMul ((V15 m OUTS c main_v51 : S10240x10240.Idx → EReal) (ix2 n (pos kb q))) ((V15 m OUTS c main_v75 : S10240x256.Idx → EReal) (ix2 (pos kb q) j)) := by
  rw [outs_16, V15_eq]
  exact value3 (V15a' KD m) c n j

end Value

/-- From memories agreeing on the arguments, under the precondition, the kernel's result buffer — the last valuation of
    its chain — and the reference's result term are equal entry by entry. -/
theorem algebraic : Cert.algebraic_KernelIdeal_ReferenceIdeal := by
  intro m ρ m' ρ' hpre hagree
  refine ⟨fun c => Cert.KernelIdeal.Gen.V17 m (Cert.KernelIdeal.Hand.outsF Cert.KernelIdeal.Hand.kernels m) c (Proc.devRef .tc Cert.KernelIdeal.main_v85),
    Cert.KernelIdeal.Hand.run_named Cert.KernelIdeal.Hand.kernels m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2.1, (hagree c).2.2.2.2.2.2]
  funext i
  obtain ⟨b, j, rfl⟩ : ∃ (b : Fin 4) (j : Fin 64), i = ix2 b j := ⟨i 0, i 1, eq_ix2 i⟩
  exact (Cert.Bridge.result_eq m (Cert.KernelIdeal.Hand.outsF Cert.KernelIdeal.Hand.kernels m) c (hpre c)
    (h8 m c) (h10 m c) (h14 m c) (h16 m c) b j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
